-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 512]⟩ ⟨2, ![8192, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S512x512 : Shape := ⟨2, ![512, 512]⟩
abbrev S32x512 : Shape := ⟨2, ![32, 512]⟩
abbrev S16 : Shape := ⟨1, ![16]⟩
abbrev S_ : Shape := ⟨0, ![]⟩
abbrev S1 : Shape := ⟨1, ![1]⟩

abbrev nBuf : Space → Nat
  | .hbm => 2
  | .vmem => 5
  | .smem => 0
  | _ => 0

abbrev bufTy : (tb : Table) → Fin (tcTables nBuf tb) → BufTy
  | .hbm, ⟨0, _⟩ => ⟨S512x512, .f32⟩
  | .hbm, ⟨1, _⟩ => ⟨S512x512, .bf16⟩
  | .local _ .vmem, ⟨0, _⟩ => ⟨S512x512, .f32⟩
  | .local _ .vmem, ⟨1, _⟩ => ⟨S512x512, .bf16⟩
  | .local _ .vmem, ⟨2, _⟩ => ⟨S512x512, .bf16⟩
  | .local _ .vmem, ⟨3, _⟩ => ⟨S32x512, .bf16⟩
  | .local _ .vmem, ⟨4, _⟩ => ⟨S512x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  { ofTc nBuf bufTy 1 66 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_off1 (d0 : Dev nD) (c1_i32_139 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  ![v215.toNat]
def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_146 : BitVec 32 := 32#32
  let v217 : BitVec 32 := Scalar.muli v2 c32_i32_146
  let c0_i32_149 : BitVec 32 := 0#32
  ![v217.toNat, 0]
def k0_off4 (d0 : Dev nD) (c1_i32_139 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c32_i32 : BitVec 32 := 32#32
  let v216 : BitVec 32 := Scalar.muli v215 c32_i32
  let c0_i32_150 : BitVec 32 := 0#32
  ![v216.toNat, 0]
def k0_dev16 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_139 : BitVec 32 := 1#32
  let v205 : BitVec 32 := Scalar.addi v2 c1_i32_139
  let c16_i32_140 : BitVec 32 := 16#32
  let c0_i32_141 : BitVec 32 := 0#32
  let v206 : BitVec 1 := Scalar.cmpi .eq c16_i32_140 c0_i32_141
  let c1_i32_142 : BitVec 32 := 1#32
  let v207 : BitVec 32 := Scalar.select v206 c1_i32_142 c16_i32_140
  let v208 : BitVec 32 := Scalar.remsi v205 v207
  let c0_i32_144 : BitVec 32 := 0#32
  let v210 : BitVec 1 := Scalar.cmpi .slt v208 c0_i32_144
  let c0_i32_145 : BitVec 32 := 0#32
  let v211 : BitVec 1 := Scalar.cmpi .slt v207 c0_i32_145
  let v212 : BitVec 1 := Scalar.xori v210 v211
  let c0_i32_143 : BitVec 32 := 0#32
  let v209 : BitVec 1 := Scalar.cmpi .ne v208 c0_i32_143
  let v213 : BitVec 1 := Scalar.andi v212 v209
  let v214 : BitVec 32 := Scalar.addi v208 v207
  let v215 : BitVec 32 := Scalar.select v213 v214 v208
  let c1_i32_147 : BitVec 32 := 1#32
  let v218 : BitVec 32 := Scalar.muli v215 c1_i32_147
  let v219 : BitVec 32 := Scalar.addi c0_i32_148 v218
  v219.toNat
def k0_dev17 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_151 : BitVec 32 := 2#32
  let v226 : BitVec 32 := Scalar.addi v2 c2_i32_151
  let c16_i32_152 : BitVec 32 := 16#32
  let c0_i32_153 : BitVec 32 := 0#32
  let v227 : BitVec 1 := Scalar.cmpi .eq c16_i32_152 c0_i32_153
  let c1_i32_154 : BitVec 32 := 1#32
  let v228 : BitVec 32 := Scalar.select v227 c1_i32_154 c16_i32_152
  let v229 : BitVec 32 := Scalar.remsi v226 v228
  let c0_i32_156 : BitVec 32 := 0#32
  let v231 : BitVec 1 := Scalar.cmpi .slt v229 c0_i32_156
  let c0_i32_157 : BitVec 32 := 0#32
  let v232 : BitVec 1 := Scalar.cmpi .slt v228 c0_i32_157
  let v233 : BitVec 1 := Scalar.xori v231 v232
  let c0_i32_155 : BitVec 32 := 0#32
  let v230 : BitVec 1 := Scalar.cmpi .ne v229 c0_i32_155
  let v234 : BitVec 1 := Scalar.andi v233 v230
  let v235 : BitVec 32 := Scalar.addi v229 v228
  let v236 : BitVec 32 := Scalar.select v234 v235 v229
  let c1_i32_160 : BitVec 32 := 1#32
  let v239 : BitVec 32 := Scalar.muli v236 c1_i32_160
  let v240 : BitVec 32 := Scalar.addi c0_i32_161 v239
  v240.toNat
def k0_dev18 (d0 : Dev nD) : Nat :=
  let c0_i32_174 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_164 : BitVec 32 := 3#32
  let v247 : BitVec 32 := Scalar.addi v2 c3_i32_164
  let c16_i32_165 : BitVec 32 := 16#32
  let c0_i32_166 : BitVec 32 := 0#32
  let v248 : BitVec 1 := Scalar.cmpi .eq c16_i32_165 c0_i32_166
  let c1_i32_167 : BitVec 32 := 1#32
  let v249 : BitVec 32 := Scalar.select v248 c1_i32_167 c16_i32_165
  let v250 : BitVec 32 := Scalar.remsi v247 v249
  let c0_i32_169 : BitVec 32 := 0#32
  let v252 : BitVec 1 := Scalar.cmpi .slt v250 c0_i32_169
  let c0_i32_170 : BitVec 32 := 0#32
  let v253 : BitVec 1 := Scalar.cmpi .slt v249 c0_i32_170
  let v254 : BitVec 1 := Scalar.xori v252 v253
  let c0_i32_168 : BitVec 32 := 0#32
  let v251 : BitVec 1 := Scalar.cmpi .ne v250 c0_i32_168
  let v255 : BitVec 1 := Scalar.andi v254 v251
  let v256 : BitVec 32 := Scalar.addi v250 v249
  let v257 : BitVec 32 := Scalar.select v255 v256 v250
  let c1_i32_173 : BitVec 32 := 1#32
  let v260 : BitVec 32 := Scalar.muli v257 c1_i32_173
  let v261 : BitVec 32 := Scalar.addi c0_i32_174 v260
  v261.toNat
def k0_dev19 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_177 : BitVec 32 := 4#32
  let v268 : BitVec 32 := Scalar.addi v2 c4_i32_177
  let c16_i32_178 : BitVec 32 := 16#32
  let c0_i32_179 : BitVec 32 := 0#32
  let v269 : BitVec 1 := Scalar.cmpi .eq c16_i32_178 c0_i32_179
  let c1_i32_180 : BitVec 32 := 1#32
  let v270 : BitVec 32 := Scalar.select v269 c1_i32_180 c16_i32_178
  let v271 : BitVec 32 := Scalar.remsi v268 v270
  let c0_i32_182 : BitVec 32 := 0#32
  let v273 : BitVec 1 := Scalar.cmpi .slt v271 c0_i32_182
  let c0_i32_183 : BitVec 32 := 0#32
  let v274 : BitVec 1 := Scalar.cmpi .slt v270 c0_i32_183
  let v275 : BitVec 1 := Scalar.xori v273 v274
  let c0_i32_181 : BitVec 32 := 0#32
  let v272 : BitVec 1 := Scalar.cmpi .ne v271 c0_i32_181
  let v276 : BitVec 1 := Scalar.andi v275 v272
  let v277 : BitVec 32 := Scalar.addi v271 v270
  let v278 : BitVec 32 := Scalar.select v276 v277 v271
  let c1_i32_186 : BitVec 32 := 1#32
  let v281 : BitVec 32 := Scalar.muli v278 c1_i32_186
  let v282 : BitVec 32 := Scalar.addi c0_i32_187 v281
  v282.toNat
def k0_dev20 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_190 : BitVec 32 := 5#32
  let v289 : BitVec 32 := Scalar.addi v2 c5_i32_190
  let c16_i32_191 : BitVec 32 := 16#32
  let c0_i32_192 : BitVec 32 := 0#32
  let v290 : BitVec 1 := Scalar.cmpi .eq c16_i32_191 c0_i32_192
  let c1_i32_193 : BitVec 32 := 1#32
  let v291 : BitVec 32 := Scalar.select v290 c1_i32_193 c16_i32_191
  let v292 : BitVec 32 := Scalar.remsi v289 v291
  let c0_i32_195 : BitVec 32 := 0#32
  let v294 : BitVec 1 := Scalar.cmpi .slt v292 c0_i32_195
  let c0_i32_196 : BitVec 32 := 0#32
  let v295 : BitVec 1 := Scalar.cmpi .slt v291 c0_i32_196
  let v296 : BitVec 1 := Scalar.xori v294 v295
  let c0_i32_194 : BitVec 32 := 0#32
  let v293 : BitVec 1 := Scalar.cmpi .ne v292 c0_i32_194
  let v297 : BitVec 1 := Scalar.andi v296 v293
  let v298 : BitVec 32 := Scalar.addi v292 v291
  let v299 : BitVec 32 := Scalar.select v297 v298 v292
  let c1_i32_199 : BitVec 32 := 1#32
  let v302 : BitVec 32 := Scalar.muli v299 c1_i32_199
  let v303 : BitVec 32 := Scalar.addi c0_i32_200 v302
  v303.toNat
def k0_dev21 (d0 : Dev nD) : Nat :=
  let c0_i32_213 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_203 : BitVec 32 := 6#32
  let v310 : BitVec 32 := Scalar.addi v2 c6_i32_203
  let c16_i32_204 : BitVec 32 := 16#32
  let c0_i32_205 : BitVec 32 := 0#32
  let v311 : BitVec 1 := Scalar.cmpi .eq c16_i32_204 c0_i32_205
  let c1_i32_206 : BitVec 32 := 1#32
  let v312 : BitVec 32 := Scalar.select v311 c1_i32_206 c16_i32_204
  let v313 : BitVec 32 := Scalar.remsi v310 v312
  let c0_i32_208 : BitVec 32 := 0#32
  let v315 : BitVec 1 := Scalar.cmpi .slt v313 c0_i32_208
  let c0_i32_209 : BitVec 32 := 0#32
  let v316 : BitVec 1 := Scalar.cmpi .slt v312 c0_i32_209
  let v317 : BitVec 1 := Scalar.xori v315 v316
  let c0_i32_207 : BitVec 32 := 0#32
  let v314 : BitVec 1 := Scalar.cmpi .ne v313 c0_i32_207
  let v318 : BitVec 1 := Scalar.andi v317 v314
  let v319 : BitVec 32 := Scalar.addi v313 v312
  let v320 : BitVec 32 := Scalar.select v318 v319 v313
  let c1_i32_212 : BitVec 32 := 1#32
  let v323 : BitVec 32 := Scalar.muli v320 c1_i32_212
  let v324 : BitVec 32 := Scalar.addi c0_i32_213 v323
  v324.toNat
def k0_dev22 (d0 : Dev nD) : Nat :=
  let c0_i32_226 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_216 : BitVec 32 := 7#32
  let v331 : BitVec 32 := Scalar.addi v2 c7_i32_216
  let c16_i32_217 : BitVec 32 := 16#32
  let c0_i32_218 : BitVec 32 := 0#32
  let v332 : BitVec 1 := Scalar.cmpi .eq c16_i32_217 c0_i32_218
  let c1_i32_219 : BitVec 32 := 1#32
  let v333 : BitVec 32 := Scalar.select v332 c1_i32_219 c16_i32_217
  let v334 : BitVec 32 := Scalar.remsi v331 v333
  let c0_i32_221 : BitVec 32 := 0#32
  let v336 : BitVec 1 := Scalar.cmpi .slt v334 c0_i32_221
  let c0_i32_222 : BitVec 32 := 0#32
  let v337 : BitVec 1 := Scalar.cmpi .slt v333 c0_i32_222
  let v338 : BitVec 1 := Scalar.xori v336 v337
  let c0_i32_220 : BitVec 32 := 0#32
  let v335 : BitVec 1 := Scalar.cmpi .ne v334 c0_i32_220
  let v339 : BitVec 1 := Scalar.andi v338 v335
  let v340 : BitVec 32 := Scalar.addi v334 v333
  let v341 : BitVec 32 := Scalar.select v339 v340 v334
  let c1_i32_225 : BitVec 32 := 1#32
  let v344 : BitVec 32 := Scalar.muli v341 c1_i32_225
  let v345 : BitVec 32 := Scalar.addi c0_i32_226 v344
  v345.toNat
def k0_dev23 (d0 : Dev nD) : Nat :=
  let c0_i32_239 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_229 : BitVec 32 := 8#32
  let v352 : BitVec 32 := Scalar.addi v2 c8_i32_229
  let c16_i32_230 : BitVec 32 := 16#32
  let c0_i32_231 : BitVec 32 := 0#32
  let v353 : BitVec 1 := Scalar.cmpi .eq c16_i32_230 c0_i32_231
  let c1_i32_232 : BitVec 32 := 1#32
  let v354 : BitVec 32 := Scalar.select v353 c1_i32_232 c16_i32_230
  let v355 : BitVec 32 := Scalar.remsi v352 v354
  let c0_i32_234 : BitVec 32 := 0#32
  let v357 : BitVec 1 := Scalar.cmpi .slt v355 c0_i32_234
  let c0_i32_235 : BitVec 32 := 0#32
  let v358 : BitVec 1 := Scalar.cmpi .slt v354 c0_i32_235
  let v359 : BitVec 1 := Scalar.xori v357 v358
  let c0_i32_233 : BitVec 32 := 0#32
  let v356 : BitVec 1 := Scalar.cmpi .ne v355 c0_i32_233
  let v360 : BitVec 1 := Scalar.andi v359 v356
  let v361 : BitVec 32 := Scalar.addi v355 v354
  let v362 : BitVec 32 := Scalar.select v360 v361 v355
  let c1_i32_238 : BitVec 32 := 1#32
  let v365 : BitVec 32 := Scalar.muli v362 c1_i32_238
  let v366 : BitVec 32 := Scalar.addi c0_i32_239 v365
  v366.toNat
def k0_dev24 (d0 : Dev nD) : Nat :=
  let c0_i32_252 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_242 : BitVec 32 := 9#32
  let v373 : BitVec 32 := Scalar.addi v2 c9_i32_242
  let c16_i32_243 : BitVec 32 := 16#32
  let c0_i32_244 : BitVec 32 := 0#32
  let v374 : BitVec 1 := Scalar.cmpi .eq c16_i32_243 c0_i32_244
  let c1_i32_245 : BitVec 32 := 1#32
  let v375 : BitVec 32 := Scalar.select v374 c1_i32_245 c16_i32_243
  let v376 : BitVec 32 := Scalar.remsi v373 v375
  let c0_i32_247 : BitVec 32 := 0#32
  let v378 : BitVec 1 := Scalar.cmpi .slt v376 c0_i32_247
  let c0_i32_248 : BitVec 32 := 0#32
  let v379 : BitVec 1 := Scalar.cmpi .slt v375 c0_i32_248
  let v380 : BitVec 1 := Scalar.xori v378 v379
  let c0_i32_246 : BitVec 32 := 0#32
  let v377 : BitVec 1 := Scalar.cmpi .ne v376 c0_i32_246
  let v381 : BitVec 1 := Scalar.andi v380 v377
  let v382 : BitVec 32 := Scalar.addi v376 v375
  let v383 : BitVec 32 := Scalar.select v381 v382 v376
  let c1_i32_251 : BitVec 32 := 1#32
  let v386 : BitVec 32 := Scalar.muli v383 c1_i32_251
  let v387 : BitVec 32 := Scalar.addi c0_i32_252 v386
  v387.toNat
def k0_dev25 (d0 : Dev nD) : Nat :=
  let c0_i32_265 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_255 : BitVec 32 := 10#32
  let v394 : BitVec 32 := Scalar.addi v2 c10_i32_255
  let c16_i32_256 : BitVec 32 := 16#32
  let c0_i32_257 : BitVec 32 := 0#32
  let v395 : BitVec 1 := Scalar.cmpi .eq c16_i32_256 c0_i32_257
  let c1_i32_258 : BitVec 32 := 1#32
  let v396 : BitVec 32 := Scalar.select v395 c1_i32_258 c16_i32_256
  let v397 : BitVec 32 := Scalar.remsi v394 v396
  let c0_i32_260 : BitVec 32 := 0#32
  let v399 : BitVec 1 := Scalar.cmpi .slt v397 c0_i32_260
  let c0_i32_261 : BitVec 32 := 0#32
  let v400 : BitVec 1 := Scalar.cmpi .slt v396 c0_i32_261
  let v401 : BitVec 1 := Scalar.xori v399 v400
  let c0_i32_259 : BitVec 32 := 0#32
  let v398 : BitVec 1 := Scalar.cmpi .ne v397 c0_i32_259
  let v402 : BitVec 1 := Scalar.andi v401 v398
  let v403 : BitVec 32 := Scalar.addi v397 v396
  let v404 : BitVec 32 := Scalar.select v402 v403 v397
  let c1_i32_264 : BitVec 32 := 1#32
  let v407 : BitVec 32 := Scalar.muli v404 c1_i32_264
  let v408 : BitVec 32 := Scalar.addi c0_i32_265 v407
  v408.toNat
def k0_dev26 (d0 : Dev nD) : Nat :=
  let c0_i32_278 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_268 : BitVec 32 := 11#32
  let v415 : BitVec 32 := Scalar.addi v2 c11_i32_268
  let c16_i32_269 : BitVec 32 := 16#32
  let c0_i32_270 : BitVec 32 := 0#32
  let v416 : BitVec 1 := Scalar.cmpi .eq c16_i32_269 c0_i32_270
  let c1_i32_271 : BitVec 32 := 1#32
  let v417 : BitVec 32 := Scalar.select v416 c1_i32_271 c16_i32_269
  let v418 : BitVec 32 := Scalar.remsi v415 v417
  let c0_i32_273 : BitVec 32 := 0#32
  let v420 : BitVec 1 := Scalar.cmpi .slt v418 c0_i32_273
  let c0_i32_274 : BitVec 32 := 0#32
  let v421 : BitVec 1 := Scalar.cmpi .slt v417 c0_i32_274
  let v422 : BitVec 1 := Scalar.xori v420 v421
  let c0_i32_272 : BitVec 32 := 0#32
  let v419 : BitVec 1 := Scalar.cmpi .ne v418 c0_i32_272
  let v423 : BitVec 1 := Scalar.andi v422 v419
  let v424 : BitVec 32 := Scalar.addi v418 v417
  let v425 : BitVec 32 := Scalar.select v423 v424 v418
  let c1_i32_277 : BitVec 32 := 1#32
  let v428 : BitVec 32 := Scalar.muli v425 c1_i32_277
  let v429 : BitVec 32 := Scalar.addi c0_i32_278 v428
  v429.toNat
def k0_dev27 (d0 : Dev nD) : Nat :=
  let c0_i32_291 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_281 : BitVec 32 := 12#32
  let v436 : BitVec 32 := Scalar.addi v2 c12_i32_281
  let c16_i32_282 : BitVec 32 := 16#32
  let c0_i32_283 : BitVec 32 := 0#32
  let v437 : BitVec 1 := Scalar.cmpi .eq c16_i32_282 c0_i32_283
  let c1_i32_284 : BitVec 32 := 1#32
  let v438 : BitVec 32 := Scalar.select v437 c1_i32_284 c16_i32_282
  let v439 : BitVec 32 := Scalar.remsi v436 v438
  let c0_i32_286 : BitVec 32 := 0#32
  let v441 : BitVec 1 := Scalar.cmpi .slt v439 c0_i32_286
  let c0_i32_287 : BitVec 32 := 0#32
  let v442 : BitVec 1 := Scalar.cmpi .slt v438 c0_i32_287
  let v443 : BitVec 1 := Scalar.xori v441 v442
  let c0_i32_285 : BitVec 32 := 0#32
  let v440 : BitVec 1 := Scalar.cmpi .ne v439 c0_i32_285
  let v444 : BitVec 1 := Scalar.andi v443 v440
  let v445 : BitVec 32 := Scalar.addi v439 v438
  let v446 : BitVec 32 := Scalar.select v444 v445 v439
  let c1_i32_290 : BitVec 32 := 1#32
  let v449 : BitVec 32 := Scalar.muli v446 c1_i32_290
  let v450 : BitVec 32 := Scalar.addi c0_i32_291 v449
  v450.toNat
def k0_dev28 (d0 : Dev nD) : Nat :=
  let c0_i32_304 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_294 : BitVec 32 := 13#32
  let v457 : BitVec 32 := Scalar.addi v2 c13_i32_294
  let c16_i32_295 : BitVec 32 := 16#32
  let c0_i32_296 : BitVec 32 := 0#32
  let v458 : BitVec 1 := Scalar.cmpi .eq c16_i32_295 c0_i32_296
  let c1_i32_297 : BitVec 32 := 1#32
  let v459 : BitVec 32 := Scalar.select v458 c1_i32_297 c16_i32_295
  let v460 : BitVec 32 := Scalar.remsi v457 v459
  let c0_i32_299 : BitVec 32 := 0#32
  let v462 : BitVec 1 := Scalar.cmpi .slt v460 c0_i32_299
  let c0_i32_300 : BitVec 32 := 0#32
  let v463 : BitVec 1 := Scalar.cmpi .slt v459 c0_i32_300
  let v464 : BitVec 1 := Scalar.xori v462 v463
  let c0_i32_298 : BitVec 32 := 0#32
  let v461 : BitVec 1 := Scalar.cmpi .ne v460 c0_i32_298
  let v465 : BitVec 1 := Scalar.andi v464 v461
  let v466 : BitVec 32 := Scalar.addi v460 v459
  let v467 : BitVec 32 := Scalar.select v465 v466 v460
  let c1_i32_303 : BitVec 32 := 1#32
  let v470 : BitVec 32 := Scalar.muli v467 c1_i32_303
  let v471 : BitVec 32 := Scalar.addi c0_i32_304 v470
  v471.toNat
def k0_dev29 (d0 : Dev nD) : Nat :=
  let c0_i32_317 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_307 : BitVec 32 := 14#32
  let v478 : BitVec 32 := Scalar.addi v2 c14_i32_307
  let c16_i32_308 : BitVec 32 := 16#32
  let c0_i32_309 : BitVec 32 := 0#32
  let v479 : BitVec 1 := Scalar.cmpi .eq c16_i32_308 c0_i32_309
  let c1_i32_310 : BitVec 32 := 1#32
  let v480 : BitVec 32 := Scalar.select v479 c1_i32_310 c16_i32_308
  let v481 : BitVec 32 := Scalar.remsi v478 v480
  let c0_i32_312 : BitVec 32 := 0#32
  let v483 : BitVec 1 := Scalar.cmpi .slt v481 c0_i32_312
  let c0_i32_313 : BitVec 32 := 0#32
  let v484 : BitVec 1 := Scalar.cmpi .slt v480 c0_i32_313
  let v485 : BitVec 1 := Scalar.xori v483 v484
  let c0_i32_311 : BitVec 32 := 0#32
  let v482 : BitVec 1 := Scalar.cmpi .ne v481 c0_i32_311
  let v486 : BitVec 1 := Scalar.andi v485 v482
  let v487 : BitVec 32 := Scalar.addi v481 v480
  let v488 : BitVec 32 := Scalar.select v486 v487 v481
  let c1_i32_316 : BitVec 32 := 1#32
  let v491 : BitVec 32 := Scalar.muli v488 c1_i32_316
  let v492 : BitVec 32 := Scalar.addi c0_i32_317 v491
  v492.toNat
def k0_dev30 (d0 : Dev nD) : Nat :=
  let c0_i32_330 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_320 : BitVec 32 := 15#32
  let v499 : BitVec 32 := Scalar.addi v2 c15_i32_320
  let c16_i32_321 : BitVec 32 := 16#32
  let c0_i32_322 : BitVec 32 := 0#32
  let v500 : BitVec 1 := Scalar.cmpi .eq c16_i32_321 c0_i32_322
  let c1_i32_323 : BitVec 32 := 1#32
  let v501 : BitVec 32 := Scalar.select v500 c1_i32_323 c16_i32_321
  let v502 : BitVec 32 := Scalar.remsi v499 v501
  let c0_i32_325 : BitVec 32 := 0#32
  let v504 : BitVec 1 := Scalar.cmpi .slt v502 c0_i32_325
  let c0_i32_326 : BitVec 32 := 0#32
  let v505 : BitVec 1 := Scalar.cmpi .slt v501 c0_i32_326
  let v506 : BitVec 1 := Scalar.xori v504 v505
  let c0_i32_324 : BitVec 32 := 0#32
  let v503 : BitVec 1 := Scalar.cmpi .ne v502 c0_i32_324
  let v507 : BitVec 1 := Scalar.andi v506 v503
  let v508 : BitVec 32 := Scalar.addi v502 v501
  let v509 : BitVec 32 := Scalar.select v507 v508 v502
  let c1_i32_329 : BitVec 32 := 1#32
  let v512 : BitVec 32 := Scalar.muli v509 c1_i32_329
  let v513 : BitVec 32 := Scalar.addi c0_i32_330 v512
  v513.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32_333 : BitVec 32 := 32#32
  let v520 : BitVec 32 := Scalar.muli v2 c32_i32_333
  let v521 : Index := Scalar.indexCast v520
  let c0_334 : Index := 0#32
  ![v521.toNat, 0]
def k0_off6 (d0 : Dev nD) (c1_i32_335 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v524 : BitVec 32 := Scalar.subi v2 c1_i32_335
  let c16_i32_336 : BitVec 32 := 16#32
  let c0_i32_337 : BitVec 32 := 0#32
  let v525 : BitVec 1 := Scalar.cmpi .eq c16_i32_336 c0_i32_337
  let c1_i32_338 : BitVec 32 := 1#32
  let v526 : BitVec 32 := Scalar.select v525 c1_i32_338 c16_i32_336
  let v527 : BitVec 32 := Scalar.remsi v524 v526
  let c0_i32_340 : BitVec 32 := 0#32
  let v529 : BitVec 1 := Scalar.cmpi .slt v527 c0_i32_340
  let c0_i32_341 : BitVec 32 := 0#32
  let v530 : BitVec 1 := Scalar.cmpi .slt v526 c0_i32_341
  let v531 : BitVec 1 := Scalar.xori v529 v530
  let c0_i32_339 : BitVec 32 := 0#32
  let v528 : BitVec 1 := Scalar.cmpi .ne v527 c0_i32_339
  let v532 : BitVec 1 := Scalar.andi v531 v528
  let v533 : BitVec 32 := Scalar.addi v527 v526
  let v534 : BitVec 32 := Scalar.select v532 v533 v527
  ![v534.toNat]
def k0_off7 (d0 : Dev nD) (c1_i32_335 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v524 : BitVec 32 := Scalar.subi v2 c1_i32_335
  let c16_i32_336 : BitVec 32 := 16#32
  let c0_i32_337 : BitVec 32 := 0#32
  let v525 : BitVec 1 := Scalar.cmpi .eq c16_i32_336 c0_i32_337
  let c1_i32_338 : BitVec 32 := 1#32
  let v526 : BitVec 32 := Scalar.select v525 c1_i32_338 c16_i32_336
  let v527 : BitVec 32 := Scalar.remsi v524 v526
  let c0_i32_340 : BitVec 32 := 0#32
  let v529 : BitVec 1 := Scalar.cmpi .slt v527 c0_i32_340
  let c0_i32_341 : BitVec 32 := 0#32
  let v530 : BitVec 1 := Scalar.cmpi .slt v526 c0_i32_341
  let v531 : BitVec 1 := Scalar.xori v529 v530
  let c0_i32_339 : BitVec 32 := 0#32
  let v528 : BitVec 1 := Scalar.cmpi .ne v527 c0_i32_339
  let v532 : BitVec 1 := Scalar.andi v531 v528
  let v533 : BitVec 32 := Scalar.addi v527 v526
  let v534 : BitVec 32 := Scalar.select v532 v533 v527
  let c32_i32_342 : BitVec 32 := 32#32
  let v535 : BitVec 32 := Scalar.muli v534 c32_i32_342
  let c0_i32_345 : BitVec 32 := 0#32
  ![v535.toNat, 0]
def k0_off8 (d0 : Dev nD) (c1_i32_335 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v524 : BitVec 32 := Scalar.subi v2 c1_i32_335
  let c16_i32_336 : BitVec 32 := 16#32
  let c0_i32_337 : BitVec 32 := 0#32
  let v525 : BitVec 1 := Scalar.cmpi .eq c16_i32_336 c0_i32_337
  let c1_i32_338 : BitVec 32 := 1#32
  let v526 : BitVec 32 := Scalar.select v525 c1_i32_338 c16_i32_336
  let v527 : BitVec 32 := Scalar.remsi v524 v526
  let c0_i32_340 : BitVec 32 := 0#32
  let v529 : BitVec 1 := Scalar.cmpi .slt v527 c0_i32_340
  let c0_i32_341 : BitVec 32 := 0#32
  let v530 : BitVec 1 := Scalar.cmpi .slt v526 c0_i32_341
  let v531 : BitVec 1 := Scalar.xori v529 v530
  let c0_i32_339 : BitVec 32 := 0#32
  let v528 : BitVec 1 := Scalar.cmpi .ne v527 c0_i32_339
  let v532 : BitVec 1 := Scalar.andi v531 v528
  let v533 : BitVec 32 := Scalar.addi v527 v526
  let v534 : BitVec 32 := Scalar.select v532 v533 v527
  let c32_i32_348 : BitVec 32 := 32#32
  let v542 : BitVec 32 := Scalar.muli v534 c32_i32_348
  let v543 : Index := Scalar.indexCast v542
  let c0_349 : Index := 0#32
  ![v543.toNat, 0]
def k0_dev31 (d0 : Dev nD) : Nat :=
  let c0_i32_575 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_566 : BitVec 32 := 1#32
  let v877 : BitVec 32 := Scalar.addi v2 c1_i32_566
  let c16_i32_567 : BitVec 32 := 16#32
  let c0_i32_568 : BitVec 32 := 0#32
  let v878 : BitVec 1 := Scalar.cmpi .eq c16_i32_567 c0_i32_568
  let c1_i32_569 : BitVec 32 := 1#32
  let v879 : BitVec 32 := Scalar.select v878 c1_i32_569 c16_i32_567
  let v880 : BitVec 32 := Scalar.remsi v877 v879
  let c0_i32_571 : BitVec 32 := 0#32
  let v882 : BitVec 1 := Scalar.cmpi .slt v880 c0_i32_571
  let c0_i32_572 : BitVec 32 := 0#32
  let v883 : BitVec 1 := Scalar.cmpi .slt v879 c0_i32_572
  let v884 : BitVec 1 := Scalar.xori v882 v883
  let c0_i32_570 : BitVec 32 := 0#32
  let v881 : BitVec 1 := Scalar.cmpi .ne v880 c0_i32_570
  let v885 : BitVec 1 := Scalar.andi v884 v881
  let v886 : BitVec 32 := Scalar.addi v880 v879
  let v887 : BitVec 32 := Scalar.select v885 v886 v880
  let c1_i32_574 : BitVec 32 := 1#32
  let v889 : BitVec 32 := Scalar.muli v887 c1_i32_574
  let v890 : BitVec 32 := Scalar.addi c0_i32_575 v889
  v890.toNat
def k0_dev32 (d0 : Dev nD) : Nat :=
  let c0_i32_586 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_577 : BitVec 32 := 2#32
  let v896 : BitVec 32 := Scalar.addi v2 c2_i32_577
  let c16_i32_578 : BitVec 32 := 16#32
  let c0_i32_579 : BitVec 32 := 0#32
  let v897 : BitVec 1 := Scalar.cmpi .eq c16_i32_578 c0_i32_579
  let c1_i32_580 : BitVec 32 := 1#32
  let v898 : BitVec 32 := Scalar.select v897 c1_i32_580 c16_i32_578
  let v899 : BitVec 32 := Scalar.remsi v896 v898
  let c0_i32_582 : BitVec 32 := 0#32
  let v901 : BitVec 1 := Scalar.cmpi .slt v899 c0_i32_582
  let c0_i32_583 : BitVec 32 := 0#32
  let v902 : BitVec 1 := Scalar.cmpi .slt v898 c0_i32_583
  let v903 : BitVec 1 := Scalar.xori v901 v902
  let c0_i32_581 : BitVec 32 := 0#32
  let v900 : BitVec 1 := Scalar.cmpi .ne v899 c0_i32_581
  let v904 : BitVec 1 := Scalar.andi v903 v900
  let v905 : BitVec 32 := Scalar.addi v899 v898
  let v906 : BitVec 32 := Scalar.select v904 v905 v899
  let c1_i32_585 : BitVec 32 := 1#32
  let v908 : BitVec 32 := Scalar.muli v906 c1_i32_585
  let v909 : BitVec 32 := Scalar.addi c0_i32_586 v908
  v909.toNat
def k0_dev33 (d0 : Dev nD) : Nat :=
  let c0_i32_597 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_588 : BitVec 32 := 3#32
  let v915 : BitVec 32 := Scalar.addi v2 c3_i32_588
  let c16_i32_589 : BitVec 32 := 16#32
  let c0_i32_590 : BitVec 32 := 0#32
  let v916 : BitVec 1 := Scalar.cmpi .eq c16_i32_589 c0_i32_590
  let c1_i32_591 : BitVec 32 := 1#32
  let v917 : BitVec 32 := Scalar.select v916 c1_i32_591 c16_i32_589
  let v918 : BitVec 32 := Scalar.remsi v915 v917
  let c0_i32_593 : BitVec 32 := 0#32
  let v920 : BitVec 1 := Scalar.cmpi .slt v918 c0_i32_593
  let c0_i32_594 : BitVec 32 := 0#32
  let v921 : BitVec 1 := Scalar.cmpi .slt v917 c0_i32_594
  let v922 : BitVec 1 := Scalar.xori v920 v921
  let c0_i32_592 : BitVec 32 := 0#32
  let v919 : BitVec 1 := Scalar.cmpi .ne v918 c0_i32_592
  let v923 : BitVec 1 := Scalar.andi v922 v919
  let v924 : BitVec 32 := Scalar.addi v918 v917
  let v925 : BitVec 32 := Scalar.select v923 v924 v918
  let c1_i32_596 : BitVec 32 := 1#32
  let v927 : BitVec 32 := Scalar.muli v925 c1_i32_596
  let v928 : BitVec 32 := Scalar.addi c0_i32_597 v927
  v928.toNat
def k0_dev34 (d0 : Dev nD) : Nat :=
  let c0_i32_608 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_599 : BitVec 32 := 4#32
  let v934 : BitVec 32 := Scalar.addi v2 c4_i32_599
  let c16_i32_600 : BitVec 32 := 16#32
  let c0_i32_601 : BitVec 32 := 0#32
  let v935 : BitVec 1 := Scalar.cmpi .eq c16_i32_600 c0_i32_601
  let c1_i32_602 : BitVec 32 := 1#32
  let v936 : BitVec 32 := Scalar.select v935 c1_i32_602 c16_i32_600
  let v937 : BitVec 32 := Scalar.remsi v934 v936
  let c0_i32_604 : BitVec 32 := 0#32
  let v939 : BitVec 1 := Scalar.cmpi .slt v937 c0_i32_604
  let c0_i32_605 : BitVec 32 := 0#32
  let v940 : BitVec 1 := Scalar.cmpi .slt v936 c0_i32_605
  let v941 : BitVec 1 := Scalar.xori v939 v940
  let c0_i32_603 : BitVec 32 := 0#32
  let v938 : BitVec 1 := Scalar.cmpi .ne v937 c0_i32_603
  let v942 : BitVec 1 := Scalar.andi v941 v938
  let v943 : BitVec 32 := Scalar.addi v937 v936
  let v944 : BitVec 32 := Scalar.select v942 v943 v937
  let c1_i32_607 : BitVec 32 := 1#32
  let v946 : BitVec 32 := Scalar.muli v944 c1_i32_607
  let v947 : BitVec 32 := Scalar.addi c0_i32_608 v946
  v947.toNat
def k0_dev35 (d0 : Dev nD) : Nat :=
  let c0_i32_619 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_610 : BitVec 32 := 5#32
  let v953 : BitVec 32 := Scalar.addi v2 c5_i32_610
  let c16_i32_611 : BitVec 32 := 16#32
  let c0_i32_612 : BitVec 32 := 0#32
  let v954 : BitVec 1 := Scalar.cmpi .eq c16_i32_611 c0_i32_612
  let c1_i32_613 : BitVec 32 := 1#32
  let v955 : BitVec 32 := Scalar.select v954 c1_i32_613 c16_i32_611
  let v956 : BitVec 32 := Scalar.remsi v953 v955
  let c0_i32_615 : BitVec 32 := 0#32
  let v958 : BitVec 1 := Scalar.cmpi .slt v956 c0_i32_615
  let c0_i32_616 : BitVec 32 := 0#32
  let v959 : BitVec 1 := Scalar.cmpi .slt v955 c0_i32_616
  let v960 : BitVec 1 := Scalar.xori v958 v959
  let c0_i32_614 : BitVec 32 := 0#32
  let v957 : BitVec 1 := Scalar.cmpi .ne v956 c0_i32_614
  let v961 : BitVec 1 := Scalar.andi v960 v957
  let v962 : BitVec 32 := Scalar.addi v956 v955
  let v963 : BitVec 32 := Scalar.select v961 v962 v956
  let c1_i32_618 : BitVec 32 := 1#32
  let v965 : BitVec 32 := Scalar.muli v963 c1_i32_618
  let v966 : BitVec 32 := Scalar.addi c0_i32_619 v965
  v966.toNat
def k0_dev36 (d0 : Dev nD) : Nat :=
  let c0_i32_630 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_621 : BitVec 32 := 6#32
  let v972 : BitVec 32 := Scalar.addi v2 c6_i32_621
  let c16_i32_622 : BitVec 32 := 16#32
  let c0_i32_623 : BitVec 32 := 0#32
  let v973 : BitVec 1 := Scalar.cmpi .eq c16_i32_622 c0_i32_623
  let c1_i32_624 : BitVec 32 := 1#32
  let v974 : BitVec 32 := Scalar.select v973 c1_i32_624 c16_i32_622
  let v975 : BitVec 32 := Scalar.remsi v972 v974
  let c0_i32_626 : BitVec 32 := 0#32
  let v977 : BitVec 1 := Scalar.cmpi .slt v975 c0_i32_626
  let c0_i32_627 : BitVec 32 := 0#32
  let v978 : BitVec 1 := Scalar.cmpi .slt v974 c0_i32_627
  let v979 : BitVec 1 := Scalar.xori v977 v978
  let c0_i32_625 : BitVec 32 := 0#32
  let v976 : BitVec 1 := Scalar.cmpi .ne v975 c0_i32_625
  let v980 : BitVec 1 := Scalar.andi v979 v976
  let v981 : BitVec 32 := Scalar.addi v975 v974
  let v982 : BitVec 32 := Scalar.select v980 v981 v975
  let c1_i32_629 : BitVec 32 := 1#32
  let v984 : BitVec 32 := Scalar.muli v982 c1_i32_629
  let v985 : BitVec 32 := Scalar.addi c0_i32_630 v984
  v985.toNat
def k0_dev37 (d0 : Dev nD) : Nat :=
  let c0_i32_641 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_632 : BitVec 32 := 7#32
  let v991 : BitVec 32 := Scalar.addi v2 c7_i32_632
  let c16_i32_633 : BitVec 32 := 16#32
  let c0_i32_634 : BitVec 32 := 0#32
  let v992 : BitVec 1 := Scalar.cmpi .eq c16_i32_633 c0_i32_634
  let c1_i32_635 : BitVec 32 := 1#32
  let v993 : BitVec 32 := Scalar.select v992 c1_i32_635 c16_i32_633
  let v994 : BitVec 32 := Scalar.remsi v991 v993
  let c0_i32_637 : BitVec 32 := 0#32
  let v996 : BitVec 1 := Scalar.cmpi .slt v994 c0_i32_637
  let c0_i32_638 : BitVec 32 := 0#32
  let v997 : BitVec 1 := Scalar.cmpi .slt v993 c0_i32_638
  let v998 : BitVec 1 := Scalar.xori v996 v997
  let c0_i32_636 : BitVec 32 := 0#32
  let v995 : BitVec 1 := Scalar.cmpi .ne v994 c0_i32_636
  let v999 : BitVec 1 := Scalar.andi v998 v995
  let v1000 : BitVec 32 := Scalar.addi v994 v993
  let v1001 : BitVec 32 := Scalar.select v999 v1000 v994
  let c1_i32_640 : BitVec 32 := 1#32
  let v1003 : BitVec 32 := Scalar.muli v1001 c1_i32_640
  let v1004 : BitVec 32 := Scalar.addi c0_i32_641 v1003
  v1004.toNat
def k0_dev38 (d0 : Dev nD) : Nat :=
  let c0_i32_652 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_643 : BitVec 32 := 8#32
  let v1010 : BitVec 32 := Scalar.addi v2 c8_i32_643
  let c16_i32_644 : BitVec 32 := 16#32
  let c0_i32_645 : BitVec 32 := 0#32
  let v1011 : BitVec 1 := Scalar.cmpi .eq c16_i32_644 c0_i32_645
  let c1_i32_646 : BitVec 32 := 1#32
  let v1012 : BitVec 32 := Scalar.select v1011 c1_i32_646 c16_i32_644
  let v1013 : BitVec 32 := Scalar.remsi v1010 v1012
  let c0_i32_648 : BitVec 32 := 0#32
  let v1015 : BitVec 1 := Scalar.cmpi .slt v1013 c0_i32_648
  let c0_i32_649 : BitVec 32 := 0#32
  let v1016 : BitVec 1 := Scalar.cmpi .slt v1012 c0_i32_649
  let v1017 : BitVec 1 := Scalar.xori v1015 v1016
  let c0_i32_647 : BitVec 32 := 0#32
  let v1014 : BitVec 1 := Scalar.cmpi .ne v1013 c0_i32_647
  let v1018 : BitVec 1 := Scalar.andi v1017 v1014
  let v1019 : BitVec 32 := Scalar.addi v1013 v1012
  let v1020 : BitVec 32 := Scalar.select v1018 v1019 v1013
  let c1_i32_651 : BitVec 32 := 1#32
  let v1022 : BitVec 32 := Scalar.muli v1020 c1_i32_651
  let v1023 : BitVec 32 := Scalar.addi c0_i32_652 v1022
  v1023.toNat
def k0_dev39 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_654 : BitVec 32 := 9#32
  let v1029 : BitVec 32 := Scalar.addi v2 c9_i32_654
  let c16_i32_655 : BitVec 32 := 16#32
  let c0_i32_656 : BitVec 32 := 0#32
  let v1030 : BitVec 1 := Scalar.cmpi .eq c16_i32_655 c0_i32_656
  let c1_i32_657 : BitVec 32 := 1#32
  let v1031 : BitVec 32 := Scalar.select v1030 c1_i32_657 c16_i32_655
  let v1032 : BitVec 32 := Scalar.remsi v1029 v1031
  let c0_i32_659 : BitVec 32 := 0#32
  let v1034 : BitVec 1 := Scalar.cmpi .slt v1032 c0_i32_659
  let c0_i32_660 : BitVec 32 := 0#32
  let v1035 : BitVec 1 := Scalar.cmpi .slt v1031 c0_i32_660
  let v1036 : BitVec 1 := Scalar.xori v1034 v1035
  let c0_i32_658 : BitVec 32 := 0#32
  let v1033 : BitVec 1 := Scalar.cmpi .ne v1032 c0_i32_658
  let v1037 : BitVec 1 := Scalar.andi v1036 v1033
  let v1038 : BitVec 32 := Scalar.addi v1032 v1031
  let v1039 : BitVec 32 := Scalar.select v1037 v1038 v1032
  let c1_i32_662 : BitVec 32 := 1#32
  let v1041 : BitVec 32 := Scalar.muli v1039 c1_i32_662
  let v1042 : BitVec 32 := Scalar.addi c0_i32_663 v1041
  v1042.toNat
def k0_dev40 (d0 : Dev nD) : Nat :=
  let c0_i32_674 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_665 : BitVec 32 := 10#32
  let v1048 : BitVec 32 := Scalar.addi v2 c10_i32_665
  let c16_i32_666 : BitVec 32 := 16#32
  let c0_i32_667 : BitVec 32 := 0#32
  let v1049 : BitVec 1 := Scalar.cmpi .eq c16_i32_666 c0_i32_667
  let c1_i32_668 : BitVec 32 := 1#32
  let v1050 : BitVec 32 := Scalar.select v1049 c1_i32_668 c16_i32_666
  let v1051 : BitVec 32 := Scalar.remsi v1048 v1050
  let c0_i32_670 : BitVec 32 := 0#32
  let v1053 : BitVec 1 := Scalar.cmpi .slt v1051 c0_i32_670
  let c0_i32_671 : BitVec 32 := 0#32
  let v1054 : BitVec 1 := Scalar.cmpi .slt v1050 c0_i32_671
  let v1055 : BitVec 1 := Scalar.xori v1053 v1054
  let c0_i32_669 : BitVec 32 := 0#32
  let v1052 : BitVec 1 := Scalar.cmpi .ne v1051 c0_i32_669
  let v1056 : BitVec 1 := Scalar.andi v1055 v1052
  let v1057 : BitVec 32 := Scalar.addi v1051 v1050
  let v1058 : BitVec 32 := Scalar.select v1056 v1057 v1051
  let c1_i32_673 : BitVec 32 := 1#32
  let v1060 : BitVec 32 := Scalar.muli v1058 c1_i32_673
  let v1061 : BitVec 32 := Scalar.addi c0_i32_674 v1060
  v1061.toNat
def k0_dev41 (d0 : Dev nD) : Nat :=
  let c0_i32_685 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_676 : BitVec 32 := 11#32
  let v1067 : BitVec 32 := Scalar.addi v2 c11_i32_676
  let c16_i32_677 : BitVec 32 := 16#32
  let c0_i32_678 : BitVec 32 := 0#32
  let v1068 : BitVec 1 := Scalar.cmpi .eq c16_i32_677 c0_i32_678
  let c1_i32_679 : BitVec 32 := 1#32
  let v1069 : BitVec 32 := Scalar.select v1068 c1_i32_679 c16_i32_677
  let v1070 : BitVec 32 := Scalar.remsi v1067 v1069
  let c0_i32_681 : BitVec 32 := 0#32
  let v1072 : BitVec 1 := Scalar.cmpi .slt v1070 c0_i32_681
  let c0_i32_682 : BitVec 32 := 0#32
  let v1073 : BitVec 1 := Scalar.cmpi .slt v1069 c0_i32_682
  let v1074 : BitVec 1 := Scalar.xori v1072 v1073
  let c0_i32_680 : BitVec 32 := 0#32
  let v1071 : BitVec 1 := Scalar.cmpi .ne v1070 c0_i32_680
  let v1075 : BitVec 1 := Scalar.andi v1074 v1071
  let v1076 : BitVec 32 := Scalar.addi v1070 v1069
  let v1077 : BitVec 32 := Scalar.select v1075 v1076 v1070
  let c1_i32_684 : BitVec 32 := 1#32
  let v1079 : BitVec 32 := Scalar.muli v1077 c1_i32_684
  let v1080 : BitVec 32 := Scalar.addi c0_i32_685 v1079
  v1080.toNat
def k0_dev42 (d0 : Dev nD) : Nat :=
  let c0_i32_696 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_687 : BitVec 32 := 12#32
  let v1086 : BitVec 32 := Scalar.addi v2 c12_i32_687
  let c16_i32_688 : BitVec 32 := 16#32
  let c0_i32_689 : BitVec 32 := 0#32
  let v1087 : BitVec 1 := Scalar.cmpi .eq c16_i32_688 c0_i32_689
  let c1_i32_690 : BitVec 32 := 1#32
  let v1088 : BitVec 32 := Scalar.select v1087 c1_i32_690 c16_i32_688
  let v1089 : BitVec 32 := Scalar.remsi v1086 v1088
  let c0_i32_692 : BitVec 32 := 0#32
  let v1091 : BitVec 1 := Scalar.cmpi .slt v1089 c0_i32_692
  let c0_i32_693 : BitVec 32 := 0#32
  let v1092 : BitVec 1 := Scalar.cmpi .slt v1088 c0_i32_693
  let v1093 : BitVec 1 := Scalar.xori v1091 v1092
  let c0_i32_691 : BitVec 32 := 0#32
  let v1090 : BitVec 1 := Scalar.cmpi .ne v1089 c0_i32_691
  let v1094 : BitVec 1 := Scalar.andi v1093 v1090
  let v1095 : BitVec 32 := Scalar.addi v1089 v1088
  let v1096 : BitVec 32 := Scalar.select v1094 v1095 v1089
  let c1_i32_695 : BitVec 32 := 1#32
  let v1098 : BitVec 32 := Scalar.muli v1096 c1_i32_695
  let v1099 : BitVec 32 := Scalar.addi c0_i32_696 v1098
  v1099.toNat
def k0_dev43 (d0 : Dev nD) : Nat :=
  let c0_i32_707 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_698 : BitVec 32 := 13#32
  let v1105 : BitVec 32 := Scalar.addi v2 c13_i32_698
  let c16_i32_699 : BitVec 32 := 16#32
  let c0_i32_700 : BitVec 32 := 0#32
  let v1106 : BitVec 1 := Scalar.cmpi .eq c16_i32_699 c0_i32_700
  let c1_i32_701 : BitVec 32 := 1#32
  let v1107 : BitVec 32 := Scalar.select v1106 c1_i32_701 c16_i32_699
  let v1108 : BitVec 32 := Scalar.remsi v1105 v1107
  let c0_i32_703 : BitVec 32 := 0#32
  let v1110 : BitVec 1 := Scalar.cmpi .slt v1108 c0_i32_703
  let c0_i32_704 : BitVec 32 := 0#32
  let v1111 : BitVec 1 := Scalar.cmpi .slt v1107 c0_i32_704
  let v1112 : BitVec 1 := Scalar.xori v1110 v1111
  let c0_i32_702 : BitVec 32 := 0#32
  let v1109 : BitVec 1 := Scalar.cmpi .ne v1108 c0_i32_702
  let v1113 : BitVec 1 := Scalar.andi v1112 v1109
  let v1114 : BitVec 32 := Scalar.addi v1108 v1107
  let v1115 : BitVec 32 := Scalar.select v1113 v1114 v1108
  let c1_i32_706 : BitVec 32 := 1#32
  let v1117 : BitVec 32 := Scalar.muli v1115 c1_i32_706
  let v1118 : BitVec 32 := Scalar.addi c0_i32_707 v1117
  v1118.toNat
def k0_dev44 (d0 : Dev nD) : Nat :=
  let c0_i32_718 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_709 : BitVec 32 := 14#32
  let v1124 : BitVec 32 := Scalar.addi v2 c14_i32_709
  let c16_i32_710 : BitVec 32 := 16#32
  let c0_i32_711 : BitVec 32 := 0#32
  let v1125 : BitVec 1 := Scalar.cmpi .eq c16_i32_710 c0_i32_711
  let c1_i32_712 : BitVec 32 := 1#32
  let v1126 : BitVec 32 := Scalar.select v1125 c1_i32_712 c16_i32_710
  let v1127 : BitVec 32 := Scalar.remsi v1124 v1126
  let c0_i32_714 : BitVec 32 := 0#32
  let v1129 : BitVec 1 := Scalar.cmpi .slt v1127 c0_i32_714
  let c0_i32_715 : BitVec 32 := 0#32
  let v1130 : BitVec 1 := Scalar.cmpi .slt v1126 c0_i32_715
  let v1131 : BitVec 1 := Scalar.xori v1129 v1130
  let c0_i32_713 : BitVec 32 := 0#32
  let v1128 : BitVec 1 := Scalar.cmpi .ne v1127 c0_i32_713
  let v1132 : BitVec 1 := Scalar.andi v1131 v1128
  let v1133 : BitVec 32 := Scalar.addi v1127 v1126
  let v1134 : BitVec 32 := Scalar.select v1132 v1133 v1127
  let c1_i32_717 : BitVec 32 := 1#32
  let v1136 : BitVec 32 := Scalar.muli v1134 c1_i32_717
  let v1137 : BitVec 32 := Scalar.addi c0_i32_718 v1136
  v1137.toNat
def k0_dev45 (d0 : Dev nD) : Nat :=
  let c0_i32_729 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_720 : BitVec 32 := 15#32
  let v1143 : BitVec 32 := Scalar.addi v2 c15_i32_720
  let c16_i32_721 : BitVec 32 := 16#32
  let c0_i32_722 : BitVec 32 := 0#32
  let v1144 : BitVec 1 := Scalar.cmpi .eq c16_i32_721 c0_i32_722
  let c1_i32_723 : BitVec 32 := 1#32
  let v1145 : BitVec 32 := Scalar.select v1144 c1_i32_723 c16_i32_721
  let v1146 : BitVec 32 := Scalar.remsi v1143 v1145
  let c0_i32_725 : BitVec 32 := 0#32
  let v1148 : BitVec 1 := Scalar.cmpi .slt v1146 c0_i32_725
  let c0_i32_726 : BitVec 32 := 0#32
  let v1149 : BitVec 1 := Scalar.cmpi .slt v1145 c0_i32_726
  let v1150 : BitVec 1 := Scalar.xori v1148 v1149
  let c0_i32_724 : BitVec 32 := 0#32
  let v1147 : BitVec 1 := Scalar.cmpi .ne v1146 c0_i32_724
  let v1151 : BitVec 1 := Scalar.andi v1150 v1147
  let v1152 : BitVec 32 := Scalar.addi v1146 v1145
  let v1153 : BitVec 32 := Scalar.select v1151 v1152 v1146
  let c1_i32_728 : BitVec 32 := 1#32
  let v1155 : BitVec 32 := Scalar.muli v1153 c1_i32_728
  let v1156 : BitVec 32 := Scalar.addi c0_i32_729 v1155
  v1156.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_15 : (15#32 : BitVec 32).msb = false
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  packedbf16_S512x512_S512x512_0_0 : (Rect.unit (s := S512x512) ![0, 0] S512x512.size inb_S512x512_S512x512_0_0).PackedRows (EltTy.packing .bf16)
  squeezes_S1_S_ : S1.Squeezes S_
  h_S32x512 : 0 < S32x512.numel
  shapeCasts_S32x512_S32x512 : S32x512.ShapeCasts S32x512
  inb_S512x512_S32x512_0_0 : ∀ a, (![0, 0] : Fin 2 → Nat) a + S32x512.size a ≤ S512x512.size a
  wordsbf16_S512x512_S32x512_0_0 : (Rect.unit (s := S512x512) ![0, 0] S32x512.size inb_S512x512_S32x512_0_0).WholeWords (EltTy.packing .bf16)
  inb_S32x512_S32x512_0_0 : ∀ a, (![0, 0] : Fin 2 → Nat) a + S32x512.size a ≤ S32x512.size a
  packedbf16_S32x512_S32x512_0_0 : (Rect.unit (s := S32x512) ![0, 0] S32x512.size inb_S32x512_S32x512_0_0).PackedRows (EltTy.packing .bf16)
  hcc0_scratch3 : 2 + S16.numel ≤ 66
  hcc0_scratch4 : 18 + S16.numel ≤ 66
  hcc0_scratch5 : 34 + S16.numel ≤ 66
  hcc0_scratch6 : 50 + S16.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ (r : Fin 15), ∀ a, (k0_off1 d0 (BitVec.ofNat 32 (1 + r.val))) a + S1.size a ≤ S16.size a
  k0_off2_inb : ∀ d0 : Dev nD, ∀ a, (k0_off2 d0) a + S1.size a ≤ S16.size a
  k0_off3_inb : ∀ d0 : Dev nD, ∀ a, (k0_off3 d0) a + S32x512.size a ≤ S512x512.size a
  k0_off4_inb : ∀ d0 : Dev nD, ∀ (r : Fin 15), ∀ a, (k0_off4 d0 (BitVec.ofNat 32 (1 + r.val))) a + S32x512.size a ≤ S512x512.size a
  k0_off4_wordsbf16 : ∀ d0 : Dev nD, ∀ (r : Fin 15), (Rect.unit (s := S512x512) (k0_off4 d0 (BitVec.ofNat 32 (1 + r.val))) S32x512.size (k0_off4_inb d0 r)).WholeWords (EltTy.packing .bf16)
  k0_off3_wordsbf16 : ∀ d0 : Dev nD, (Rect.unit (s := S512x512) (k0_off3 d0) S32x512.size (k0_off3_inb d0)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off5_inb : ∀ d0 : Dev nD, ∀ a, (k0_off5 d0) a + S32x512.size a ≤ S512x512.size a
  k0_off6_inb : ∀ d0 : Dev nD, ∀ (r : Fin 15), ∀ a, (k0_off6 d0 (BitVec.ofNat 32 (1 + r.val))) a + S1.size a ≤ S16.size a
  k0_off7_inb : ∀ d0 : Dev nD, ∀ (r : Fin 15), ∀ a, (k0_off7 d0 (BitVec.ofNat 32 (1 + r.val))) a + S32x512.size a ≤ S512x512.size a
  k0_off7_wordsbf16 : ∀ d0 : Dev nD, ∀ (r : Fin 15), (Rect.unit (s := S512x512) (k0_off7 d0 (BitVec.ofNat 32 (1 + r.val))) S32x512.size (k0_off7_inb d0 r)).WholeWords (EltTy.packing .bf16)
  k0_off8_inb : ∀ d0 : Dev nD, ∀ (r : Fin 15), ∀ a, (k0_off8 d0 (BitVec.ofNat 32 (1 + r.val))) a + S32x512.size a ≤ S512x512.size a
  k0_off5_packedbf16 : ∀ d0 : Dev nD, (Rect.unit (s := S512x512) (k0_off5 d0) S32x512.size (k0_off5_inb d0)).PackedRows (EltTy.packing .bf16)
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole

variable [Facts₀]

abbrev cc0_scratch3 : DmaSems sig S16 := SemArray.consecutive 2 S16 hcc0_scratch3
abbrev cc0_scratch4 : DmaSems sig S16 := SemArray.consecutive 18 S16 hcc0_scratch4
abbrev cc0_scratch5 : DmaSems sig S16 := SemArray.consecutive 34 S16 hcc0_scratch5
abbrev cc0_scratch6 : DmaSems sig S16 := SemArray.consecutive 50 S16 hcc0_scratch6

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x512 : Shape := ⟨2, ![8192, 512]⟩
abbrev S16x512x512 : Shape := ⟨3, ![16, 512, 512]⟩
abbrev S_ : Shape := ⟨0, ![]⟩
abbrev S512x512 : Shape := ⟨2, ![512, 512]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S16x512x512, .f32⟩
  | .hbm, ⟨2, _⟩ => ⟨S_, .f32⟩
  | .hbm, ⟨3, _⟩ => ⟨S512x512, .f32⟩
  | .hbm, ⟨4, _⟩ => ⟨S512x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  shapeCasts_S8192x512_S16x512x512 : S8192x512.ShapeCasts S16x512x512
  reducesTo_S16x512x512_S512x512_d0 : S16x512x512.ReducesTo [0] S512x512
  h_S_ : 0 < S_.numel
  bitsLt_bf16_f32 : FTy.bits .bf16 < FTy.bits .f32

variable [Facts₀]

class Facts : Prop extends Facts₀ where

variable [Facts]
-- ==== Proof.Arith.lean ====
import proofs.«900416_g7700000000000417_dist_ar_v7x_i16_i_m512_n512_bf16_1_alg».proof.Proof.Gen.KernelIdeal

/-!
# Ring arithmetic of the sixteen-device all-reduce

Device `c` addresses its peers by the shifts `k + 1`, `k : Fin 15`: forwards `fwd c k = (c + k + 1) mod 16`
(whom it sends to) and backwards `bwd c k = (c - (k + 1)) mod 16` (whom it receives from). This module states the
printed device chains, offset chains and semaphore slices in those terms.
-/

set_option synthInstance.maxSize 4096
set_option Elab.async false

namespace Cert.KernelIdeal.AR

open Cert.KernelIdeal Cert.KernelIdeal.Gen Idealize.ShloMosaic Idealize.SL.Sem

/-- The peer `k + 1` places ahead of `c` on the ring of sixteen. -/
def fwd (c : Dev nD) (k : Fin 15) : Dev nD := ⟨(c.val + 1 + k.val) % 16, Nat.mod_lt _ (by decide)⟩
/-- The peer `k + 1` places behind `c`. -/
def bwd (c : Dev nD) (k : Fin 15) : Dev nD := ⟨(c.val + 15 - k.val) % 16, Nat.mod_lt _ (by decide)⟩
/-- The shift that takes `c` forwards to `j` (meaningful for `j ≠ c`). -/
def kf (c j : Dev nD) : Fin 15 := ⟨((j.val + 16 - c.val) % 16 + 14) % 15, Nat.mod_lt _ (by decide)⟩

/-- The four semaphore arrays' cells by peer index. -/
def rsSendS (j : Dev nD) : DmaSem sig := ⟨2 + j.val, by have h : j.val < 16 := j.isLt; show 2 + j.val < 66; omega⟩
def rsRecvS (j : Dev nD) : DmaSem sig := ⟨18 + j.val, by have h : j.val < 16 := j.isLt; show 18 + j.val < 66; omega⟩
def agSendS (j : Dev nD) : DmaSem sig := ⟨34 + j.val, by have h : j.val < 16 := j.isLt; show 34 + j.val < 66; omega⟩
def agRecvS (j : Dev nD) : DmaSem sig := ⟨50 + j.val, by have h : j.val < 16 := j.isLt; show 50 + j.val < 66; omega⟩

/-! ## The ring: forwards and backwards shifts undo each other

Every statement here is a finite check over the sixteen devices and the fifteen shifts. -/

/-- Going `k + 1` forwards then `k + 1` backwards returns to the start. -/
theorem bwd_fwd (c : Dev nD) (k : Fin 15) : bwd (fwd c k) k = c := by revert c k; decide +kernel
/-- Going `k + 1` backwards then `k + 1` forwards returns to the start. -/
theorem fwd_bwd (c : Dev nD) (k : Fin 15) : fwd (bwd c k) k = c := by revert c k; decide +kernel
/-- A shift of `1 … 15` places on a ring of sixteen never fixes a device. -/
theorem fwd_ne (c : Dev nD) (k : Fin 15) : fwd c k ≠ c := by revert c k; decide +kernel
theorem bwd_ne (c : Dev nD) (k : Fin 15) : bwd c k ≠ c := by revert c k; decide +kernel
/-- `kf c` recovers the shift from the peer it reaches. -/
theorem kf_fwd (c : Dev nD) (k : Fin 15) : kf c (fwd c k) = k := by revert c k; decide +kernel
/-- Every other device is reached by the shift `kf c j`. -/
theorem fwd_kf (c j : Dev nD) (h : j ≠ c) : fwd c (kf c j) = j := by revert c j; decide +kernel
/-- Distinct shifts reach distinct peers. -/
theorem fwd_inj (c : Dev nD) : Function.Injective (fwd c) := fun a b h => by
  rw [← kf_fwd c a, ← kf_fwd c b, h]
/-- `j` is `k + 1` behind `c` exactly when `c` is `k + 1` ahead of `j`. -/
theorem bwd_eq_iff (c j : Dev nD) (k : Fin 15) : bwd c k = j ↔ fwd j k = c :=
  ⟨fun h => by rw [← h, fwd_bwd], fun h => by rw [← h, bwd_fwd]⟩
theorem bwd_inj (c : Dev nD) : Function.Injective (bwd c) := fun a b h => by
  have h1 : fwd (bwd c a) a = c := fwd_bwd c a
  have h2 : fwd (bwd c a) b = c := by rw [h]; exact fwd_bwd c b
  exact fwd_inj _ (h1.trans h2.symm)
/-- Every other device is some shift ahead. -/
theorem fwd_surj (c j : Dev nD) (h : j ≠ c) : ∃ k, fwd c k = j := ⟨kf c j, fwd_kf c j h⟩
/-- Every other device is some shift behind. -/
theorem bwd_surj (c j : Dev nD) (h : j ≠ c) : ∃ k, bwd c k = j :=
  ⟨kf j c, (bwd_eq_iff c j _).2 (fwd_kf j c (Ne.symm h))⟩

/-! ## The semaphore cells: four disjoint runs of sixteen after the two staging semaphores -/

theorem rsSendS_val (j : Dev nD) : (rsSendS j).val = 2 + j.val := rfl
theorem rsRecvS_val (j : Dev nD) : (rsRecvS j).val = 18 + j.val := rfl
theorem agSendS_val (j : Dev nD) : (agSendS j).val = 34 + j.val := rfl
theorem agRecvS_val (j : Dev nD) : (agRecvS j).val = 50 + j.val := rfl
theorem cc0_sem0_0_val : (cc0_sem0_0 : DmaSem sig).val = 0 := rfl
theorem cc0_sem1_0_val : (cc0_sem1_0 : DmaSem sig).val = 1 := rfl

/-! ## The semaphore cells are all distinct

Four runs of sixteen from the bases 2, 18, 34 and 50, after the two staging semaphores 0 and 1: within a run the
cell determines the peer, and no two runs, nor a run and a staging semaphore, share a cell. -/

theorem rsSendS_inj : Function.Injective rsSendS := fun a b h => by
  have h' : 2 + a.val = 2 + b.val := congrArg Fin.val h
  exact Fin.ext (by omega)
theorem rsRecvS_inj : Function.Injective rsRecvS := fun a b h => by
  have h' : 18 + a.val = 18 + b.val := congrArg Fin.val h
  exact Fin.ext (by omega)
theorem agSendS_inj : Function.Injective agSendS := fun a b h => by
  have h' : 34 + a.val = 34 + b.val := congrArg Fin.val h
  exact Fin.ext (by omega)
theorem agRecvS_inj : Function.Injective agRecvS := fun a b h => by
  have h' : 50 + a.val = 50 + b.val := congrArg Fin.val h
  exact Fin.ext (by omega)
theorem rsSendS_ne_rsRecvS (a b : Dev nD) : rsSendS a ≠ rsRecvS b := fun h => by
  have h' : 2 + a.val = 18 + b.val := congrArg Fin.val h
  have ha : a.val < 16 := a.isLt
  have hb : b.val < 16 := b.isLt
  omega
theorem rsSendS_ne_agSendS (a b : Dev nD) : rsSendS a ≠ agSendS b := fun h => by
  have h' : 2 + a.val = 34 + b.val := congrArg Fin.val h
  have ha : a.val < 16 := a.isLt
  have hb : b.val < 16 := b.isLt
  omega
theorem rsSendS_ne_agRecvS (a b : Dev nD) : rsSendS a ≠ agRecvS b := fun h => by
  have h' : 2 + a.val = 50 + b.val := congrArg Fin.val h
  have ha : a.val < 16 := a.isLt
  have hb : b.val < 16 := b.isLt
  omega
theorem rsRecvS_ne_agSendS (a b : Dev nD) : rsRecvS a ≠ agSendS b := fun h => by
  have h' : 18 + a.val = 34 + b.val := congrArg Fin.val h
  have ha : a.val < 16 := a.isLt
  have hb : b.val < 16 := b.isLt
  omega
theorem rsRecvS_ne_agRecvS (a b : Dev nD) : rsRecvS a ≠ agRecvS b := fun h => by
  have h' : 18 + a.val = 50 + b.val := congrArg Fin.val h
  have ha : a.val < 16 := a.isLt
  have hb : b.val < 16 := b.isLt
  omega
theorem agSendS_ne_agRecvS (a b : Dev nD) : agSendS a ≠ agRecvS b := fun h => by
  have h' : 34 + a.val = 50 + b.val := congrArg Fin.val h
  have ha : a.val < 16 := a.isLt
  have hb : b.val < 16 := b.isLt
  omega
theorem rsSendS_ne_sem0 (a : Dev nD) : rsSendS a ≠ cc0_sem0_0 := fun h => by
  have h' : 2 + a.val = 0 := congrArg Fin.val h
  omega
theorem rsSendS_ne_sem1 (a : Dev nD) : rsSendS a ≠ cc0_sem1_0 := fun h => by
  have h' : 2 + a.val = 1 := congrArg Fin.val h
  omega
theorem rsRecvS_ne_sem0 (a : Dev nD) : rsRecvS a ≠ cc0_sem0_0 := fun h => by
  have h' : 18 + a.val = 0 := congrArg Fin.val h
  omega
theorem rsRecvS_ne_sem1 (a : Dev nD) : rsRecvS a ≠ cc0_sem1_0 := fun h => by
  have h' : 18 + a.val = 1 := congrArg Fin.val h
  omega
theorem agSendS_ne_sem0 (a : Dev nD) : agSendS a ≠ cc0_sem0_0 := fun h => by
  have h' : 34 + a.val = 0 := congrArg Fin.val h
  omega
theorem agSendS_ne_sem1 (a : Dev nD) : agSendS a ≠ cc0_sem1_0 := fun h => by
  have h' : 34 + a.val = 1 := congrArg Fin.val h
  omega
theorem agRecvS_ne_sem0 (a : Dev nD) : agRecvS a ≠ cc0_sem0_0 := fun h => by
  have h' : 50 + a.val = 0 := congrArg Fin.val h
  omega
theorem agRecvS_ne_sem1 (a : Dev nD) : agRecvS a ≠ cc0_sem1_0 := fun h => by
  have h' : 50 + a.val = 1 := congrArg Fin.val h
  omega

/-! ## The device chains: each printed peer id is a forward shift

The first fifteen address the barrier's signals, the next fifteen the first round of transfers, the last
fifteen the second round: the `N`-th is `(c + ((N - 1) mod 15) + 1) mod 16`. -/

theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 3 := by revert c; decide +kernel
theorem dev5_eq (c : Dev nD) : (⟨k0_dev5 c, k0_dev5_lt c⟩ : Dev nD) = fwd c 4 := by revert c; decide +kernel
theorem dev6_eq (c : Dev nD) : (⟨k0_dev6 c, k0_dev6_lt c⟩ : Dev nD) = fwd c 5 := by revert c; decide +kernel
theorem dev7_eq (c : Dev nD) : (⟨k0_dev7 c, k0_dev7_lt c⟩ : Dev nD) = fwd c 6 := by revert c; decide +kernel
theorem dev8_eq (c : Dev nD) : (⟨k0_dev8 c, k0_dev8_lt c⟩ : Dev nD) = fwd c 7 := by revert c; decide +kernel
theorem dev9_eq (c : Dev nD) : (⟨k0_dev9 c, k0_dev9_lt c⟩ : Dev nD) = fwd c 8 := by revert c; decide +kernel
theorem dev10_eq (c : Dev nD) : (⟨k0_dev10 c, k0_dev10_lt c⟩ : Dev nD) = fwd c 9 := by revert c; decide +kernel
theorem dev11_eq (c : Dev nD) : (⟨k0_dev11 c, k0_dev11_lt c⟩ : Dev nD) = fwd c 10 := by revert c; decide +kernel
theorem dev12_eq (c : Dev nD) : (⟨k0_dev12 c, k0_dev12_lt c⟩ : Dev nD) = fwd c 11 := by revert c; decide +kernel
theorem dev13_eq (c : Dev nD) : (⟨k0_dev13 c, k0_dev13_lt c⟩ : Dev nD) = fwd c 12 := by revert c; decide +kernel
theorem dev14_eq (c : Dev nD) : (⟨k0_dev14 c, k0_dev14_lt c⟩ : Dev nD) = fwd c 13 := by revert c; decide +kernel
theorem dev15_eq (c : Dev nD) : (⟨k0_dev15 c, k0_dev15_lt c⟩ : Dev nD) = fwd c 14 := by revert c; decide +kernel
theorem dev16_eq (c : Dev nD) : (⟨k0_dev16 c, k0_dev16_lt c⟩ : Dev nD) = fwd c 0 := by revert c; decide +kernel
theorem dev17_eq (c : Dev nD) : (⟨k0_dev17 c, k0_dev17_lt c⟩ : Dev nD) = fwd c 1 := by revert c; decide +kernel
theorem dev18_eq (c : Dev nD) : (⟨k0_dev18 c, k0_dev18_lt c⟩ : Dev nD) = fwd c 2 := by revert c; decide +kernel
theorem dev19_eq (c : Dev nD) : (⟨k0_dev19 c, k0_dev19_lt c⟩ : Dev nD) = fwd c 3 := by revert c; decide +kernel
theorem dev20_eq (c : Dev nD) : (⟨k0_dev20 c, k0_dev20_lt c⟩ : Dev nD) = fwd c 4 := by revert c; decide +kernel
theorem dev21_eq (c : Dev nD) : (⟨k0_dev21 c, k0_dev21_lt c⟩ : Dev nD) = fwd c 5 := by revert c; decide +kernel
theorem dev22_eq (c : Dev nD) : (⟨k0_dev22 c, k0_dev22_lt c⟩ : Dev nD) = fwd c 6 := by revert c; decide +kernel
theorem dev23_eq (c : Dev nD) : (⟨k0_dev23 c, k0_dev23_lt c⟩ : Dev nD) = fwd c 7 := by revert c; decide +kernel
theorem dev24_eq (c : Dev nD) : (⟨k0_dev24 c, k0_dev24_lt c⟩ : Dev nD) = fwd c 8 := by revert c; decide +kernel
theorem dev25_eq (c : Dev nD) : (⟨k0_dev25 c, k0_dev25_lt c⟩ : Dev nD) = fwd c 9 := by revert c; decide +kernel
theorem dev26_eq (c : Dev nD) : (⟨k0_dev26 c, k0_dev26_lt c⟩ : Dev nD) = fwd c 10 := by revert c; decide +kernel
theorem dev27_eq (c : Dev nD) : (⟨k0_dev27 c, k0_dev27_lt c⟩ : Dev nD) = fwd c 11 := by revert c; decide +kernel
theorem dev28_eq (c : Dev nD) : (⟨k0_dev28 c, k0_dev28_lt c⟩ : Dev nD) = fwd c 12 := by revert c; decide +kernel
theorem dev29_eq (c : Dev nD) : (⟨k0_dev29 c, k0_dev29_lt c⟩ : Dev nD) = fwd c 13 := by revert c; decide +kernel
theorem dev30_eq (c : Dev nD) : (⟨k0_dev30 c, k0_dev30_lt c⟩ : Dev nD) = fwd c 14 := by revert c; decide +kernel
theorem dev31_eq (c : Dev nD) : (⟨k0_dev31 c, k0_dev31_lt c⟩ : Dev nD) = fwd c 0 := by revert c; decide +kernel
theorem dev32_eq (c : Dev nD) : (⟨k0_dev32 c, k0_dev32_lt c⟩ : Dev nD) = fwd c 1 := by revert c; decide +kernel
theorem dev33_eq (c : Dev nD) : (⟨k0_dev33 c, k0_dev33_lt c⟩ : Dev nD) = fwd c 2 := by revert c; decide +kernel
theorem dev34_eq (c : Dev nD) : (⟨k0_dev34 c, k0_dev34_lt c⟩ : Dev nD) = fwd c 3 := by revert c; decide +kernel
theorem dev35_eq (c : Dev nD) : (⟨k0_dev35 c, k0_dev35_lt c⟩ : Dev nD) = fwd c 4 := by revert c; decide +kernel
theorem dev36_eq (c : Dev nD) : (⟨k0_dev36 c, k0_dev36_lt c⟩ : Dev nD) = fwd c 5 := by revert c; decide +kernel
theorem dev37_eq (c : Dev nD) : (⟨k0_dev37 c, k0_dev37_lt c⟩ : Dev nD) = fwd c 6 := by revert c; decide +kernel
theorem dev38_eq (c : Dev nD) : (⟨k0_dev38 c, k0_dev38_lt c⟩ : Dev nD) = fwd c 7 := by revert c; decide +kernel
theorem dev39_eq (c : Dev nD) : (⟨k0_dev39 c, k0_dev39_lt c⟩ : Dev nD) = fwd c 8 := by revert c; decide +kernel
theorem dev40_eq (c : Dev nD) : (⟨k0_dev40 c, k0_dev40_lt c⟩ : Dev nD) = fwd c 9 := by revert c; decide +kernel
theorem dev41_eq (c : Dev nD) : (⟨k0_dev41 c, k0_dev41_lt c⟩ : Dev nD) = fwd c 10 := by revert c; decide +kernel
theorem dev42_eq (c : Dev nD) : (⟨k0_dev42 c, k0_dev42_lt c⟩ : Dev nD) = fwd c 11 := by revert c; decide +kernel
theorem dev43_eq (c : Dev nD) : (⟨k0_dev43 c, k0_dev43_lt c⟩ : Dev nD) = fwd c 12 := by revert c; decide +kernel
theorem dev44_eq (c : Dev nD) : (⟨k0_dev44 c, k0_dev44_lt c⟩ : Dev nD) = fwd c 13 := by revert c; decide +kernel
theorem dev45_eq (c : Dev nD) : (⟨k0_dev45 c, k0_dev45_lt c⟩ : Dev nD) = fwd c 14 := by revert c; decide +kernel

/-! ## The offset chains: the printed row and cell offsets are those of the shifted peer -/

/-- The cell of the peer `r + 1` ahead. -/
theorem off1_eq : ∀ d0 : Dev nD, ∀ r : Fin 15, k0_off1 d0 (BitVec.ofNat 32 (1 + r.val)) = ![(fwd d0 r).val] := by decide +kernel
/-- The thirty-two rows of the peer `r + 1` ahead. -/
theorem off4_eq : ∀ d0 : Dev nD, ∀ r : Fin 15, k0_off4 d0 (BitVec.ofNat 32 (1 + r.val)) = ![32 * (fwd d0 r).val, 0] := by decide +kernel
/-- The cell of the peer `r + 1` behind. -/
theorem off6_eq : ∀ d0 : Dev nD, ∀ r : Fin 15, k0_off6 d0 (BitVec.ofNat 32 (1 + r.val)) = ![(bwd d0 r).val] := by decide +kernel
/-- The thirty-two rows of the peer `r + 1` behind. -/
theorem off7_eq : ∀ d0 : Dev nD, ∀ r : Fin 15, k0_off7 d0 (BitVec.ofNat 32 (1 + r.val)) = ![32 * (bwd d0 r).val, 0] := by decide +kernel
theorem off8_eq : ∀ d0 : Dev nD, ∀ r : Fin 15, k0_off8 d0 (BitVec.ofNat 32 (1 + r.val)) = ![32 * (bwd d0 r).val, 0] := by decide +kernel

/-! ## The semaphore slices: the cell a printed slice names is the peer's cell of its run

A slice of one cell of a run of sixteen, squeezed to rank zero, names the cell at the run's base plus the
offset; the offset is the shifted peer's index (or the device's own). -/

/-- First round, sending side: the cell of the peer `r + 1` ahead. -/
theorem sem_off1_rs : ∀ d0 : Dev nD, ∀ r : Fin 15,
    ((cc0_scratch3.slice (Rect.unit (s := S16) (k0_off1 d0 (BitVec.ofNat 32 (1 + r.val))) S1.size (k0_off1_inb d0 r))).squeeze S_ squeezes_S1_S_).sem = rsSendS (fwd d0 r) := by
  decide +kernel
/-- Second round, sending side: the cell of the peer `r + 1` ahead. -/
theorem sem_off1_ag : ∀ d0 : Dev nD, ∀ r : Fin 15,
    ((cc0_scratch5.slice (Rect.unit (s := S16) (k0_off1 d0 (BitVec.ofNat 32 (1 + r.val))) S1.size (k0_off1_inb d0 r))).squeeze S_ squeezes_S1_S_).sem = agSendS (fwd d0 r) := by
  decide +kernel
/-- First round, receiving side: the device's own cell. -/
theorem sem_off2_rs : ∀ d0 : Dev nD,
    ((cc0_scratch4.slice (Rect.unit (s := S16) (k0_off2 d0) S1.size (k0_off2_inb d0))).squeeze S_ squeezes_S1_S_).sem = rsRecvS d0 := by
  decide +kernel
/-- Second round, receiving side: the device's own cell. -/
theorem sem_off2_ag : ∀ d0 : Dev nD,
    ((cc0_scratch6.slice (Rect.unit (s := S16) (k0_off2 d0) S1.size (k0_off2_inb d0))).squeeze S_ squeezes_S1_S_).sem = agRecvS d0 := by
  decide +kernel
/-- First round, receiving side: the cell of the peer `r + 1` behind. -/
theorem sem_off6_rs : ∀ d0 : Dev nD, ∀ r : Fin 15,
    ((cc0_scratch4.slice (Rect.unit (s := S16) (k0_off6 d0 (BitVec.ofNat 32 (1 + r.val))) S1.size (k0_off6_inb d0 r))).squeeze S_ squeezes_S1_S_).sem = rsRecvS (bwd d0 r) := by
  decide +kernel
/-- Second round, receiving side: the cell of the peer `r + 1` behind. -/
theorem sem_off6_ag : ∀ d0 : Dev nD, ∀ r : Fin 15,
    ((cc0_scratch6.slice (Rect.unit (s := S16) (k0_off6 d0 (BitVec.ofNat 32 (1 + r.val))) S1.size (k0_off6_inb d0 r))).squeeze S_ squeezes_S1_S_).sem = agRecvS (bwd d0 r) := by
  decide +kernel

/-- info: 'Cert.KernelIdeal.AR.bwd_surj' depends on axioms: [propext, Quot.sound] -/
#guard_msgs in #print axioms bwd_surj
/-- info: 'Cert.KernelIdeal.AR.dev45_eq' depends on axioms: [propext, Quot.sound] -/
#guard_msgs in #print axioms dev45_eq
/-- info: 'Cert.KernelIdeal.AR.off8_eq' depends on axioms: [propext, Classical.choice, Quot.sound] -/
#guard_msgs in #print axioms off8_eq
/-- info: 'Cert.KernelIdeal.AR.sem_off6_ag' depends on axioms: [propext, Classical.choice, Quot.sound] -/
#guard_msgs in #print axioms sem_off6_ag

end Cert.KernelIdeal.AR
-- ==== Proof.Proto.lean ====
import proofs.«900416_g7700000000000417_dist_ar_v7x_i16_i_m512_n512_bf16_1_alg».proof.Proof.Arith
import proofs.«900416_g7700000000000417_dist_ar_v7x_i16_i_m512_n512_bf16_1_alg».proof.Proof.Gen.KernelIdeal.Skeleton
import proofs.«900416_g7700000000000417_dist_ar_v7x_i16_i_m512_n512_bf16_1_alg».proof.Proof.Gen.KernelIdeal.Launch
import proofs.«900416_g7700000000000417_dist_ar_v7x_i16_i_m512_n512_bf16_1_alg».proof.Proof.Gen.KernelIdeal.Points
import Idealize.ShloMosaic.Lib.Pipeline.Launch
import Idealize.ShloMosaic.Lib.Pipeline.Kit
import Idealize.ShloMosaic.Lib.Transfers
import Idealize.ShloMosaic.Lib.Tactic

/-!
# The all-reduce's protocol: cells, contents and the schedule of duties

Sixteen devices. Device `c` holds a block `x c` of 512 rows. It rounds the block to the narrow format (`xb c`), sends
rows `32 j … 32 j + 31` of it to device `j` (into rows `32 c …` of `j`'s receive buffer), adds the fifteen row blocks it
receives to its own rows `32 c …` of `x c`, rounds the sum (`red c`), and sends that to every device's result rows
`32 c …`. Every device ends with the result whose rows `32 j …` are `red j`.

A device's barrier cell has one duty per other device (its signal, which hands over the two row slots that device keeps
for the signaller); each of the four arrays of transfer semaphores has one cell per peer with one duty: the transfer
whose completion it counts.
-/

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Buffers, row blocks, cells -/

/-- The staged input block, the staged result, the rounded copy, the reduced rows, the receive buffer. -/
abbrev xM : Memref sig .tc .vmem S512x512 .f32 := Memref.whole cc0_stg0_0
abbrev oM : Memref sig .tc .vmem S512x512 .bf16 := Memref.whole cc0_stg1_0
abbrev bM : Memref sig .tc .vmem S512x512 .bf16 := Memref.whole cc0_scratch0
abbrev rM : Memref sig .tc .vmem S32x512 .bf16 := Memref.whole cc0_scratch1
abbrev sM : Memref sig .tc .vmem S512x512 .bf16 := Memref.whole cc0_scratch2

/-- Rows `32 j … 32 j + 31` of a 512-row buffer. -/
abbrev rows (j : Dev nD) : Rect S512x512 := Rect.unit (s := S512x512) (k0_off3 j) S32x512.size (k0_off3_inb j)

abbrev sRow (j : Dev nD) : Memref sig .tc .vmem S32x512 .bf16 := sM.slice (rows j) (fun _ => rfl)
abbrev oRow (j : Dev nD) : Memref sig .tc .vmem S32x512 .bf16 := oM.slice (rows j) (fun _ => rfl)
abbrev bRow (j : Dev nD) : Memref sig .tc .vmem S32x512 .bf16 := bM.slice (rows j) (fun _ => rfl)

abbrev barS : Sem sig := (SemArray.scalar (sig.barrier 0 rfl) : Sems sig S_).sem

abbrev barCell (c : Dev nD) : GSem nD τ sig := ((c : Thread nD τ), .reg barS)
abbrev rsSendCell (c j : Dev nD) : GSem nD τ sig := ((c : Thread nD τ), .dma (rsSendS j))
abbrev rsRecvCell (c j : Dev nD) : GSem nD τ sig := ((c : Thread nD τ), .dma (rsRecvS j))
abbrev agSendCell (c j : Dev nD) : GSem nD τ sig := ((c : Thread nD τ), .dma (agSendS j))
abbrev agRecvCell (c j : Dev nD) : GSem nD τ sig := ((c : Thread nD τ), .dma (agRecvS j))

/-- The units one transfer of a 32 × 512 narrow block puts on a semaphore. -/
abbrev NC : ℕ := (rM : Memref sig .tc .vmem S32x512 .bf16).view.dmaCredit
theorem NC_pos : 0 < NC := View.dmaCredit_pos _ (by decide)

/-! ## Contents -/

/-- Device `c`'s block as staged. -/
def xstg (c : Dev nD) : (cc0_stg0_0 : Ref sig .tc).ty.Contents (Elt F) :=
  (win0_0.blk (0 : Fin 1)).view.read (Elt F) (m ((c : Thread nD τ).loc main_arg0))

/-- The block rounded to the narrow format: what the rounded copy holds after the first store. -/
def xb (c : Dev nD) : (cc0_scratch0 : Ref sig .tc).ty.Contents (Elt F) := k0_pay1 (xstg m c)

/-- The device whose row block a row of a 512-row buffer belongs to. -/
def blkOf (i : S512x512.Idx) : Dev nD := ⟨(i 0).val / 32, by have h : (i 0).val < 512 := (i 0).isLt; show (i 0).val / 32 < 16; omega⟩

/-- Row `r` of device `c`'s block `c`-rows: index `(32 c + i₀ mod 32, i₁)`. -/
def rowIn (c : Dev nD) (i : S512x512.Idx) : S512x512.Idx := fun a => match a with
  | ⟨0, _⟩ => ⟨32 * c.val + (i 0).val % 32, by have hc : c.val < 16 := c.isLt; show 32 * c.val + (i 0).val % 32 < 512; omega⟩
  | ⟨1, _⟩ => ⟨(i 1).val, (i 1).isLt⟩

/-- What device `c`'s receive buffer holds once every peer's transfer has landed: rows `32 j …` are rows `32 c …` of `xb j`
    (rows `32 c …`, which nothing writes, are stated the same way and never owned at this value). -/
def RS (c : Dev nD) : (cc0_scratch2 : Ref sig .tc).ty.Contents (Elt F) := fun i => xb m (blkOf i) (rowIn c i)

/-- Device `c`'s own rows of its block, as the body loads them. -/
def xrow (c : Dev nD) : Vec F S32x512 .f32 :=
  (xM : Memref sig .tc .vmem S512x512 .f32).view.readAt (Elt F) (Rect.unit (s := S512x512) (k0_off5 c) S32x512.size (k0_off5_inb c)).toLoadRect (xstg m c)

/-- The rows received from the peer `r + 1` places behind, as the body loads them. -/
def rsVec (c : Dev nD) (r : Fin 15) : Vec F S32x512 .bf16 :=
  (sM : Memref sig .tc .vmem S512x512 .bf16).view.readAt (Elt F)
    (Rect.unit (s := S512x512) (k0_off8 c (BitVec.ofNat 32 (1 + r.val))) S32x512.size (k0_off8_inb c r)).toLoadRect (RS m c)

/-- The reduced rows of device `c`: its own rows plus the fifteen received, in the order the body adds them, rounded. -/
def red (c : Dev nD) : (cc0_scratch1 : Ref sig .tc).ty.Contents (Elt F) :=
  k0_pay12 (k0_pay11 (k0_pay10 (k0_pay9 (k0_pay8 (k0_pay7 (k0_pay6 (k0_pay5 (k0_pay4 (k0_pay3 (k0_pay2 (xrow m c) (rsVec m c 0))
    (rsVec m c 1)) (rsVec m c 2) (rsVec m c 3)) (rsVec m c 4)) (rsVec m c 5) (rsVec m c 6)) (rsVec m c 7)) (rsVec m c 8) (rsVec m c 9))
    (rsVec m c 10) (rsVec m c 11)) (rsVec m c 12)) (rsVec m c 13) (rsVec m c 14))

/-- The result every device ends with: rows `32 j …` are `red j`. -/
def OUT : (cc0_stg1_0 : Ref sig .tc).ty.Contents (Elt F) := fun i =>
  red m (blkOf i) (fun a => match a with
    | ⟨0, _⟩ => ⟨(i 0).val % 32, by show (i 0).val % 32 < 32; omega⟩
    | ⟨1, _⟩ => ⟨(i 1).val, (i 1).isLt⟩)

/-! ## What the duties hand over -/

/-- Device `d`'s signal hands device `c` the two row slots `d` keeps for `c`: rows `32 c …` of its receive buffer and of its
    staged result, at whatever they hold. -/
def barPay (c d : Dev nD) : sProp 𝕄 :=
  iprop((∃ f, (sRow c).view.loc (d : Thread nD τ) ↦[(sRow c).view.set]{fullShare} f)
    ∗ (∃ f, (oRow c).view.loc (d : Thread nD τ) ↦[(oRow c).view.set]{fullShare} f))

/-- The first transfer to `j`, read out: rows `32 j …` of the rounded copy come back. -/
def rsSendPay (c j : Dev nD) : sProp 𝕄 := (bRow j).view.loc (c : Thread nD τ) ↦[(bRow j).view.set]{fullShare} xb m c
/-- The first transfer from `j`, landed: rows `32 j …` of the receive buffer hold `j`'s rows `32 c …`. -/
def rsRecvPay (c j : Dev nD) : sProp 𝕄 := (sRow j).view.loc (c : Thread nD τ) ↦[(sRow j).view.set]{fullShare} RS m c
/-- The second transfer to `j`, read out: its read share of the reduced rows comes back. -/
def agSendPay (c j : Dev nD) : sProp 𝕄 :=
  (rM : Memref sig .tc .vmem S32x512 .bf16).view.loc (c : Thread nD τ) ↦[(rM : Memref sig .tc .vmem S32x512 .bf16).view.set]{Transfers.shareTok fullShare 15 (kf c j)} red m c
/-- The second transfer from `j`, landed: rows `32 j …` of the staged result hold `red j`. -/
def agRecvPay (c j : Dev nD) : sProp 𝕄 := (oRow j).view.loc (c : Thread nD τ) ↦[(oRow j).view.set]{fullShare} OUT m

/-! ## The schedule: one round -/

/-- Which of the four arrays a transfer semaphore of the kernel's own lies in, and its peer index. -/
def semArr (q : DmaSem sig) : ℕ := (q.val - 2) / 16
def semPeer (q : DmaSem sig) : Dev nD := ⟨(q.val - 2) % 16, Nat.mod_lt _ (by decide)⟩

def ringRd : Rounds.Schedule (GSem nD τ sig) (Dev nD) 𝕄 where
  duties g r := if r = 0 ∧ g.1.2 = .tc then
      (match g.2 with
        | .reg _ => Finset.univ.erase g.1.1
        | .dma q => if 2 ≤ q.val ∧ semPeer q ≠ g.1.1 then {semPeer q} else ∅)
    else ∅
  unitless _ := False
  amount g _ _ := match g.2 with
    | .reg _ => 1
    | .dma _ => NC
  payload g _ d := match g.2 with
    | .reg _ => barPay g.1.1 d
    | .dma q => if semArr q = 0 then rsSendPay m g.1.1 (semPeer q) else if semArr q = 1 then rsRecvPay m g.1.1 (semPeer q)
        else if semArr q = 2 then agSendPay m g.1.1 (semPeer q) else agRecvPay m g.1.1 (semPeer q)
  amount_pos g _ _ _ := by
    cases g.2 with
    | reg _ => exact Nat.one_pos
    | dma _ => exact NC_pos

instance ringRd_payload_storable (g : GSem nD τ sig) (r : ℕ) (d : Dev nD) :
    BI.Storable (upEmb : UEmb _ 𝕄) ((ringRd (F := F) m).payload g r d) := by
  obtain ⟨t, sm⟩ := g
  cases sm with
  | reg s => show BI.Storable upEmb (barPay t.1 d); unfold barPay; infer_instance
  | dma q =>
    show BI.Storable upEmb (if semArr q = 0 then rsSendPay m t.1 (semPeer q) else if semArr q = 1 then rsRecvPay m t.1 (semPeer q)
        else if semArr q = 2 then agSendPay m t.1 (semPeer q) else agRecvPay m t.1 (semPeer q))
    unfold rsSendPay rsRecvPay agSendPay agRecvPay
    (repeat' split) <;> infer_instance

/-! ### The tables -/

theorem semArr_rsSend (j : Dev nD) : semArr (rsSendS j) = 0 := by revert j; decide
theorem semArr_rsRecv (j : Dev nD) : semArr (rsRecvS j) = 1 := by revert j; decide
theorem semArr_agSend (j : Dev nD) : semArr (agSendS j) = 2 := by revert j; decide
theorem semArr_agRecv (j : Dev nD) : semArr (agRecvS j) = 3 := by revert j; decide
theorem semPeer_rsSend (j : Dev nD) : semPeer (rsSendS j) = j := by revert j; decide
theorem semPeer_rsRecv (j : Dev nD) : semPeer (rsRecvS j) = j := by revert j; decide
theorem semPeer_agSend (j : Dev nD) : semPeer (agSendS j) = j := by revert j; decide
theorem semPeer_agRecv (j : Dev nD) : semPeer (agRecvS j) = j := by revert j; decide
theorem two_le_rsSend (j : Dev nD) : 2 ≤ (rsSendS j).val := by revert j; decide
theorem two_le_rsRecv (j : Dev nD) : 2 ≤ (rsRecvS j).val := by revert j; decide
theorem two_le_agSend (j : Dev nD) : 2 ≤ (agSendS j).val := by revert j; decide
theorem two_le_agRecv (j : Dev nD) : 2 ≤ (agRecvS j).val := by revert j; decide

section Tables
variable (c j : Dev nD)

theorem duties_bar : (ringRd (F := F) m).duties (barCell c) 0 = Finset.univ.erase c := by
  dsimp only [ringRd]; exact if_pos ⟨rfl, rfl⟩
theorem duties_rsSend (h : j ≠ c) : (ringRd (F := F) m).duties (rsSendCell c j) 0 = {j} := by
  dsimp only [ringRd]; rw [if_pos ⟨rfl, rfl⟩, semPeer_rsSend, if_pos ⟨two_le_rsSend j, h⟩]
theorem duties_rsRecv (h : j ≠ c) : (ringRd (F := F) m).duties (rsRecvCell c j) 0 = {j} := by
  dsimp only [ringRd]; rw [if_pos ⟨rfl, rfl⟩, semPeer_rsRecv, if_pos ⟨two_le_rsRecv j, h⟩]
theorem duties_agSend (h : j ≠ c) : (ringRd (F := F) m).duties (agSendCell c j) 0 = {j} := by
  dsimp only [ringRd]; rw [if_pos ⟨rfl, rfl⟩, semPeer_agSend, if_pos ⟨two_le_agSend j, h⟩]
theorem duties_agRecv (h : j ≠ c) : (ringRd (F := F) m).duties (agRecvCell c j) 0 = {j} := by
  dsimp only [ringRd]; rw [if_pos ⟨rfl, rfl⟩, semPeer_agRecv, if_pos ⟨two_le_agRecv j, h⟩]
theorem duties_later (g : GSem nD τ sig) : ∀ r, 1 ≤ r → (ringRd (F := F) m).duties g r = ∅ :=
  fun r hr => by dsimp only [ringRd]; rw [if_neg fun h => by omega]

theorem amount_bar (d : Dev nD) : (ringRd (F := F) m).amount (barCell c) 0 d = 1 := rfl
theorem amount_dma (q : DmaSem sig) (d : Dev nD) : (ringRd (F := F) m).amount ((c : Thread nD τ), .dma q) 0 d = NC := rfl

theorem expect_bar : (ringRd (F := F) m).expect (barCell c) 0 = 15 := by
  unfold Schedule.expect Schedule.amountOf
  rw [duties_bar, Finset.sum_congr rfl fun d _ => amount_bar m c d, Finset.sum_const, Finset.card_erase_of_mem (Finset.mem_univ _), Finset.card_univ, Fintype.card_fin, smul_eq_mul]
  decide
theorem expect_rsSend (h : j ≠ c) : (ringRd (F := F) m).expect (rsSendCell c j) 0 = NC := by
  unfold Schedule.expect Schedule.amountOf; rw [duties_rsSend m c j h, Finset.sum_singleton, amount_dma]
theorem expect_rsRecv (h : j ≠ c) : (ringRd (F := F) m).expect (rsRecvCell c j) 0 = NC := by
  unfold Schedule.expect Schedule.amountOf; rw [duties_rsRecv m c j h, Finset.sum_singleton, amount_dma]
theorem expect_agSend (h : j ≠ c) : (ringRd (F := F) m).expect (agSendCell c j) 0 = NC := by
  unfold Schedule.expect Schedule.amountOf; rw [duties_agSend m c j h, Finset.sum_singleton, amount_dma]
theorem expect_agRecv (h : j ≠ c) : (ringRd (F := F) m).expect (agRecvCell c j) 0 = NC := by
  unfold Schedule.expect Schedule.amountOf; rw [duties_agRecv m c j h, Finset.sum_singleton, amount_dma]

theorem payload_bar (d : Dev nD) : (ringRd (F := F) m).payload (barCell c) 0 d = barPay c d := rfl
theorem payload_rsSend (d : Dev nD) : (ringRd (F := F) m).payload (rsSendCell c j) 0 d = rsSendPay m c j := by
  dsimp only [ringRd]; rw [if_pos (semArr_rsSend j), semPeer_rsSend]
theorem payload_rsRecv (d : Dev nD) : (ringRd (F := F) m).payload (rsRecvCell c j) 0 d = rsRecvPay m c j := by
  dsimp only [ringRd]; rw [if_neg (by rw [semArr_rsRecv]; decide), if_pos (semArr_rsRecv j), semPeer_rsRecv]
theorem payload_agSend (d : Dev nD) : (ringRd (F := F) m).payload (agSendCell c j) 0 d = agSendPay m c j := by
  dsimp only [ringRd]; rw [if_neg (by rw [semArr_agSend]; decide), if_neg (by rw [semArr_agSend]; decide), if_pos (semArr_agSend j), semPeer_agSend]
theorem payload_agRecv (d : Dev nD) : (ringRd (F := F) m).payload (agRecvCell c j) 0 d = agRecvPay m c j := by
  dsimp only [ringRd]
  rw [if_neg (by rw [semArr_agRecv]; decide), if_neg (by rw [semArr_agRecv]; decide), if_neg (by rw [semArr_agRecv]; decide), semPeer_agRecv]

/-- The barrier cell's round, no duty taken: every other device's two slots for `c`. -/
theorem rest_bar : bigSep ((ringRd (F := F) m).duties (barCell c) 0 \ ∅) (fun d => (ringRd (F := F) m).payload (barCell c) 0 d)
    = bigSep (Finset.univ.erase c) (fun d => barPay (F := F) c d) := by
  rw [Finset.sdiff_empty, duties_bar]; rfl
theorem rest_rsSend (h : j ≠ c) : bigSep ((ringRd (F := F) m).duties (rsSendCell c j) 0 \ ∅) (fun d => (ringRd (F := F) m).payload (rsSendCell c j) 0 d) = rsSendPay m c j := by
  rw [Finset.sdiff_empty, duties_rsSend m c j h, bigSep_singleton, payload_rsSend]
theorem rest_rsRecv (h : j ≠ c) : bigSep ((ringRd (F := F) m).duties (rsRecvCell c j) 0 \ ∅) (fun d => (ringRd (F := F) m).payload (rsRecvCell c j) 0 d) = rsRecvPay m c j := by
  rw [Finset.sdiff_empty, duties_rsRecv m c j h, bigSep_singleton, payload_rsRecv]
theorem rest_agSend (h : j ≠ c) : bigSep ((ringRd (F := F) m).duties (agSendCell c j) 0 \ ∅) (fun d => (ringRd (F := F) m).payload (agSendCell c j) 0 d) = agSendPay m c j := by
  rw [Finset.sdiff_empty, duties_agSend m c j h, bigSep_singleton, payload_agSend]
theorem rest_agRecv (h : j ≠ c) : bigSep ((ringRd (F := F) m).duties (agRecvCell c j) 0 \ ∅) (fun d => (ringRd (F := F) m).payload (agRecvCell c j) 0 d) = agRecvPay m c j := by
  rw [Finset.sdiff_empty, duties_agRecv m c j h, bigSep_singleton, payload_agRecv]

end Tables

end Cert.KernelIdeal.AR

end
-- ==== Proof.State.lean ====
/-
# What a device starts from, what it owes, and what its body must establish

The interface between the launch (which deals every device its share of the protocol's ghost state) and the body (which
spends it): the cells of a device by index, the tokens of the duties it pays, the credit it is dealt, what it owes and in
which order it pays, the waiting levels, and the pipeline's proof data with the body's pre- and postcondition.
-/
import proofs.«900416_g7700000000000417_dist_ar_v7x_i16_i_m512_n512_bf16_1_alg».proof.Proof.Proto

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## A device's cells by index: the barrier cell, then array `a` (first-round send, first-round receive, second-round
send, second-round receive) at peer index `j` -/

abbrev CK : Type := Option (Fin 4 × Dev nD)

def csem : CK → SemLoc sig
  | none => .reg barS
  | some (⟨0, _⟩, j) => .dma (rsSendS j)
  | some (⟨1, _⟩, j) => .dma (rsRecvS j)
  | some (⟨2, _⟩, j) => .dma (agSendS j)
  | some (⟨3, _⟩, j) => .dma (agRecvS j)
  | some (⟨_ + 4, h⟩, _) => absurd h (by omega)

abbrev kcell (ck : Dev nD × CK) : GSem nD τ sig := ((ck.1 : Thread nD τ), csem ck.2)

/-! ## The ghost state a device starts from -/

/-- Every cell's invariant, under the names the launch allocated them at, and that round 0 of every cell is reached. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records m K) := by unfold records; infer_instance

/-- The tokens of the duties device `c` pays, per shift `k` (peer `p = fwd c k`): its signal to `p`'s barrier; its first
    transfer to `p` landing (on `p`'s first-round receive cell `c`) and read out (on its own first-round send cell `p`); its second
    transfer to `p`, likewise. -/
def payToks (c : Dev nD) : sProp 𝕄 := bigSep Finset.univ fun k : Fin 15 =>
  iprop(dutyTok ER (barCell (fwd c k)) 0 c ∗ dutyTok ER (rsRecvCell (fwd c k) c) 0 c ∗ dutyTok ER (rsSendCell c (fwd c k)) 0 (fwd c k)
    ∗ dutyTok ER (agRecvCell (fwd c k) c) 0 c ∗ dutyTok ER (agSendCell c (fwd c k)) 0 (fwd c k))

/-- Device `c`'s positions: round 0 of every cell of its own, nothing taken. -/
def positions (c : Dev nD) : sProp 𝕄 := bigSep Finset.univ fun k : CK => atPos ER (kcell (c, k)) 0 ∅ 0

def ghost (K : Dev nD × CK → ℕ) (c : Dev nD) : sProp 𝕄 := iprop(records m K ∗ positions (F := F) c ∗ payToks (F := F) c)

/-- The credit a device is dealt: its barrier's fifteen units, and one transfer's units on each receive cell. -/
def creds (c : Dev nD) : sProp 𝕄 :=
  iprop(cred (tallyAt (barCell c) () 15)
    ∗ bigSep Finset.univ fun k : Fin 15 => iprop(cred (tallyAt (rsRecvCell c (bwd c k)) () NC) ∗ cred (tallyAt (agRecvCell c (bwd c k)) () NC)))

/-! ## What a device owes, in the order it pays: the signals, the first transfers' landings, the second transfers' landings;
`n` of a family paid leaves the shifts `k ≥ n` -/

def Osig (c : Dev nD) (n : ℕ) : CellTallies nD τ sig Unit :=
  ∑ k ∈ Finset.univ.filter (fun k : Fin 15 => n ≤ k.val), tallyAt (barCell (fwd c k)) () 1
def Ors (c : Dev nD) (n : ℕ) : CellTallies nD τ sig Unit :=
  ∑ k ∈ Finset.univ.filter (fun k : Fin 15 => n ≤ k.val), tallyAt (rsRecvCell (fwd c k) c) () NC
def Oag (c : Dev nD) (n : ℕ) : CellTallies nD τ sig Unit :=
  ∑ k ∈ Finset.univ.filter (fun k : Fin 15 => n ≤ k.val), tallyAt (agRecvCell (fwd c k) c) () NC

def O₀ (c : Dev nD) : CellTallies nD τ sig Unit := Oag c 0 + Ors c 0 + Osig c 0

/-! ## Levels: barrier cells below first-round receive cells below second-round receive cells; the rest (staging, sends)
at the bottom -/

def L (g : GSem nD τ sig) : Finset Unit := if g.1.2 = .tc then {()} else ∅
def lv (g : GSem nD τ sig) (_ : Unit) : ℕ := match g.2 with
  | .reg _ => 1
  | .dma q => if 2 ≤ q.val ∧ semArr q = 1 then 2 else if 2 ≤ q.val ∧ semArr q = 3 then 3 else 0

/-! ## The pipeline's proof data -/

/-- What device `c`'s body starts from besides the staged windows. -/
def start (c : Dev nD) : sProp 𝕄 := iprop((∃ K, ghost m K c) ∗ creds (F := F) c ∗ levAts L lv)

/-- The three scratch buffers, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scr (F := F) c)
/-- After the point: the scratch buffers whole again, the sixty-four transfer semaphores at zero, their cells closed. -/
def Φ₁ (c : Dev nD) : sProp 𝕄 :=
  iprop(scr (F := F) c ∗ bigSep Finset.univ fun k : Fin 4 × Dev nD => semVal (kcell (c, some k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => OUT m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition: the invariant at the point's start, what the device owes, the two staged windows. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- Its postcondition: the invariant after the point, nothing owed, the input window as it was, the result window at `OUT`. -/
def bodyPost (c : Dev nD) : sProp 𝕄 :=
  iprop(Φ₁ (F := F) c ∗ (dats m ρ 0 c).owesAt () t0_0.succ ∗ stg c cc0_stg0_0 (xstg m c) ∗ stg c cc0_stg1_0 (OUT m))

/-- THE BODY'S OBLIGATION, as the launch takes it: one device's body, from `bodyPre` to `bodyPost`. -/
def BodyHolds : Prop := ∀ c : Dev nD,
  bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)

end Cert.KernelIdeal.AR

end
-- ==== Proof.Launch.lean ====
/-
# The launch: from every device's body to the run of the whole mesh

Every device's sixty-five cells and the tokens of the duties it pays are minted in one element; the cells' invariants are
allocated for all devices under one update (a barrier cell is paid by every other device, so no device can allocate its
own alone); the credit a device is dealt at launch is what the other devices owe its cells, summed over the payers (the
payers of `c`'s cells are the devices `bwd c k`); everything a device owes sits at a level above the staging cells.
Given the body's obligation on every device, every fair execution of the program terminates, with each device's
argument array as it was and its result array at `OUT`.
-/
import proofs.«900416_g7700000000000417_dist_ar_v7x_i16_i_m512_n512_bf16_1_alg».proof.Proof.State
import proofs.«900416_g7700000000000417_dist_ar_v7x_i16_i_m512_n512_bf16_1_alg».proof.Proof.Gen.KernelIdeal.Frame
import Idealize.ShloMosaic.Lib.Pipeline.Launch
import Idealize.ShloMosaic.Lib.Pipeline.Kit

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the body's obligation in the form the launch takes it -/

/-- The sixty-four transfer semaphores, scoped to the kernel. -/
abbrev osem : Fin 4 × Dev nD → SemLoc sig := fun k => csem (some k)

theorem csem_injective : Function.Injective csem := by decide +kernel

theorem ownSemFacts : Pipeline.OwnSemFacts cfg0.spec osem := by decide +kernel

theorem share_eq (c : Dev nD) (w : Fin cfg0.W) : (dats m ρ 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- One device's body, from the invariant at the point's start and the staged windows to the invariant after it. -/
theorem body_obligation (hb : BodyHolds m ρ) (c : Dev nD) : BodyObligation (dats (F := F) m ρ 0 c) (defs₀ (F := F)) 𝒱₀ () Set.univ := fun t => by
  rw [fin_N0 t]
  rw [bigSep_W0, bigSep_W0]
  simp only [owns_whole_eq]
  exact hb c

/-! ## The protocol's launch element: every device's sixty-five cells, and the duties' tokens grouped by the paying device -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The five duties device `x.1` pays towards the peer `x.2.1 + 1` places ahead, as (cell, round, duty). -/
def tokOf (x : Dev nD × Fin 15 × Fin 5) : GSem nD τ sig × ℕ × Dev nD :=
  match x.2.2 with
  | 0 => (barCell (fwd x.1 x.2.1), 0, x.1)
  | 1 => (rsRecvCell (fwd x.1 x.2.1) x.1, 0, x.1)
  | 2 => (rsSendCell x.1 (fwd x.1 x.2.1), 0, fwd x.1 x.2.1)
  | 3 => (agRecvCell (fwd x.1 x.2.1) x.1, 0, x.1)
  | 4 => (agSendCell x.1 (fwd x.1 x.2.1), 0, fwd x.1 x.2.1)

/-- The payer, the shift and the kind of duty read back off a token. -/
def tokInv (y : GSem nD τ sig × ℕ × Dev nD) : Dev nD × Fin 15 × Fin 5 :=
  match y.1.2 with
  | .reg _ => (y.2.2, kf y.2.2 y.1.1.1, 0)
  | .dma q =>
    if semArr q = 0 then (y.1.1.1, kf y.1.1.1 (semPeer q), 2)
    else if semArr q = 1 then (semPeer q, kf (semPeer q) y.1.1.1, 1)
    else if semArr q = 2 then (y.1.1.1, kf y.1.1.1 (semPeer q), 4)
    else (semPeer q, kf (semPeer q) y.1.1.1, 3)

theorem tokInv_tokOf : ∀ x : Dev nD × Fin 15 × Fin 5, tokInv (tokOf x) = x := by decide +kernel

theorem tokOf_injective : Function.Injective tokOf := fun a b h => by
  rw [← tokInv_tokOf a, ← tokInv_tokOf b, h]
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- What the launch element deals device `c`: the round state of its cells, its positions and reached-marks, and the
    tokens of the duties it pays. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ payToks (F := F) c)

/-- What the global step makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks (F := F) c := by
    unfold ringToks; rw [bigSep_map, bigSep_univ_prod]
    refine bigSep_congr fun c _ => ?_
    unfold payToks; rw [bigSep_univ_prod]
    exact bigSep_congr fun k _ => by rw [bigSep_fin5]; rfl
  iintro HX
  imod (Rounds.fund ER (ringRd (F := F) m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the records shared, each device its ghost state -/

/-- A device's cells one by one: the barrier cell, then the sixty-four transfer cells. -/
theorem bigSep_CK (Φ : CK → sProp 𝕄) :
    bigSep Finset.univ Φ = iprop(Φ none ∗ bigSep Finset.univ fun k : Fin 4 × Dev nD => Φ (some k)) := by
  have h : (Finset.univ.erase (none : CK)) = Finset.univ.map Function.Embedding.some := by
    ext k; cases k <;> simp
  rw [bigSep_univ_at Φ none, h, bigSep_map]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ payToks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k : CK => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions (F := F) c ∗ payToks (F := F) c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ payToks (F := F) c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the devices owe a device's cells, summed over the payers, is what its own waits are credited -/

/-- The shift by `k + 1` places as a permutation of the devices. -/
def shiftEquiv (k : Fin 15) : Dev nD ≃ Dev nD := ⟨fun d => fwd d k, fun c => bwd c k, fun d => bwd_fwd d k, fun c => fwd_bwd c k⟩

/-- A device's own credit: its barrier's fifteen units, and one transfer's units on each receive cell. -/
def T₀ (c : Dev nD) : CellTallies nD τ sig Unit :=
  tallyAt (barCell c) () 15 + ∑ k : Fin 15, (tallyAt (rsRecvCell c (bwd c k)) () NC + tallyAt (agRecvCell c (bwd c k)) () NC)

theorem filter_zero_le : (Finset.univ.filter fun k : Fin 15 => 0 ≤ k.val) = Finset.univ :=
  Finset.filter_true_of_mem fun _ _ => Nat.zero_le _

/-- Summed over the payers `d` and the shifts, a due on a cell of `fwd d k` is a due on a cell of `c` from `bwd c k`. -/
theorem sum_shift (f : Dev nD → Dev nD → CellTallies nD τ sig Unit) :
    ∑ d : Dev nD, ∑ k : Fin 15, f (fwd d k) d = ∑ c : Dev nD, ∑ k : Fin 15, f c (bwd c k) := by
  have h (k : Fin 15) : ∑ d : Dev nD, f (fwd d k) d = ∑ c : Dev nD, f c (bwd c k) := by
    rw [← Equiv.sum_comp (shiftEquiv k) (fun c => f c (bwd c k))]
    exact Finset.sum_congr rfl fun d _ => by
      show f (fwd d k) d = f (fwd d k) (bwd (fwd d k) k)
      rw [bwd_fwd]
  rw [Finset.sum_comm, Finset.sum_congr rfl fun k _ => h k, Finset.sum_comm]

theorem nsmul_tallyAt (g : GSem nD τ sig) (n a : ℕ) : n • (tallyAt g () a : CellTallies nD τ sig Unit) = tallyAt g () (n * a) := by
  induction n with
  | zero => rw [zero_smul, Nat.zero_mul, tallyAt_zero]
  | succ n ih => rw [succ_nsmul, ih, tallyAt_add, Nat.succ_mul]

theorem owed_sum : (∑ d : Dev nD, O₀ d) = ∑ d : Dev nD, T₀ d := by
  have hb (c : Dev nD) : ∑ k : Fin 15, (tallyAt (barCell c) () 1 : CellTallies nD τ sig Unit) = tallyAt (barCell c) () 15 := by
    rw [Finset.sum_const, Finset.card_univ, Fintype.card_fin, nsmul_tallyAt]
  unfold O₀ Oag Ors Osig T₀
  simp only [filter_zero_le, Finset.sum_add_distrib]
  rw [sum_shift (fun c d => tallyAt (agRecvCell c d) () NC), sum_shift (fun c d => tallyAt (rsRecvCell c d) () NC),
    sum_shift (fun c _ => tallyAt (barCell c) () 1), Finset.sum_congr rfl fun c _ => hb c, add_comm]
  exact congrArg _ (add_comm _ _)

theorem T₀_own (d : Dev nD) (g : GSem nD τ sig) (h : T₀ d g ≠ 0) : g.1 = (d : Thread nD τ) := by
  by_contra hne
  apply h
  unfold T₀
  rw [Pi.add_apply, Finset.sum_apply, tallyAt_ne_cell (fun e => hne (by rw [e])), zero_add]
  refine Finset.sum_eq_zero fun k _ => ?_
  rw [Pi.add_apply, tallyAt_ne_cell (fun e => hne (by rw [e])), tallyAt_ne_cell (fun e => hne (by rw [e])), add_zero]

theorem creds_intro (c : Dev nD) : (Pipeline.launchCred O₀ c : sProp 𝕄) ⊢ creds (F := F) c := by
  rw [Pipeline.launchCred_of_sum O₀ T₀ owed_sum T₀_own c]
  unfold T₀ creds
  refine (cred_add _ _).1.trans (sep_mono_right ?_)
  rw [Pipeline.cred_finsetSum]
  exact bigSep_mono fun k _ => (cred_add _ _).1

/-! ## The levels: everything a device owes sits above the staging cells -/

theorem L_of_ne (g : GSem nD τ sig) (h : g.1.2 ≠ .tc) : L g = ∅ := if_neg h
theorem L_dev (c : Dev nD) (sm : SemLoc sig) : L ((c : Thread nD τ), sm) = {()} := if_pos rfl

theorem lvl_bar (d : Dev nD) (u : Unit) : lv (barCell d) u = 1 := rfl
theorem lvl_rsRecv (d j : Dev nD) (u : Unit) : lv (rsRecvCell d j) u = 2 := by
  show (if 2 ≤ (rsRecvS j).val ∧ semArr (rsRecvS j) = 1 then 2 else if 2 ≤ (rsRecvS j).val ∧ semArr (rsRecvS j) = 3 then 3 else 0) = 2
  rw [if_pos ⟨two_le_rsRecv j, semArr_rsRecv j⟩]
theorem lvl_agRecv (d j : Dev nD) (u : Unit) : lv (agRecvCell d j) u = 3 := by
  show (if 2 ≤ (agRecvS j).val ∧ semArr (agRecvS j) = 1 then 2 else if 2 ≤ (agRecvS j).val ∧ semArr (agRecvS j) = 3 then 3 else 0) = 3
  rw [if_neg (fun h => by have h2 := h.2; rw [semArr_agRecv] at h2; exact absurd h2 (by decide)), if_pos ⟨two_le_agRecv j, semArr_agRecv j⟩]

/-- Whatever a device owes at launch is owed to a TensorCore's cell at a positive level. -/
theorem lv_pos_of_owed {c : Dev nD} {g : GSem nD τ sig} {u : Unit} (h : 0 < O₀ c g u) : u ∈ L g ∧ 0 < lv g u := by
  unfold O₀ at h
  rcases Pipeline.add_pos_cases h with h | h
  · rcases Pipeline.add_pos_cases h with h | h
    · unfold Oag at h
      obtain ⟨k, -, hk⟩ := Pipeline.sum_pos_exists h
      obtain ⟨rfl, -⟩ := Pipeline.tallyAt_pos hk
      exact ⟨by rw [L_dev]; exact Finset.mem_singleton_self _, by rw [lvl_agRecv]; decide⟩
    · unfold Ors at h
      obtain ⟨k, -, hk⟩ := Pipeline.sum_pos_exists h
      obtain ⟨rfl, -⟩ := Pipeline.tallyAt_pos hk
      exact ⟨by rw [L_dev]; exact Finset.mem_singleton_self _, by rw [lvl_rsRecv]; decide⟩
  · unfold Osig at h
    obtain ⟨k, -, hk⟩ := Pipeline.sum_pos_exists h
    obtain ⟨rfl, -⟩ := Pipeline.tallyAt_pos hk
    exact ⟨by rw [L_dev]; exact Finset.mem_singleton_self _, by rw [lvl_bar]; decide⟩

/-- A staging cell sits at level 0: a device may wait on it whatever it still owes. -/
theorem mayWait_stage (c : Dev nD) (q : DmaSem sig) (hq : ¬ 2 ≤ q.val) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_dev]; exact Finset.mem_singleton_self _) fun g i hg => ?_
    obtain ⟨h1, h2⟩ := lv_pos_of_owed hg
    refine ⟨h1, ?_⟩
    have h0 : lv ((c : Thread nD τ), .dma q) () = 0 := by
      show (if 2 ≤ q.val ∧ semArr q = 1 then 2 else if 2 ≤ q.val ∧ semArr q = 3 then 3 else 0) = 0
      rw [if_neg (fun h => hq h.1), if_neg (fun h => hq h.1)]
    rw [h0]; exact h2
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## What a device holds when its body starts, and what it hands back when its body ends -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ scr Pipeline.ownSems0
  iintro ⟨Hr, Hz⟩
  isplitr; · iempintro
  isplitl [Hz]; · iexact Hz
  iexact Hr

/-! ## The run -/

/-- A windowed array's final contents on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, given the body's
    obligation on every device: every weakly fair execution of the program terminates, and every final state has each
    device's argument array as it was and its result array at the all-reduced contents. -/
theorem run_main (hb : BodyHolds m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hb) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run: the one write-back, of the whole block, leaves what the body left staged. -/
theorem finalA_out (c : Dev nD) : finalA m ρ c (1 : Fin 2) = OUT m := by
  have hw : ((cfg0.win (1 : Fin 2)).blk t0_0).view.read (Elt F) (finalA m ρ c (1 : Fin 2)) = (dats m ρ 0 c).flushed (1 : Fin 2) t0_0 := by
    unfold finalA
    rw [show cfg0.N = t0_0.val + 1 from rfl, (dats m ρ 0 c).arrAt_succ (1 : Fin 2) t0_0, flush0_1, if_pos rfl]
    exact View.read_write_univ _ _
  have hr : (win0_1.blk t0_0).view.read (Elt F) (finalA m ρ c (1 : Fin 2)) = finalA m ρ c (1 : Fin 2) :=
    Memref.read_access_unit_zero (Elt F) main_v1
      (show (fun a => (win0_1.index t0_0) a * main_v1.ty.shape.size a) = fun _ => 0 from funext fun a => by fin_cases a <;> decide)
      (fun a => by fin_cases a <;> decide) _
  have hf : (dats m ρ 0 c).flushed (1 : Fin 2) t0_0 = OUT m := rfl
  exact (hr.symm.trans hw).trans hf

/-- info: 'Cert.KernelIdeal.AR.run_main' depends on axioms: [propext, Classical.choice, Quot.sound] -/
#guard_msgs in #print axioms run_main
/-- info: 'Cert.KernelIdeal.AR.finalA_x' depends on axioms: [propext, Classical.choice, Quot.sound] -/
#guard_msgs in #print axioms finalA_x
/-- info: 'Cert.KernelIdeal.AR.finalA_out' depends on axioms: [propext, Classical.choice, Quot.sound] -/
#guard_msgs in #print axioms finalA_out

end Cert.KernelIdeal.AR

end
-- ==== Proof.Res.lean ====
/-
# The body's resources, by family and progress counter

Each loop of the body (fifteen signals, fifteen first transfers, fifteen receives, …) consumes one family of resources
shift by shift. A family at counter `n` holds the shifts `k ≥ n` still to do (`ge n`) or the results of the shifts
`k < n` done (`lt n`); one step moves one shift across.
-/
import proofs.«900416_g7700000000000417_dist_ar_v7x_i16_i_m512_n512_bf16_1_alg».proof.Proof.State

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Shifts still to do, shifts done -/

def ge (n : ℕ) : Finset (Fin 15) := Finset.univ.filter fun k => n ≤ k.val
def lt (n : ℕ) : Finset (Fin 15) := Finset.univ.filter fun k => k.val < n

theorem ge_peel (k : Fin 15) : ge k.val = insert k (ge (k.val + 1)) := by
  ext j; simp only [ge, Finset.mem_filter, Finset.mem_univ, true_and, Finset.mem_insert, Fin.ext_iff]; omega
theorem not_mem_ge_succ (k : Fin 15) : k ∉ ge (k.val + 1) := by
  simp only [ge, Finset.mem_filter, Finset.mem_univ, true_and]; omega
theorem lt_push (k : Fin 15) : lt (k.val + 1) = insert k (lt k.val) := by
  ext j; simp only [lt, Finset.mem_filter, Finset.mem_univ, true_and, Finset.mem_insert, Fin.ext_iff]; omega
theorem not_mem_lt (k : Fin 15) : k ∉ lt k.val := by
  simp only [lt, Finset.mem_filter, Finset.mem_univ, true_and]; omega
theorem ge_zero : ge 0 = Finset.univ := by ext j; simp [ge]
theorem ge_fifteen : ge 15 = ∅ := by ext j; simp only [ge, Finset.mem_filter, Finset.mem_univ, true_and, Finset.notMem_empty, iff_false]; omega
theorem lt_zero : lt 0 = ∅ := by ext j; simp [lt]
theorem lt_fifteen : lt 15 = Finset.univ := by ext j; simp only [lt, Finset.mem_filter, Finset.mem_univ, true_and, iff_true]; omega

/-- One shift taken off a family still to do. -/
theorem bigSep_ge_peel (Φ : Fin 15 → sProp 𝕄) (n : ℕ) (k : Fin 15) (n' : ℕ) (hn : n = k.val) (h : n' = k.val + 1) :
    bigSep (ge n) Φ = iprop(Φ k ∗ bigSep (ge n') Φ) := by
  subst hn; subst h; rw [ge_peel, bigSep_insert (not_mem_ge_succ k)]; rfl
/-- One shift added to a family done. -/
theorem bigSep_lt_push (Φ : Fin 15 → sProp 𝕄) (n : ℕ) (k : Fin 15) (n' : ℕ) (hn : n = k.val) (h : n' = k.val + 1) :
    bigSep (lt n') Φ = iprop(Φ k ∗ bigSep (lt n) Φ) := by
  subst hn; subst h; rw [lt_push, bigSep_insert (not_mem_lt k)]; rfl
theorem bigSep_ge_fifteen (Φ : Fin 15 → sProp 𝕄) : bigSep (ge 15) Φ = iprop(emp) := by rw [ge_fifteen, bigSep_empty]; rfl
theorem bigSep_lt_zero (Φ : Fin 15 → sProp 𝕄) : bigSep (lt 0) Φ = iprop(emp) := by rw [lt_zero, bigSep_empty]; rfl

/-! ## What a device owes, peeled in the order it pays -/

theorem Osig_peel (c : Dev nD) (n : ℕ) (k : Fin 15) (n' : ℕ) (hn : n = k.val) (h : n' = k.val + 1) :
    Osig c n = Osig c n' + tallyAt (barCell (fwd c k)) () 1 := by
  subst hn; subst h; unfold Osig; rw [show (Finset.univ.filter fun j : Fin 15 => k.val ≤ j.val) = ge k.val from rfl, ge_peel,
    Finset.sum_insert (not_mem_ge_succ k)]; exact add_comm _ _
theorem Ors_peel (c : Dev nD) (n : ℕ) (k : Fin 15) (n' : ℕ) (hn : n = k.val) (h : n' = k.val + 1) :
    Ors c n = Ors c n' + tallyAt (rsRecvCell (fwd c k) c) () NC := by
  subst hn; subst h; unfold Ors; rw [show (Finset.univ.filter fun j : Fin 15 => k.val ≤ j.val) = ge k.val from rfl, ge_peel,
    Finset.sum_insert (not_mem_ge_succ k)]; exact add_comm _ _
theorem Oag_peel (c : Dev nD) (n : ℕ) (k : Fin 15) (n' : ℕ) (hn : n = k.val) (h : n' = k.val + 1) :
    Oag c n = Oag c n' + tallyAt (agRecvCell (fwd c k) c) () NC := by
  subst hn; subst h; unfold Oag; rw [show (Finset.univ.filter fun j : Fin 15 => k.val ≤ j.val) = ge k.val from rfl, ge_peel,
    Finset.sum_insert (not_mem_ge_succ k)]; exact add_comm _ _
theorem Osig_done (c : Dev nD) : Osig c 15 = 0 := by
  unfold Osig; rw [show (Finset.univ.filter fun j : Fin 15 => 15 ≤ j.val) = ge 15 from rfl, ge_fifteen, Finset.sum_empty]
theorem Ors_done (c : Dev nD) : Ors c 15 = 0 := by
  unfold Ors; rw [show (Finset.univ.filter fun j : Fin 15 => 15 ≤ j.val) = ge 15 from rfl, ge_fifteen, Finset.sum_empty]
theorem Oag_done (c : Dev nD) : Oag c 15 = 0 := by
  unfold Oag; rw [show (Finset.univ.filter fun j : Fin 15 => 15 ≤ j.val) = ge 15 from rfl, ge_fifteen, Finset.sum_empty]

/-! ## Row slots -/

/-- Rows `32 p …` (`p = fwd c k`) of device `c`'s own receive buffer / staged result: what `c`'s signal hands `p`. -/
def ownSlotS (c : Dev nD) (k : Fin 15) : sProp 𝕄 :=
  iprop(∃ f, (sRow (fwd c k)).view.loc (c : Thread nD τ) ↦[(sRow (fwd c k)).view.set]{fullShare} f)
def ownSlotO (c : Dev nD) (k : Fin 15) : sProp 𝕄 :=
  iprop(∃ f, (oRow (fwd c k)).view.loc (c : Thread nD τ) ↦[(oRow (fwd c k)).view.set]{fullShare} f)
/-- Rows `32 c …` of the peer `p = fwd c k`'s receive buffer / staged result: what `p`'s signal hands `c`. -/
def peerSlotS (c : Dev nD) (k : Fin 15) : sProp 𝕄 :=
  iprop(∃ f, (sRow c).view.loc (fwd c k : Thread nD τ) ↦[(sRow c).view.set]{fullShare} f)
def peerSlotO (c : Dev nD) (k : Fin 15) : sProp 𝕄 :=
  iprop(∃ f, (oRow c).view.loc (fwd c k : Thread nD τ) ↦[(oRow c).view.set]{fullShare} f)

theorem barPay_own (c : Dev nD) (k : Fin 15) : barPay (F := F) (fwd c k) c = iprop(ownSlotS c k ∗ ownSlotO c k) := rfl
theorem barPay_peer (c : Dev nD) (k : Fin 15) : barPay (F := F) c (fwd c k) = iprop(peerSlotS c k ∗ peerSlotO c k) := rfl

/-! ## The families -/

/-- Signals still to send: the duty's token and the two slots it hands over. -/
def SigR (c : Dev nD) (n : ℕ) : sProp 𝕄 := bigSep (ge n) fun k =>
  iprop(dutyTok ER (barCell (fwd c k)) 0 c ∗ ownSlotS (F := F) c k ∗ ownSlotO (F := F) c k)

/-- First transfers still to start: the two duties' tokens, the peer's slot, the rows to send. -/
def Send1R (c : Dev nD) (n : ℕ) : sProp 𝕄 := bigSep (ge n) fun k =>
  iprop(dutyTok ER (rsRecvCell (fwd c k) c) 0 c ∗ dutyTok ER (rsSendCell c (fwd c k)) 0 (fwd c k) ∗ peerSlotS (F := F) c k
    ∗ ((bRow (fwd c k)).view.loc (c : Thread nD τ) ↦[(bRow (fwd c k)).view.set]{fullShare} xb m c))
/-- First transfers started: the credit on the send cell each returned. -/
def Send1D (c : Dev nD) (n : ℕ) : sProp 𝕄 := bigSep (lt n) fun k => cred (tallyAt (rsSendCell c (fwd c k)) () NC)

/-- First-round receives still to wait for: the position and the credit dealt at launch. -/
def Recv1R (c : Dev nD) (n : ℕ) : sProp 𝕄 := bigSep (ge n) fun k =>
  iprop(atPos ER (rsRecvCell c (bwd c k)) 0 ∅ 0 ∗ cred (tallyAt (rsRecvCell c (bwd c k)) () NC))
/-- First-round receives done: the position past the round and the landed rows. -/
def Recv1D (c : Dev nD) (n : ℕ) : sProp 𝕄 := bigSep (lt n) fun k =>
  iprop(atPos ER (rsRecvCell c (bwd c k)) 1 ∅ 0 ∗ rsRecvPay m c (bwd c k))

/-- Second transfers still to start: the two duties' tokens, the peer's slot, the read share of the reduced rows. -/
def Send2R (c : Dev nD) (n : ℕ) : sProp 𝕄 := bigSep (ge n) fun k =>
  iprop(dutyTok ER (agRecvCell (fwd c k) c) 0 c ∗ dutyTok ER (agSendCell c (fwd c k)) 0 (fwd c k) ∗ peerSlotO (F := F) c k
    ∗ ((rM : Memref sig .tc .vmem S32x512 .bf16).view.loc (c : Thread nD τ) ↦[(rM : Memref sig .tc .vmem S32x512 .bf16).view.set]{Transfers.shareTok fullShare 15 k} red m c))
def Send2D (c : Dev nD) (n : ℕ) : sProp 𝕄 := bigSep (lt n) fun k => cred (tallyAt (agSendCell c (fwd c k)) () NC)

def Recv2R (c : Dev nD) (n : ℕ) : sProp 𝕄 := bigSep (ge n) fun k =>
  iprop(atPos ER (agRecvCell c (bwd c k)) 0 ∅ 0 ∗ cred (tallyAt (agRecvCell c (bwd c k)) () NC))
def Recv2D (c : Dev nD) (n : ℕ) : sProp 𝕄 := bigSep (lt n) fun k =>
  iprop(atPos ER (agRecvCell c (bwd c k)) 1 ∅ 0 ∗ agRecvPay m c (bwd c k))

/-- Send cells still to wait for: the position and the credit the transfer returned. -/
def Wait1R (c : Dev nD) (n : ℕ) : sProp 𝕄 := bigSep (ge n) fun k =>
  iprop(atPos ER (rsSendCell c (fwd c k)) 0 ∅ 0 ∗ cred (tallyAt (rsSendCell c (fwd c k)) () NC))
def Wait1D (c : Dev nD) (n : ℕ) : sProp 𝕄 := bigSep (lt n) fun k =>
  iprop(atPos ER (rsSendCell c (fwd c k)) 1 ∅ 0 ∗ rsSendPay m c (fwd c k))
def Wait2R (c : Dev nD) (n : ℕ) : sProp 𝕄 := bigSep (ge n) fun k =>
  iprop(atPos ER (agSendCell c (fwd c k)) 0 ∅ 0 ∗ cred (tallyAt (agSendCell c (fwd c k)) () NC))
def Wait2D (c : Dev nD) (n : ℕ) : sProp 𝕄 := bigSep (lt n) fun k =>
  iprop(atPos ER (agSendCell c (fwd c k)) 1 ∅ 0 ∗ agSendPay m c (fwd c k))

/-! ## One invariant, one reached-mark out of the records -/

theorem inv_at (K : Dev nD × CK → ℕ) (ck : Dev nD × CK) : records m K ⊢ cellInv ER (ringRd m) (K ck) (kcell ck) := by
  unfold records; iintro ⟨HI, -⟩
  iapply (show (bigSep Finset.univ fun ck : Dev nD × CK => (cellInv ER (ringRd m) (K ck) (kcell ck) : sProp 𝕄)) ⊢ cellInv ER (ringRd m) (K ck) (kcell ck) from bigSep_elim (Finset.mem_univ ck))
  iexact HI
theorem reached_at (K : Dev nD × CK → ℕ) (ck : Dev nD × CK) : records m K ⊢ reached ER (kcell ck) 0 := by
  unfold records; iintro ⟨-, HR⟩
  iapply (show (bigSep Finset.univ fun ck : Dev nD × CK => (reached ER (kcell ck) 0 : sProp 𝕄)) ⊢ reached ER (kcell ck) 0 from bigSep_elim (Finset.mem_univ ck))
  iexact HR

end Cert.KernelIdeal.AR

end
-- ==== Proof.Regroup.lean ====
/-
# Regrouping what the launch deals a device into the body's families
-/
import proofs.«900416_g7700000000000417_dist_ar_v7x_i16_i_m512_n512_bf16_1_alg».proof.Proof.Res

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The five kinds of tokens a device pays with, each over the fifteen shifts. -/
def TSig (c : Dev nD) : sProp 𝕄 := bigSep Finset.univ fun k : Fin 15 => dutyTok ER (barCell (fwd c k)) 0 c
def TRr (c : Dev nD) : sProp 𝕄 := bigSep Finset.univ fun k : Fin 15 => dutyTok ER (rsRecvCell (fwd c k) c) 0 c
def TRs (c : Dev nD) : sProp 𝕄 := bigSep Finset.univ fun k : Fin 15 => dutyTok ER (rsSendCell c (fwd c k)) 0 (fwd c k)
def TAr (c : Dev nD) : sProp 𝕄 := bigSep Finset.univ fun k : Fin 15 => dutyTok ER (agRecvCell (fwd c k) c) 0 c
def TAs (c : Dev nD) : sProp 𝕄 := bigSep Finset.univ fun k : Fin 15 => dutyTok ER (agSendCell c (fwd c k)) 0 (fwd c k)

theorem payToks_split (c : Dev nD) : payToks (F := F) c = iprop(TSig c ∗ TRr c ∗ TRs c ∗ TAr c ∗ TAs c) := by
  unfold payToks TSig TRr TRs TAr TAs
  rw [bigSep_sep', bigSep_sep', bigSep_sep', bigSep_sep']

/-- The signals' family at the start: the tokens with the device's own fifteen slot pairs. -/
theorem SigR_zero (c : Dev nD) :
    SigR (F := F) c 0 = iprop(TSig c ∗ (bigSep Finset.univ fun k : Fin 15 => ownSlotS (F := F) c k) ∗ bigSep Finset.univ fun k : Fin 15 => ownSlotO (F := F) c k) := by
  unfold SigR TSig; rw [ge_zero, bigSep_sep', bigSep_sep']

theorem Send1R_zero (c : Dev nD) :
    Send1R m c 0 = iprop(TRr (F := F) c ∗ TRs (F := F) c ∗ (bigSep Finset.univ fun k : Fin 15 => peerSlotS (F := F) c k)
      ∗ bigSep Finset.univ fun k : Fin 15 => ((bRow (fwd c k)).view.loc (c : Thread nD τ) ↦[(bRow (fwd c k)).view.set]{fullShare} xb m c)) := by
  unfold Send1R TRr TRs; rw [ge_zero, bigSep_sep', bigSep_sep', bigSep_sep']

theorem Send2R_zero (c : Dev nD) :
    Send2R m c 0 = iprop(TAr (F := F) c ∗ TAs (F := F) c ∗ (bigSep Finset.univ fun k : Fin 15 => peerSlotO (F := F) c k)
      ∗ bigSep Finset.univ fun k : Fin 15 => ((rM : Memref sig .tc .vmem S32x512 .bf16).view.loc (c : Thread nD τ) ↦[(rM : Memref sig .tc .vmem S32x512 .bf16).view.set]{Transfers.shareTok fullShare 15 k} red m c)) := by
  unfold Send2R TAr TAs; rw [ge_zero, bigSep_sep', bigSep_sep', bigSep_sep']

theorem creds_split (c : Dev nD) :
    creds (F := F) c = iprop(cred (tallyAt (barCell c) () 15) ∗ (bigSep Finset.univ fun k : Fin 15 => cred (tallyAt (rsRecvCell c (bwd c k)) () NC))
      ∗ bigSep Finset.univ fun k : Fin 15 => cred (tallyAt (agRecvCell c (bwd c k)) () NC)) := by
  unfold creds; rw [bigSep_sep']

theorem Recv1R_zero (c : Dev nD) :
    Recv1R (F := F) c 0 = iprop((bigSep Finset.univ fun k : Fin 15 => atPos ER (rsRecvCell c (bwd c k)) 0 ∅ 0)
      ∗ bigSep Finset.univ fun k : Fin 15 => cred (tallyAt (rsRecvCell c (bwd c k)) () NC)) := by
  unfold Recv1R; rw [ge_zero, bigSep_sep']
theorem Recv2R_zero (c : Dev nD) :
    Recv2R (F := F) c 0 = iprop((bigSep Finset.univ fun k : Fin 15 => atPos ER (agRecvCell c (bwd c k)) 0 ∅ 0)
      ∗ bigSep Finset.univ fun k : Fin 15 => cred (tallyAt (agRecvCell c (bwd c k)) () NC)) := by
  unfold Recv2R; rw [ge_zero, bigSep_sep']
/-- The send cells' waits at their start: the positions with the credit the fifteen transfers returned. -/
theorem Wait1R_zero (c : Dev nD) :
    Wait1R (F := F) c 0 = iprop((bigSep Finset.univ fun k : Fin 15 => atPos ER (rsSendCell c (fwd c k)) 0 ∅ 0) ∗ Send1D (F := F) c 15) := by
  unfold Wait1R Send1D; rw [ge_zero, lt_fifteen, bigSep_sep']
theorem Wait2R_zero (c : Dev nD) :
    Wait2R (F := F) c 0 = iprop((bigSep Finset.univ fun k : Fin 15 => atPos ER (agSendCell c (fwd c k)) 0 ∅ 0) ∗ Send2D (F := F) c 15) := by
  unfold Wait2R Send2D; rw [ge_zero, lt_fifteen, bigSep_sep']

/-- The finished families, split back. -/
theorem Recv1D_done (c : Dev nD) :
    Recv1D m c 15 = iprop((bigSep Finset.univ fun k : Fin 15 => atPos ER (rsRecvCell c (bwd c k)) 1 ∅ 0) ∗ bigSep Finset.univ fun k : Fin 15 => rsRecvPay m c (bwd c k)) := by
  unfold Recv1D; rw [lt_fifteen, bigSep_sep']
theorem Recv2D_done (c : Dev nD) :
    Recv2D m c 15 = iprop((bigSep Finset.univ fun k : Fin 15 => atPos ER (agRecvCell c (bwd c k)) 1 ∅ 0) ∗ bigSep Finset.univ fun k : Fin 15 => agRecvPay m c (bwd c k)) := by
  unfold Recv2D; rw [lt_fifteen, bigSep_sep']
theorem Wait1D_done (c : Dev nD) :
    Wait1D m c 15 = iprop((bigSep Finset.univ fun k : Fin 15 => atPos ER (rsSendCell c (fwd c k)) 1 ∅ 0) ∗ bigSep Finset.univ fun k : Fin 15 => rsSendPay m c (fwd c k)) := by
  unfold Wait1D; rw [lt_fifteen, bigSep_sep']
theorem Wait2D_done (c : Dev nD) :
    Wait2D m c 15 = iprop((bigSep Finset.univ fun k : Fin 15 => atPos ER (agSendCell c (fwd c k)) 1 ∅ 0) ∗ bigSep Finset.univ fun k : Fin 15 => agSendPay m c (fwd c k)) := by
  unfold Wait2D; rw [lt_fifteen, bigSep_sep']

end Cert.KernelIdeal.AR

end
-- ==== Proof.Rows.lean ====
/-
# Row blocks and shares

A 512-row buffer held whole is the sixteen row blocks of thirty-two rows; the sixteen devices are one device and the
fifteen shifts from it; the reduced rows held whole are fifteen read shares and a remainder.
-/
import proofs.«900416_g7700000000000417_dist_ar_v7x_i16_i_m512_n512_bf16_1_alg».proof.Proof.Res

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The sixteen row blocks partition the 512 rows -/

/-- Distinct devices' row blocks share no row. -/
theorem rows_disjoint (j j' : Dev nD) (h : j ≠ j') : Disjoint (rows j).set (rows j').set := by
  refine Rect.unit_disjoint (0 : Fin 2) ?_
  rw [k0_off3_eq j, k0_off3_eq j']
  have hne : j.val ≠ j'.val := fun e => h (Fin.ext e)
  show 32 * j.val + 32 ≤ 32 * j'.val ∨ 32 * j'.val + 32 ≤ 32 * j.val
  omega

/-- Every row lies in the block of the device `⌊row / 32⌋`. -/
theorem rows_cover : (Finset.univ : Finset (Dev nD)).biUnion (fun j => (rows j).set) = Finset.univ := by
  ext i
  simp only [Finset.mem_biUnion, Finset.mem_univ, true_and, iff_true]
  refine ⟨blkOf i, Rect.mem_set_unit.mpr ?_⟩
  rw [k0_off3_eq]
  have h0 : (i 0).val < 512 := (i 0).isLt
  have h1 : (i 1).val < 512 := (i 1).isLt
  refine Fin.forall_fin_two.mpr ⟨?_, ?_⟩
  · show 32 * ((i 0).val / 32) ≤ (i 0).val ∧ (i 0).val < 32 * ((i 0).val / 32) + 32; omega
  · show 0 ≤ (i 1).val ∧ (i 1).val < 0 + 512; omega

/-- A buffer held whole is the pieces of any family of sixteen pairwise disjoint element sets that cover it. -/
theorem pointsTo_sixteen {ℓ : Loc nD τ sig} (K : Dev nD → Finset (Idx ℓ)) (hd : ∀ j j', j ≠ j' → Disjoint (K j) (K j'))
    (hc : (Finset.univ : Finset (Dev nD)).biUnion K = Finset.univ) (f : Buf (Elt F) ℓ) :
    ((ℓ ↦{fullShare} f : sProp 𝕄)) = bigSep (Finset.univ : Finset (Dev nD)) fun j => ℓ ↦[K j]{fullShare} f := by
  rw [← hc]; exact pointsTo_biUnion _ K (fun j _ j' _ h => hd j j' h)

/-! ## A 512-row buffer held whole is its sixteen row blocks -/

theorem bRow_set (j : Dev nD) : (bRow j).view.set = (rows j).set := View.set_slice_whole _ _
/-- The rounded copy, whole, is its sixteen row blocks. -/
theorem bM_rows (c : Dev nD) (f : Buf (Elt F) ((c : Thread nD τ).loc cc0_scratch0)) :
    ((((c : Thread nD τ).loc cc0_scratch0) ↦{fullShare} f : sProp 𝕄))
      = bigSep (Finset.univ : Finset (Dev nD)) fun j => (bRow j).view.loc (c : Thread nD τ) ↦[(bRow j).view.set]{fullShare} f := by
  have hset : ∀ j : Dev nD, ((bRow j).view.set : Finset (Idealize.ShloMosaic.Idx ((c : Thread nD τ).loc cc0_scratch0))) = (rows j).set :=
    fun j => View.set_slice_whole _ _
  have hd : ∀ j j' : Dev nD, j ≠ j' →
      Disjoint ((bRow j).view.set : Finset (Idealize.ShloMosaic.Idx ((c : Thread nD τ).loc cc0_scratch0))) ((bRow j').view.set) :=
    fun j j' h => by rw [hset, hset]; exact rows_disjoint j j' h
  have hc : (Finset.univ : Finset (Dev nD)).biUnion (β := Idealize.ShloMosaic.Idx ((c : Thread nD τ).loc cc0_scratch0)) (fun j => (bRow j).view.set)
      = Finset.univ := by
    simp only [hset]; exact rows_cover
  exact (pointsTo_sixteen (ℓ := (c : Thread nD τ).loc cc0_scratch0) _ hd hc f).trans (bigSep_congr fun j _ => rfl)

theorem sRow_set (j : Dev nD) : (sRow j).view.set = (rows j).set := View.set_slice_whole _ _
/-- The receive buffer, whole, is its sixteen row blocks. -/
theorem sM_rows (c : Dev nD) (f : Buf (Elt F) ((c : Thread nD τ).loc cc0_scratch2)) :
    ((((c : Thread nD τ).loc cc0_scratch2) ↦{fullShare} f : sProp 𝕄))
      = bigSep (Finset.univ : Finset (Dev nD)) fun j => (sRow j).view.loc (c : Thread nD τ) ↦[(sRow j).view.set]{fullShare} f := by
  have hset : ∀ j : Dev nD, ((sRow j).view.set : Finset (Idealize.ShloMosaic.Idx ((c : Thread nD τ).loc cc0_scratch2))) = (rows j).set :=
    fun j => View.set_slice_whole _ _
  have hd : ∀ j j' : Dev nD, j ≠ j' →
      Disjoint ((sRow j).view.set : Finset (Idealize.ShloMosaic.Idx ((c : Thread nD τ).loc cc0_scratch2))) ((sRow j').view.set) :=
    fun j j' h => by rw [hset, hset]; exact rows_disjoint j j' h
  have hc : (Finset.univ : Finset (Dev nD)).biUnion (β := Idealize.ShloMosaic.Idx ((c : Thread nD τ).loc cc0_scratch2)) (fun j => (sRow j).view.set)
      = Finset.univ := by
    simp only [hset]; exact rows_cover
  exact (pointsTo_sixteen (ℓ := (c : Thread nD τ).loc cc0_scratch2) _ hd hc f).trans (bigSep_congr fun j _ => rfl)

theorem oRow_set (j : Dev nD) : (oRow j).view.set = (rows j).set := View.set_slice_whole _ _
/-- The staged result, whole, is its sixteen row blocks. -/
theorem oM_rows (c : Dev nD) (f : Buf (Elt F) ((c : Thread nD τ).loc cc0_stg1_0)) :
    ((((c : Thread nD τ).loc cc0_stg1_0) ↦{fullShare} f : sProp 𝕄))
      = bigSep (Finset.univ : Finset (Dev nD)) fun j => (oRow j).view.loc (c : Thread nD τ) ↦[(oRow j).view.set]{fullShare} f := by
  have hset : ∀ j : Dev nD, ((oRow j).view.set : Finset (Idealize.ShloMosaic.Idx ((c : Thread nD τ).loc cc0_stg1_0))) = (rows j).set :=
    fun j => View.set_slice_whole _ _
  have hd : ∀ j j' : Dev nD, j ≠ j' →
      Disjoint ((oRow j).view.set : Finset (Idealize.ShloMosaic.Idx ((c : Thread nD τ).loc cc0_stg1_0))) ((oRow j').view.set) :=
    fun j j' h => by rw [hset, hset]; exact rows_disjoint j j' h
  have hc : (Finset.univ : Finset (Dev nD)).biUnion (β := Idealize.ShloMosaic.Idx ((c : Thread nD τ).loc cc0_stg1_0)) (fun j => (oRow j).view.set)
      = Finset.univ := by
    simp only [hset]; exact rows_cover
  exact (pointsTo_sixteen (ℓ := (c : Thread nD τ).loc cc0_stg1_0) _ hd hc f).trans (bigSep_congr fun j _ => rfl)

/-! ## The sixteen devices are a device and the fifteen shifts from it -/

theorem erase_eq_map_fwd (c : Dev nD) : (Finset.univ.erase c : Finset (Dev nD)) = Finset.univ.map ⟨fwd c, fwd_inj c⟩ := by
  ext j
  simp only [Finset.mem_erase, Finset.mem_univ, and_true, Finset.mem_map, true_and, Function.Embedding.coeFn_mk]
  exact ⟨fun h => fwd_surj c j h, fun ⟨k, hk⟩ => hk ▸ fwd_ne c k⟩
theorem erase_eq_map_bwd (c : Dev nD) : (Finset.univ.erase c : Finset (Dev nD)) = Finset.univ.map ⟨bwd c, bwd_inj c⟩ := by
  ext j
  simp only [Finset.mem_erase, Finset.mem_univ, and_true, Finset.mem_map, true_and, Function.Embedding.coeFn_mk]
  exact ⟨fun h => bwd_surj c j h, fun ⟨k, hk⟩ => hk ▸ bwd_ne c k⟩

/-- Over the other devices, by the shift forwards that reaches each. -/
theorem erase_eq_fwd (c : Dev nD) (Φ : Dev nD → sProp 𝕄) :
    bigSep (Finset.univ.erase c) Φ = bigSep (Finset.univ : Finset (Fin 15)) fun k => Φ (fwd c k) := by
  rw [erase_eq_map_fwd, bigSep_map]; rfl
theorem erase_eq_bwd (c : Dev nD) (Φ : Dev nD → sProp 𝕄) :
    bigSep (Finset.univ.erase c) Φ = bigSep (Finset.univ : Finset (Fin 15)) fun k => Φ (bwd c k) := by
  rw [erase_eq_map_bwd, bigSep_map]; rfl
/-- Over all devices: the device itself and the fifteen ahead of it. -/
theorem univ_eq_own_fwd (c : Dev nD) (Φ : Dev nD → sProp 𝕄) :
    bigSep (Finset.univ : Finset (Dev nD)) Φ = iprop(Φ c ∗ bigSep (Finset.univ : Finset (Fin 15)) fun k => Φ (fwd c k)) := by
  rw [bigSep_erase (Finset.mem_univ c), erase_eq_fwd]; rfl
/-- Over all devices: the device itself and the fifteen behind it. -/
theorem univ_eq_own_bwd (c : Dev nD) (Φ : Dev nD → sProp 𝕄) :
    bigSep (Finset.univ : Finset (Dev nD)) Φ = iprop(Φ c ∗ bigSep (Finset.univ : Finset (Fin 15)) fun k => Φ (bwd c k)) := by
  rw [bigSep_erase (Finset.mem_univ c), erase_eq_bwd]; rfl

/-! ## The reduced rows' read shares: one per second transfer, and the remainder -/

theorem rM_shares (c : Dev nD) (f : Buf (Elt F) ((c : Thread nD τ).loc cc0_scratch1)) :
    ((((c : Thread nD τ).loc cc0_scratch1) ↦{fullShare} f : sProp 𝕄))
      ⊣⊢ iprop((((c : Thread nD τ).loc cc0_scratch1) ↦{Transfers.shareDrop fullShare 15} f)
        ∗ bigSep Finset.univ fun k : Fin 15 => (rM : Memref sig .tc .vmem S32x512 .bf16).view.loc (c : Thread nD τ)
            ↦[(rM : Memref sig .tc .vmem S32x512 .bf16).view.set]{Transfers.shareTok fullShare 15 k} f) := by
  simp only [Memref.view_whole, View.set_whole]
  exact Transfers.pointsTo_toks fullShare 15

/-- info: 'Cert.KernelIdeal.AR.bM_rows' depends on axioms: [propext, Classical.choice, Quot.sound] -/
#guard_msgs in #print axioms bM_rows
/-- info: 'Cert.KernelIdeal.AR.univ_eq_own_bwd' depends on axioms: [propext, Classical.choice, Quot.sound] -/
#guard_msgs in #print axioms univ_eq_own_bwd
/-- info: 'Cert.KernelIdeal.AR.rM_shares' depends on axioms: [propext, Classical.choice, Quot.sound] -/
#guard_msgs in #print axioms rM_shares

end Cert.KernelIdeal.AR

end
-- ==== Proof.Close.lean ====
/-
# Closing a device's transfer cells

A device's sixty-five cells are its barrier cell and four arrays of sixteen transfer cells. Of each array the cell indexed
by the device itself has no duty and is never used; the fifteen others have one round of one duty. After the last wait the
positions stand past that round (or, on the diagonal, still at round 0), no later round has a duty, and every transfer
cell closes: its counter, at zero, is the device's to hand back.
-/
import proofs.«900416_g7700000000000417_dist_ar_v7x_i16_i_m512_n512_bf16_1_alg».proof.Proof.Res

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's transfer cells: the diagonal four and the fifteen shifts of each array -/

/-- The other devices are the fifteen shifts forwards, -/
theorem others_fwd (c : Dev nD) : (Finset.univ.erase c : Finset (Dev nD)) = Finset.univ.map ⟨fwd c, fwd_inj c⟩ := by
  ext j
  simp only [Finset.mem_erase, Finset.mem_univ, and_true, Finset.mem_map, true_and, Function.Embedding.coeFn_mk]
  exact ⟨fun h => fwd_surj c j h, fun ⟨k, hk⟩ => hk ▸ fwd_ne c k⟩
/-- and the fifteen shifts backwards. -/
theorem others_bwd (c : Dev nD) : (Finset.univ.erase c : Finset (Dev nD)) = Finset.univ.map ⟨bwd c, bwd_inj c⟩ := by
  ext j
  simp only [Finset.mem_erase, Finset.mem_univ, and_true, Finset.mem_map, true_and, Function.Embedding.coeFn_mk]
  exact ⟨fun h => bwd_surj c j h, fun ⟨k, hk⟩ => hk ▸ bwd_ne c k⟩

theorem devs_fwd (c : Dev nD) (Ψ : Dev nD → sProp 𝕄) :
    bigSep (Finset.univ : Finset (Dev nD)) Ψ = iprop(Ψ c ∗ bigSep (Finset.univ : Finset (Fin 15)) fun k => Ψ (fwd c k)) := by
  rw [bigSep_univ_at Ψ c, others_fwd, bigSep_map]; rfl
theorem devs_bwd (c : Dev nD) (Ψ : Dev nD → sProp 𝕄) :
    bigSep (Finset.univ : Finset (Dev nD)) Ψ = iprop(Ψ c ∗ bigSep (Finset.univ : Finset (Fin 15)) fun k => Ψ (bwd c k)) := by
  rw [bigSep_univ_at Ψ c, others_bwd, bigSep_map]; rfl

theorem bigSep_arrays (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over a device's sixty-four transfer cells: the four of its own index, then each array over the fifteen peers — the
    sending arrays by the peer ahead, the receiving arrays by the peer behind. -/
theorem cells_iff (c : Dev nD) (Φ : Fin 4 × Dev nD → sProp 𝕄) :
    bigSep Finset.univ Φ ⊣⊢ iprop((Φ (0, c) ∗ Φ (1, c) ∗ Φ (2, c) ∗ Φ (3, c))
      ∗ (bigSep Finset.univ fun k : Fin 15 => Φ (0, fwd c k)) ∗ (bigSep Finset.univ fun k : Fin 15 => Φ (1, bwd c k))
      ∗ (bigSep Finset.univ fun k : Fin 15 => Φ (2, fwd c k)) ∗ (bigSep Finset.univ fun k : Fin 15 => Φ (3, bwd c k))) := by
  rw [bigSep_univ_prod, bigSep_arrays, devs_fwd c (fun j => Φ (0, j)), devs_bwd c (fun j => Φ (1, j)), devs_fwd c (fun j => Φ (2, j)),
    devs_bwd c (fun j => Φ (3, j))]
  refine ⟨?_, ?_⟩
  · iintro ⟨⟨H0, S0⟩, ⟨H1, S1⟩, ⟨H2, S2⟩, ⟨H3, S3⟩⟩
    isplitl [H0 H1 H2 H3]
    · isplitl [H0]; · iexact H0
      isplitl [H1]; · iexact H1
      isplitl [H2]; · iexact H2
      iexact H3
    isplitl [S0]; · iexact S0
    isplitl [S1]; · iexact S1
    isplitl [S2]; · iexact S2
    iexact S3
  · iintro ⟨⟨H0, H1, H2, H3⟩, S0, S1, S2, S3⟩
    isplitl [H0 S0]; · isplitl [H0] <;> iassumption
    isplitl [H1 S1]; · isplitl [H1] <;> iassumption
    isplitl [H2 S2]; · isplitl [H2] <;> iassumption
    isplitl [H3] <;> iassumption

/-- The barrier cell, then the sixty-four transfer cells. -/
theorem bigSep_cells (Φ : CK → sProp 𝕄) :
    bigSep Finset.univ Φ = iprop(Φ none ∗ bigSep Finset.univ fun k : Fin 4 × Dev nD => Φ (some k)) := by
  have h : (Finset.univ.erase (none : CK)) = Finset.univ.map Function.Embedding.some := by
    ext k; cases k <;> simp
  rw [bigSep_univ_at Φ none, h, bigSep_map]; rfl

/-! ## The positions a device is dealt, by family -/

/-- The positions of the four cells indexed by the device itself: no transfer uses them, they stay at round 0. -/
def diagPos (c : Dev nD) : sProp 𝕄 :=
  iprop(atPos ER (rsSendCell c c) 0 ∅ 0 ∗ atPos ER (rsRecvCell c c) 0 ∅ 0 ∗ atPos ER (agSendCell c c) 0 ∅ 0 ∗ atPos ER (agRecvCell c c) 0 ∅ 0)

theorem positions_split (c : Dev nD) :
    positions (F := F) c ⊢ iprop(atPos ER (barCell c) 0 ∅ 0 ∗ diagPos (F := F) c
      ∗ (bigSep Finset.univ fun k : Fin 15 => atPos ER (rsSendCell c (fwd c k)) 0 ∅ 0)
      ∗ (bigSep Finset.univ fun k : Fin 15 => atPos ER (rsRecvCell c (bwd c k)) 0 ∅ 0)
      ∗ (bigSep Finset.univ fun k : Fin 15 => atPos ER (agSendCell c (fwd c k)) 0 ∅ 0)
      ∗ (bigSep Finset.univ fun k : Fin 15 => atPos ER (agRecvCell c (bwd c k)) 0 ∅ 0)) := by
  unfold positions diagPos
  rw [bigSep_cells]
  refine sep_mono_right ?_
  exact (cells_iff c fun k : Fin 4 × Dev nD => (atPos ER (kcell (c, some k)) 0 ∅ 0 : sProp 𝕄)).1

/-! ## Closing the transfer cells -/

/-- The cells indexed by the device itself have no duty at all. -/
theorem duties_diag (c : Dev nD) (a : Fin 4) (r : ℕ) : (ringRd (F := F) m).duties (kcell (c, some (a, c))) r = ∅ := by
  rcases Nat.eq_zero_or_pos r with rfl | hr
  · dsimp only [ringRd]
    rw [if_pos ⟨rfl, rfl⟩]
    fin_cases a
    · exact if_neg fun h => h.2 (semPeer_rsSend c)
    · exact if_neg fun h => h.2 (semPeer_rsRecv c)
    · exact if_neg fun h => h.2 (semPeer_agSend c)
    · exact if_neg fun h => h.2 (semPeer_agRecv c)
  · exact duties_later m _ r hr

/-- The round a transfer cell's position stands at after the last wait: past its one round, or, on the diagonal, still at 0. -/
def endRound (c : Dev nD) (k : Fin 4 × Dev nD) : ℕ := if k.2 = c then 0 else 1

theorem close_one (K : Dev nD × CK → ℕ) (c : Dev nD) (k : Fin 4 × Dev nD) :
    iprop(records m K ∗ atPos ER (kcell (c, some k)) (endRound c k) ∅ 0) ⊢ |={Set.univ}=> (semVal (kcell (c, some k)) 0 : sProp 𝕄) := by
  have hR : ∀ r, endRound c k ≤ r → (ringRd (F := F) m).duties (kcell (c, some k)) r = ∅ := fun r hr => by
    obtain ⟨a, j⟩ := k
    by_cases hj : j = c
    · subst hj; exact duties_diag m j a r
    · unfold endRound at hr; rw [if_neg hj] at hr; exact duties_later m _ r hr
  iintro ⟨#HR, Hat⟩
  iapply (Rounds.cell_close ER (ringRd m) (Set.mem_univ (K (c, some k))) (fun h => h) hR)
  isplitr
  · iapply (inv_at m K (c, some k)); iexact HR
  · iexact Hat

/-- After the last wait every transfer cell closes: its counter at zero is the device's again. -/
theorem close_all (K : Dev nD × CK → ℕ) (c : Dev nD) :
    iprop(records m K ∗ diagPos (F := F) c
      ∗ (bigSep Finset.univ fun k : Fin 15 => atPos ER (rsRecvCell c (bwd c k)) 1 ∅ 0)
      ∗ (bigSep Finset.univ fun k : Fin 15 => atPos ER (agRecvCell c (bwd c k)) 1 ∅ 0)
      ∗ (bigSep Finset.univ fun k : Fin 15 => atPos ER (rsSendCell c (fwd c k)) 1 ∅ 0)
      ∗ (bigSep Finset.univ fun k : Fin 15 => atPos ER (agSendCell c (fwd c k)) 1 ∅ 0))
      ⊢ |={Set.univ}=> (bigSep Finset.univ fun k : Fin 4 × Dev nD => semVal (kcell (c, some k)) 0 : sProp 𝕄) := by
  have hd (a : Fin 4) : endRound c (a, c) = 0 := if_pos rfl
  have hf (a : Fin 4) (k : Fin 15) : endRound c (a, fwd c k) = 1 := if_neg (fwd_ne c k)
  have hb (a : Fin 4) (k : Fin 15) : endRound c (a, bwd c k) = 1 := if_neg (bwd_ne c k)
  have hjoin := (cells_iff c fun k : Fin 4 × Dev nD => (atPos ER (kcell (c, some k)) (endRound c k) ∅ 0 : sProp 𝕄)).2
  simp only [hd, hf, hb] at hjoin
  iintro ⟨#HR, Hd, R1, R3, S0, S2⟩
  ihave Hall := hjoin $$ [Hd R1 R3 S0 S2]
  · unfold diagPos
    isplitl [Hd]; · iexact Hd
    isplitl [S0]; · iexact S0
    isplitl [R1]; · iexact R1
    isplitl [S2]; · iexact S2
    iexact R3
  iapply (bigSep_fupd Finset.univ fun k : Fin 4 × Dev nD => (semVal (kcell (c, some k)) 0 : sProp 𝕄))
  iapply (show iprop(records m K ∗ bigSep Finset.univ fun k : Fin 4 × Dev nD => (atPos ER (kcell (c, some k)) (endRound c k) ∅ 0 : sProp 𝕄))
      ⊢ bigSep Finset.univ fun k : Fin 4 × Dev nD => iprop(|={Set.univ}=> (semVal (kcell (c, some k)) 0 : sProp 𝕄)) from
    (sep_mono_left (BI.bigSep_of_persistent Finset.univ (records m K))).trans (by rw [← bigSep_sep']; exact bigSep_mono fun k _ => close_one m K c k))
  isplitr
  · iexact HR
  · iexact Hall

/-- info: 'Cert.KernelIdeal.AR.positions_split' depends on axioms: [propext, Classical.choice, Quot.sound] -/
#guard_msgs in #print axioms positions_split
/-- info: 'Cert.KernelIdeal.AR.close_all' depends on axioms: [propext, Classical.choice, Quot.sound] -/
#guard_msgs in #print axioms close_all

end Cert.KernelIdeal.AR

end
-- ==== Proof.Finish.lean ====
/-
# The end of the body

After the last wait a device holds its buffers in pieces — its own rows and the fifteen row blocks the transfers handed
back, the reduced rows' remainder share and the fifteen read shares — and its transfer cells' positions past their one
round. The pieces rejoin into whole buffers, the cells close, nothing is owed: the body's postcondition.
-/
import proofs.«900416_g7700000000000417_dist_ar_v7x_i16_i_m512_n512_bf16_1_alg».proof.Proof.Regroup
import proofs.«900416_g7700000000000417_dist_ar_v7x_i16_i_m512_n512_bf16_1_alg».proof.Proof.Rows
import proofs.«900416_g7700000000000417_dist_ar_v7x_i16_i_m512_n512_bf16_1_alg».proof.Proof.Close

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers, rejoined -/

/-- The rounded copy whole again: its own rows and the fifteen row blocks the first transfers read out. -/
theorem bM_join (c : Dev nD) :
    iprop(((bRow c).view.loc (c : Thread nD τ) ↦[(bRow c).view.set]{fullShare} xb m c) ∗ bigSep Finset.univ fun k : Fin 15 => rsSendPay m c (fwd c k))
      ⊢ (((c : Thread nD τ).loc cc0_scratch0) ↦{fullShare} xb m c : sProp 𝕄) := by
  rw [bM_rows c (xb m c), univ_eq_own_fwd c]
  exact BI.Entails.refl _

/-- The staged result whole at the all-reduced contents: its own rows and the fifteen landed row blocks. -/
theorem oM_join (c : Dev nD) :
    iprop(((oRow c).view.loc (c : Thread nD τ) ↦[(oRow c).view.set]{fullShare} OUT m) ∗ bigSep Finset.univ fun k : Fin 15 => agRecvPay m c (bwd c k))
      ⊢ (((c : Thread nD τ).loc cc0_stg1_0) ↦{fullShare} OUT m : sProp 𝕄) := by
  rw [oM_rows c (OUT m), univ_eq_own_bwd c]
  exact BI.Entails.refl _

/-- The reduced rows whole again: the remainder share and the fifteen read shares the second transfers returned. -/
theorem rM_join (c : Dev nD) :
    iprop((((c : Thread nD τ).loc cc0_scratch1) ↦{Transfers.shareDrop fullShare 15} red m c) ∗ bigSep Finset.univ fun k : Fin 15 => agSendPay m c (fwd c k))
      ⊢ (((c : Thread nD τ).loc cc0_scratch1) ↦{fullShare} red m c : sProp 𝕄) := by
  rw [bigSep_congr (s := Finset.univ) fun (k : Fin 15) _ => show agSendPay m c (fwd c k)
      = ((rM : Memref sig .tc .vmem S32x512 .bf16).view.loc (c : Thread nD τ) ↦[(rM : Memref sig .tc .vmem S32x512 .bf16).view.set]{Transfers.shareTok fullShare 15 k} red m c : sProp 𝕄) from by
    unfold agSendPay; rw [kf_fwd]]
  exact (rM_shares c (red m c)).2

/-- The receive buffer whole at some contents: its own rows as they were and the fifteen landed row blocks. -/
theorem sM_join (c : Dev nD) (f : Buf (Elt F) ((c : Thread nD τ).loc cc0_scratch2)) :
    iprop(((sRow c).view.loc (c : Thread nD τ) ↦[(sRow c).view.set]{fullShare} f) ∗ bigSep Finset.univ fun k : Fin 15 => rsRecvPay m c (bwd c k))
      ⊢ (iprop(∃ g : Buf (Elt F) ((c : Thread nD τ).loc cc0_scratch2), ((c : Thread nD τ).loc cc0_scratch2) ↦{fullShare} g) : sProp 𝕄) := by
  have h0 : ((sRow c).view.loc (c : Thread nD τ) ↦[(sRow c).view.set]{fullShare} f : sProp 𝕄)
      = ((sRow c).view.loc (c : Thread nD τ) ↦[(sRow c).view.set]{fullShare} ((sRow c).view.set).piecewise f (RS m c)) :=
    pointsTo_congr fun i hi => (Finset.piecewise_eq_of_mem _ _ _ hi).symm
  have hk (k : Fin 15) : rsRecvPay m c (bwd c k)
      = ((sRow (bwd c k)).view.loc (c : Thread nD τ) ↦[(sRow (bwd c k)).view.set]{fullShare} ((sRow c).view.set).piecewise f (RS m c) : sProp 𝕄) := by
    unfold rsRecvPay
    refine pointsTo_congr fun i hi => (Finset.piecewise_eq_of_notMem _ _ _ fun hc => ?_).symm
    rw [sRow_set] at hi hc
    exact Finset.disjoint_left.mp (rows_disjoint (bwd c k) c (bwd_ne c k)) hi hc
  rw [h0, bigSep_congr (s := Finset.univ) fun k _ => hk k]
  iintro H
  iexists ((sRow c).view.set).piecewise f (RS m c)
  rw [sM_rows c, univ_eq_own_bwd c]
  iexact H

/-! ## The end of the body -/

/-- After the last wait: the sixty-four transfer cells close, the four buffers are whole again, nothing is owed — the
    body's postcondition. -/
theorem body_finish (K : Dev nD × CK → ℕ) (c : Dev nD) :
    iprop(records m K ∗ diagPos (F := F) c ∗ Recv1D m c 15 ∗ Recv2D m c 15 ∗ Wait1D m c 15 ∗ Wait2D m c 15
      ∗ (∃ W, owes (c : Thread nD τ) (0 : CellTallies nD τ sig Unit) W) ∗ stg c cc0_stg0_0 (xstg m c)
      ∗ (∃ f : Buf (Elt F) ((c : Thread nD τ).loc cc0_scratch2), (sRow c).view.loc (c : Thread nD τ) ↦[(sRow c).view.set]{fullShare} f)
      ∗ ((bRow c).view.loc (c : Thread nD τ) ↦[(bRow c).view.set]{fullShare} xb m c)
      ∗ (((c : Thread nD τ).loc cc0_scratch1) ↦{Transfers.shareDrop fullShare 15} red m c)
      ∗ ((oRow c).view.loc (c : Thread nD τ) ↦[(oRow c).view.set]{fullShare} OUT m))
      ⊢ |={Set.univ}=> bodyPost m ρ c := by
  rw [Recv1D_done, Recv2D_done, Wait1D_done, Wait2D_done]
  iintro ⟨#HR, Hd, ⟨Hp1, Hl1⟩, ⟨Hp2, Hl2⟩, ⟨Hp3, Hl3⟩, ⟨Hp4, Hl4⟩, ⟨%W, HO⟩, Hx, ⟨%f, Hs0⟩, Hb0, Hr0, Ho0⟩
  imod (close_all m K c) $$ [Hd Hp1 Hp2 Hp3 Hp4] with Hz
  · isplitr; · iexact HR
    isplitl [Hd]; · iexact Hd
    isplitl [Hp1]; · iexact Hp1
    isplitl [Hp2]; · iexact Hp2
    isplitl [Hp3]; · iexact Hp3
    iexact Hp4
  imodintro
  ihave Hb := (bM_join m c) $$ [Hb0 Hl3]
  · isplitl [Hb0] <;> iassumption
  ihave Ho := (oM_join m c) $$ [Ho0 Hl2]
  · isplitl [Ho0] <;> iassumption
  ihave Hr := (rM_join m c) $$ [Hr0 Hl4]
  · isplitl [Hr0] <;> iassumption
  ihave Hs := (sM_join m c f) $$ [Hs0 Hl1]
  · isplitl [Hs0] <;> iassumption
  unfold bodyPost Φ₁ scr Dat.owesAt Pipeline.owesWithin
  rw [show (dats m ρ 0 c).owed t0_0.succ = 0 from rfl]
  isplitl [Hb Hr Hs Hz]
  · isplitl [Hb Hr Hs]
    · isplitl [Hb]; · iexists _; iexact Hb
      isplitl [Hr]; · iexists _; iexact Hr
      iexact Hs
    iexact Hz
  isplitl [HO]
  · iexists W
    isplitr; · ipureintro; exact fun _ _ => Or.inl trivial
    iexact HO
  isplitl [Hx]; · iexact Hx
  iexists _; isplitr; · (ipureintro; rfl)
  iexact Ho

/-- info: 'Cert.KernelIdeal.AR.body_finish' depends on axioms: [propext, Classical.choice, Quot.sound] -/
#guard_msgs in #print axioms body_finish

end Cert.KernelIdeal.AR

end
-- ==== Proof.StepSig.lean ====
/-
# The signal phase and the barrier wait, step by step

One signal moves one shift of the signals' family across and pays one unit off what the device owes; the barrier wait
spends the fifteen units dealt at launch and returns every other device's two row slots for this device.
-/
import proofs.«900416_g7700000000000417_dist_ar_v7x_i16_i_m512_n512_bf16_1_alg».proof.Proof.Rows

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels: the barrier cell lies below every receive cell a device still owes on -/

theorem L_tc (c : Dev nD) (sm : SemLoc sig) : L ((c : Thread nD τ), sm) = {()} := if_pos rfl

theorem lv_rsRecv (c j : Dev nD) : lv (rsRecvCell c j) () = 2 := by
  dsimp only [lv]; rw [if_pos ⟨two_le_rsRecv j, semArr_rsRecv j⟩]
theorem lv_agRecv (c j : Dev nD) : lv (agRecvCell c j) () = 3 := by
  dsimp only [lv]
  rw [if_neg (fun h => by rw [semArr_agRecv] at h; exact absurd h.2 (by decide)), if_pos ⟨two_le_agRecv j, semArr_agRecv j⟩]

/-- At its barrier wait a device owes only transfers' landings: receive cells, above its barrier cell. -/
theorem mayWait_bar (c : Dev nD) :
    (levAts L lv : sProp 𝕄) ⊢ MayWait (c : Thread nD τ) (.reg barS) () (Oag c 0 + Ors c 0) :=
  Pipeline.mayWait_of_levAts (by rw [L_tc]; exact Finset.mem_singleton_self _) (fun g u hg => by
    cases u
    rcases Pipeline.add_pos_cases hg with h | h
    · unfold Oag at h
      obtain ⟨k, -, hk⟩ := Pipeline.sum_pos_exists h
      rw [tallyAt_apply] at hk
      by_cases e : g = agRecvCell (fwd c k) c ∧ () = ()
      · rw [e.1, L_tc, lv_agRecv]; exact ⟨Finset.mem_singleton_self _, by show (1 : ℕ) < 3; decide⟩
      · rw [if_neg e] at hk; exact absurd hk (Nat.lt_irrefl 0)
    · unfold Ors at h
      obtain ⟨k, -, hk⟩ := Pipeline.sum_pos_exists h
      rw [tallyAt_apply] at hk
      by_cases e : g = rsRecvCell (fwd c k) c ∧ () = ()
      · rw [e.1, L_tc, lv_rsRecv]; exact ⟨Finset.mem_singleton_self _, by show (1 : ℕ) < 2; decide⟩
      · rw [if_neg e] at hk; exact absurd hk (Nat.lt_irrefl 0))

/-! ## One signal: the shift `k`'s duty on the peer's barrier cell, handing over the two row slots kept for it -/

theorem sig_step (K : Dev nD × CK → ℕ) (c : Dev nD) (k : Fin 15) (n n' : ℕ) (hn : n = k.val) (hn' : n' = k.val + 1)
    (X : CellTallies nD τ sig Unit) (W : Waits sig Unit) (dv : Dev nD) (hdv : dv = fwd c k) (sm : Sem sig) (hsm : sm = barS)
    {α : Type} {Q : α → sProp 𝕄} {kont : PUnit → Prog (TpuEff nD τ sig (Elt F) Λ₀ .tc) α} :
    iprop(records m K ∗ SigR (F := F) c n ∗ owes (c : Thread nD τ) (X + Osig c n) W)
      ⊢ iprop(((SigR (F := F) c n' ∗ owes (c : Thread nD τ) (X + Osig c n') W)
            -∗ wp frame (wpE (defs₀ (F := F)) 𝒱₀ c none) Set.univ (kont ⟨⟩) Q)
          -∗ wp frame (wpE (defs₀ (F := F)) 𝒱₀ c none) Set.univ (.op (.semSignal (dv : Thread nD τ) sm (1#32 : BitVec 32).toNat) kont) Q) := by
  subst hdv; subst hsm
  unfold SigR
  rw [bigSep_ge_peel _ n k n' hn hn']
  iintro ⟨#HR, ⟨⟨Ht, Hs, Ho⟩, HS⟩, HO⟩ Hk
  iapply (Rounds.wp_signal 𝒱₀ ER (ringRd m) (c : Thread nD τ) none (dst := (fwd c k : Thread nD τ)) (κ := K (fwd c k, none))
      (d := c) (O₀ := X + Osig c n) (by rw [duties_bar]; exact Finset.mem_erase.mpr ⟨(fwd_ne c k).symm, Finset.mem_univ _⟩)
      ((amount_bar m (fwd c k) c).trans (by decide)) () (X + Osig c n')
      (by rw [Osig_peel c n k n' hn hn', ← add_assoc]; rfl)) $$ [HO Ht Hs Ho]
  · isplitr; · iapply (inv_at m K (fwd c k, none)); iexact HR
    isplitl [HO]; · iexact HO
    isplitl [Ht]; · iexact Ht
    isplitl [Hs Ho]; · rw [payload_bar, barPay_own]; isplitl [Hs] <;> iassumption
    iapply (reached_at m K (fwd c k, none)); iexact HR
  iintro HO
  iapply Hk
  isplitl [HS] <;> iassumption

/-! ## The barrier wait: fifteen units, every other device's two slots for this one -/

theorem bar_wait_step (K : Dev nD × CK → ℕ) (c : Dev nD) (W : Waits sig Unit) (sm : Sem sig) (hsm : sm = barS)
    {α : Type} {Q : α → sProp 𝕄} {kont : PUnit → Prog (TpuEff nD τ sig (Elt F) Λ₀ .tc) α} :
    iprop(records m K ∗ levAts L lv ∗ cred (tallyAt (barCell c) () 15) ∗ atPos ER (barCell c) 0 ∅ 0
        ∗ owes (c : Thread nD τ) (Oag c 0 + Ors c 0) W)
      ⊢ iprop(((owes (c : Thread nD τ) (Oag c 0 + Ors c 0) (insert (SemLoc.reg barS, ()) W)
              ∗ atPos ER (barCell c) 1 ∅ 0 ∗ reached ER (barCell c) 1
              ∗ bigSep (Finset.univ : Finset (Fin 15)) (fun k => iprop(peerSlotS (F := F) c k ∗ peerSlotO (F := F) c k)))
            -∗ wp frame (wpE (defs₀ (F := F)) 𝒱₀ c none) Set.univ (kont ⟨⟩) Q)
          -∗ wp frame (wpE (defs₀ (F := F)) 𝒱₀ c none) Set.univ (.op (.semWait sm (15#32 : BitVec 32).toNat) kont) Q) := by
  subst hsm
  have hrule := Rounds.wp_wait_rest_token (defs := defs₀ (F := F)) (Q := Q) (k := kont) 𝒱₀ ER (ringRd m) (c : Thread nD τ) none (κ := K (c, none))
      (w := .semWait barS (15#32 : BitVec 32).toNat) (sm := .reg barS) (k' := 15)
      (wpE_semWait_eq (defs := defs₀ (F := F)) 𝒱₀ (c : Thread nD τ) none Set.univ) (Set.mem_univ _) () (O := Oag c 0 + Ors c 0) (W := W) (R := 0) (m := 0) (T := ∅)
      (by rw [Nat.zero_add]; exact (expect_bar m c).symm)
  rw [rest_bar, erase_eq_fwd] at hrule
  simp only [barPay_peer] at hrule
  iintro ⟨#HR, #Hlev, Hc, Hat, HO⟩ Hk
  iapply hrule $$ [Hc HO Hat]
  · isplitr; · iapply (inv_at m K (c, none)); iexact HR
    isplitl [Hc]; · iexact Hc
    isplitl [HO]; · iexact HO
    isplitr; · iapply (mayWait_bar c); iexact Hlev
    iexact Hat
  iexact Hk

/-- info: 'Cert.KernelIdeal.AR.sig_step' depends on axioms: [propext, Classical.choice, Quot.sound] -/
#guard_msgs in #print axioms sig_step
/-- info: 'Cert.KernelIdeal.AR.bar_wait_step' depends on axioms: [propext, Classical.choice, Quot.sound] -/
#guard_msgs in #print axioms bar_wait_step

end Cert.KernelIdeal.AR

end
-- ==== Proof.StepSend.lean ====
/-
# The two transfer steps of the body

A transfer to the peer `k + 1` places ahead reads thirty-two rows on the sending device and writes them into rows
`32 c …` of a buffer of the peer's. Its completion is counted twice: on a cell of the sender's (the source has been read
out: the source rows come back with it) and on a cell of the peer's (the rows have landed: the peer learns what they
hold). `landed1` and `landed2` are the two value steps: what the written rows hold, stated as the peer's payload.
`send1_step` and `send2_step` move one shift across the families of the first and of the second round of transfers.
-/
import proofs.«900416_g7700000000000417_dist_ar_v7x_i16_i_m512_n512_bf16_1_alg».proof.Proof.Res
import Idealize.ShloMosaic.Lib.Pipeline.Value

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The value steps

Index `y` of a thirty-two-row slice at rows `32 j …` is the element `(32 j + y₀, y₁)` of its buffer. -/

/-- First round: rows `32 c …` of the peer's receive buffer, written with rows `32 p …` (`p = fwd c k`) of `c`'s rounded
    block, hold what the peer's schedule says they hold: element `i` of those rows belongs to block `c` and is
    `xb c` at `(32 p + i₀ mod 32, i₁)`. -/
theorem landed1 (c : Dev nD) (k : Fin 15) (fd : Buf (Elt F) ((sRow c).view.loc (fwd c k : Thread nD τ))) :
    ((sRow c).view.loc (fwd c k : Thread nD τ) ↦[(sRow c).view.set]{fullShare}
        ((sRow c).view.write (Elt F) fd ((bRow (fwd c k)).view.read (Elt F) (xb m c)) Finset.univ) : sProp 𝕄)
      = rsRecvPay m (fwd c k) c := by
  unfold rsRecvPay
  apply pointsTo_congr
  intro i hi
  obtain ⟨y, rfl⟩ := View.exists_emb_of_mem_set _ hi
  rw [View.write_emb_of_mem _ _ (Finset.mem_univ y), View.read_apply]
  unfold RS
  have h0 : (((sRow c).view.emb y) 0).val = 32 * c.val + (y 0).val := by
    show (k0_off3 c) 0 + 1 * (y 0).val = _
    rw [k0_off3_eq]; simp
  have hy : (y 0).val < 32 := (y 0).isLt
  have h1 : blkOf ((sRow c).view.emb y) = c := by
    apply Fin.ext
    show (((sRow c).view.emb y) 0).val / 32 = c.val
    rw [h0]; omega
  have h2 : rowIn (fwd c k) ((sRow c).view.emb y) = (bRow (fwd c k)).view.emb y := by
    funext a
    fin_cases a
    · apply Fin.ext
      show 32 * (fwd c k).val + (((sRow c).view.emb y) 0).val % 32 = (k0_off3 (fwd c k)) 0 + 1 * (y 0).val
      rw [h0, k0_off3_eq]; simp; omega
    · apply Fin.ext
      show (((sRow c).view.emb y) 1).val = (k0_off3 (fwd c k)) 1 + 1 * (y 1).val
      show (k0_off3 c) 1 + 1 * (y 1).val = (k0_off3 (fwd c k)) 1 + 1 * (y 1).val
      rw [k0_off3_eq, k0_off3_eq]; simp
  rw [h1, h2]
  rfl

/-- Second round: rows `32 c …` of the peer's staged result, written with `c`'s reduced rows, are those rows of the
    common result. -/
theorem landed2 (c : Dev nD) (k : Fin 15) (fd : Buf (Elt F) ((oRow c).view.loc (fwd c k : Thread nD τ))) :
    ((oRow c).view.loc (fwd c k : Thread nD τ) ↦[(oRow c).view.set]{fullShare}
        ((oRow c).view.write (Elt F) fd ((rM : Memref sig .tc .vmem S32x512 .bf16).view.read (Elt F) (red m c)) Finset.univ) : sProp 𝕄)
      = agRecvPay m (fwd c k) c := by
  unfold agRecvPay
  apply pointsTo_congr
  intro i hi
  obtain ⟨y, rfl⟩ := View.exists_emb_of_mem_set _ hi
  rw [View.write_emb_of_mem _ _ (Finset.mem_univ y), View.read_apply]
  unfold OUT
  have h0 : (((oRow c).view.emb y) 0).val = 32 * c.val + (y 0).val := by
    show (k0_off3 c) 0 + 1 * (y 0).val = _
    rw [k0_off3_eq]; simp
  have hy : (y 0).val < 32 := (y 0).isLt
  have h1 : blkOf ((oRow c).view.emb y) = c := by
    apply Fin.ext
    show (((oRow c).view.emb y) 0).val / 32 = c.val
    rw [h0]; omega
  rw [h1]
  show red m c y = red m c _
  congr 1
  funext a
  fin_cases a
  · apply Fin.ext
    show (y 0).val = (((oRow c).view.emb y) 0).val % 32
    rw [h0]; omega
  · apply Fin.ext
    show (y 1).val = (k0_off3 c) 1 + 1 * (y 1).val
    rw [k0_off3_eq]; simp

/-! ## The steps -/

set_option maxHeartbeats 800000 in
/-- The first transfer of shift `k`: the two duties' tokens, the peer's slot and the source rows go in; the credit on
    the send cell comes back, and the landing's amount is paid off what is owed. -/
theorem send1_step (K : Dev nD × CK → ℕ) (c : Dev nD) (k : Fin 15) (n n' : ℕ) (hn : n = k.val) (hn' : n' = k.val + 1)
    (X : CellTallies nD τ sig Unit) (W : Waits sig Unit)
    (dv : Dev nD) (hdv : dv = fwd c k)
    (src : Memref sig .tc .vmem S32x512 .bf16) (hsrc : src = bRow (fwd c k))
    (dst : Memref sig (Dev.tc dv : Thread nD τ).2.kind .vmem S32x512 .bf16) (hdst : dst = sRow c)
    (sS sR : DmaSem sig) (hsS : sS = rsSendS (fwd c k)) (hsR : sR = rsRecvS c)
    {hsc : dst.view.ref.isScScratch = false} {hwsrc : src.view.WordExact} {hwdst : dst.view.WordExact}
    {hsem : DmaTarget.Typed .vmem (.dma sR) (.remote (Dev.tc dv : Thread nD τ) dst (.dma sS) hsc)}
    {α : Type} {Q : α → sProp 𝕄} {kont : PUnit → Prog (TpuEff nD τ sig (Elt F) Λ₀ .tc) α} :
    iprop(records m K ∗ Send1R m c n ∗ Send1D (F := F) c n ∗ owes (c : Thread nD τ) (X + Ors c n) W)
      ⊢ iprop(((Send1R m c n' ∗ Send1D (F := F) c n' ∗ owes (c : Thread nD τ) (X + Ors c n') W)
            -∗ wp frame (wpE (defs₀ (F := F)) 𝒱₀ c none) Set.univ (kont ⟨⟩) Q)
          -∗ wp frame (wpE (defs₀ (F := F)) 𝒱₀ c none) Set.univ
              (.op (.enqueueDma src (.remote (Dev.tc dv : Thread nD τ) dst (.dma sS) hsc) (.dma sR) hwsrc hwdst hsem) kont) Q) := by
  subst hn; subst hn'; subst hdv; subst hsrc; subst hdst; subst hsS; subst hsR
  unfold Send1R Send1D peerSlotS
  rw [bigSep_ge_peel _ k.val k (k.val + 1) rfl rfl, bigSep_lt_push _ k.val k (k.val + 1) rfl rfl]
  iintro ⟨#HR, ⟨⟨HtR, HtS, ⟨%fd, Hslot⟩, Hsrc⟩, HS⟩, HD, HO⟩ Hk
  iapply (Rounds.wp_send_pointsTo 𝒱₀ ER (ringRd m) (c : Thread nD τ) none (c' := (fwd c k : Thread nD τ))
      (src := bRow (fwd c k)) (dst := sRow c) (q := fullShare) (fs := xb m c) (fd := fd)
      (κ₁ := K (c, some (0, fwd c k))) (κ₂ := K (fwd c k, some (1, c))) (r₁ := 0) (r₂ := 0) (d₁ := fwd c k) (d₂ := c) (O₀ := X + Ors c k.val)
      (by rw [duties_rsSend m c (fwd c k) (fwd_ne c k)]; exact Finset.mem_singleton_self _)
      (by rw [duties_rsRecv m (fwd c k) c (fwd_ne c k).symm]; exact Finset.mem_singleton_self _)
      () () NC rfl (amount_dma m c _ _) (amount_dma m (fwd c k) _ _) (X + Ors c (k.val + 1))
      (by rw [Ors_peel c k.val k (k.val + 1) rfl rfl, ← add_assoc]) (W := W)
      (by rw [payload_rsSend]; exact BI.Entails.refl _)
      (by rw [payload_rsRecv]; exact Entails.of_eq (landed1 m c k fd))) $$ [HO HtR HtS Hslot Hsrc]
  · isplitr; · iapply (inv_at m K (c, some (0, fwd c k))); iexact HR
    isplitr; · iapply (inv_at m K (fwd c k, some (1, c))); iexact HR
    isplitl [Hsrc]; · iexact Hsrc
    isplitl [Hslot]; · iexact Hslot
    isplitl [HO]; · iexact HO
    isplitl [HtS]; · iexact HtS
    isplitr; · iapply (reached_at m K (c, some (0, fwd c k))); iexact HR
    isplitl [HtR]; · iexact HtR
    iapply (reached_at m K (fwd c k, some (1, c))); iexact HR
  iintro ⟨Hc, HO⟩
  iapply Hk
  isplitl [HS]; · iexact HS
  isplitl [Hc HD]
  · isplitl [Hc]; · iexact Hc
    iexact HD
  iexact HO

set_option maxHeartbeats 800000 in
/-- The second transfer of shift `k`: the same with the reduced rows (read through the `k`-th read share) as source
    and rows `32 c …` of the peer's staged result as destination. -/
theorem send2_step (K : Dev nD × CK → ℕ) (c : Dev nD) (k : Fin 15) (n n' : ℕ) (hn : n = k.val) (hn' : n' = k.val + 1)
    (X : CellTallies nD τ sig Unit) (W : Waits sig Unit)
    (dv : Dev nD) (hdv : dv = fwd c k)
    (src : Memref sig .tc .vmem S32x512 .bf16) (hsrc : src = rM)
    (dst : Memref sig (Dev.tc dv : Thread nD τ).2.kind .vmem S32x512 .bf16) (hdst : dst = oRow c)
    (sS sR : DmaSem sig) (hsS : sS = agSendS (fwd c k)) (hsR : sR = agRecvS c)
    {hsc : dst.view.ref.isScScratch = false} {hwsrc : src.view.WordExact} {hwdst : dst.view.WordExact}
    {hsem : DmaTarget.Typed .vmem (.dma sR) (.remote (Dev.tc dv : Thread nD τ) dst (.dma sS) hsc)}
    {α : Type} {Q : α → sProp 𝕄} {kont : PUnit → Prog (TpuEff nD τ sig (Elt F) Λ₀ .tc) α} :
    iprop(records m K ∗ Send2R m c n ∗ Send2D (F := F) c n ∗ owes (c : Thread nD τ) (X + Oag c n) W)
      ⊢ iprop(((Send2R m c n' ∗ Send2D (F := F) c n' ∗ owes (c : Thread nD τ) (X + Oag c n') W)
            -∗ wp frame (wpE (defs₀ (F := F)) 𝒱₀ c none) Set.univ (kont ⟨⟩) Q)
          -∗ wp frame (wpE (defs₀ (F := F)) 𝒱₀ c none) Set.univ
              (.op (.enqueueDma src (.remote (Dev.tc dv : Thread nD τ) dst (.dma sS) hsc) (.dma sR) hwsrc hwdst hsem) kont) Q) := by
  subst hn; subst hn'; subst hdv; subst hsrc; subst hdst; subst hsS; subst hsR
  unfold Send2R Send2D peerSlotO
  rw [bigSep_ge_peel _ k.val k (k.val + 1) rfl rfl, bigSep_lt_push _ k.val k (k.val + 1) rfl rfl]
  iintro ⟨#HR, ⟨⟨HtR, HtS, ⟨%fd, Hslot⟩, Hsrc⟩, HS⟩, HD, HO⟩ Hk
  iapply (Rounds.wp_send_pointsTo 𝒱₀ ER (ringRd m) (c : Thread nD τ) none (c' := (fwd c k : Thread nD τ))
      (src := rM) (dst := oRow c) (q := Transfers.shareTok fullShare 15 k) (fs := red m c) (fd := fd)
      (κ₁ := K (c, some (2, fwd c k))) (κ₂ := K (fwd c k, some (3, c))) (r₁ := 0) (r₂ := 0) (d₁ := fwd c k) (d₂ := c) (O₀ := X + Oag c k.val)
      (by rw [duties_agSend m c (fwd c k) (fwd_ne c k)]; exact Finset.mem_singleton_self _)
      (by rw [duties_agRecv m (fwd c k) c (fwd_ne c k).symm]; exact Finset.mem_singleton_self _)
      () () NC rfl (amount_dma m c _ _) (amount_dma m (fwd c k) _ _) (X + Oag c (k.val + 1))
      (by rw [Oag_peel c k.val k (k.val + 1) rfl rfl, ← add_assoc]) (W := W)
      (by rw [payload_agSend]; unfold agSendPay; rw [kf_fwd])
      (by rw [payload_agRecv]; exact Entails.of_eq (landed2 m c k fd))) $$ [HO HtR HtS Hslot Hsrc]
  · isplitr; · iapply (inv_at m K (c, some (2, fwd c k))); iexact HR
    isplitr; · iapply (inv_at m K (fwd c k, some (3, c))); iexact HR
    isplitl [Hsrc]; · iexact Hsrc
    isplitl [Hslot]; · iexact Hslot
    isplitl [HO]; · iexact HO
    isplitl [HtS]; · iexact HtS
    isplitr; · iapply (reached_at m K (c, some (2, fwd c k))); iexact HR
    isplitl [HtR]; · iexact HtR
    iapply (reached_at m K (fwd c k, some (3, c))); iexact HR
  iintro ⟨Hc, HO⟩
  iapply Hk
  isplitl [HS]; · iexact HS
  isplitl [Hc HD]
  · isplitl [Hc]; · iexact Hc
    iexact HD
  iexact HO

/-- info: 'Cert.KernelIdeal.AR.send1_step' depends on axioms: [propext, Classical.choice, Quot.sound] -/
#guard_msgs in #print axioms send1_step
/-- info: 'Cert.KernelIdeal.AR.send2_step' depends on axioms: [propext, Classical.choice, Quot.sound] -/
#guard_msgs in #print axioms send2_step

end Cert.KernelIdeal.AR

end
-- ==== Proof.PartsB.lean ====
/-
# The first round of transfers, part by part

Printed parts 8 … 15 are the transfers of shifts 1 … 13 of the first round (shift 0 closes part 7, shift 14 opens part
16): each is one application of the step lemma, at the operation as printed.
-/
import proofs.«900416_g7700000000000417_dist_ar_v7x_i16_i_m512_n512_bf16_1_alg».proof.Proof.StepSend

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- `send1_step` at the operation as printed: the source rows through the printed offset chain, the two cells through
    the printed semaphore slices. -/
theorem send1_printed (K : Dev nD × CK → ℕ) (c : Dev nD) (k : Fin 15) (n n' : ℕ) (hn : n = k.val) (hn' : n' = k.val + 1)
    (X : CellTallies nD τ sig Unit) (W : Waits sig Unit) (dv : Dev nD) (hdv : dv = fwd c k)
    {hsc : (sRow c : Memref sig (Dev.tc dv : Thread nD τ).2.kind .vmem S32x512 .bf16).view.ref.isScScratch = false}
    {hwsrc : ((bM : Memref sig .tc .vmem S512x512 .bf16).slice (Rect.unit (s := S512x512) (k0_off4 c (BitVec.ofNat 32 (1 + k.val))) S32x512.size (k0_off4_inb c k)) (fun _ => rfl)).view.WordExact}
    {hwdst : (sRow c : Memref sig (Dev.tc dv : Thread nD τ).2.kind .vmem S32x512 .bf16).view.WordExact}
    {hsem : DmaTarget.Typed .vmem (.dma ((cc0_scratch4.slice (Rect.unit (s := S16) (k0_off2 c) S1.size (k0_off2_inb c))).squeeze S_ squeezes_S1_S_).sem)
      (.remote (Dev.tc dv : Thread nD τ) (sRow c) (.dma ((cc0_scratch3.slice (Rect.unit (s := S16) (k0_off1 c (BitVec.ofNat 32 (1 + k.val))) S1.size (k0_off1_inb c k))).squeeze S_ squeezes_S1_S_).sem) hsc)}
    {α : Type} {Q : α → sProp 𝕄} {kont : PUnit → Prog (TpuEff nD τ sig (Elt F) Λ₀ .tc) α} :
    iprop(records m K ∗ Send1R m c n ∗ Send1D (F := F) c n ∗ owes (c : Thread nD τ) (X + Ors c n) W)
      ⊢ iprop(((Send1R m c n' ∗ Send1D (F := F) c n' ∗ owes (c : Thread nD τ) (X + Ors c n') W)
            -∗ wp frame (wpE (defs₀ (F := F)) 𝒱₀ c none) Set.univ (kont ⟨⟩) Q)
          -∗ wp frame (wpE (defs₀ (F := F)) 𝒱₀ c none) Set.univ
              (.op (.enqueueDma ((bM : Memref sig .tc .vmem S512x512 .bf16).slice (Rect.unit (s := S512x512) (k0_off4 c (BitVec.ofNat 32 (1 + k.val))) S32x512.size (k0_off4_inb c k)) (fun _ => rfl))
                (.remote (Dev.tc dv : Thread nD τ) (sRow c) (.dma ((cc0_scratch3.slice (Rect.unit (s := S16) (k0_off1 c (BitVec.ofNat 32 (1 + k.val))) S1.size (k0_off1_inb c k))).squeeze S_ squeezes_S1_S_).sem) hsc)
                (.dma ((cc0_scratch4.slice (Rect.unit (s := S16) (k0_off2 c) S1.size (k0_off2_inb c))).squeeze S_ squeezes_S1_S_).sem) hwsrc hwdst hsem) kont) Q) :=
  send1_step m K c k n n' hn hn' X W dv hdv _ (Memref.slice_unit_congr _ ((off4_eq c k).trans (k0_off3_eq _).symm) _ _ _ _) _ rfl _ _
    (sem_off1_rs c k) (sem_off2_rs c)

set_option maxHeartbeats 800000 in
/-- Printed part 8: the first transfer of shift 1. -/
theorem part8 (K : Dev nD × CK → ℕ) (c : Dev nD) (X : CellTallies nD τ sig Unit) (W : Waits sig Unit) (v2 : BitVec 32) (v226 : BitVec 32) (c16_i32_152 : BitVec 32) (c0_i32_153 : BitVec 32)
    (Kt : (PUnit) → sProp 𝕄) :
    iprop((records m K ∗ Send1R m c 1 ∗ Send1D (F := F) c 1 ∗ owes (c : Thread nD τ) (X + Ors c 1) W)
        ∗ (∀ ret, (Send1R m c 2 ∗ Send1D (F := F) c 2 ∗ owes (c : Thread nD τ) (X + Ors c 2) W) -∗ Kt ret))
      ⊢ wp frame (wpE (defs₀ (F := F)) 𝒱₀ c none) Set.univ
          (k0_part8 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v226 c16_i32_152 c0_i32_153) Kt := by
  rw [k0_part8_eq_skeleton]; unfold k0_part8_skel
  simp only [Prog.lift, Prog.bind_op, Prog.bind_ret, Prog.pure_eq_ret]
  iintro ⟨⟨#HR, HS, HD, HO⟩, Hk⟩
  iapply (send1_printed m K c (1 : Fin 15) 1 2 rfl rfl X W _ (dev17_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 9: the first transfers of shifts 2 and 3. -/
theorem part9 (K : Dev nD × CK → ℕ) (c : Dev nD) (X : CellTallies nD τ sig Unit) (W : Waits sig Unit) (v2 : BitVec 32)
    (Kt : (Σ' (v299 : BitVec 32), BitVec 32) → sProp 𝕄) :
    iprop((records m K ∗ Send1R m c 2 ∗ Send1D (F := F) c 2 ∗ owes (c : Thread nD τ) (X + Ors c 2) W)
        ∗ (∀ ret, (Send1R m c 4 ∗ Send1D (F := F) c 4 ∗ owes (c : Thread nD τ) (X + Ors c 4) W) -∗ Kt ret))
      ⊢ wp frame (wpE (defs₀ (F := F)) 𝒱₀ c none) Set.univ
          (k0_part9 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2) Kt := by
  rw [k0_part9_eq_skeleton]; unfold k0_part9_skel
  simp only [Prog.lift, Prog.bind_op, Prog.bind_ret, Prog.pure_eq_ret]
  iintro ⟨⟨#HR, HS, HD, HO⟩, Hk⟩
  iapply (send1_printed m K c (2 : Fin 15) 2 3 rfl rfl X W _ (dev18_eq c)) $$ [HS HD HO]
  · isplitr; · iexact HR
    isplitl [HS]; · iexact HS
    isplitl [HD]; · iexact HD
    iexact HO
  iintro ⟨HS, HD, HO⟩
  iapply (send1_printed m K c (3 : Fin 15) 3 4 rfl rfl X W _ (dev19_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 10: the first transfers of shifts 4 and 5. -/
theorem part10 (K : Dev nD × CK → ℕ) (c : Dev nD) (X : CellTallies nD τ sig Unit) (W : Waits sig Unit) (v2 : BitVec 32) (v299 : BitVec 32) (c32_i32_197 : BitVec 32)
    (Kt : (Σ' (v333 : BitVec 32) (v334 : BitVec 32), BitVec 32) → sProp 𝕄) :
    iprop((records m K ∗ Send1R m c 4 ∗ Send1D (F := F) c 4 ∗ owes (c : Thread nD τ) (X + Ors c 4) W)
        ∗ (∀ ret, (Send1R m c 6 ∗ Send1D (F := F) c 6 ∗ owes (c : Thread nD τ) (X + Ors c 6) W) -∗ Kt ret))
      ⊢ wp frame (wpE (defs₀ (F := F)) 𝒱₀ c none) Set.univ
          (k0_part10 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v299 c32_i32_197) Kt := by
  rw [k0_part10_eq_skeleton]; unfold k0_part10_skel
  simp only [Prog.lift, Prog.bind_op, Prog.bind_ret, Prog.pure_eq_ret]
  iintro ⟨⟨#HR, HS, HD, HO⟩, Hk⟩
  iapply (send1_printed m K c (4 : Fin 15) 4 5 rfl rfl X W _ (dev20_eq c)) $$ [HS HD HO]
  · isplitr; · iexact HR
    isplitl [HS]; · iexact HS
    isplitl [HD]; · iexact HD
    iexact HO
  iintro ⟨HS, HD, HO⟩
  iapply (send1_printed m K c (5 : Fin 15) 5 6 rfl rfl X W _ (dev21_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 11: the first transfer of shift 6. -/
theorem part11 (K : Dev nD × CK → ℕ) (c : Dev nD) (X : CellTallies nD τ sig Unit) (W : Waits sig Unit) (v2 : BitVec 32) (v333 : BitVec 32) (v334 : BitVec 32) (c0_i32_220 : BitVec 32)
    (Kt : (PUnit) → sProp 𝕄) :
    iprop((records m K ∗ Send1R m c 6 ∗ Send1D (F := F) c 6 ∗ owes (c : Thread nD τ) (X + Ors c 6) W)
        ∗ (∀ ret, (Send1R m c 7 ∗ Send1D (F := F) c 7 ∗ owes (c : Thread nD τ) (X + Ors c 7) W) -∗ Kt ret))
      ⊢ wp frame (wpE (defs₀ (F := F)) 𝒱₀ c none) Set.univ
          (k0_part11 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v333 v334 c0_i32_220) Kt := by
  rw [k0_part11_eq_skeleton]; unfold k0_part11_skel
  simp only [Prog.lift, Prog.bind_op, Prog.bind_ret, Prog.pure_eq_ret]
  iintro ⟨⟨#HR, HS, HD, HO⟩, Hk⟩
  iapply (send1_printed m K c (6 : Fin 15) 6 7 rfl rfl X W _ (dev22_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 12: the first transfers of shifts 7 and 8. -/
theorem part12 (K : Dev nD × CK → ℕ) (c : Dev nD) (X : CellTallies nD τ sig Unit) (W : Waits sig Unit) (v2 : BitVec 32)
    (Kt : (BitVec 32) → sProp 𝕄) :
    iprop((records m K ∗ Send1R m c 7 ∗ Send1D (F := F) c 7 ∗ owes (c : Thread nD τ) (X + Ors c 7) W)
        ∗ (∀ ret, (Send1R m c 9 ∗ Send1D (F := F) c 9 ∗ owes (c : Thread nD τ) (X + Ors c 9) W) -∗ Kt ret))
      ⊢ wp frame (wpE (defs₀ (F := F)) 𝒱₀ c none) Set.univ
          (k0_part12 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2) Kt := by
  rw [k0_part12_eq_skeleton]; unfold k0_part12_skel
  simp only [Prog.lift, Prog.bind_op, Prog.bind_ret, Prog.pure_eq_ret]
  iintro ⟨⟨#HR, HS, HD, HO⟩, Hk⟩
  iapply (send1_printed m K c (7 : Fin 15) 7 8 rfl rfl X W _ (dev23_eq c)) $$ [HS HD HO]
  · isplitr; · iexact HR
    isplitl [HS]; · iexact HS
    isplitl [HD]; · iexact HD
    iexact HO
  iintro ⟨HS, HD, HO⟩
  iapply (send1_printed m K c (8 : Fin 15) 8 9 rfl rfl X W _ (dev24_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 13: the first transfers of shifts 9 and 10. -/
theorem part13 (K : Dev nD × CK → ℕ) (c : Dev nD) (X : CellTallies nD τ sig Unit) (W : Waits sig Unit) (v2 : BitVec 32) (v407 : BitVec 32)
    (Kt : (Σ' (v438 : BitVec 32) (v439 : BitVec 32) (v440 : BitVec 1) (v441 : BitVec 1), BitVec 1) → sProp 𝕄) :
    iprop((records m K ∗ Send1R m c 9 ∗ Send1D (F := F) c 9 ∗ owes (c : Thread nD τ) (X + Ors c 9) W)
        ∗ (∀ ret, (Send1R m c 11 ∗ Send1D (F := F) c 11 ∗ owes (c : Thread nD τ) (X + Ors c 11) W) -∗ Kt ret))
      ⊢ wp frame (wpE (defs₀ (F := F)) 𝒱₀ c none) Set.univ
          (k0_part13 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v407) Kt := by
  rw [k0_part13_eq_skeleton]; unfold k0_part13_skel
  simp only [Prog.lift, Prog.bind_op, Prog.bind_ret, Prog.pure_eq_ret]
  iintro ⟨⟨#HR, HS, HD, HO⟩, Hk⟩
  iapply (send1_printed m K c (9 : Fin 15) 9 10 rfl rfl X W _ (dev25_eq c)) $$ [HS HD HO]
  · isplitr; · iexact HR
    isplitl [HS]; · iexact HS
    isplitl [HD]; · iexact HD
    iexact HO
  iintro ⟨HS, HD, HO⟩
  iapply (send1_printed m K c (10 : Fin 15) 10 11 rfl rfl X W _ (dev26_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 14: the first transfers of shifts 11 and 12. -/
theorem part14 (K : Dev nD × CK → ℕ) (c : Dev nD) (X : CellTallies nD τ sig Unit) (W : Waits sig Unit) (v2 : BitVec 32) (v438 : BitVec 32) (v439 : BitVec 32) (v440 : BitVec 1) (v441 : BitVec 1) (v442 : BitVec 1)
    (Kt : (Σ' (v478 : BitVec 32) (c16_i32_308 : BitVec 32), BitVec 32) → sProp 𝕄) :
    iprop((records m K ∗ Send1R m c 11 ∗ Send1D (F := F) c 11 ∗ owes (c : Thread nD τ) (X + Ors c 11) W)
        ∗ (∀ ret, (Send1R m c 13 ∗ Send1D (F := F) c 13 ∗ owes (c : Thread nD τ) (X + Ors c 13) W) -∗ Kt ret))
      ⊢ wp frame (wpE (defs₀ (F := F)) 𝒱₀ c none) Set.univ
          (k0_part14 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v438 v439 v440 v441 v442) Kt := by
  rw [k0_part14_eq_skeleton]; unfold k0_part14_skel
  simp only [Prog.lift, Prog.bind_op, Prog.bind_ret, Prog.pure_eq_ret]
  iintro ⟨⟨#HR, HS, HD, HO⟩, Hk⟩
  iapply (send1_printed m K c (11 : Fin 15) 11 12 rfl rfl X W _ (dev27_eq c)) $$ [HS HD HO]
  · isplitr; · iexact HR
    isplitl [HS]; · iexact HS
    isplitl [HD]; · iexact HD
    iexact HO
  iintro ⟨HS, HD, HO⟩
  iapply (send1_printed m K c (12 : Fin 15) 12 13 rfl rfl X W _ (dev28_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 15: the first transfer of shift 13. -/
theorem part15 (K : Dev nD × CK → ℕ) (c : Dev nD) (X : CellTallies nD τ sig Unit) (W : Waits sig Unit) (v2 : BitVec 32) (v478 : BitVec 32) (c16_i32_308 : BitVec 32) (c0_i32_309 : BitVec 32)
    (Kt : (PUnit) → sProp 𝕄) :
    iprop((records m K ∗ Send1R m c 13 ∗ Send1D (F := F) c 13 ∗ owes (c : Thread nD τ) (X + Ors c 13) W)
        ∗ (∀ ret, (Send1R m c 14 ∗ Send1D (F := F) c 14 ∗ owes (c : Thread nD τ) (X + Ors c 14) W) -∗ Kt ret))
      ⊢ wp frame (wpE (defs₀ (F := F)) 𝒱₀ c none) Set.univ
          (k0_part15 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v478 c16_i32_308 c0_i32_309) Kt := by
  rw [k0_part15_eq_skeleton]; unfold k0_part15_skel
  simp only [Prog.lift, Prog.bind_op, Prog.bind_ret, Prog.pure_eq_ret]
  iintro ⟨⟨#HR, HS, HD, HO⟩, Hk⟩
  iapply (send1_printed m K c (13 : Fin 15) 13 14 rfl rfl X W _ (dev29_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

/-- info: 'Cert.KernelIdeal.AR.part15' depends on axioms: [propext, Classical.choice, Quot.sound] -/
#guard_msgs in #print axioms part15
/-- info: 'Cert.KernelIdeal.AR.part12' depends on axioms: [propext, Classical.choice, Quot.sound] -/
#guard_msgs in #print axioms part12

end Cert.KernelIdeal.AR

end
-- ==== Proof.PartsA.lean ====
/-
# The printed parts 1 to 7: the signal phase, the barrier wait, the rounded copy

Parts 1 to 6 send fourteen of the fifteen signals; part 7 sends the last, waits for the fifteen it is owed, rounds the
staged block into the rounded copy, and starts the first transfer.
-/
import proofs.«900416_g7700000000000417_dist_ar_v7x_i16_i_m512_n512_bf16_1_alg».proof.Proof.StepSig
import proofs.«900416_g7700000000000417_dist_ar_v7x_i16_i_m512_n512_bf16_1_alg».proof.Proof.PartsB

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 800000 in
/-- Printed part 1: the device reads its own index, then the signals of the shifts 0, 1. -/
theorem part1 (K : Dev nD × CK → ℕ) (c : Dev nD) (X : CellTallies nD τ sig Unit) (W : Waits sig Unit)
    (Kt : (Σ' (d0 : Dev nD) (v2 : BitVec 32) (v3 : Sems sig S_) (v30 : BitVec 32) (c16_i32_18 : BitVec 32), BitVec 1) → sProp 𝕄) :
    iprop((records m K ∗ SigR (F := F) c 0 ∗ owes (c : Thread nD τ) (X + Osig c 0) W)
        ∗ (∀ ret, (SigR (F := F) c 2 ∗ owes (c : Thread nD τ) (X + Osig c 2) W
            ∗ ⌜ret.1 = c ∧ ret.2.2.1 = SemArray.scalar (sig.barrier 0 rfl)⌝) -∗ Kt ret))
      ⊢ wp frame (wpE (defs₀ (F := F)) 𝒱₀ c none) Set.univ
          (k0_part1 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  rw [k0_part1_eq_skeleton]; unfold k0_part1_skel
  simp only [semSignalWord, Prog.lift, Prog.bind_op, Prog.bind_ret, Prog.pure_eq_ret, wp_deviceId]
  iintro ⟨⟨#HR, HS, HO⟩, Hk⟩
  iapply (sig_step m K c (0 : Fin 15) 0 1 rfl rfl X W _ (dev1_eq c) _ rfl) $$ [HS HO]
  · isplitr; · iexact HR
    isplitl [HS] <;> iassumption
  iintro ⟨HS, HO⟩
  iapply (sig_step m K c (1 : Fin 15) 1 2 rfl rfl X W _ (dev2_eq c) _ rfl) $$ [HS HO]
  · isplitr; · iexact HR
    isplitl [HS] <;> iassumption
  iintro ⟨HS, HO⟩
  rw [wp_ret]; imodintro
  iapply Hk
  isplitl [HS]; · iexact HS
  isplitl [HO]; · iexact HO
  ipureintro; exact ⟨rfl, rfl⟩

set_option maxHeartbeats 800000 in
/-- Printed part 2: the signals of the shifts 2, 3. -/
theorem part2 (K : Dev nD × CK → ℕ) (c : Dev nD) (X : CellTallies nD τ sig Unit) (W : Waits sig Unit) (v2 : BitVec 32) (v30 : BitVec 32) (c16 : BitVec 32) (v31 : BitVec 1)
    (Kt : (Σ' (v59 : BitVec 32) (v64 : BitVec 1), BitVec 32) → sProp 𝕄) :
    iprop((records m K ∗ SigR (F := F) c 2 ∗ owes (c : Thread nD τ) (X + Osig c 2) W)
        ∗ (∀ ret, (SigR (F := F) c 4 ∗ owes (c : Thread nD τ) (X + Osig c 4) W) -∗ Kt ret))
      ⊢ wp frame (wpE (defs₀ (F := F)) 𝒱₀ c none) Set.univ
          (k0_part2 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v30 c16 v31) Kt := by
  rw [k0_part2_eq_skeleton]; unfold k0_part2_skel
  simp only [semSignalWord, Prog.lift, Prog.bind_op, Prog.bind_ret, Prog.pure_eq_ret]
  iintro ⟨⟨#HR, HS, HO⟩, Hk⟩
  iapply (sig_step m K c (2 : Fin 15) 2 3 rfl rfl X W _ (dev3_eq c) _ rfl) $$ [HS HO]
  · isplitr; · iexact HR
    isplitl [HS] <;> iassumption
  iintro ⟨HS, HO⟩
  iapply (sig_step m K c (3 : Fin 15) 3 4 rfl rfl X W _ (dev4_eq c) _ rfl) $$ [HS HO]
  · isplitr; · iexact HR
    isplitl [HS] <;> iassumption
  iintro ⟨HS, HO⟩
  rw [wp_ret]; imodintro
  iapply Hk
  isplitl [HS] <;> iassumption

set_option maxHeartbeats 800000 in
/-- Printed part 3: the signals of the shifts 4, 5, 6. -/
theorem part3 (K : Dev nD × CK → ℕ) (c : Dev nD) (X : CellTallies nD τ sig Unit) (W : Waits sig Unit) (v2 : BitVec 32) (v59 : BitVec 32) (v64 : BitVec 1) (v65 : BitVec 32)
    (Kt : (Σ' (v95 : BitVec 32) (c16_i32_63 : BitVec 32), BitVec 1) → sProp 𝕄) :
    iprop((records m K ∗ SigR (F := F) c 4 ∗ owes (c : Thread nD τ) (X + Osig c 4) W)
        ∗ (∀ ret, (SigR (F := F) c 7 ∗ owes (c : Thread nD τ) (X + Osig c 7) W) -∗ Kt ret))
      ⊢ wp frame (wpE (defs₀ (F := F)) 𝒱₀ c none) Set.univ
          (k0_part3 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v59 v64 v65) Kt := by
  rw [k0_part3_eq_skeleton]; unfold k0_part3_skel
  simp only [semSignalWord, Prog.lift, Prog.bind_op, Prog.bind_ret, Prog.pure_eq_ret]
  iintro ⟨⟨#HR, HS, HO⟩, Hk⟩
  iapply (sig_step m K c (4 : Fin 15) 4 5 rfl rfl X W _ (dev5_eq c) _ rfl) $$ [HS HO]
  · isplitr; · iexact HR
    isplitl [HS] <;> iassumption
  iintro ⟨HS, HO⟩
  iapply (sig_step m K c (5 : Fin 15) 5 6 rfl rfl X W _ (dev6_eq c) _ rfl) $$ [HS HO]
  · isplitr; · iexact HR
    isplitl [HS] <;> iassumption
  iintro ⟨HS, HO⟩
  iapply (sig_step m K c (6 : Fin 15) 6 7 rfl rfl X W _ (dev7_eq c) _ rfl) $$ [HS HO]
  · isplitr; · iexact HR
    isplitl [HS] <;> iassumption
  iintro ⟨HS, HO⟩
  rw [wp_ret]; imodintro
  iapply Hk
  isplitl [HS] <;> iassumption

set_option maxHeartbeats 800000 in
/-- Printed part 4: the signals of the shifts 7, 8. -/
theorem part4 (K : Dev nD × CK → ℕ) (c : Dev nD) (X : CellTallies nD τ sig Unit) (W : Waits sig Unit) (v2 : BitVec 32) (v95 : BitVec 32) (c16 : BitVec 32) (v96 : BitVec 1)
    (Kt : (Σ' (v124 : BitVec 32) (v129 : BitVec 1), BitVec 32) → sProp 𝕄) :
    iprop((records m K ∗ SigR (F := F) c 7 ∗ owes (c : Thread nD τ) (X + Osig c 7) W)
        ∗ (∀ ret, (SigR (F := F) c 9 ∗ owes (c : Thread nD τ) (X + Osig c 9) W) -∗ Kt ret))
      ⊢ wp frame (wpE (defs₀ (F := F)) 𝒱₀ c none) Set.univ
          (k0_part4 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v95 c16 v96) Kt := by
  rw [k0_part4_eq_skeleton]; unfold k0_part4_skel
  simp only [semSignalWord, Prog.lift, Prog.bind_op, Prog.bind_ret, Prog.pure_eq_ret]
  iintro ⟨⟨#HR, HS, HO⟩, Hk⟩
  iapply (sig_step m K c (7 : Fin 15) 7 8 rfl rfl X W _ (dev8_eq c) _ rfl) $$ [HS HO]
  · isplitr; · iexact HR
    isplitl [HS] <;> iassumption
  iintro ⟨HS, HO⟩
  iapply (sig_step m K c (8 : Fin 15) 8 9 rfl rfl X W _ (dev9_eq c) _ rfl) $$ [HS HO]
  · isplitr; · iexact HR
    isplitl [HS] <;> iassumption
  iintro ⟨HS, HO⟩
  rw [wp_ret]; imodintro
  iapply Hk
  isplitl [HS] <;> iassumption

set_option maxHeartbeats 800000 in
/-- Printed part 5: the signals of the shifts 9, 10, 11. -/
theorem part5 (K : Dev nD × CK → ℕ) (c : Dev nD) (X : CellTallies nD τ sig Unit) (W : Waits sig Unit) (v2 : BitVec 32) (v124 : BitVec 32) (v129 : BitVec 1) (v130 : BitVec 32)
    (Kt : (Σ' (v160 : BitVec 32) (c16_i32_108 : BitVec 32), BitVec 1) → sProp 𝕄) :
    iprop((records m K ∗ SigR (F := F) c 9 ∗ owes (c : Thread nD τ) (X + Osig c 9) W)
        ∗ (∀ ret, (SigR (F := F) c 12 ∗ owes (c : Thread nD τ) (X + Osig c 12) W) -∗ Kt ret))
      ⊢ wp frame (wpE (defs₀ (F := F)) 𝒱₀ c none) Set.univ
          (k0_part5 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v124 v129 v130) Kt := by
  rw [k0_part5_eq_skeleton]; unfold k0_part5_skel
  simp only [semSignalWord, Prog.lift, Prog.bind_op, Prog.bind_ret, Prog.pure_eq_ret]
  iintro ⟨⟨#HR, HS, HO⟩, Hk⟩
  iapply (sig_step m K c (9 : Fin 15) 9 10 rfl rfl X W _ (dev10_eq c) _ rfl) $$ [HS HO]
  · isplitr; · iexact HR
    isplitl [HS] <;> iassumption
  iintro ⟨HS, HO⟩
  iapply (sig_step m K c (10 : Fin 15) 10 11 rfl rfl X W _ (dev11_eq c) _ rfl) $$ [HS HO]
  · isplitr; · iexact HR
    isplitl [HS] <;> iassumption
  iintro ⟨HS, HO⟩
  iapply (sig_step m K c (11 : Fin 15) 11 12 rfl rfl X W _ (dev12_eq c) _ rfl) $$ [HS HO]
  · isplitr; · iexact HR
    isplitl [HS] <;> iassumption
  iintro ⟨HS, HO⟩
  rw [wp_ret]; imodintro
  iapply Hk
  isplitl [HS] <;> iassumption

set_option maxHeartbeats 800000 in
/-- Printed part 6: the signals of the shifts 12, 13. -/
theorem part6 (K : Dev nD × CK → ℕ) (c : Dev nD) (X : CellTallies nD τ sig Unit) (W : Waits sig Unit) (v2 : BitVec 32) (v160 : BitVec 32) (c16 : BitVec 32) (v161 : BitVec 1)
    (Kt : (Σ' (v189 : BitVec 32) (v194 : BitVec 1), BitVec 32) → sProp 𝕄) :
    iprop((records m K ∗ SigR (F := F) c 12 ∗ owes (c : Thread nD τ) (X + Osig c 12) W)
        ∗ (∀ ret, (SigR (F := F) c 14 ∗ owes (c : Thread nD τ) (X + Osig c 14) W) -∗ Kt ret))
      ⊢ wp frame (wpE (defs₀ (F := F)) 𝒱₀ c none) Set.univ
          (k0_part6 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v160 c16 v161) Kt := by
  rw [k0_part6_eq_skeleton]; unfold k0_part6_skel
  simp only [semSignalWord, Prog.lift, Prog.bind_op, Prog.bind_ret, Prog.pure_eq_ret]
  iintro ⟨⟨#HR, HS, HO⟩, Hk⟩
  iapply (sig_step m K c (12 : Fin 15) 12 13 rfl rfl X W _ (dev13_eq c) _ rfl) $$ [HS HO]
  · isplitr; · iexact HR
    isplitl [HS] <;> iassumption
  iintro ⟨HS, HO⟩
  iapply (sig_step m K c (13 : Fin 15) 13 14 rfl rfl X W _ (dev14_eq c) _ rfl) $$ [HS HO]
  · isplitr; · iexact HR
    isplitl [HS] <;> iassumption
  iintro ⟨HS, HO⟩
  rw [wp_ret]; imodintro
  iapply Hk
  isplitl [HS] <;> iassumption

/-! ## Part 7: the last signal, the barrier wait, the rounded copy, the first transfer -/

/-- The whole 512 × 512 rectangle, as the load and the store name it. -/
abbrev p7_r0 : Rect S512x512 := Rect.unit (s := S512x512) ![0, 0] S512x512.size inb_S512x512_S512x512_0_0
theorem p7_hz : (![0, 0] : Fin 2 → Nat) = fun _ => 0 := funext fun a => by fin_cases a <;> rfl

/-- A load through the whole rectangle reads the contents; a store through it leaves what is stored. -/
theorem p7_read (f : (cc0_stg0_0 : Ref sig .tc).ty.Contents (Elt F)) :
    (xM : Memref sig .tc .vmem S512x512 .f32).view.readAt (Elt F) p7_r0.toLoadRect f = f :=
  Memref.readAt_unit_zero (Elt F) cc0_stg0_0 p7_hz _ f
theorem p7_stored (f w : (cc0_scratch0 : Ref sig .tc).ty.Contents (Elt F)) :
    (((bM : Memref sig .tc .vmem S512x512 .bf16).access p7_r0 : View sig .tc _ _ _).write (Elt F) f w Finset.univ) = w :=
  Memref.write_access_unit_zero_univ (Elt F) cc0_scratch0 p7_hz _ f w

/-- The fifteen token pairs, the peers' receive slots and the fifteen row blocks of the rounded copy are the first
    transfers still to start; the peers' result slots stay. -/
theorem p7_send1R (c : Dev nD) :
    iprop((bigSep Finset.univ fun k : Fin 15 => iprop(dutyTok ER (rsRecvCell (fwd c k) c) 0 c ∗ dutyTok ER (rsSendCell c (fwd c k)) 0 (fwd c k)))
        ∗ (bigSep Finset.univ fun k : Fin 15 => iprop(peerSlotS (F := F) c k ∗ peerSlotO (F := F) c k))
        ∗ (bigSep Finset.univ fun k : Fin 15 => (bRow (fwd c k)).view.loc (c : Thread nD τ) ↦[(bRow (fwd c k)).view.set]{fullShare} xb m c))
      ⊢ iprop(Send1R m c 0 ∗ bigSep Finset.univ fun k : Fin 15 => peerSlotO (F := F) c k) := by
  unfold Send1R; rw [ge_zero]
  refine BI.Entails.trans ?_ (Entails.of_eq (bigSep_sep _ _ _))
  refine (Entails.of_eq ((congrArg (fun P => iprop((bigSep Finset.univ fun k : Fin 15 => iprop(dutyTok ER (rsRecvCell (fwd c k) c) 0 c ∗ dutyTok ER (rsSendCell c (fwd c k)) 0 (fwd c k))) ∗ P))
      (bigSep_sep _ _ _).symm).trans (bigSep_sep _ _ _).symm)).trans (bigSep_mono fun k _ => ?_)
  show iprop((dutyTok ER (rsRecvCell (fwd c k) c) 0 c ∗ dutyTok ER (rsSendCell c (fwd c k)) 0 (fwd c k))
      ∗ (peerSlotS (F := F) c k ∗ peerSlotO (F := F) c k)
      ∗ ((bRow (fwd c k)).view.loc (c : Thread nD τ) ↦[(bRow (fwd c k)).view.set]{fullShare} xb m c))
    ⊢ iprop((dutyTok ER (rsRecvCell (fwd c k) c) 0 c ∗ dutyTok ER (rsSendCell c (fwd c k)) 0 (fwd c k) ∗ peerSlotS (F := F) c k
        ∗ ((bRow (fwd c k)).view.loc (c : Thread nD τ) ↦[(bRow (fwd c k)).view.set]{fullShare} xb m c))
      ∗ peerSlotO (F := F) c k)
  iintro ⟨⟨H1, H2⟩, ⟨H3, H5⟩, H4⟩
  isplitr [H5]
  · isplitl [H1]; · iexact H1
    isplitl [H2]; · iexact H2
    isplitl [H3]; · iexact H3
    iexact H4
  · iexact H5

/-- No first transfer started yet: no credit returned. -/
theorem p7_send1D0 (c : Dev nD) : (iprop(emp) : sProp 𝕄) ⊢ Send1D (F := F) c 0 := by
  unfold Send1D; rw [bigSep_lt_zero]

set_option maxHeartbeats 1600000 in
/-- Printed part 7. The last signal; the wait for the fifteen signals owed, which returns every peer's two slots; the
    staged block rounded into the rounded copy, which is cut into its sixteen row blocks; the first transfer of shift 0. -/
theorem part7 (K : Dev nD × CK → ℕ) (c : Dev nD) (W : Waits sig Unit) (v2 v189 : BitVec 32) (v194 : BitVec 1) (v195 : BitVec 32)
    (f0 : Buf (Elt F) ((c : Thread nD τ).loc cc0_stg0_0)) (hf0 : f0 = xstg m c)
    (fb : Buf (Elt F) ((c : Thread nD τ).loc cc0_scratch0))
    (Kt : (Σ' (v226 : BitVec 32) (c16_i32_152 : BitVec 32), BitVec 32) → sProp 𝕄) :
    iprop((records m K ∗ levAts L lv ∗ SigR (F := F) c 14 ∗ owes (c : Thread nD τ) (Oag c 0 + Ors c 0 + Osig c 14) W
          ∗ cred (tallyAt (barCell c) () 15) ∗ atPos ER (barCell c) 0 ∅ 0
          ∗ (((c : Thread nD τ).loc cc0_stg0_0) ↦{fullShare} f0)
          ∗ (((c : Thread nD τ).loc cc0_scratch0) ↦{fullShare} fb)
          ∗ (bigSep Finset.univ fun k : Fin 15 => iprop(dutyTok ER (rsRecvCell (fwd c k) c) 0 c ∗ dutyTok ER (rsSendCell c (fwd c k)) 0 (fwd c k))))
        ∗ (∀ ret, (Send1R m c 1 ∗ Send1D (F := F) c 1 ∗ owes (c : Thread nD τ) (Oag c 0 + Ors c 1) (insert (SemLoc.reg barS, ()) W)
            ∗ atPos ER (barCell c) 1 ∅ 0 ∗ reached ER (barCell c) 1
            ∗ (bigSep Finset.univ fun k : Fin 15 => peerSlotO (F := F) c k)
            ∗ (((c : Thread nD τ).loc cc0_stg0_0) ↦{fullShare} f0)
            ∗ ((bRow c).view.loc (c : Thread nD τ) ↦[(bRow c).view.set]{fullShare} xb m c)) -∗ Kt ret))
      ⊢ wp frame (wpE (defs₀ (F := F)) 𝒱₀ c none) Set.univ
          (k0_part7 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v189 v194 v195) Kt := by
  rw [k0_part7_eq_skeleton]; unfold k0_part7_skel
  simp only [semSignalWord, semWaitWord, Prog.lift, Prog.bind_op, Prog.bind_ret, Prog.pure_eq_ret]
  have hval : (((bM : Memref sig .tc .vmem S512x512 .bf16).access p7_r0 : View sig .tc _ _ _).write (Elt F) fb
      (k0_pay1 ((xM : Memref sig .tc .vmem S512x512 .f32).view.readAt (Elt F) p7_r0.toLoadRect f0)) Finset.univ) = xb m c := by
    rw [p7_stored, p7_read, hf0]; rfl
  iintro ⟨⟨#HR, #Hlev, HS, HO, Hc, Hat, H0, Hb, Ht⟩, Hk⟩
  iapply (sig_step m K c (14 : Fin 15) 14 15 rfl rfl (Oag c 0 + Ors c 0) W _ (dev15_eq c) _ rfl) $$ [HS HO]
  · isplitr; · iexact HR
    isplitl [HS] <;> iassumption
  iintro ⟨-, HO⟩
  ihave HO := (Entails.of_eq (congrArg (fun o => (owes (c : Thread nD τ) o W : sProp 𝕄))
    (show Oag c 0 + Ors c 0 + Osig c 15 = Oag c 0 + Ors c 0 by rw [Osig_done, add_zero]))) $$ HO
  iapply (bar_wait_step m K c W _ rfl) $$ [Hc Hat HO]
  · isplitr; · iexact HR
    isplitr; · iexact Hlev
    isplitl [Hc]; · iexact Hc
    isplitl [Hat] <;> iassumption
  iintro ⟨HO, Hat, Hre, Hp⟩
  iapply (wp_load 𝒱₀ (c : Thread nD τ) none Set.univ (m := xM) (Finset.subset_univ _)) $$ H0; iintro H0
  iapply (wp_load 𝒱₀ (c : Thread nD τ) none Set.univ (m := bM) (Finset.subset_univ _)) $$ Hb; iintro Hb
  iapply (wp_store 𝒱₀ (c : Thread nD τ) none Set.univ (m := bM) (r := p7_r0) (Mk := Finset.univ) (Finset.subset_univ _)) $$ Hb; iintro Hb
  ihave Hb := (Entails.of_eq (congrArg (fun g => ((((c : Thread nD τ).loc cc0_scratch0) ↦{fullShare} g : sProp 𝕄))) hval)) $$ Hb
  ihave Hb := (Entails.of_eq ((bM_rows (F := F) c (xb m c)).trans (univ_eq_own_fwd c _))) $$ Hb
  icases Hb with ⟨Hown, Hrows⟩
  ihave HS := (p7_send1R m c) $$ [Ht Hp Hrows]
  · isplitl [Ht]; · iexact Ht
    isplitl [Hp] <;> iassumption
  icases HS with ⟨HS, HpO⟩
  iapply (send1_printed m K c (0 : Fin 15) 0 1 rfl rfl (Oag c 0) (insert (SemLoc.reg barS, ()) W) _ (dev16_eq c)) $$ [HS HO]
  · isplitr; · iexact HR
    isplitl [HS]; · iexact HS
    isplitr; · iapply (p7_send1D0 (F := F) c); iempintro
    iexact HO
  iintro ⟨HS, HD, HO⟩
  rw [wp_ret]; imodintro
  iapply Hk
  isplitl [HS]; · iexact HS
  isplitl [HD]; · iexact HD
  isplitl [HO]; · iexact HO
  isplitl [Hat]; · iexact Hat
  isplitl [Hre]; · iexact Hre
  isplitl [HpO]; · iexact HpO
  isplitl [H0]; · iexact H0
  iexact Hown

/-- info: 'Cert.KernelIdeal.AR.part1' depends on axioms: [propext, Classical.choice, Quot.sound] -/
#guard_msgs in #print axioms part1
/-- info: 'Cert.KernelIdeal.AR.part2' depends on axioms: [propext, Classical.choice, Quot.sound] -/
#guard_msgs in #print axioms part2
/-- info: 'Cert.KernelIdeal.AR.part3' depends on axioms: [propext, Classical.choice, Quot.sound] -/
#guard_msgs in #print axioms part3
/-- info: 'Cert.KernelIdeal.AR.part4' depends on axioms: [propext, Classical.choice, Quot.sound] -/
#guard_msgs in #print axioms part4
/-- info: 'Cert.KernelIdeal.AR.part5' depends on axioms: [propext, Classical.choice, Quot.sound] -/
#guard_msgs in #print axioms part5
/-- info: 'Cert.KernelIdeal.AR.part6' depends on axioms: [propext, Classical.choice, Quot.sound] -/
#guard_msgs in #print axioms part6
/-- info: 'Cert.KernelIdeal.AR.part7' depends on axioms: [propext, Classical.choice, Quot.sound] -/
#guard_msgs in #print axioms part7

end Cert.KernelIdeal.AR

end
-- ==== Proof.StepRecv.lean ====
/-
# The receive steps of the body

One wait on a receive cell of either round, and one load of landed rows, stated over the families of resources by
progress counter: the wait moves one shift from the family still to wait for to the family done, the load borrows one
landed block out of the family done.
-/
import proofs.«900416_g7700000000000417_dist_ar_v7x_i16_i_m512_n512_bf16_1_alg».proof.Proof.Res

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels: a first-round receive cell lies below every second-round receive cell -/

theorem L_own (c : Dev nD) (sm : SemLoc sig) : L ((c : Thread nD τ), sm) = {()} := if_pos rfl

theorem lvr_rsRecv (t : Thread nD τ) (d : Dev nD) : lv (t, SemLoc.dma (rsRecvS d)) () = 2 := by
  dsimp only [lv]; rw [if_pos ⟨two_le_rsRecv d, semArr_rsRecv d⟩]

theorem lvr_agRecv (t : Thread nD τ) (d : Dev nD) : lv (t, SemLoc.dma (agRecvS d)) () = 3 := by
  dsimp only [lv]
  rw [if_neg (fun h => absurd ((semArr_agRecv d).symm.trans h.2) (by decide)), if_pos ⟨two_le_agRecv d, semArr_agRecv d⟩]

/-- What a device still owes of the second round is owed on second-round receive cells. -/
theorem Oag_pos {c : Dev nD} {n : ℕ} {g : GSem nD τ sig} {u : Unit} (h : 0 < Oag c n g u) :
    ∃ k : Fin 15, g = agRecvCell (fwd c k) c := by
  unfold Oag at h
  obtain ⟨k, _, hk⟩ := Pipeline.sum_pos_exists h
  rw [tallyAt_apply] at hk
  by_cases hg : g = agRecvCell (fwd c k) c ∧ u = ()
  · exact ⟨k, hg.1⟩
  · rw [if_neg hg] at hk; exact absurd hk (Nat.lt_irrefl 0)

/-- A device may wait on a first-round receive cell while it owes second-round landings only. -/
theorem mayWait_recv1 (c d : Dev nD) (n : ℕ) :
    (levAts L lv : sProp 𝕄) ⊢ MayWait (c : Thread nD τ) (SemLoc.dma (rsRecvS d)) () (Oag c n) :=
  Pipeline.mayWait_of_levAts (by rw [L_own]; exact Finset.mem_singleton_self _) fun g i hg => by
    obtain ⟨k, rfl⟩ := Oag_pos hg
    refine ⟨by rw [show L (agRecvCell (fwd c k) c) = {()} from if_pos rfl]; exact Finset.mem_singleton_self _, ?_⟩
    rw [lvr_rsRecv, show lv (agRecvCell (fwd c k) c) i = 3 from lvr_agRecv _ c]; decide

/-! ## The first round's receives -/

/-- The wait for the first transfer from the peer `k + 1` places behind: the device hands in the credit it was dealt
    for that cell and its position there, and comes back past the round with the landed rows. The views of the
    printed wait are arbitrary but for the destination's credit count; the cell is the peer's of the receive array. -/
theorem recv1_step (K : Dev nD × CK → ℕ) (c : Dev nD) (k : Fin 15) (n n' : ℕ) (hn : n = k.val) (hn' : n' = k.val + 1)
    (W : Waits sig Unit) (sR : DmaSem sig) (hsR : sR = rsRecvS (bwd c k))
    (srcv dstv : Memref sig .tc .vmem S32x512 .bf16) (hN : dstv.view.dmaCredit = NC)
    {hs : srcv.view.WordExact} {hd : dstv.view.WordExact}
    {α : Type} {Q : α → sProp 𝕄} {kont : PUnit → Prog (TpuEff nD τ sig (Elt F) Λ₀ .tc) α} :
    iprop(records m K ∗ levAts L lv ∗ Recv1R (F := F) c n ∗ Recv1D m c n ∗ owes (c : Thread nD τ) (Oag c 0) W)
      ⊢ iprop(((Recv1R (F := F) c n' ∗ Recv1D m c n'
              ∗ owes (c : Thread nD τ) (Oag c 0) (insert (SemLoc.dma (rsRecvS (bwd c k)), ()) W))
            -∗ wp frame (wpE (defs₀ (F := F)) 𝒱₀ c none) Set.univ (kont ⟨⟩) Q)
          -∗ wp frame (wpE (defs₀ (F := F)) 𝒱₀ c none) Set.univ (.op (.waitDma2 sR srcv dstv hs hd) kont) Q) := by
  subst hsR
  unfold Recv1R Recv1D
  rw [bigSep_ge_peel _ n k n' hn hn', bigSep_lt_push _ n k n' hn hn']
  iintro ⟨#HR, #Hlev, ⟨⟨Hat, Hc⟩, HRr⟩, HRd, HO⟩ Hk
  iapply (Rounds.wp_wait_rest_token 𝒱₀ ER (ringRd m) (c : Thread nD τ) none (κ := K (c, some (1, bwd c k)))
      (sm := SemLoc.dma (rsRecvS (bwd c k))) (k' := NC)
      (fun Kq => (wpE_waitDma2_eq 𝒱₀ (c : Thread nD τ) none Set.univ Kq).trans (by rw [hN])) (Set.mem_univ _) ()
      (O := Oag c 0) (W := W) (R := 0) (m := 0) (T := ∅)
      (by rw [Nat.zero_add]; exact (expect_rsRecv m c (bwd c k) (bwd_ne c k)).symm)) $$ [Hc HO Hat]
  · isplitr; · iapply (inv_at m K (c, some (1, bwd c k))); iexact HR
    isplitl [Hc]; · iexact Hc
    isplitl [HO]; · iexact HO
    isplitr; · iapply (mayWait_recv1 c (bwd c k) 0); iexact Hlev
    iexact Hat
  iintro ⟨HO, Hat, -, Hpay⟩
  ihave Hp := (Entails.of_eq (rest_rsRecv m c (bwd c k) (bwd_ne c k))) $$ Hpay
  iapply Hk
  isplitl [HRr]; · iexact HRr
  isplitl [Hat Hp HRd]
  · isplitl [Hat Hp]
    · isplitl [Hat]; · iexact Hat
      iexact Hp
    iexact HRd
  iexact HO

/-- One shift done, taken out of a family of results (to be put back). -/
theorem bigSep_lt_borrow (Φ : Fin 15 → sProp 𝕄) (n : ℕ) (k : Fin 15) (hk : k.val < n) :
    bigSep (lt n) Φ = iprop(Φ k ∗ bigSep ((lt n).erase k) Φ) := by
  rw [bigSep_erase (show k ∈ lt n by simp only [lt, Finset.mem_filter, Finset.mem_univ, true_and]; exact hk)]; rfl

/-- A load of the rows received from the peer `k + 1` places behind, once they have landed (the shift is among
    those done): the landed rows are borrowed out of the family for the load and put back, and the program goes on
    at the receive buffer's expected contents read through the load's rectangle. -/
theorem recv1_load (c : Dev nD) (k : Fin 15) (n : ℕ) (hk : k.val < n) (w : BitVec 32) (hw : w = BitVec.ofNat 32 (1 + k.val))
    {inb : ∀ a, k0_off8 c w a + S32x512.size a ≤ S512x512.size a}
    {hl : (sM : Memref sig .tc .vmem S512x512 .bf16).view.LoadsAt (Rect.unit (s := S512x512) (k0_off8 c w) S32x512.size inb).toLoadRect}
    {α : Type} {Q : α → sProp 𝕄} {kont : Vec F S32x512 .bf16 → Prog (TpuEff nD τ sig (Elt F) Λ₀ .tc) α} :
    Recv1D m c n
      ⊢ iprop((Recv1D m c n -∗ wp frame (wpE (defs₀ (F := F)) 𝒱₀ c none) Set.univ (kont (rsVec m c k)) Q)
          -∗ wp frame (wpE (defs₀ (F := F)) 𝒱₀ c none) Set.univ
            (.op (.load (sM : Memref sig .tc .vmem S512x512 .bf16) (Rect.unit (s := S512x512) (k0_off8 c w) S32x512.size inb).toLoadRect hl) kont) Q) := by
  subst hw
  have hsub : (sM : Memref sig .tc .vmem S512x512 .bf16).view.setOn
      (Rect.unit (s := S512x512) (k0_off8 c (BitVec.ofNat 32 (1 + k.val))) S32x512.size inb).toLoadRect.set
        ⊆ (sRow (bwd c k)).view.set := by
    have e : Rect.unit (s := S512x512) (k0_off8 c (BitVec.ofNat 32 (1 + k.val))) S32x512.size inb = rows (bwd c k) :=
      Rect.unit_congr ((off8_eq c k).trans (k0_off3_eq (bwd c k)).symm) _ _
    rw [e]
    show (Rect.toLoadRect (rows (bwd c k))).set.map (View.whole cc0_scratch2).emb ⊆ ((View.whole cc0_scratch2).slice (rows (bwd c k))).set
    rw [View.set_slice_whole, View.emb_whole, Finset.map_refl]
  unfold Recv1D rsVec rsRecvPay
  rw [bigSep_lt_borrow _ n k hk]
  iintro ⟨⟨Hat, Hp⟩, Hrest⟩ Hk
  iapply (wp_load 𝒱₀ (c : Thread nD τ) none Set.univ (m := (sM : Memref sig .tc .vmem S512x512 .bf16))
      (r := (Rect.unit (s := S512x512) (k0_off8 c (BitVec.ofNat 32 (1 + k.val))) S32x512.size inb).toLoadRect)
      (S := (sRow (bwd c k)).view.set) (q := fullShare) (f := RS m c) hsub) $$ Hp
  iintro Hp
  iapply Hk
  isplitl [Hat Hp]
  · isplitl [Hat]; · iexact Hat
    iexact Hp
  iexact Hrest

/-! ## The second round's receives -/

/-- The wait for the second transfer from the peer `k + 1` places behind, with nothing owed any more: the device
    comes back past the round with the reduced rows of that peer landed in its staged result. -/
theorem recv2_step (K : Dev nD × CK → ℕ) (c : Dev nD) (k : Fin 15) (n n' : ℕ) (hn : n = k.val) (hn' : n' = k.val + 1)
    (W : Waits sig Unit) (sR : DmaSem sig) (hsR : sR = agRecvS (bwd c k))
    (srcv dstv : Memref sig .tc .vmem S32x512 .bf16) (hN : dstv.view.dmaCredit = NC)
    {hs : srcv.view.WordExact} {hd : dstv.view.WordExact}
    {α : Type} {Q : α → sProp 𝕄} {kont : PUnit → Prog (TpuEff nD τ sig (Elt F) Λ₀ .tc) α} :
    iprop(records m K ∗ Recv2R (F := F) c n ∗ Recv2D m c n ∗ owes (c : Thread nD τ) 0 W)
      ⊢ iprop(((Recv2R (F := F) c n' ∗ Recv2D m c n'
              ∗ owes (c : Thread nD τ) 0 (insert (SemLoc.dma (agRecvS (bwd c k)), ()) W))
            -∗ wp frame (wpE (defs₀ (F := F)) 𝒱₀ c none) Set.univ (kont ⟨⟩) Q)
          -∗ wp frame (wpE (defs₀ (F := F)) 𝒱₀ c none) Set.univ (.op (.waitDma2 sR srcv dstv hs hd) kont) Q) := by
  subst hsR
  unfold Recv2R Recv2D
  rw [bigSep_ge_peel _ n k n' hn hn', bigSep_lt_push _ n k n' hn hn']
  iintro ⟨#HR, ⟨⟨Hat, Hc⟩, HRr⟩, HRd, HO⟩ Hk
  iapply (Rounds.wp_wait_rest_token 𝒱₀ ER (ringRd m) (c : Thread nD τ) none (κ := K (c, some (3, bwd c k)))
      (sm := SemLoc.dma (agRecvS (bwd c k))) (k' := NC)
      (fun Kq => (wpE_waitDma2_eq 𝒱₀ (c : Thread nD τ) none Set.univ Kq).trans (by rw [hN])) (Set.mem_univ _) ()
      (O := 0) (W := W) (R := 0) (m := 0) (T := ∅)
      (by rw [Nat.zero_add]; exact (expect_agRecv m c (bwd c k) (bwd_ne c k)).symm)) $$ [Hc HO Hat]
  · isplitr; · iapply (inv_at m K (c, some (3, bwd c k))); iexact HR
    isplitl [Hc]; · iexact Hc
    isplitl [HO]; · iexact HO
    isplitr; · rw [MayWait_zero]; iempintro
    iexact Hat
  iintro ⟨HO, Hat, -, Hpay⟩
  ihave Hp := (Entails.of_eq (rest_agRecv m c (bwd c k) (bwd_ne c k))) $$ Hpay
  iapply Hk
  isplitl [HRr]; · iexact HRr
  isplitl [Hat Hp HRd]
  · isplitl [Hat Hp]
    · isplitl [Hat]; · iexact Hat
      iexact Hp
    iexact HRd
  iexact HO

end Cert.KernelIdeal.AR

end

/-- info: 'Cert.KernelIdeal.AR.recv1_step' depends on axioms: [propext, Classical.choice, Quot.sound] -/
#guard_msgs in #print axioms Cert.KernelIdeal.AR.recv1_step

/-- info: 'Cert.KernelIdeal.AR.recv1_load' depends on axioms: [propext, Classical.choice, Quot.sound] -/
#guard_msgs in #print axioms Cert.KernelIdeal.AR.recv1_load

/-- info: 'Cert.KernelIdeal.AR.recv2_step' depends on axioms: [propext, Classical.choice, Quot.sound] -/
#guard_msgs in #print axioms Cert.KernelIdeal.AR.recv2_step
-- ==== Proof.PartsC.lean ====
/-
# The first round's receives, printed parts 16 to 18

Part 16 starts the last first-round transfer, loads the device's own rows of its block, waits for the rows of the
peer one place behind and loads them; parts 17 and 18 wait for and load the rows of the peers two, three and four
places behind. Each returns the sum so far, in the order the body adds.
-/
import proofs.«900416_g7700000000000417_dist_ar_v7x_i16_i_m512_n512_bf16_1_alg».proof.Proof.StepRecv
import proofs.«900416_g7700000000000417_dist_ar_v7x_i16_i_m512_n512_bf16_1_alg».proof.Proof.PartsB

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer into thirty-two rows of the receive buffer counts as one narrow row block. -/
theorem credit_rows (off : Fin 2 → Nat) (inb : ∀ a, off a + S32x512.size a ≤ S512x512.size a) :
    ((Memref.whole cc0_scratch2 : Memref sig .tc .vmem S512x512 .bf16).slice (Rect.unit (s := S512x512) off S32x512.size inb) (fun _ => rfl)).view.dmaCredit = NC := rfl

set_option maxHeartbeats 1600000 in
/-- Printed part 16: the last first-round transfer (shift 14), the load of the device's own rows, the wait for and the
    load of the rows from the peer one place behind. -/
theorem part16 (K : Dev nD × CK → ℕ) (c : Dev nD) (v2 : BitVec 32)
    (Kt : (Σ' (v546 : FVec F S32x512 .f32) (v549 : BitVec 32) (v550 : BitVec 32), BitVec 32) → sProp 𝕄) :
    iprop((records m K ∗ levAts L lv ∗ Send1R m c 14 ∗ Send1D (F := F) c 14
          ∗ (((c : Thread nD τ).loc cc0_stg0_0) ↦{fullShare} xstg m c)
          ∗ Recv1R (F := F) c 0 ∗ Recv1D m c 0 ∗ (∃ W, owes (c : Thread nD τ) (Oag c 0 + Ors c 14) W))
        ∗ (∀ ret, (Send1R m c 15 ∗ Send1D (F := F) c 15
            ∗ (((c : Thread nD τ).loc cc0_stg0_0) ↦{fullShare} xstg m c)
            ∗ Recv1R (F := F) c 1 ∗ Recv1D m c 1 ∗ (∃ W, owes (c : Thread nD τ) (Oag c 0) W)
            ∗ ⌜ret.1 = k0_pay2 (xrow m c) (rsVec m c 0)⌝) -∗ Kt ret))
      ⊢ wp frame (wpE (defs₀ (F := F)) 𝒱₀ c none) Set.univ
          (k0_part16 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2) Kt := by
  rw [k0_part16_eq_skeleton]; unfold k0_part16_skel
  simp only [Prog.lift, Prog.bind_op, Prog.bind_ret, Prog.pure_eq_ret]
  iintro ⟨⟨#HR, #Hlev, HS, HD, Hx, HRr, HRd, ⟨%W, HO⟩⟩, Hk⟩
  iapply (send1_printed m K c (14 : Fin 15) 14 15 rfl rfl (Oag c 0) W _ (dev30_eq c)) $$ [HS HD HO]
  · isplitr; · iexact HR
    isplitl [HS]; · iexact HS
    isplitl [HD]; · iexact HD
    iexact HO
  rw [Ors_done, add_zero]
  iintro ⟨HS, HD, HO⟩
  iapply (wp_load 𝒱₀ (c : Thread nD τ) none Set.univ (m := xM) (Finset.subset_univ _)) $$ Hx
  iintro Hx
  iapply (recv1_step m K c (0 : Fin 15) 0 1 rfl rfl W _ (sem_off6_rs c 0) _ _ (credit_rows _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (0 : Fin 15) 1 (by decide) _ rfl) $$ [HRd]
  · iexact HRd
  iintro HRd
  rw [wp_ret]; imodintro
  iapply Hk
  isplitl [HS]; · iexact HS
  isplitl [HD]; · iexact HD
  isplitl [Hx]; · iexact Hx
  isplitl [HRr]; · iexact HRr
  isplitl [HRd]; · iexact HRd
  isplitl [HO]; · iexists _; iexact HO
  ipureintro; rfl

set_option maxHeartbeats 800000 in
/-- Printed part 17: the wait for and the load of the rows from the peer two places behind. -/
theorem part17 (K : Dev nD × CK → ℕ) (c : Dev nD) (v2 v549 v550 c0 : BitVec 32) (acc : FVec F S32x512 .f32)
    (Kt : (Σ' (v569 : FVec F S32x512 .f32), BitVec 32) → sProp 𝕄) :
    iprop((records m K ∗ levAts L lv ∗ Recv1R (F := F) c 1 ∗ Recv1D m c 1 ∗ (∃ W, owes (c : Thread nD τ) (Oag c 0) W))
        ∗ (∀ ret, (Recv1R (F := F) c 2 ∗ Recv1D m c 2 ∗ (∃ W, owes (c : Thread nD τ) (Oag c 0) W)
            ∗ ⌜ret.1 = k0_pay3 acc (rsVec m c 1)⌝) -∗ Kt ret))
      ⊢ wp frame (wpE (defs₀ (F := F)) 𝒱₀ c none) Set.univ
          (k0_part17 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 acc v549 v550 c0) Kt := by
  rw [k0_part17_eq_skeleton]; unfold k0_part17_skel
  simp only [Prog.lift, Prog.bind_op, Prog.bind_ret, Prog.pure_eq_ret]
  iintro ⟨⟨#HR, #Hlev, HRr, HRd, ⟨%W, HO⟩⟩, Hk⟩
  iapply (recv1_step m K c (1 : Fin 15) 1 2 rfl rfl W _ (sem_off6_rs c 1) _ _ (credit_rows _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (1 : Fin 15) 2 (by decide) _ rfl) $$ [HRd]
  · iexact HRd
  iintro HRd
  rw [wp_ret]; imodintro
  iapply Hk
  isplitl [HRr]; · iexact HRr
  isplitl [HRd]; · iexact HRd
  isplitl [HO]; · iexists _; iexact HO
  ipureintro; rfl

set_option maxHeartbeats 1600000 in
/-- Printed part 18: the waits for and the loads of the rows from the peers three and four places behind. -/
theorem part18 (K : Dev nD × CK → ℕ) (c : Dev nD) (v2 v580 : BitVec 32) (acc : FVec F S32x512 .f32)
    (Kt : (Σ' (v615 : FVec F S32x512 .f32) (v618 : BitVec 32) (v619 : BitVec 32) (v620 : BitVec 1), BitVec 1) → sProp 𝕄) :
    iprop((records m K ∗ levAts L lv ∗ Recv1R (F := F) c 2 ∗ Recv1D m c 2 ∗ (∃ W, owes (c : Thread nD τ) (Oag c 0) W))
        ∗ (∀ ret, (Recv1R (F := F) c 4 ∗ Recv1D m c 4 ∗ (∃ W, owes (c : Thread nD τ) (Oag c 0) W)
            ∗ ⌜ret.1 = k0_pay4 acc (rsVec m c 2) (rsVec m c 3)⌝) -∗ Kt ret))
      ⊢ wp frame (wpE (defs₀ (F := F)) 𝒱₀ c none) Set.univ
          (k0_part18 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 acc v580) Kt := by
  rw [k0_part18_eq_skeleton]; unfold k0_part18_skel
  simp only [Prog.lift, Prog.bind_op, Prog.bind_ret, Prog.pure_eq_ret]
  iintro ⟨⟨#HR, #Hlev, HRr, HRd, ⟨%W, HO⟩⟩, Hk⟩
  iapply (recv1_step m K c (2 : Fin 15) 2 3 rfl rfl W _ (sem_off6_rs c 2) _ _ (credit_rows _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (2 : Fin 15) 3 (by decide) _ rfl) $$ [HRd]
  · iexact HRd
  iintro HRd
  iapply (recv1_step m K c (3 : Fin 15) 3 4 rfl rfl _ _ (sem_off6_rs c 3) _ _ (credit_rows _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (3 : Fin 15) 4 (by decide) _ rfl) $$ [HRd]
  · iexact HRd
  iintro HRd
  rw [wp_ret]; imodintro
  iapply Hk
  isplitl [HRr]; · iexact HRr
  isplitl [HRd]; · iexact HRd
  isplitl [HO]; · iexists _; iexact HO
  ipureintro; rfl

end Cert.KernelIdeal.AR

end

/-- info: 'Cert.KernelIdeal.AR.part16' depends on axioms: [propext, Classical.choice, Quot.sound] -/
#guard_msgs in #print axioms Cert.KernelIdeal.AR.part16

/-- info: 'Cert.KernelIdeal.AR.part17' depends on axioms: [propext, Classical.choice, Quot.sound] -/
#guard_msgs in #print axioms Cert.KernelIdeal.AR.part17

/-- info: 'Cert.KernelIdeal.AR.part18' depends on axioms: [propext, Classical.choice, Quot.sound] -/
#guard_msgs in #print axioms Cert.KernelIdeal.AR.part18
-- ==== Proof.PartsC2.lean ====
/-
# The first round's receives, part by part (the last five)

Printed parts 21 … 25 wait for the first transfers of the shifts 7 … 14 and load the rows each landed, adding them to
the running sum. Each part's lemma takes the receives' families from its first shift to its last, and names the sum it
returns: the incoming sum extended by the loaded rows, which are the expected contents of the receive buffer read
through the load's rectangle.
-/
import proofs.«900416_g7700000000000417_dist_ar_v7x_i16_i_m512_n512_bf16_1_alg».proof.Proof.StepRecv

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer into thirty-two rows of the receive buffer puts one block's units on its semaphore, whichever the rows. -/
theorem credit_rowsC2 (off : Fin 2 → Nat) (inb : ∀ a, off a + S32x512.size a ≤ S512x512.size a) :
    ((Memref.whole cc0_scratch2 : Memref sig .tc .vmem S512x512 .bf16).slice (Rect.unit (s := S512x512) off S32x512.size inb) (fun _ => rfl)).view.dmaCredit = NC := rfl

/-- The wait step at the operation as printed: the cell through the printed semaphore slice, the views as printed. -/
theorem recv1_printedC2 (K : Dev nD × CK → ℕ) (c : Dev nD) (k : Fin 15) (n n' : ℕ) (hn : n = k.val) (hn' : n' = k.val + 1)
    (W : Waits sig Unit)
    {hs : ((bM : Memref sig .tc .vmem S512x512 .bf16).slice (Rect.unit (s := S512x512) ![0, 0] S32x512.size inb_S512x512_S32x512_0_0) (fun _ => rfl)).view.WordExact}
    {hd : ((sM : Memref sig .tc .vmem S512x512 .bf16).slice (Rect.unit (s := S512x512) (k0_off7 c (BitVec.ofNat 32 (1 + k.val))) S32x512.size (k0_off7_inb c k)) (fun _ => rfl)).view.WordExact}
    {α : Type} {Q : α → sProp 𝕄} {kont : PUnit → Prog (TpuEff nD τ sig (Elt F) Λ₀ .tc) α} :
    iprop(records m K ∗ levAts L lv ∗ Recv1R (F := F) c n ∗ Recv1D m c n ∗ owes (c : Thread nD τ) (Oag c 0) W)
      ⊢ iprop(((Recv1R (F := F) c n' ∗ Recv1D m c n'
              ∗ owes (c : Thread nD τ) (Oag c 0) (insert (SemLoc.dma (rsRecvS (bwd c k)), ()) W))
            -∗ wp frame (wpE (defs₀ (F := F)) 𝒱₀ c none) Set.univ (kont ⟨⟩) Q)
          -∗ wp frame (wpE (defs₀ (F := F)) 𝒱₀ c none) Set.univ
              (.op (.waitDma2 ((cc0_scratch4.slice (Rect.unit (s := S16) (k0_off6 c (BitVec.ofNat 32 (1 + k.val))) S1.size (k0_off6_inb c k))).squeeze S_ squeezes_S1_S_).sem
                ((bM : Memref sig .tc .vmem S512x512 .bf16).slice (Rect.unit (s := S512x512) ![0, 0] S32x512.size inb_S512x512_S32x512_0_0) (fun _ => rfl))
                ((sM : Memref sig .tc .vmem S512x512 .bf16).slice (Rect.unit (s := S512x512) (k0_off7 c (BitVec.ofNat 32 (1 + k.val))) S32x512.size (k0_off7_inb c k)) (fun _ => rfl))
                hs hd) kont) Q) :=
  recv1_step m K c k n n' hn hn' W _ (sem_off6_rs c k) _ _ (credit_rowsC2 _ _)

set_option maxHeartbeats 800000 in
/-- Printed part 21: the wait for shift 7, the load of its rows, the wait for shift 8. -/
theorem part21 (K : Dev nD × CK → ℕ) (c : Dev nD) (v2 : BitVec 32) (v684 : FVec F S32x512 .f32) (v687 : BitVec 32) (v688 : BitVec 32) (v689 : BitVec 1) (v692 : BitVec 1)
    (Kt : (FVec F S32x512 .f32) → sProp 𝕄) :
    iprop((records m K ∗ levAts L lv ∗ Recv1R (F := F) c 7 ∗ Recv1D m c 7 ∗ (∃ W, owes (c : Thread nD τ) (Oag c 0) W))
        ∗ (∀ ret, (Recv1R (F := F) c 9 ∗ Recv1D m c 9 ∗ (∃ W, owes (c : Thread nD τ) (Oag c 0) W) ∗ ⌜ret = k0_pay7 v684 (rsVec m c 7)⌝) -∗ Kt ret))
      ⊢ wp frame (wpE (defs₀ (F := F)) 𝒱₀ c none) Set.univ
          (k0_part21 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v684 v687 v688 v689 v692) Kt := by
  rw [k0_part21_eq_skeleton]; unfold k0_part21_skel
  simp only [Prog.lift, Prog.bind_op, Prog.bind_ret, Prog.pure_eq_ret]
  iintro ⟨⟨#HR, #Hlev, HRr, HRd, ⟨%W, HO⟩⟩, Hk⟩
  iapply (recv1_printedC2 m K c (7 : Fin 15) 7 8 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (7 : Fin 15) 8 (by decide) 8#32 rfl) $$ HRd
  iintro HRd
  iapply (recv1_printedC2 m K c (8 : Fin 15) 8 9 rfl rfl _) $$ [HRr HRd HO]
  · isplitr; · iexact HR
    isplitr; · iexact Hlev
    isplitl [HRr]; · iexact HRr
    isplitl [HRd]; · iexact HRd
    iexact HO
  iintro ⟨HRr, HRd, HO⟩
  rw [wp_ret]; imodintro
  iapply Hk
  isplitl [HRr]; · iexact HRr
  isplitl [HRd]; · iexact HRd
  isplitl [HO]; · iexists _; iexact HO
  ipureintro; rfl

set_option maxHeartbeats 800000 in
/-- Printed part 22: the load of shift 8's rows, the wait for shift 9 and the load of its rows. -/
theorem part22 (K : Dev nD × CK → ℕ) (c : Dev nD) (v2 : BitVec 32) (v707 : FVec F S32x512 .f32)
    (Kt : (Σ' (v753 : FVec F S32x512 .f32), BitVec 32) → sProp 𝕄) :
    iprop((records m K ∗ levAts L lv ∗ Recv1R (F := F) c 9 ∗ Recv1D m c 9 ∗ (∃ W, owes (c : Thread nD τ) (Oag c 0) W))
        ∗ (∀ ret, (Recv1R (F := F) c 10 ∗ Recv1D m c 10 ∗ (∃ W, owes (c : Thread nD τ) (Oag c 0) W) ∗ ⌜ret.1 = k0_pay8 v707 (rsVec m c 8) (rsVec m c 9)⌝) -∗ Kt ret))
      ⊢ wp frame (wpE (defs₀ (F := F)) 𝒱₀ c none) Set.univ
          (k0_part22 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v707) Kt := by
  rw [k0_part22_eq_skeleton]; unfold k0_part22_skel
  simp only [Prog.lift, Prog.bind_op, Prog.bind_ret, Prog.pure_eq_ret]
  iintro ⟨⟨#HR, #Hlev, HRr, HRd, ⟨%W, HO⟩⟩, Hk⟩
  iapply (recv1_load m c (8 : Fin 15) 9 (by decide) 9#32 rfl) $$ HRd
  iintro HRd
  iapply (recv1_printedC2 m K c (9 : Fin 15) 9 10 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (9 : Fin 15) 10 (by decide) 10#32 rfl) $$ HRd
  iintro HRd
  rw [wp_ret]; imodintro
  iapply Hk
  isplitl [HRr]; · iexact HRr
  isplitl [HRd]; · iexact HRd
  isplitl [HO]; · iexists _; iexact HO
  ipureintro; rfl

set_option maxHeartbeats 800000 in
/-- Printed part 23: the waits for shifts 10 and 11, each followed by the load of its rows. -/
theorem part23 (K : Dev nD × CK → ℕ) (c : Dev nD) (v2 : BitVec 32) (v753 : FVec F S32x512 .f32) (v764 : BitVec 32)
    (Kt : (FVec F S32x512 .f32) → sProp 𝕄) :
    iprop((records m K ∗ levAts L lv ∗ Recv1R (F := F) c 10 ∗ Recv1D m c 10 ∗ (∃ W, owes (c : Thread nD τ) (Oag c 0) W))
        ∗ (∀ ret, (Recv1R (F := F) c 12 ∗ Recv1D m c 12 ∗ (∃ W, owes (c : Thread nD τ) (Oag c 0) W) ∗ ⌜ret = k0_pay9 v753 (rsVec m c 10) (rsVec m c 11)⌝) -∗ Kt ret))
      ⊢ wp frame (wpE (defs₀ (F := F)) 𝒱₀ c none) Set.univ
          (k0_part23 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v753 v764) Kt := by
  rw [k0_part23_eq_skeleton]; unfold k0_part23_skel
  simp only [Prog.lift, Prog.bind_op, Prog.bind_ret, Prog.pure_eq_ret]
  iintro ⟨⟨#HR, #Hlev, HRr, HRd, ⟨%W, HO⟩⟩, Hk⟩
  iapply (recv1_printedC2 m K c (10 : Fin 15) 10 11 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (10 : Fin 15) 11 (by decide) 11#32 rfl) $$ HRd
  iintro HRd
  iapply (recv1_printedC2 m K c (11 : Fin 15) 11 12 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (11 : Fin 15) 12 (by decide) 12#32 rfl) $$ HRd
  iintro HRd
  rw [wp_ret]; imodintro
  iapply Hk
  isplitl [HRr]; · iexact HRr
  isplitl [HRd]; · iexact HRd
  isplitl [HO]; · iexists _; iexact HO
  ipureintro; rfl

set_option maxHeartbeats 800000 in
/-- Printed part 24: the wait for shift 12 and the load of its rows. -/
theorem part24 (K : Dev nD × CK → ℕ) (c : Dev nD) (v2 : BitVec 32) (v799 : FVec F S32x512 .f32)
    (Kt : (Σ' (v822 : FVec F S32x512 .f32) (v833 : BitVec 32), BitVec 32) → sProp 𝕄) :
    iprop((records m K ∗ levAts L lv ∗ Recv1R (F := F) c 12 ∗ Recv1D m c 12 ∗ (∃ W, owes (c : Thread nD τ) (Oag c 0) W))
        ∗ (∀ ret, (Recv1R (F := F) c 13 ∗ Recv1D m c 13 ∗ (∃ W, owes (c : Thread nD τ) (Oag c 0) W) ∗ ⌜ret.1 = k0_pay10 v799 (rsVec m c 12)⌝) -∗ Kt ret))
      ⊢ wp frame (wpE (defs₀ (F := F)) 𝒱₀ c none) Set.univ
          (k0_part24 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v799) Kt := by
  rw [k0_part24_eq_skeleton]; unfold k0_part24_skel
  simp only [Prog.lift, Prog.bind_op, Prog.bind_ret, Prog.pure_eq_ret]
  iintro ⟨⟨#HR, #Hlev, HRr, HRd, ⟨%W, HO⟩⟩, Hk⟩
  iapply (recv1_printedC2 m K c (12 : Fin 15) 12 13 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (12 : Fin 15) 13 (by decide) 13#32 rfl) $$ HRd
  iintro HRd
  rw [wp_ret]; imodintro
  iapply Hk
  isplitl [HRr]; · iexact HRr
  isplitl [HRd]; · iexact HRd
  isplitl [HO]; · iexists _; iexact HO
  ipureintro; rfl

set_option maxHeartbeats 800000 in
/-- Printed part 25: the waits for shifts 13 and 14, each followed by the load of its rows: the last of the first round. -/
theorem part25 (K : Dev nD × CK → ℕ) (c : Dev nD) (v2 : BitVec 32) (v822 : FVec F S32x512 .f32) (v833 : BitVec 32) (c1_i32_538 : BitVec 32)
    (Kt : (FVec F S32x512 .bf16) → sProp 𝕄) :
    iprop((records m K ∗ levAts L lv ∗ Recv1R (F := F) c 13 ∗ Recv1D m c 13 ∗ (∃ W, owes (c : Thread nD τ) (Oag c 0) W))
        ∗ (∀ ret, (Recv1R (F := F) c 15 ∗ Recv1D m c 15 ∗ (∃ W, owes (c : Thread nD τ) (Oag c 0) W) ∗ ⌜ret = k0_pay11 v822 (rsVec m c 13) (rsVec m c 14)⌝) -∗ Kt ret))
      ⊢ wp frame (wpE (defs₀ (F := F)) 𝒱₀ c none) Set.univ
          (k0_part25 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v822 v833 c1_i32_538) Kt := by
  rw [k0_part25_eq_skeleton]; unfold k0_part25_skel
  simp only [Prog.lift, Prog.bind_op, Prog.bind_ret, Prog.pure_eq_ret]
  iintro ⟨⟨#HR, #Hlev, HRr, HRd, ⟨%W, HO⟩⟩, Hk⟩
  iapply (recv1_printedC2 m K c (13 : Fin 15) 13 14 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (13 : Fin 15) 14 (by decide) 14#32 rfl) $$ HRd
  iintro HRd
  iapply (recv1_printedC2 m K c (14 : Fin 15) 14 15 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (14 : Fin 15) 15 (by decide) 15#32 rfl) $$ HRd
  iintro HRd
  rw [wp_ret]; imodintro
  iapply Hk
  isplitl [HRr]; · iexact HRr
  isplitl [HRd]; · iexact HRd
  isplitl [HO]; · iexists _; iexact HO
  ipureintro; rfl

/-- info: 'Cert.KernelIdeal.AR.part21' depends on axioms: [propext, Classical.choice, Quot.sound] -/
#guard_msgs in #print axioms part21
/-- info: 'Cert.KernelIdeal.AR.part25' depends on axioms: [propext, Classical.choice, Quot.sound] -/
#guard_msgs in #print axioms part25

end Cert.KernelIdeal.AR

end
-- ==== Proof.PartsC3.lean ====
import proofs.«900416_g7700000000000417_dist_ar_v7x_i16_i_m512_n512_bf16_1_alg».proof.Proof.StepRecv

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-!
# The first round's receives, shifts 4 to 6, as printed

Printed parts 19 and 20 of the receive loop: each wait moves one shift of the receive family across, each load reads the
rows a finished shift landed, and the running sum is extended by the loaded rows.
-/

/-- A transfer into thirty-two rows of the receive buffer counts as one narrow row block. -/
theorem credit_rowsC3 (off : Fin 2 → Nat) (inb : ∀ a, off a + S32x512.size a ≤ S512x512.size a) :
    ((Memref.whole cc0_scratch2 : Memref sig .tc .vmem S512x512 .bf16).slice (Rect.unit (s := S512x512) off S32x512.size inb) (fun _ => rfl)).view.dmaCredit = NC := rfl

set_option maxHeartbeats 800000 in
/-- Printed part 19: the wait for shift 4, the load of its rows (added to the running sum), the wait for shift 5. -/
theorem part19 (K : Dev nD × CK → ℕ) (c : Dev nD) (v2 : BitVec 32) (v615 : FVec F S32x512 .f32) (v618 v619 : BitVec 32) (v620 v621 : BitVec 1)
    (Kt : (Σ' (v638 : FVec F S32x512 .f32) (v649 : BitVec 32), BitVec 32) → sProp 𝕄) :
    iprop((records m K ∗ levAts L lv ∗ Recv1R (F := F) c 4 ∗ Recv1D m c 4 ∗ (∃ W, owes (c : Thread nD τ) (Oag c 0) W))
        ∗ (∀ ret, (Recv1R (F := F) c 6 ∗ Recv1D m c 6 ∗ (∃ W, owes (c : Thread nD τ) (Oag c 0) W)
            ∗ ⌜ret.1 = k0_pay5 v615 (rsVec m c 4)⌝) -∗ Kt ret))
      ⊢ wp frame (wpE (defs₀ (F := F)) 𝒱₀ c none) Set.univ
          (k0_part19 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v615 v618 v619 v620 v621) Kt := by
  rw [k0_part19_eq_skeleton]; unfold k0_part19_skel
  simp only [Prog.lift, Prog.bind_op, Prog.bind_ret, Prog.pure_eq_ret]
  iintro ⟨⟨#HR, #Hlev, HRr, HRd, ⟨%W, HO⟩⟩, Hk⟩
  iapply (recv1_step m K c (4 : Fin 15) 4 5 rfl rfl _ _ (sem_off6_rs c 4) _ _ (credit_rowsC3 _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (4 : Fin 15) 5 (by decide) 5#32 rfl) $$ HRd
  iintro HRd
  iapply (recv1_step m K c (5 : Fin 15) 5 6 rfl rfl _ _ (sem_off6_rs c 5) _ _ (credit_rowsC3 _ _)) $$ [HRr HRd HO]
  · isplitr; · iexact HR
    isplitr; · iexact Hlev
    isplitl [HRr]; · iexact HRr
    isplitl [HRd]; · iexact HRd
    iexact HO
  iintro ⟨HRr, HRd, HO⟩
  rw [wp_ret]; imodintro
  iapply Hk
  isplitl [HRr]; · iexact HRr
  isplitl [HRd]; · iexact HRd
  isplitl [HO]; · iexists _; iexact HO
  ipureintro; rfl

set_option maxHeartbeats 800000 in
/-- Printed part 20: the load of shift 5's rows, the wait for shift 6, the load of its rows; both added to the running sum. -/
theorem part20 (K : Dev nD × CK → ℕ) (c : Dev nD) (v2 : BitVec 32) (v638 : FVec F S32x512 .f32) (v649 c32 : BitVec 32)
    (Kt : (Σ' (v684 : FVec F S32x512 .f32) (v687 : BitVec 32) (v688 : BitVec 32) (v689 : BitVec 1), BitVec 1) → sProp 𝕄) :
    iprop((records m K ∗ levAts L lv ∗ Recv1R (F := F) c 6 ∗ Recv1D m c 6 ∗ (∃ W, owes (c : Thread nD τ) (Oag c 0) W))
        ∗ (∀ ret, (Recv1R (F := F) c 7 ∗ Recv1D m c 7 ∗ (∃ W, owes (c : Thread nD τ) (Oag c 0) W)
            ∗ ⌜ret.1 = k0_pay6 v638 (rsVec m c 5) (rsVec m c 6)⌝) -∗ Kt ret))
      ⊢ wp frame (wpE (defs₀ (F := F)) 𝒱₀ c none) Set.univ
          (k0_part20 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v638 v649 c32) Kt := by
  rw [k0_part20_eq_skeleton]; unfold k0_part20_skel
  simp only [Prog.lift, Prog.bind_op, Prog.bind_ret, Prog.pure_eq_ret]
  iintro ⟨⟨#HR, #Hlev, HRr, HRd, ⟨%W, HO⟩⟩, Hk⟩
  iapply (recv1_load m c (5 : Fin 15) 6 (by decide) 6#32 rfl) $$ HRd
  iintro HRd
  iapply (recv1_step m K c (6 : Fin 15) 6 7 rfl rfl _ _ (sem_off6_rs c 6) _ _ (credit_rowsC3 _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (6 : Fin 15) 7 (by decide) 7#32 rfl) $$ HRd
  iintro HRd
  rw [wp_ret]; imodintro
  iapply Hk
  isplitl [HRr]; · iexact HRr
  isplitl [HRd]; · iexact HRd
  isplitl [HO]; · iexists _; iexact HO
  ipureintro; rfl

/-- info: 'Cert.KernelIdeal.AR.part19' depends on axioms: [propext, Classical.choice, Quot.sound] -/
#guard_msgs in #print axioms part19
/-- info: 'Cert.KernelIdeal.AR.part20' depends on axioms: [propext, Classical.choice, Quot.sound] -/
#guard_msgs in #print axioms part20

end Cert.KernelIdeal.AR

end
-- ==== Proof.PartsE.lean ====
/-
# The second round of transfers, part by part

Printed part 26 stores the reduced rows, copies them into the device's own rows of the staged result and starts the
transfer of shift 0; parts 27 … 33 are the transfers of shifts 1 … 14: each is one application of the step lemma, at the
operation as printed.
-/
import proofs.«900416_g7700000000000417_dist_ar_v7x_i16_i_m512_n512_bf16_1_alg».proof.Proof.StepSend

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- `send2_step` at the operation as printed. -/
theorem send2_printed (K : Dev nD × CK → ℕ) (c : Dev nD) (k : Fin 15) (n n' : ℕ) (hn : n = k.val) (hn' : n' = k.val + 1)
    (X : CellTallies nD τ sig Unit) (W : Waits sig Unit) (dv : Dev nD) (hdv : dv = fwd c k)
    {hsc : (oRow c : Memref sig (Dev.tc dv : Thread nD τ).2.kind .vmem S32x512 .bf16).view.ref.isScScratch = false}
    {hwsrc : (rM : Memref sig .tc .vmem S32x512 .bf16).view.WordExact}
    {hwdst : (oRow c : Memref sig (Dev.tc dv : Thread nD τ).2.kind .vmem S32x512 .bf16).view.WordExact}
    {hsem : DmaTarget.Typed .vmem (.dma ((cc0_scratch6.slice (Rect.unit (s := S16) (k0_off2 c) S1.size (k0_off2_inb c))).squeeze S_ squeezes_S1_S_).sem)
      (.remote (Dev.tc dv : Thread nD τ) (oRow c) (.dma ((cc0_scratch5.slice (Rect.unit (s := S16) (k0_off1 c (BitVec.ofNat 32 (1 + k.val))) S1.size (k0_off1_inb c k))).squeeze S_ squeezes_S1_S_).sem) hsc)}
    {α : Type} {Q : α → sProp 𝕄} {kont : PUnit → Prog (TpuEff nD τ sig (Elt F) Λ₀ .tc) α} :
    iprop(records m K ∗ Send2R m c n ∗ Send2D (F := F) c n ∗ owes (c : Thread nD τ) (X + Oag c n) W)
      ⊢ iprop(((Send2R m c n' ∗ Send2D (F := F) c n' ∗ owes (c : Thread nD τ) (X + Oag c n') W)
            -∗ wp frame (wpE (defs₀ (F := F)) 𝒱₀ c none) Set.univ (kont ⟨⟩) Q)
          -∗ wp frame (wpE (defs₀ (F := F)) 𝒱₀ c none) Set.univ
              (.op (.enqueueDma (rM : Memref sig .tc .vmem S32x512 .bf16)
                (.remote (Dev.tc dv : Thread nD τ) (oRow c) (.dma ((cc0_scratch5.slice (Rect.unit (s := S16) (k0_off1 c (BitVec.ofNat 32 (1 + k.val))) S1.size (k0_off1_inb c k))).squeeze S_ squeezes_S1_S_).sem) hsc)
                (.dma ((cc0_scratch6.slice (Rect.unit (s := S16) (k0_off2 c) S1.size (k0_off2_inb c))).squeeze S_ squeezes_S1_S_).sem) hwsrc hwdst hsem) kont) Q) :=
  send2_step m K c k n n' hn hn' X W dv hdv _ rfl _ rfl _ _ (sem_off1_ag c k) (sem_off2_ag c)

/-! ## Part 26: the reduced rows stored, copied to the device's own result rows, and the first of the second transfers -/

/-- The whole 32 × 512 rectangle of the reduced-rows buffer, and rows `32 c …` of the staged result as the store names
    them. -/
abbrev p26_r0 : Rect S32x512 := Rect.unit (s := S32x512) ![0, 0] S32x512.size inb_S32x512_S32x512_0_0
abbrev p26_r5 (c : Dev nD) : Rect S512x512 := Rect.unit (s := S512x512) (k0_off5 c) S32x512.size (k0_off5_inb c)
theorem p26_hz : (![0, 0] : Fin 2 → Nat) = fun _ => 0 := funext fun a => by fin_cases a <;> rfl

/-- A store through the whole rectangle leaves its payload; a load through it reads the contents. -/
theorem p26_stored (f w : (cc0_scratch1 : Ref sig .tc).ty.Contents (Elt F)) :
    (((rM : Memref sig .tc .vmem S32x512 .bf16).access p26_r0 : View sig .tc _ _ _).write (Elt F) f w Finset.univ) = w :=
  Memref.write_access_unit_zero_univ (Elt F) cc0_scratch1 p26_hz _ f w
theorem p26_read (f : (cc0_scratch1 : Ref sig .tc).ty.Contents (Elt F)) :
    (rM : Memref sig .tc .vmem S32x512 .bf16).view.readAt (Elt F) p26_r0.toLoadRect f = f :=
  Memref.readAt_unit_zero (Elt F) cc0_scratch1 p26_hz _ f

/-- The store's rectangle is the row block `rows c`: the same offsets, computed by another chain. -/
theorem p26_r5_eq (c : Dev nD) : p26_r5 c = rows c := Rect.unit_congr ((k0_off5_eq c).trans (k0_off3_eq c).symm) _ _

/-- Index `y` of the device's own result rows is the same element of the staged result through either offset chain. -/
theorem p26_emb (c : Dev nD) (y : S32x512.Idx) :
    (oRow c).view.emb y = ((oM : Memref sig .tc .vmem S512x512 .bf16).access (p26_r5 c) : View sig .tc _ _ _).emb y := by
  funext a; apply Fin.ext
  show (k0_off3 c) a + 1 * (y a).val = (k0_off5 c) a + 1 * (y a).val
  rw [k0_off3_eq, k0_off5_eq]

/-- Element `y` of rows `32 c …` of the common result is element `y` of `c`'s reduced rows. -/
theorem OUT_rows (c : Dev nD) (y : S32x512.Idx) : OUT m ((oRow c).view.emb y) = red m c y := by
  unfold OUT
  have h0 : (((oRow c).view.emb y) 0).val = 32 * c.val + (y 0).val := by
    show (k0_off3 c) 0 + 1 * (y 0).val = _
    rw [k0_off3_eq]; simp
  have hy : (y 0).val < 32 := (y 0).isLt
  have h1 : blkOf ((oRow c).view.emb y) = c := by
    apply Fin.ext
    show (((oRow c).view.emb y) 0).val / 32 = c.val
    rw [h0]; omega
  rw [h1]
  congr 1
  funext a
  fin_cases a
  · apply Fin.ext
    show (((oRow c).view.emb y) 0).val % 32 = (y 0).val
    rw [h0]; omega
  · apply Fin.ext
    show (k0_off3 c) 1 + 1 * (y 1).val = (y 1).val
    rw [k0_off3_eq]; simp

/-- The device's own result rows, written with its reduced rows, hold those rows of the common result. -/
theorem p26_own (c : Dev nD) (fo : Buf (Elt F) ((oRow c).view.loc (c : Thread nD τ))) :
    ((oRow c).view.loc (c : Thread nD τ) ↦[(oRow c).view.set]{fullShare}
        (((oM : Memref sig .tc .vmem S512x512 .bf16).access (p26_r5 c) : View sig .tc _ _ _).write (Elt F) fo (red m c) Finset.univ) : sProp 𝕄)
      = ((oRow c).view.loc (c : Thread nD τ) ↦[(oRow c).view.set]{fullShare} OUT m) := by
  apply pointsTo_congr
  intro i hi
  obtain ⟨y, rfl⟩ := View.exists_emb_of_mem_set _ hi
  rw [OUT_rows, p26_emb c y, View.write_emb_of_mem _ _ (Finset.mem_univ y)]
  rfl

/-- The reduced-rows buffer seen whole is all its elements. -/
theorem p26_set : (rM : Memref sig .tc .vmem S32x512 .bf16).view.set = Finset.univ := View.set_whole _

/-- The reduced rows held whole are a remainder share and one read share per second transfer. -/
theorem p26_shares (c : Dev nD) (f : Buf (Elt F) ((c : Thread nD τ).loc cc0_scratch1)) :
    ((((c : Thread nD τ).loc cc0_scratch1) ↦{fullShare} f : sProp 𝕄))
      ⊢ iprop((((c : Thread nD τ).loc cc0_scratch1) ↦[(rM : Memref sig .tc .vmem S32x512 .bf16).view.set]{Transfers.shareDrop fullShare 15} f)
        ∗ bigSep Finset.univ fun k : Fin 15 => (rM : Memref sig .tc .vmem S32x512 .bf16).view.loc (c : Thread nD τ)
            ↦[(rM : Memref sig .tc .vmem S32x512 .bf16).view.set]{Transfers.shareTok fullShare 15 k} f) := by
  rw [p26_set]; exact Transfers.pointsTo_toks_split fullShare 15

/-- The fifteen token pairs with the peers' slots, and the fifteen read shares, are the second transfers still to start. -/
theorem p26_send2R (c : Dev nD) :
    iprop((bigSep Finset.univ fun k : Fin 15 => iprop(dutyTok ER (agRecvCell (fwd c k) c) 0 c ∗ dutyTok ER (agSendCell c (fwd c k)) 0 (fwd c k) ∗ peerSlotO (F := F) c k))
        ∗ (bigSep Finset.univ fun k : Fin 15 => (rM : Memref sig .tc .vmem S32x512 .bf16).view.loc (c : Thread nD τ)
            ↦[(rM : Memref sig .tc .vmem S32x512 .bf16).view.set]{Transfers.shareTok fullShare 15 k} red m c))
      ⊢ Send2R m c 0 := by
  unfold Send2R; rw [ge_zero]
  refine (Entails.of_eq (bigSep_sep _ _ _).symm).trans (bigSep_mono fun k _ => ?_)
  show iprop((dutyTok ER (agRecvCell (fwd c k) c) 0 c ∗ dutyTok ER (agSendCell c (fwd c k)) 0 (fwd c k) ∗ peerSlotO (F := F) c k)
      ∗ ((rM : Memref sig .tc .vmem S32x512 .bf16).view.loc (c : Thread nD τ)
            ↦[(rM : Memref sig .tc .vmem S32x512 .bf16).view.set]{Transfers.shareTok fullShare 15 k} red m c))
    ⊢ iprop(dutyTok ER (agRecvCell (fwd c k) c) 0 c ∗ dutyTok ER (agSendCell c (fwd c k)) 0 (fwd c k) ∗ peerSlotO (F := F) c k
      ∗ ((rM : Memref sig .tc .vmem S32x512 .bf16).view.loc (c : Thread nD τ)
            ↦[(rM : Memref sig .tc .vmem S32x512 .bf16).view.set]{Transfers.shareTok fullShare 15 k} red m c))
  iintro ⟨⟨H1, H2, H3⟩, H4⟩
  isplitl [H1]; · iexact H1
  isplitl [H2]; · iexact H2
  isplitl [H3]; · iexact H3
  iexact H4

/-- The rows the load and the store name lie in the device's own row block. -/
theorem p26_hS (c : Dev nD) : (oM : Memref sig .tc .vmem S512x512 .bf16).view.setOn (p26_r5 c).toLoadRect.set ⊆ (oRow c).view.set := by
  rw [p26_r5_eq, View.set_slice]; exact subset_rfl
theorem p26_hS' (c : Dev nD) : ((oM : Memref sig .tc .vmem S512x512 .bf16).access (p26_r5 c) : View sig .tc _ _ _).setOn Finset.univ ⊆ (oRow c).view.set := by
  rw [p26_r5_eq]; exact subset_rfl
/-- No second transfer started yet: no credit returned. -/
theorem p26_send2D0 (c : Dev nD) : (iprop(emp) : sProp 𝕄) ⊢ Send2D (F := F) c 0 := by
  unfold Send2D; rw [bigSep_lt_zero]

set_option maxHeartbeats 1600000 in
/-- Printed part 26. The reduced rows are stored (`hv`: what is stored is `red m c`), read back and copied into the device's own
    rows of the staged result, which then hold those rows of the common result; the reduced rows are cut into the fifteen
    read shares of the second transfers and a remainder, and the transfer of shift 0 starts. -/
theorem part26 (K : Dev nD × CK → ℕ) (c : Dev nD) (X : CellTallies nD τ sig Unit) (W : Waits sig Unit) (v2 : BitVec 32) (v869 : FVec F S32x512 .bf16)
    (hv : k0_pay12 v869 = red m c)
    (f1 : Buf (Elt F) ((c : Thread nD τ).loc cc0_scratch1)) (fo : Buf (Elt F) ((oRow c).view.loc (c : Thread nD τ)))
    (Kt : (Σ' (v898 : BitVec 32) (v899 : BitVec 32), BitVec 1) → sProp 𝕄) :
    iprop((records m K ∗ (((c : Thread nD τ).loc cc0_scratch1) ↦{fullShare} f1)
          ∗ ((oRow c).view.loc (c : Thread nD τ) ↦[(oRow c).view.set]{fullShare} fo)
          ∗ (bigSep Finset.univ fun k : Fin 15 => iprop(dutyTok ER (agRecvCell (fwd c k) c) 0 c ∗ dutyTok ER (agSendCell c (fwd c k)) 0 (fwd c k) ∗ peerSlotO (F := F) c k))
          ∗ owes (c : Thread nD τ) (X + Oag c 0) W)
        ∗ (∀ ret, (Send2R m c 1 ∗ Send2D (F := F) c 1
            ∗ (((c : Thread nD τ).loc cc0_scratch1) ↦[(rM : Memref sig .tc .vmem S32x512 .bf16).view.set]{Transfers.shareDrop fullShare 15} red m c)
            ∗ ((oRow c).view.loc (c : Thread nD τ) ↦[(oRow c).view.set]{fullShare} OUT m)
            ∗ owes (c : Thread nD τ) (X + Oag c 1) W) -∗ Kt ret))
      ⊢ wp frame (wpE (defs₀ (F := F)) 𝒱₀ c none) Set.univ
          (k0_part26 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v869) Kt := by
  rw [k0_part26_eq_skeleton]; unfold k0_part26_skel
  simp only [Prog.lift, Prog.bind_op, Prog.bind_ret, Prog.pure_eq_ret]
  have hval : (rM : Memref sig .tc .vmem S32x512 .bf16).view.readAt (Elt F) p26_r0.toLoadRect
      (((rM : Memref sig .tc .vmem S32x512 .bf16).access p26_r0 : View sig .tc _ _ _).write (Elt F) f1 (k0_pay12 v869) Finset.univ) = red m c := by
    rw [p26_stored, p26_read]; exact hv
  iintro ⟨⟨#HR, Hr, Ho, Ht, HO⟩, Hk⟩
  iapply (wp_load 𝒱₀ (c : Thread nD τ) none Set.univ (m := rM) (Finset.subset_univ _)) $$ Hr; iintro Hr
  iapply (wp_store 𝒱₀ (c : Thread nD τ) none Set.univ (m := rM) (r := p26_r0) (Mk := Finset.univ) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := oM) (p26_hS c)) $$ Ho; iintro Ho
  iapply (wp_store 𝒱₀ (c : Thread nD τ) none Set.univ (m := oM) (r := p26_r5 c) (Mk := Finset.univ) (p26_hS' c)) $$ Ho; iintro Ho
  ihave Hr := (Entails.of_eq (congrArg (fun g => ((((c : Thread nD τ).loc cc0_scratch1) ↦{fullShare} g : sProp 𝕄)))
    ((p26_stored (F := F) f1 (k0_pay12 v869)).trans hv))) $$ Hr
  ihave Ho := (Entails.of_eq ((congrArg (fun w => ((oRow c).view.loc (c : Thread nD τ) ↦[(oRow c).view.set]{fullShare}
      (((oM : Memref sig .tc .vmem S512x512 .bf16).access (p26_r5 c) : View sig .tc _ _ _).write (Elt F) fo w Finset.univ) : sProp 𝕄)) hval).trans
        (p26_own m c fo))) $$ Ho
  ihave Hsh := (p26_shares (F := F) c (red m c)) $$ Hr
  icases Hsh with ⟨Hdrop, Hsh⟩
  ihave HS := (p26_send2R m c) $$ [Ht Hsh]
  · isplitl [Ht]; · iexact Ht
    iexact Hsh
  iapply (send2_printed m K c (0 : Fin 15) 0 1 rfl rfl X W _ (dev31_eq c)) $$ [HS HO]
  · isplitr; · iexact HR
    isplitl [HS]; · iexact HS
    isplitr; · iapply (p26_send2D0 (F := F) c); iempintro
    iexact HO
  iintro ⟨HS, HD, HO⟩
  rw [wp_ret]; imodintro
  iapply Hk
  isplitl [HS]; · iexact HS
  isplitl [HD]; · iexact HD
  isplitl [Hdrop]; · iexact Hdrop
  isplitl [Ho]; · iexact Ho
  iexact HO

set_option maxHeartbeats 800000 in
/-- Printed part 27: the second transfers of shifts 1 and 2. -/
theorem part27 (K : Dev nD × CK → ℕ) (c : Dev nD) (X : CellTallies nD τ sig Unit) (W : Waits sig Unit) (v2 : BitVec 32) (v898 : BitVec 32) (v899 : BitVec 32) (v904 : BitVec 1)
    (Kt : (Σ' (v936 : BitVec 32) (v937 : BitVec 32) (v938 : BitVec 1) (v939 : BitVec 1), BitVec 1) → sProp 𝕄) :
    iprop((records m K ∗ Send2R m c 1 ∗ Send2D (F := F) c 1 ∗ owes (c : Thread nD τ) (X + Oag c 1) W)
        ∗ (∀ ret, (Send2R m c 3 ∗ Send2D (F := F) c 3 ∗ owes (c : Thread nD τ) (X + Oag c 3) W) -∗ Kt ret))
      ⊢ wp frame (wpE (defs₀ (F := F)) 𝒱₀ c none) Set.univ
          (k0_part27 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v898 v899 v904) Kt := by
  rw [k0_part27_eq_skeleton]; unfold k0_part27_skel
  simp only [Prog.lift, Prog.bind_op, Prog.bind_ret, Prog.pure_eq_ret]
  iintro ⟨⟨#HR, HS, HD, HO⟩, Hk⟩
  iapply (send2_printed m K c (1 : Fin 15) 1 2 rfl rfl X W _ (dev32_eq c)) $$ [HS HD HO]
  · isplitr; · iexact HR
    isplitl [HS]; · iexact HS
    isplitl [HD]; · iexact HD
    iexact HO
  iintro ⟨HS, HD, HO⟩
  iapply (send2_printed m K c (2 : Fin 15) 2 3 rfl rfl X W _ (dev33_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 28: the second transfers of shifts 3 and 4. -/
theorem part28 (K : Dev nD × CK → ℕ) (c : Dev nD) (X : CellTallies nD τ sig Unit) (W : Waits sig Unit) (v2 : BitVec 32) (v936 : BitVec 32) (v937 : BitVec 32) (v938 : BitVec 1) (v939 : BitVec 1) (v940 : BitVec 1)
    (Kt : (Σ' (v974 : BitVec 32) (v975 : BitVec 32) (v976 : BitVec 1), BitVec 1) → sProp 𝕄) :
    iprop((records m K ∗ Send2R m c 3 ∗ Send2D (F := F) c 3 ∗ owes (c : Thread nD τ) (X + Oag c 3) W)
        ∗ (∀ ret, (Send2R m c 5 ∗ Send2D (F := F) c 5 ∗ owes (c : Thread nD τ) (X + Oag c 5) W) -∗ Kt ret))
      ⊢ wp frame (wpE (defs₀ (F := F)) 𝒱₀ c none) Set.univ
          (k0_part28 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v936 v937 v938 v939 v940) Kt := by
  rw [k0_part28_eq_skeleton]; unfold k0_part28_skel
  simp only [Prog.lift, Prog.bind_op, Prog.bind_ret, Prog.pure_eq_ret]
  iintro ⟨⟨#HR, HS, HD, HO⟩, Hk⟩
  iapply (send2_printed m K c (3 : Fin 15) 3 4 rfl rfl X W _ (dev34_eq c)) $$ [HS HD HO]
  · isplitr; · iexact HR
    isplitl [HS]; · iexact HS
    isplitl [HD]; · iexact HD
    iexact HO
  iintro ⟨HS, HD, HO⟩
  iapply (send2_printed m K c (4 : Fin 15) 4 5 rfl rfl X W _ (dev35_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 29: the second transfers of shifts 5 and 6. -/
theorem part29 (K : Dev nD × CK → ℕ) (c : Dev nD) (X : CellTallies nD τ sig Unit) (W : Waits sig Unit) (v2 : BitVec 32) (v974 : BitVec 32) (v975 : BitVec 32) (v976 : BitVec 1) (v977 : BitVec 1)
    (Kt : (Σ' (v1012 : BitVec 32) (v1013 : BitVec 32), BitVec 1) → sProp 𝕄) :
    iprop((records m K ∗ Send2R m c 5 ∗ Send2D (F := F) c 5 ∗ owes (c : Thread nD τ) (X + Oag c 5) W)
        ∗ (∀ ret, (Send2R m c 7 ∗ Send2D (F := F) c 7 ∗ owes (c : Thread nD τ) (X + Oag c 7) W) -∗ Kt ret))
      ⊢ wp frame (wpE (defs₀ (F := F)) 𝒱₀ c none) Set.univ
          (k0_part29 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v974 v975 v976 v977) Kt := by
  rw [k0_part29_eq_skeleton]; unfold k0_part29_skel
  simp only [Prog.lift, Prog.bind_op, Prog.bind_ret, Prog.pure_eq_ret]
  iintro ⟨⟨#HR, HS, HD, HO⟩, Hk⟩
  iapply (send2_printed m K c (5 : Fin 15) 5 6 rfl rfl X W _ (dev36_eq c)) $$ [HS HD HO]
  · isplitr; · iexact HR
    isplitl [HS]; · iexact HS
    isplitl [HD]; · iexact HD
    iexact HO
  iintro ⟨HS, HD, HO⟩
  iapply (send2_printed m K c (6 : Fin 15) 6 7 rfl rfl X W _ (dev37_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 30: the second transfers of shifts 7 and 8. -/
theorem part30 (K : Dev nD × CK → ℕ) (c : Dev nD) (X : CellTallies nD τ sig Unit) (W : Waits sig Unit) (v2 : BitVec 32) (v1012 : BitVec 32) (v1013 : BitVec 32) (v1014 : BitVec 1)
    (Kt : (Σ' (v1050 : BitVec 32), BitVec 32) → sProp 𝕄) :
    iprop((records m K ∗ Send2R m c 7 ∗ Send2D (F := F) c 7 ∗ owes (c : Thread nD τ) (X + Oag c 7) W)
        ∗ (∀ ret, (Send2R m c 9 ∗ Send2D (F := F) c 9 ∗ owes (c : Thread nD τ) (X + Oag c 9) W) -∗ Kt ret))
      ⊢ wp frame (wpE (defs₀ (F := F)) 𝒱₀ c none) Set.univ
          (k0_part30 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1012 v1013 v1014) Kt := by
  rw [k0_part30_eq_skeleton]; unfold k0_part30_skel
  simp only [Prog.lift, Prog.bind_op, Prog.bind_ret, Prog.pure_eq_ret]
  iintro ⟨⟨#HR, HS, HD, HO⟩, Hk⟩
  iapply (send2_printed m K c (7 : Fin 15) 7 8 rfl rfl X W _ (dev38_eq c)) $$ [HS HD HO]
  · isplitr; · iexact HR
    isplitl [HS]; · iexact HS
    isplitl [HD]; · iexact HD
    iexact HO
  iintro ⟨HS, HD, HO⟩
  iapply (send2_printed m K c (8 : Fin 15) 8 9 rfl rfl X W _ (dev39_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 31: the second transfers of shifts 9 and 10. -/
theorem part31 (K : Dev nD × CK → ℕ) (c : Dev nD) (X : CellTallies nD τ sig Unit) (W : Waits sig Unit) (v2 : BitVec 32) (v1050 : BitVec 32) (v1051 : BitVec 32)
    (Kt : (Σ' (v1086 : BitVec 32) (c16_i32_688 : BitVec 32) (v1087 : BitVec 1), BitVec 32) → sProp 𝕄) :
    iprop((records m K ∗ Send2R m c 9 ∗ Send2D (F := F) c 9 ∗ owes (c : Thread nD τ) (X + Oag c 9) W)
        ∗ (∀ ret, (Send2R m c 11 ∗ Send2D (F := F) c 11 ∗ owes (c : Thread nD τ) (X + Oag c 11) W) -∗ Kt ret))
      ⊢ wp frame (wpE (defs₀ (F := F)) 𝒱₀ c none) Set.univ
          (k0_part31 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1050 v1051) Kt := by
  rw [k0_part31_eq_skeleton]; unfold k0_part31_skel
  simp only [Prog.lift, Prog.bind_op, Prog.bind_ret, Prog.pure_eq_ret]
  iintro ⟨⟨#HR, HS, HD, HO⟩, Hk⟩
  iapply (send2_printed m K c (9 : Fin 15) 9 10 rfl rfl X W _ (dev40_eq c)) $$ [HS HD HO]
  · isplitr; · iexact HR
    isplitl [HS]; · iexact HS
    isplitl [HD]; · iexact HD
    iexact HO
  iintro ⟨HS, HD, HO⟩
  iapply (send2_printed m K c (10 : Fin 15) 10 11 rfl rfl X W _ (dev41_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 32: the second transfers of shifts 11 and 12. -/
theorem part32 (K : Dev nD × CK → ℕ) (c : Dev nD) (X : CellTallies nD τ sig Unit) (W : Waits sig Unit) (v2 : BitVec 32) (v1086 : BitVec 32) (c16_i32_688 : BitVec 32) (v1087 : BitVec 1) (c1_i32_690 : BitVec 32)
    (Kt : (Σ' (v1124 : BitVec 32) (c16_i32_710 : BitVec 32), BitVec 32) → sProp 𝕄) :
    iprop((records m K ∗ Send2R m c 11 ∗ Send2D (F := F) c 11 ∗ owes (c : Thread nD τ) (X + Oag c 11) W)
        ∗ (∀ ret, (Send2R m c 13 ∗ Send2D (F := F) c 13 ∗ owes (c : Thread nD τ) (X + Oag c 13) W) -∗ Kt ret))
      ⊢ wp frame (wpE (defs₀ (F := F)) 𝒱₀ c none) Set.univ
          (k0_part32 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1086 c16_i32_688 v1087 c1_i32_690) Kt := by
  rw [k0_part32_eq_skeleton]; unfold k0_part32_skel
  simp only [Prog.lift, Prog.bind_op, Prog.bind_ret, Prog.pure_eq_ret]
  iintro ⟨⟨#HR, HS, HD, HO⟩, Hk⟩
  iapply (send2_printed m K c (11 : Fin 15) 11 12 rfl rfl X W _ (dev42_eq c)) $$ [HS HD HO]
  · isplitr; · iexact HR
    isplitl [HS]; · iexact HS
    isplitl [HD]; · iexact HD
    iexact HO
  iintro ⟨HS, HD, HO⟩
  iapply (send2_printed m K c (12 : Fin 15) 12 13 rfl rfl X W _ (dev43_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 33: the second transfers of shifts 13 and 14. -/
theorem part33 (K : Dev nD × CK → ℕ) (c : Dev nD) (X : CellTallies nD τ sig Unit) (W : Waits sig Unit) (v2 : BitVec 32) (v1124 : BitVec 32) (c16_i32_710 : BitVec 32) (c0_i32_711 : BitVec 32)
    (Kt : (BitVec 32) → sProp 𝕄) :
    iprop((records m K ∗ Send2R m c 13 ∗ Send2D (F := F) c 13 ∗ owes (c : Thread nD τ) (X + Oag c 13) W)
        ∗ (∀ ret, (Send2R m c 15 ∗ Send2D (F := F) c 15 ∗ owes (c : Thread nD τ) (X + Oag c 15) W) -∗ Kt ret))
      ⊢ wp frame (wpE (defs₀ (F := F)) 𝒱₀ c none) Set.univ
          (k0_part33 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1124 c16_i32_710 c0_i32_711) Kt := by
  rw [k0_part33_eq_skeleton]; unfold k0_part33_skel
  simp only [Prog.lift, Prog.bind_op, Prog.bind_ret, Prog.pure_eq_ret]
  iintro ⟨⟨#HR, HS, HD, HO⟩, Hk⟩
  iapply (send2_printed m K c (13 : Fin 15) 13 14 rfl rfl X W _ (dev44_eq c)) $$ [HS HD HO]
  · isplitr; · iexact HR
    isplitl [HS]; · iexact HS
    isplitl [HD]; · iexact HD
    iexact HO
  iintro ⟨HS, HD, HO⟩
  iapply (send2_printed m K c (14 : Fin 15) 14 15 rfl rfl X W _ (dev45_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

/-- info: 'Cert.KernelIdeal.AR.part26' depends on axioms: [propext, Classical.choice, Quot.sound] -/
#guard_msgs in #print axioms part26
/-- info: 'Cert.KernelIdeal.AR.part33' depends on axioms: [propext, Classical.choice, Quot.sound] -/
#guard_msgs in #print axioms part33

end Cert.KernelIdeal.AR

end
-- ==== Proof.StepWait.lean ====
import proofs.«900416_g7700000000000417_dist_ar_v7x_i16_i_m512_n512_bf16_1_alg».proof.Proof.Res

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-!
# The waits on the send cells

A device waits, at the end of its body, for each of its thirty transfers to have been read out of its source: the
send cell of shift `k` receives the one duty of its round, the transfer to the peer `k + 1` places ahead, whose
payload is the source rows (first round) or the read share of the reduced rows (second round).
-/

set_option maxHeartbeats 800000 in
/-- One send cell of the first round of transfers waited for: the cell moves to round 1 and the transfer's source comes back
    (the payload of the round's only duty). Nothing is owed any more, so the wait is allowed at any level. -/
theorem wait1_step (K : Dev nD × CK → ℕ) (c : Dev nD) (W : Waits sig Unit) (n : ℕ) (k : Fin 15) (n' : ℕ) (hn : n = k.val) (hn' : n' = k.val + 1)
    (sS : DmaSem sig) (hsS : sS = rsSendS (fwd c k))
    (v1 v2 : Memref sig .tc .vmem S32x512 .bf16) {h1 : v1.view.WordExact} {h2 : v2.view.WordExact}
    (hN : v2.view.dmaCredit = NC)
    {α : Type} {kont : PUnit → Prog (TpuEff nD τ sig (Elt F) Λ₀ .tc) α} {Q : α → sProp 𝕄} :
    iprop(records m K ∗ Wait1R (F := F) c n ∗ Wait1D m c n ∗ owes (c : Thread nD τ) 0 W)
      ⊢ iprop(((Wait1R (F := F) c n' ∗ Wait1D m c n' ∗ owes (c : Thread nD τ) 0 (insert (SemLoc.dma (rsSendS (fwd c k)), ()) W))
            -∗ wp frame (wpE (defs₀ (F := F)) 𝒱₀ c none) Set.univ (kont ⟨⟩) Q)
          -∗ wp frame (wpE (defs₀ (F := F)) 𝒱₀ c none) Set.univ (.op (.waitDma2 sS v1 v2 h1 h2) kont) Q) := by
  subst hsS
  unfold Wait1R Wait1D
  rw [bigSep_ge_peel _ n k n' hn hn', bigSep_lt_push _ n k n' hn hn']
  iintro ⟨#HR, ⟨⟨Hat, Hc⟩, HWR⟩, HWD, HO⟩ Hk
  iapply (Rounds.wp_wait_rest_token 𝒱₀ ER (ringRd m) (c : Thread nD τ) none (κ := K (c, some (0, fwd c k)))
      (fun Kk => (wpE_waitDma2_eq 𝒱₀ (c : Thread nD τ) none Set.univ Kk).trans (by rw [hN])) (Set.mem_univ _) () (O := 0) (W := W) (R := 0) (m := 0) (T := ∅)
      (by rw [Nat.zero_add]; exact (expect_rsSend m c (fwd c k) (fwd_ne c k)).symm)) $$ [Hc HO Hat]
  · isplitr; · iapply (inv_at m K (c, some (0, fwd c k))); iexact HR
    isplitl [Hc]; · iexact Hc
    isplitl [HO]; · iexact HO
    isplitr; · rw [MayWait_zero]; iempintro
    iexact Hat
  iintro ⟨HO, Hat, -, Hpay⟩
  ihave Hp := (Entails.of_eq (rest_rsSend m c (fwd c k) (fwd_ne c k))) $$ Hpay
  iapply Hk
  isplitl [HWR]; · iexact HWR
  isplitr [HO]; · isplitr [HWD]; · isplitl [Hat]; · iexact Hat
                                   iexact Hp
                  iexact HWD
  iexact HO

set_option maxHeartbeats 800000 in
/-- One send cell of the second round of transfers waited for: the cell moves to round 1 and the transfer's source comes back
    (the payload of the round's only duty). Nothing is owed any more, so the wait is allowed at any level. -/
theorem wait2_step (K : Dev nD × CK → ℕ) (c : Dev nD) (W : Waits sig Unit) (n : ℕ) (k : Fin 15) (n' : ℕ) (hn : n = k.val) (hn' : n' = k.val + 1)
    (sS : DmaSem sig) (hsS : sS = agSendS (fwd c k))
    (v1 v2 : Memref sig .tc .vmem S32x512 .bf16) {h1 : v1.view.WordExact} {h2 : v2.view.WordExact}
    (hN : v2.view.dmaCredit = NC)
    {α : Type} {kont : PUnit → Prog (TpuEff nD τ sig (Elt F) Λ₀ .tc) α} {Q : α → sProp 𝕄} :
    iprop(records m K ∗ Wait2R (F := F) c n ∗ Wait2D m c n ∗ owes (c : Thread nD τ) 0 W)
      ⊢ iprop(((Wait2R (F := F) c n' ∗ Wait2D m c n' ∗ owes (c : Thread nD τ) 0 (insert (SemLoc.dma (agSendS (fwd c k)), ()) W))
            -∗ wp frame (wpE (defs₀ (F := F)) 𝒱₀ c none) Set.univ (kont ⟨⟩) Q)
          -∗ wp frame (wpE (defs₀ (F := F)) 𝒱₀ c none) Set.univ (.op (.waitDma2 sS v1 v2 h1 h2) kont) Q) := by
  subst hsS
  unfold Wait2R Wait2D
  rw [bigSep_ge_peel _ n k n' hn hn', bigSep_lt_push _ n k n' hn hn']
  iintro ⟨#HR, ⟨⟨Hat, Hc⟩, HWR⟩, HWD, HO⟩ Hk
  iapply (Rounds.wp_wait_rest_token 𝒱₀ ER (ringRd m) (c : Thread nD τ) none (κ := K (c, some (2, fwd c k)))
      (fun Kk => (wpE_waitDma2_eq 𝒱₀ (c : Thread nD τ) none Set.univ Kk).trans (by rw [hN])) (Set.mem_univ _) () (O := 0) (W := W) (R := 0) (m := 0) (T := ∅)
      (by rw [Nat.zero_add]; exact (expect_agSend m c (fwd c k) (fwd_ne c k)).symm)) $$ [Hc HO Hat]
  · isplitr; · iapply (inv_at m K (c, some (2, fwd c k))); iexact HR
    isplitl [Hc]; · iexact Hc
    isplitl [HO]; · iexact HO
    isplitr; · rw [MayWait_zero]; iempintro
    iexact Hat
  iintro ⟨HO, Hat, -, Hpay⟩
  ihave Hp := (Entails.of_eq (rest_agSend m c (fwd c k) (fwd_ne c k))) $$ Hpay
  iapply Hk
  isplitl [HWR]; · iexact HWR
  isplitr [HO]; · isplitr [HWD]; · isplitl [Hat]; · iexact Hat
                                   iexact Hp
                  iexact HWD
  iexact HO

/-- info: 'Cert.KernelIdeal.AR.wait1_step' depends on axioms: [propext, Classical.choice, Quot.sound] -/
#guard_msgs in #print axioms wait1_step
/-- info: 'Cert.KernelIdeal.AR.wait2_step' depends on axioms: [propext, Classical.choice, Quot.sound] -/
#guard_msgs in #print axioms wait2_step

end Cert.KernelIdeal.AR

end
-- ==== Proof.PartsF.lean ====
/-
# The second round's receive waits, part by part

Printed parts 34 … 40 wait, two shifts a part, for the second transfers from the peers behind; part 41 waits for the last
of them and then for the first five send cells of the first round. Each wait is one application of its step lemma, at the
wait as printed. Every wait adds its cell to the set of cells waited on, so what is owed (nothing) is carried with
some such set.
-/
import proofs.«900416_g7700000000000417_dist_ar_v7x_i16_i_m512_n512_bf16_1_alg».proof.Proof.StepRecv
import proofs.«900416_g7700000000000417_dist_ar_v7x_i16_i_m512_n512_bf16_1_alg».proof.Proof.StepWait

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer of a 32 × 512 narrow block credits the same count whatever buffer it lands in. -/
theorem credit_oSlice (c : Dev nD) (k : Fin 15) : ((oM : Memref sig .tc .vmem S512x512 .bf16).slice (Rect.unit (s := S512x512) (k0_off7 c (BitVec.ofNat 32 (1 + k.val))) S32x512.size (k0_off7_inb c k)) (fun _ => rfl)).view.dmaCredit = NC := rfl
theorem credit_bSlice (c : Dev nD) (k : Fin 15) : ((bM : Memref sig .tc .vmem S512x512 .bf16).slice (Rect.unit (s := S512x512) (k0_off4 c (BitVec.ofNat 32 (1 + k.val))) S32x512.size (k0_off4_inb c k)) (fun _ => rfl)).view.dmaCredit = NC := rfl

/-- `recv2_step` at the wait as printed: the cell through the printed semaphore slice, the views as printed (only the
    destination's credit count matters). -/
theorem recv2_printed (K : Dev nD × CK → ℕ) (c : Dev nD) (k : Fin 15) (n n' : ℕ) (hn : n = k.val) (hn' : n' = k.val + 1)
    (W : Waits sig Unit)
    {hs : (rM : Memref sig .tc .vmem S32x512 .bf16).view.WordExact}
    {hd : ((oM : Memref sig .tc .vmem S512x512 .bf16).slice (Rect.unit (s := S512x512) (k0_off7 c (BitVec.ofNat 32 (1 + k.val))) S32x512.size (k0_off7_inb c k)) (fun _ => rfl)).view.WordExact}
    {α : Type} {Q : α → sProp 𝕄} {kont : PUnit → Prog (TpuEff nD τ sig (Elt F) Λ₀ .tc) α} :
    iprop(records m K ∗ Recv2R (F := F) c n ∗ Recv2D m c n ∗ owes (c : Thread nD τ) 0 W)
      ⊢ iprop(((Recv2R (F := F) c n' ∗ Recv2D m c n'
              ∗ owes (c : Thread nD τ) 0 (insert (SemLoc.dma (agRecvS (bwd c k)), ()) W))
            -∗ wp frame (wpE (defs₀ (F := F)) 𝒱₀ c none) Set.univ (kont ⟨⟩) Q)
          -∗ wp frame (wpE (defs₀ (F := F)) 𝒱₀ c none) Set.univ
              (.op (.waitDma2 ((cc0_scratch6.slice (Rect.unit (s := S16) (k0_off6 c (BitVec.ofNat 32 (1 + k.val))) S1.size (k0_off6_inb c k))).squeeze S_ squeezes_S1_S_).sem (rM : Memref sig .tc .vmem S32x512 .bf16)
                ((oM : Memref sig .tc .vmem S512x512 .bf16).slice (Rect.unit (s := S512x512) (k0_off7 c (BitVec.ofNat 32 (1 + k.val))) S32x512.size (k0_off7_inb c k)) (fun _ => rfl))
                hs hd) kont) Q) :=
  recv2_step m K c k n n' hn hn' W _ (sem_off6_ag c k) (rM : Memref sig .tc .vmem S32x512 .bf16) ((oM : Memref sig .tc .vmem S512x512 .bf16).slice (Rect.unit (s := S512x512) (k0_off7 c (BitVec.ofNat 32 (1 + k.val))) S32x512.size (k0_off7_inb c k)) (fun _ => rfl)) (credit_oSlice c k)

/-- `wait1_step` at the wait as printed. -/
theorem wait1_printed (K : Dev nD × CK → ℕ) (c : Dev nD) (W : Waits sig Unit) (n : ℕ) (k : Fin 15) (n' : ℕ) (hn : n = k.val) (hn' : n' = k.val + 1)
    {h1 : (sRow c).view.WordExact}
    {h2 : ((bM : Memref sig .tc .vmem S512x512 .bf16).slice (Rect.unit (s := S512x512) (k0_off4 c (BitVec.ofNat 32 (1 + k.val))) S32x512.size (k0_off4_inb c k)) (fun _ => rfl)).view.WordExact}
    {α : Type} {kont : PUnit → Prog (TpuEff nD τ sig (Elt F) Λ₀ .tc) α} {Q : α → sProp 𝕄} :
    iprop(records m K ∗ Wait1R (F := F) c n ∗ Wait1D m c n ∗ owes (c : Thread nD τ) 0 W)
      ⊢ iprop(((Wait1R (F := F) c n' ∗ Wait1D m c n' ∗ owes (c : Thread nD τ) 0 (insert (SemLoc.dma (rsSendS (fwd c k)), ()) W))
            -∗ wp frame (wpE (defs₀ (F := F)) 𝒱₀ c none) Set.univ (kont ⟨⟩) Q)
          -∗ wp frame (wpE (defs₀ (F := F)) 𝒱₀ c none) Set.univ
              (.op (.waitDma2 ((cc0_scratch3.slice (Rect.unit (s := S16) (k0_off1 c (BitVec.ofNat 32 (1 + k.val))) S1.size (k0_off1_inb c k))).squeeze S_ squeezes_S1_S_).sem (sRow c)
                ((bM : Memref sig .tc .vmem S512x512 .bf16).slice (Rect.unit (s := S512x512) (k0_off4 c (BitVec.ofNat 32 (1 + k.val))) S32x512.size (k0_off4_inb c k)) (fun _ => rfl))
                h1 h2) kont) Q) :=
  wait1_step m K c W n k n' hn hn' _ (sem_off1_rs c k) (sRow c) ((bM : Memref sig .tc .vmem S512x512 .bf16).slice (Rect.unit (s := S512x512) (k0_off4 c (BitVec.ofNat 32 (1 + k.val))) S32x512.size (k0_off4_inb c k)) (fun _ => rfl)) (credit_bSlice c k)

set_option maxHeartbeats 800000 in
/-- Printed part 34: the waits for the second transfers from the peers of shifts 0 and 1 behind. -/
theorem part34 (K : Dev nD × CK → ℕ) (c : Dev nD) (v2 : BitVec 32) (v1162 : BitVec 32)
    (Kt : (Σ' (v1196 : BitVec 32) (c16_i32_754 : BitVec 32), BitVec 32) → sProp 𝕄) :
    iprop((records m K ∗ Recv2R (F := F) c 0 ∗ Recv2D m c 0 ∗ (∃ W, owes (c : Thread nD τ) 0 W))
        ∗ (∀ ret, (Recv2R (F := F) c 2 ∗ Recv2D m c 2 ∗ (∃ W, owes (c : Thread nD τ) 0 W)) -∗ Kt ret))
      ⊢ wp frame (wpE (defs₀ (F := F)) 𝒱₀ c none) Set.univ
          (k0_part34 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1162) Kt := by
  rw [k0_part34_eq_skeleton]; unfold k0_part34_skel
  simp only [Prog.lift, Prog.bind_op, Prog.bind_ret, Prog.pure_eq_ret]
  iintro ⟨⟨#HR, HS, HD, ⟨%W, HO⟩⟩, Hk⟩
  iapply (recv2_printed m K c (0 : Fin 15) 0 1 rfl rfl _) $$ [HS HD HO]
  · isplitr; · iexact HR
    isplitl [HS]; · iexact HS
    isplitl [HD]; · iexact HD
    iexact HO
  iintro ⟨HS, HD, HO⟩
  iapply (recv2_printed m K c (1 : Fin 15) 1 2 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 35: the waits for the second transfers from the peers of shifts 2 and 3 behind. -/
theorem part35 (K : Dev nD × CK → ℕ) (c : Dev nD) (v2 : BitVec 32) (v1196 : BitVec 32) (c16_i32_754 : BitVec 32) (c0_i32_755 : BitVec 32)
    (Kt : (Σ' (v1230 : BitVec 32) (c16_i32_776 : BitVec 32) (v1231 : BitVec 1), BitVec 32) → sProp 𝕄) :
    iprop((records m K ∗ Recv2R (F := F) c 2 ∗ Recv2D m c 2 ∗ (∃ W, owes (c : Thread nD τ) 0 W))
        ∗ (∀ ret, (Recv2R (F := F) c 4 ∗ Recv2D m c 4 ∗ (∃ W, owes (c : Thread nD τ) 0 W)) -∗ Kt ret))
      ⊢ wp frame (wpE (defs₀ (F := F)) 𝒱₀ c none) Set.univ
          (k0_part35 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1196 c16_i32_754 c0_i32_755) Kt := by
  rw [k0_part35_eq_skeleton]; unfold k0_part35_skel
  simp only [Prog.lift, Prog.bind_op, Prog.bind_ret, Prog.pure_eq_ret]
  iintro ⟨⟨#HR, HS, HD, ⟨%W, HO⟩⟩, Hk⟩
  iapply (recv2_printed m K c (2 : Fin 15) 2 3 rfl rfl _) $$ [HS HD HO]
  · isplitr; · iexact HR
    isplitl [HS]; · iexact HS
    isplitl [HD]; · iexact HD
    iexact HO
  iintro ⟨HS, HD, HO⟩
  iapply (recv2_printed m K c (3 : Fin 15) 3 4 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 36: the waits for the second transfers from the peers of shifts 4 and 5 behind. -/
theorem part36 (K : Dev nD × CK → ℕ) (c : Dev nD) (v2 : BitVec 32) (v1230 : BitVec 32) (c16_i32_776 : BitVec 32) (v1231 : BitVec 1) (c1_i32_778 : BitVec 32)
    (Kt : (Σ' (v1266 : BitVec 32), BitVec 32) → sProp 𝕄) :
    iprop((records m K ∗ Recv2R (F := F) c 4 ∗ Recv2D m c 4 ∗ (∃ W, owes (c : Thread nD τ) 0 W))
        ∗ (∀ ret, (Recv2R (F := F) c 6 ∗ Recv2D m c 6 ∗ (∃ W, owes (c : Thread nD τ) 0 W)) -∗ Kt ret))
      ⊢ wp frame (wpE (defs₀ (F := F)) 𝒱₀ c none) Set.univ
          (k0_part36 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1230 c16_i32_776 v1231 c1_i32_778) Kt := by
  rw [k0_part36_eq_skeleton]; unfold k0_part36_skel
  simp only [Prog.lift, Prog.bind_op, Prog.bind_ret, Prog.pure_eq_ret]
  iintro ⟨⟨#HR, HS, HD, ⟨%W, HO⟩⟩, Hk⟩
  iapply (recv2_printed m K c (4 : Fin 15) 4 5 rfl rfl _) $$ [HS HD HO]
  · isplitr; · iexact HR
    isplitl [HS]; · iexact HS
    isplitl [HD]; · iexact HD
    iexact HO
  iintro ⟨HS, HD, HO⟩
  iapply (recv2_printed m K c (5 : Fin 15) 5 6 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 37: the waits for the second transfers from the peers of shifts 6 and 7 behind. -/
theorem part37 (K : Dev nD × CK → ℕ) (c : Dev nD) (v2 : BitVec 32) (v1266 : BitVec 32) (v1267 : BitVec 32)
    (Kt : (Σ' (v1300 : BitVec 32) (v1301 : BitVec 32), BitVec 1) → sProp 𝕄) :
    iprop((records m K ∗ Recv2R (F := F) c 6 ∗ Recv2D m c 6 ∗ (∃ W, owes (c : Thread nD τ) 0 W))
        ∗ (∀ ret, (Recv2R (F := F) c 8 ∗ Recv2D m c 8 ∗ (∃ W, owes (c : Thread nD τ) 0 W)) -∗ Kt ret))
      ⊢ wp frame (wpE (defs₀ (F := F)) 𝒱₀ c none) Set.univ
          (k0_part37 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1266 v1267) Kt := by
  rw [k0_part37_eq_skeleton]; unfold k0_part37_skel
  simp only [Prog.lift, Prog.bind_op, Prog.bind_ret, Prog.pure_eq_ret]
  iintro ⟨⟨#HR, HS, HD, ⟨%W, HO⟩⟩, Hk⟩
  iapply (recv2_printed m K c (6 : Fin 15) 6 7 rfl rfl _) $$ [HS HD HO]
  · isplitr; · iexact HR
    isplitl [HS]; · iexact HS
    isplitl [HD]; · iexact HD
    iexact HO
  iintro ⟨HS, HD, HO⟩
  iapply (recv2_printed m K c (7 : Fin 15) 7 8 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 38: the waits for the second transfers from the peers of shifts 8 and 9 behind. -/
theorem part38 (K : Dev nD × CK → ℕ) (c : Dev nD) (v2 : BitVec 32) (v1300 : BitVec 32) (v1301 : BitVec 32) (v1302 : BitVec 1)
    (Kt : (Σ' (v1334 : BitVec 32) (v1335 : BitVec 32) (v1336 : BitVec 1), BitVec 1) → sProp 𝕄) :
    iprop((records m K ∗ Recv2R (F := F) c 8 ∗ Recv2D m c 8 ∗ (∃ W, owes (c : Thread nD τ) 0 W))
        ∗ (∀ ret, (Recv2R (F := F) c 10 ∗ Recv2D m c 10 ∗ (∃ W, owes (c : Thread nD τ) 0 W)) -∗ Kt ret))
      ⊢ wp frame (wpE (defs₀ (F := F)) 𝒱₀ c none) Set.univ
          (k0_part38 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1300 v1301 v1302) Kt := by
  rw [k0_part38_eq_skeleton]; unfold k0_part38_skel
  simp only [Prog.lift, Prog.bind_op, Prog.bind_ret, Prog.pure_eq_ret]
  iintro ⟨⟨#HR, HS, HD, ⟨%W, HO⟩⟩, Hk⟩
  iapply (recv2_printed m K c (8 : Fin 15) 8 9 rfl rfl _) $$ [HS HD HO]
  · isplitr; · iexact HR
    isplitl [HS]; · iexact HS
    isplitl [HD]; · iexact HD
    iexact HO
  iintro ⟨HS, HD, HO⟩
  iapply (recv2_printed m K c (9 : Fin 15) 9 10 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 39: the waits for the second transfers from the peers of shifts 10 and 11 behind. -/
theorem part39 (K : Dev nD × CK → ℕ) (c : Dev nD) (v2 : BitVec 32) (v1334 : BitVec 32) (v1335 : BitVec 32) (v1336 : BitVec 1) (v1337 : BitVec 1)
    (Kt : (Σ' (v1368 : BitVec 32) (v1369 : BitVec 32) (v1370 : BitVec 1) (v1371 : BitVec 1), BitVec 1) → sProp 𝕄) :
    iprop((records m K ∗ Recv2R (F := F) c 10 ∗ Recv2D m c 10 ∗ (∃ W, owes (c : Thread nD τ) 0 W))
        ∗ (∀ ret, (Recv2R (F := F) c 12 ∗ Recv2D m c 12 ∗ (∃ W, owes (c : Thread nD τ) 0 W)) -∗ Kt ret))
      ⊢ wp frame (wpE (defs₀ (F := F)) 𝒱₀ c none) Set.univ
          (k0_part39 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1334 v1335 v1336 v1337) Kt := by
  rw [k0_part39_eq_skeleton]; unfold k0_part39_skel
  simp only [Prog.lift, Prog.bind_op, Prog.bind_ret, Prog.pure_eq_ret]
  iintro ⟨⟨#HR, HS, HD, ⟨%W, HO⟩⟩, Hk⟩
  iapply (recv2_printed m K c (10 : Fin 15) 10 11 rfl rfl _) $$ [HS HD HO]
  · isplitr; · iexact HR
    isplitl [HS]; · iexact HS
    isplitl [HD]; · iexact HD
    iexact HO
  iintro ⟨HS, HD, HO⟩
  iapply (recv2_printed m K c (11 : Fin 15) 11 12 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 40: the waits for the second transfers from the peers of shifts 12 and 13 behind. -/
theorem part40 (K : Dev nD × CK → ℕ) (c : Dev nD) (v2 : BitVec 32) (v1368 : BitVec 32) (v1369 : BitVec 32) (v1370 : BitVec 1) (v1371 : BitVec 1) (v1372 : BitVec 1)
    (Kt : (Σ' (v1402 : BitVec 32) (v1403 : BitVec 32), BitVec 1) → sProp 𝕄) :
    iprop((records m K ∗ Recv2R (F := F) c 12 ∗ Recv2D m c 12 ∗ (∃ W, owes (c : Thread nD τ) 0 W))
        ∗ (∀ ret, (Recv2R (F := F) c 14 ∗ Recv2D m c 14 ∗ (∃ W, owes (c : Thread nD τ) 0 W)) -∗ Kt ret))
      ⊢ wp frame (wpE (defs₀ (F := F)) 𝒱₀ c none) Set.univ
          (k0_part40 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1368 v1369 v1370 v1371 v1372) Kt := by
  rw [k0_part40_eq_skeleton]; unfold k0_part40_skel
  simp only [Prog.lift, Prog.bind_op, Prog.bind_ret, Prog.pure_eq_ret]
  iintro ⟨⟨#HR, HS, HD, ⟨%W, HO⟩⟩, Hk⟩
  iapply (recv2_printed m K c (12 : Fin 15) 12 13 rfl rfl _) $$ [HS HD HO]
  · isplitr; · iexact HR
    isplitl [HS]; · iexact HS
    isplitl [HD]; · iexact HD
    iexact HO
  iintro ⟨HS, HD, HO⟩
  iapply (recv2_printed m K c (13 : Fin 15) 13 14 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 1600000 in
/-- Printed part 41: the wait for the second transfer from the peer of shift 14 behind, then the waits on the first
    round's send cells of shifts 0 … 4. -/
theorem part41 (K : Dev nD × CK → ℕ) (c : Dev nD) (v1402 : BitVec 32) (v1403 : BitVec 32) (v1408 : BitVec 1)
    (Kt : (PUnit) → sProp 𝕄) :
    iprop((records m K ∗ Recv2R (F := F) c 14 ∗ Recv2D m c 14 ∗ Wait1R (F := F) c 0 ∗ Wait1D m c 0 ∗ (∃ W, owes (c : Thread nD τ) 0 W))
        ∗ (∀ ret, (Recv2R (F := F) c 15 ∗ Recv2D m c 15 ∗ Wait1R (F := F) c 5 ∗ Wait1D m c 5 ∗ (∃ W, owes (c : Thread nD τ) 0 W)) -∗ Kt ret))
      ⊢ wp frame (wpE (defs₀ (F := F)) 𝒱₀ c none) Set.univ
          (k0_part41 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v1402 v1403 v1408) Kt := by
  rw [k0_part41_eq_skeleton]; unfold k0_part41_skel
  simp only [Prog.lift, Prog.bind_op, Prog.bind_ret, Prog.pure_eq_ret]
  iintro ⟨⟨#HR, HS, HD, HWR, HWD, ⟨%W, HO⟩⟩, Hk⟩
  iapply (recv2_printed m K c (14 : Fin 15) 14 15 rfl rfl _) $$ [HS HD HO]
  · isplitr; · iexact HR
    isplitl [HS]; · iexact HS
    isplitl [HD]; · iexact HD
    iexact HO
  iintro ⟨HS, HD, HO⟩
  iapply (wait1_printed m K c _ 0 (0 : Fin 15) 1 rfl rfl) $$ [HWR HWD HO]
  · isplitr; · iexact HR
    isplitl [HWR]; · iexact HWR
    isplitl [HWD]; · iexact HWD
    iexact HO
  iintro ⟨HWR, HWD, HO⟩
  iapply (wait1_printed m K c _ 1 (1 : Fin 15) 2 rfl rfl) $$ [HWR HWD HO]
  · isplitr; · iexact HR
    isplitl [HWR]; · iexact HWR
    isplitl [HWD]; · iexact HWD
    iexact HO
  iintro ⟨HWR, HWD, HO⟩
  iapply (wait1_printed m K c _ 2 (2 : Fin 15) 3 rfl rfl) $$ [HWR HWD HO]
  · isplitr; · iexact HR
    isplitl [HWR]; · iexact HWR
    isplitl [HWD]; · iexact HWD
    iexact HO
  iintro ⟨HWR, HWD, HO⟩
  iapply (wait1_printed m K c _ 3 (3 : Fin 15) 4 rfl rfl) $$ [HWR HWD HO]
  · isplitr; · iexact HR
    isplitl [HWR]; · iexact HWR
    isplitl [HWD]; · iexact HWD
    iexact HO
  iintro ⟨HWR, HWD, HO⟩
  iapply (wait1_printed m K c _ 4 (4 : Fin 15) 5 rfl rfl) $$ [HWR HWD HO]
  · isplitr; · iexact HR
    isplitl [HWR]; · iexact HWR
    isplitl [HWD]; · iexact HWD
    iexact HO
  iintro ⟨HWR, HWD, HO⟩
  rw [wp_ret]; imodintro
  iapply Hk
  isplitl [HS]; · iexact HS
  isplitl [HD]; · iexact HD
  isplitl [HWR]; · iexact HWR
  isplitl [HWD]; · iexact HWD
  iexists _; iexact HO

/-- info: 'Cert.KernelIdeal.AR.part40' depends on axioms: [propext, Classical.choice, Quot.sound] -/
#guard_msgs in #print axioms part40
/-- info: 'Cert.KernelIdeal.AR.part41' depends on axioms: [propext, Classical.choice, Quot.sound] -/
#guard_msgs in #print axioms part41

end Cert.KernelIdeal.AR

end
-- ==== Proof.PartsG.lean ====
import proofs.«900416_g7700000000000417_dist_ar_v7x_i16_i_m512_n512_bf16_1_alg».proof.Proof.StepWait

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-!
# The printed waits on the send cells, in program order

After its last receive a device waits for its thirty transfers to have been read out: the fifteen of the first round
(shift `0` to `14`), then the fifteen of the second. The printed body cuts this run of waits into the end of part 41,
parts 42 and 43, the end of part 44 and the end of the body; each piece is a row of applications of the two step lemmas.
This module holds parts 42 and 43 and the two ends.
-/

/-- The units a wait on a first-round send cell consumes: its destination view, thirty-two rows of the rounded copy,
    counts as every 32 × 512 narrow view does. -/
theorem NC_off4 (c : Dev nD) (r : Fin 15) :
    ((bM : Memref sig .tc .vmem S512x512 .bf16).slice (Rect.unit (s := S512x512) (k0_off4 c (BitVec.ofNat 32 (1 + r.val))) S32x512.size (k0_off4_inb c r)) (fun _ => rfl)).view.dmaCredit = NC := rfl

/-! ## Part 42: the first round's shifts 5 to 12 -/

set_option maxHeartbeats 1600000 in
/-- Part 42: the first round's send cells of shifts 5 to 12 waited for. -/
theorem part42 (K : Dev nD × CK → ℕ) (c : Dev nD) (Kt : PUnit → sProp 𝕄) :
    iprop((records m K ∗ Wait1R (F := F) c 5 ∗ Wait1D m c 5 ∗ (∃ W, owes (c : Thread nD τ) 0 W))
        ∗ ((Wait1R (F := F) c 13 ∗ Wait1D m c 13 ∗ (∃ W, owes (c : Thread nD τ) 0 W)) -∗ Kt ⟨⟩))
      ⊢ wp frame (wpE (defs₀ (F := F)) 𝒱₀ c none) Set.univ
          (k0_part42 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c) Kt := by
  rw [k0_part42_eq_skeleton]; unfold k0_part42_skel
  simp only [Prog.lift, Prog.bind_op, Prog.bind_ret, Prog.pure_eq_ret]
  iintro ⟨⟨#HR, H1R, H1D, ⟨%W, HO⟩⟩, Hk⟩
  iapply (wait1_step m K c _ 5 (5 : Fin 15) 6 rfl rfl _ (sem_off1_rs c 5) _ _ (NC_off4 c 5)) $$ [H1R H1D HO]
  · isplitr; · iexact HR
    isplitl [H1R]; · iexact H1R
    isplitl [H1D]; · iexact H1D
    iexact HO
  iintro ⟨H1R, H1D, HO⟩
  iapply (wait1_step m K c _ 6 (6 : Fin 15) 7 rfl rfl _ (sem_off1_rs c 6) _ _ (NC_off4 c 6)) $$ [H1R H1D HO]
  · isplitr; · iexact HR
    isplitl [H1R]; · iexact H1R
    isplitl [H1D]; · iexact H1D
    iexact HO
  iintro ⟨H1R, H1D, HO⟩
  iapply (wait1_step m K c _ 7 (7 : Fin 15) 8 rfl rfl _ (sem_off1_rs c 7) _ _ (NC_off4 c 7)) $$ [H1R H1D HO]
  · isplitr; · iexact HR
    isplitl [H1R]; · iexact H1R
    isplitl [H1D]; · iexact H1D
    iexact HO
  iintro ⟨H1R, H1D, HO⟩
  iapply (wait1_step m K c _ 8 (8 : Fin 15) 9 rfl rfl _ (sem_off1_rs c 8) _ _ (NC_off4 c 8)) $$ [H1R H1D HO]
  · isplitr; · iexact HR
    isplitl [H1R]; · iexact H1R
    isplitl [H1D]; · iexact H1D
    iexact HO
  iintro ⟨H1R, H1D, HO⟩
  iapply (wait1_step m K c _ 9 (9 : Fin 15) 10 rfl rfl _ (sem_off1_rs c 9) _ _ (NC_off4 c 9)) $$ [H1R H1D HO]
  · isplitr; · iexact HR
    isplitl [H1R]; · iexact H1R
    isplitl [H1D]; · iexact H1D
    iexact HO
  iintro ⟨H1R, H1D, HO⟩
  iapply (wait1_step m K c _ 10 (10 : Fin 15) 11 rfl rfl _ (sem_off1_rs c 10) _ _ (NC_off4 c 10)) $$ [H1R H1D HO]
  · isplitr; · iexact HR
    isplitl [H1R]; · iexact H1R
    isplitl [H1D]; · iexact H1D
    iexact HO
  iintro ⟨H1R, H1D, HO⟩
  iapply (wait1_step m K c _ 11 (11 : Fin 15) 12 rfl rfl _ (sem_off1_rs c 11) _ _ (NC_off4 c 11)) $$ [H1R H1D HO]
  · isplitr; · iexact HR
    isplitl [H1R]; · iexact H1R
    isplitl [H1D]; · iexact H1D
    iexact HO
  iintro ⟨H1R, H1D, HO⟩
  iapply (wait1_step m K c _ 12 (12 : Fin 15) 13 rfl rfl _ (sem_off1_rs c 12) _ _ (NC_off4 c 12)) $$ [H1R H1D HO]
  · isplitr; · iexact HR
    isplitl [H1R]; · iexact H1R
    isplitl [H1D]; · iexact H1D
    iexact HO
  iintro ⟨H1R, H1D, HO⟩
  rw [wp_ret]; imodintro
  iapply Hk
  isplitl [H1R]; · iexact H1R
  isplitl [H1D]; · iexact H1D
  iexists _; iexact HO

/-! ## Part 43: the first round's shifts 13 and 14, the second round's shifts 0 to 6 -/

set_option maxHeartbeats 1600000 in
/-- Part 43: the first round's last two send cells, then the second round's of shifts 0 to 6. -/
theorem part43 (K : Dev nD × CK → ℕ) (c : Dev nD) (Kt : PUnit → sProp 𝕄) :
    iprop((records m K ∗ Wait1R (F := F) c 13 ∗ Wait1D m c 13 ∗ Wait2R (F := F) c 0 ∗ Wait2D m c 0 ∗ (∃ W, owes (c : Thread nD τ) 0 W))
        ∗ ((Wait1R (F := F) c 15 ∗ Wait1D m c 15 ∗ Wait2R (F := F) c 7 ∗ Wait2D m c 7 ∗ (∃ W, owes (c : Thread nD τ) 0 W)) -∗ Kt ⟨⟩))
      ⊢ wp frame (wpE (defs₀ (F := F)) 𝒱₀ c none) Set.univ
          (k0_part43 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c) Kt := by
  rw [k0_part43_eq_skeleton]; unfold k0_part43_skel
  simp only [Prog.lift, Prog.bind_op, Prog.bind_ret, Prog.pure_eq_ret]
  iintro ⟨⟨#HR, H1R, H1D, H2R, H2D, ⟨%W, HO⟩⟩, Hk⟩
  iapply (wait1_step m K c _ 13 (13 : Fin 15) 14 rfl rfl _ (sem_off1_rs c 13) _ _ (NC_off4 c 13)) $$ [H1R H1D HO]
  · isplitr; · iexact HR
    isplitl [H1R]; · iexact H1R
    isplitl [H1D]; · iexact H1D
    iexact HO
  iintro ⟨H1R, H1D, HO⟩
  iapply (wait1_step m K c _ 14 (14 : Fin 15) 15 rfl rfl _ (sem_off1_rs c 14) _ _ (NC_off4 c 14)) $$ [H1R H1D HO]
  · isplitr; · iexact HR
    isplitl [H1R]; · iexact H1R
    isplitl [H1D]; · iexact H1D
    iexact HO
  iintro ⟨H1R, H1D, HO⟩
  iapply (wait2_step m K c _ 0 (0 : Fin 15) 1 rfl rfl _ (sem_off1_ag c 0) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 1 (1 : Fin 15) 2 rfl rfl _ (sem_off1_ag c 1) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 2 (2 : Fin 15) 3 rfl rfl _ (sem_off1_ag c 2) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 3 (3 : Fin 15) 4 rfl rfl _ (sem_off1_ag c 3) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 4 (4 : Fin 15) 5 rfl rfl _ (sem_off1_ag c 4) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 5 (5 : Fin 15) 6 rfl rfl _ (sem_off1_ag c 5) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 6 (6 : Fin 15) 7 rfl rfl _ (sem_off1_ag c 6) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  rw [wp_ret]; imodintro
  iapply Hk
  isplitl [H1R]; · iexact H1R
  isplitl [H1D]; · iexact H1D
  isplitl [H2R]; · iexact H2R
  isplitl [H2D]; · iexact H2D
  iexists _; iexact HO

/-! ## The end of part 44: the second round's shifts 7 to 9 -/

/-- Printed part 44 after its call of part 43, at the device the first part read: three waits, and the device is returned. -/
def part44Tail (c : Dev nD) : Prog (TpuEff nD τ sig (Elt F) Λ₀ .tc) (Dev nD) :=
    Prog.op (.waitDma2 ((cc0_scratch5.slice (Rect.unit (s := S16) (k0_off1 c 8#32) S1.size (k0_off1_inb c 7))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 9#32) S1.size (k0_off1_inb c 8))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 10#32) S1.size (k0_off1_inb c 9))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.ret c

set_option maxHeartbeats 1600000 in
/-- The end of part 44: the second round's send cells of shifts 7 to 9 waited for. -/
theorem part44tail (K : Dev nD × CK → ℕ) (c : Dev nD) (Kt : (Dev nD) → sProp 𝕄) :
    iprop((records m K ∗ Wait2R (F := F) c 7 ∗ Wait2D m c 7 ∗ (∃ W, owes (c : Thread nD τ) 0 W))
        ∗ ((Wait2R (F := F) c 10 ∗ Wait2D m c 10 ∗ (∃ W, owes (c : Thread nD τ) 0 W)) -∗ Kt c))
      ⊢ wp frame (wpE (defs₀ (F := F)) 𝒱₀ c none) Set.univ (part44Tail (F := F) c) Kt := by
  unfold part44Tail
  iintro ⟨⟨#HR, H2R, H2D, ⟨%W, HO⟩⟩, Hk⟩
  iapply (wait2_step m K c _ 7 (7 : Fin 15) 8 rfl rfl _ (sem_off1_ag c 7) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 8 (8 : Fin 15) 9 rfl rfl _ (sem_off1_ag c 8) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 9 (9 : Fin 15) 10 rfl rfl _ (sem_off1_ag c 9) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  rw [wp_ret]; imodintro
  iapply Hk
  isplitl [H2R]; · iexact H2R
  isplitl [H2D]; · iexact H2D
  iexists _; iexact HO

/-! ## The end of the body: the second round's shifts 10 to 14 -/

/-- The printed body after its call of part 44, at the device that part returns: the last five waits. -/
def bodyTail (c : Dev nD) : Prog (TpuEff nD τ sig (Elt F) Λ₀ .tc) PUnit :=
    Prog.op (.waitDma2 ((cc0_scratch5.slice (Rect.unit (s := S16) (k0_off1 c 11#32) S1.size (k0_off1_inb c 10))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 12#32) S1.size (k0_off1_inb c 11))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 13#32) S1.size (k0_off1_inb c 12))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 14#32) S1.size (k0_off1_inb c 13))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 15#32) S1.size (k0_off1_inb c 14))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.ret PUnit.unit

set_option maxHeartbeats 1600000 in
/-- The end of the body: the second round's send cells of shifts 10 to 14 waited for. -/
theorem bodytail (K : Dev nD × CK → ℕ) (c : Dev nD) (Kt : PUnit → sProp 𝕄) :
    iprop((records m K ∗ Wait2R (F := F) c 10 ∗ Wait2D m c 10 ∗ (∃ W, owes (c : Thread nD τ) 0 W))
        ∗ ((Wait2R (F := F) c 15 ∗ Wait2D m c 15 ∗ (∃ W, owes (c : Thread nD τ) 0 W)) -∗ Kt PUnit.unit))
      ⊢ wp frame (wpE (defs₀ (F := F)) 𝒱₀ c none) Set.univ (bodyTail (F := F) c) Kt := by
  unfold bodyTail
  iintro ⟨⟨#HR, H2R, H2D, ⟨%W, HO⟩⟩, Hk⟩
  iapply (wait2_step m K c _ 10 (10 : Fin 15) 11 rfl rfl _ (sem_off1_ag c 10) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 11 (11 : Fin 15) 12 rfl rfl _ (sem_off1_ag c 11) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 12 (12 : Fin 15) 13 rfl rfl _ (sem_off1_ag c 12) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 13 (13 : Fin 15) 14 rfl rfl _ (sem_off1_ag c 13) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 14 (14 : Fin 15) 15 rfl rfl _ (sem_off1_ag c 14) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  rw [wp_ret]; imodintro
  iapply Hk
  isplitl [H2R]; · iexact H2R
  isplitl [H2D]; · iexact H2D
  iexists _; iexact HO

set_option maxRecDepth 65536 in
/-- The printed body is part 44 and then, at the device it returns, the last five waits. -/
theorem cc0_body_eq :
    cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
      = (do
          let d0 ← k0_part44 (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
          bodyTail (F := F) d0) := by
  rw [cc0_body_eq_skeleton]; rfl

/-- info: 'Cert.KernelIdeal.AR.part42' depends on axioms: [propext, Classical.choice, Quot.sound] -/
#guard_msgs in #print axioms part42
/-- info: 'Cert.KernelIdeal.AR.part43' depends on axioms: [propext, Classical.choice, Quot.sound] -/
#guard_msgs in #print axioms part43
/-- info: 'Cert.KernelIdeal.AR.part44tail' depends on axioms: [propext, Classical.choice, Quot.sound] -/
#guard_msgs in #print axioms part44tail
/-- info: 'Cert.KernelIdeal.AR.bodytail' depends on axioms: [propext, Classical.choice, Quot.sound] -/
#guard_msgs in #print axioms bodytail
/-- info: 'Cert.KernelIdeal.AR.cc0_body_eq' depends on axioms: [propext, Classical.choice, Quot.sound] -/
#guard_msgs in #print axioms cc0_body_eq

end Cert.KernelIdeal.AR

end
-- ==== Proof.Body.lean ====
/-
# One device's body, from what the launch deals it to what the pipeline takes back

The printed parts in program order: each part's lemma spends and produces the families of Res.lean; this module regroups the
launch's share into the families, threads them through the forty-four parts, and hands the leftovers to the closing lemma.
-/
import proofs.«900416_g7700000000000417_dist_ar_v7x_i16_i_m512_n512_bf16_1_alg».proof.Proof.Regroup
import proofs.«900416_g7700000000000417_dist_ar_v7x_i16_i_m512_n512_bf16_1_alg».proof.Proof.Rows
import proofs.«900416_g7700000000000417_dist_ar_v7x_i16_i_m512_n512_bf16_1_alg».proof.Proof.Close
import proofs.«900416_g7700000000000417_dist_ar_v7x_i16_i_m512_n512_bf16_1_alg».proof.Proof.Finish
import proofs.«900416_g7700000000000417_dist_ar_v7x_i16_i_m512_n512_bf16_1_alg».proof.Proof.PartsA
import proofs.«900416_g7700000000000417_dist_ar_v7x_i16_i_m512_n512_bf16_1_alg».proof.Proof.PartsB
import proofs.«900416_g7700000000000417_dist_ar_v7x_i16_i_m512_n512_bf16_1_alg».proof.Proof.PartsC
import proofs.«900416_g7700000000000417_dist_ar_v7x_i16_i_m512_n512_bf16_1_alg».proof.Proof.PartsC2
import proofs.«900416_g7700000000000417_dist_ar_v7x_i16_i_m512_n512_bf16_1_alg».proof.Proof.PartsC3
import proofs.«900416_g7700000000000417_dist_ar_v7x_i16_i_m512_n512_bf16_1_alg».proof.Proof.PartsE
import proofs.«900416_g7700000000000417_dist_ar_v7x_i16_i_m512_n512_bf16_1_alg».proof.Proof.PartsF
import proofs.«900416_g7700000000000417_dist_ar_v7x_i16_i_m512_n512_bf16_1_alg».proof.Proof.PartsG

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device's own row blocks for its peers, at whatever they hold, are the slots its signals hand over. -/
theorem slot_intro_S (c : Dev nD) (k : Fin 15) (f : Buf (Elt F) ((c : Thread nD τ).loc cc0_scratch2)) :
    ((sRow (fwd c k)).view.loc (c : Thread nD τ) ↦[(sRow (fwd c k)).view.set]{fullShare} f : sProp 𝕄) ⊢ ownSlotS (F := F) c k := by
  unfold ownSlotS; iintro H; iexists f; iexact H
theorem slot_intro_O (c : Dev nD) (k : Fin 15) (f : Buf (Elt F) ((c : Thread nD τ).loc cc0_stg1_0)) :
    ((oRow (fwd c k)).view.loc (c : Thread nD τ) ↦[(oRow (fwd c k)).view.set]{fullShare} f : sProp 𝕄) ⊢ ownSlotO (F := F) c k := by
  unfold ownSlotO; iintro H; iexists f; iexact H
theorem own_slots_S (c : Dev nD) (f : Buf (Elt F) ((c : Thread nD τ).loc cc0_scratch2)) :
    (bigSep Finset.univ fun k : Fin 15 => ((sRow (fwd c k)).view.loc (c : Thread nD τ) ↦[(sRow (fwd c k)).view.set]{fullShare} f : sProp 𝕄))
      ⊢ bigSep Finset.univ fun k : Fin 15 => ownSlotS (F := F) c k :=
  bigSep_mono fun k _ => slot_intro_S c k f
theorem own_slots_O (c : Dev nD) (f : Buf (Elt F) ((c : Thread nD τ).loc cc0_stg1_0)) :
    (bigSep Finset.univ fun k : Fin 15 => ((oRow (fwd c k)).view.loc (c : Thread nD τ) ↦[(oRow (fwd c k)).view.set]{fullShare} f : sProp 𝕄))
      ⊢ bigSep Finset.univ fun k : Fin 15 => ownSlotO (F := F) c k :=
  bigSep_mono fun k _ => slot_intro_O c k f

theorem Recv1D_zero (c : Dev nD) : (iprop(emp) : sProp 𝕄) ⊢ Recv1D m c 0 := Entails.of_eq (by unfold Recv1D; rw [bigSep_lt_zero])
theorem Recv2D_zero (c : Dev nD) : (iprop(emp) : sProp 𝕄) ⊢ Recv2D m c 0 := Entails.of_eq (by unfold Recv2D; rw [bigSep_lt_zero])
theorem Wait1D_zero (c : Dev nD) : (iprop(emp) : sProp 𝕄) ⊢ Wait1D m c 0 := Entails.of_eq (by unfold Wait1D; rw [bigSep_lt_zero])
theorem Wait2D_zero (c : Dev nD) : (iprop(emp) : sProp 𝕄) ⊢ Wait2D m c 0 := Entails.of_eq (by unfold Wait2D; rw [bigSep_lt_zero])

set_option maxHeartbeats 6400000 in
theorem body_holds : BodyHolds m ρ := fun c => by
  unfold bodyPre
  rw [cc0_body_eq_skeleton]; unfold cc0_body_skel
  rw [k0_part44_eq_skeleton]; unfold k0_part44_skel
  simp only [Prog.lift, Prog.bind_op, Prog.bind_ret, Prog.pure_eq_ret, wp_bind]
  unfold Φ₀ start ghost scr
  rw [payToks_split, creds_split]
  unfold TRr TRs TAr TAs
  unfold Dat.owesAt Pipeline.owesWithin
  iintro ⟨⟨⟨⟨%K, #HR, Hpos, HTsig, HTrr, HTrs, HTar, HTas⟩, ⟨HcB, HcRs, HcAg⟩, #Hlev⟩, ⟨%fb, Hb⟩, ⟨%fr, Hr⟩, ⟨%fs, Hs⟩⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  ihave Hp := (positions_split (F := F) c) $$ Hpos
  icases Hp with ⟨HpB, Hdiag, HpS1, HpR1, HpS2, HpR2⟩
  ihave Hs := (Entails.of_eq ((sM_rows c fs).trans (univ_eq_own_fwd c _))) $$ Hs
  icases Hs with ⟨HsOwn, HsSl⟩
  ihave HsSl := (own_slots_S c fs) $$ HsSl
  ihave Hout := (Entails.of_eq ((oM_rows c g1).trans (univ_eq_own_fwd c _))) $$ Hout
  icases Hout with ⟨HoOwn, HoSl⟩
  ihave HoSl := (own_slots_O c g1) $$ HoSl
  ihave HSig := (Entails.of_eq (SigR_zero (F := F) c).symm) $$ [HTsig HsSl HoSl]
  · isplitl [HTsig]; · iexact HTsig
    isplitl [HsSl] <;> iassumption
  ihave HR1 := (Entails.of_eq (Recv1R_zero (F := F) c).symm) $$ [HpR1 HcRs]
  · isplitl [HpR1] <;> iassumption
  ihave HR2 := (Entails.of_eq (Recv2R_zero (F := F) c).symm) $$ [HpR2 HcAg]
  · isplitl [HpR2] <;> iassumption
  rw [show (dats m ρ 0 c).owed t0_0.castSucc = O₀ c from rfl]
  unfold O₀
  iapply (part1 m K c (Oag c 0 + Ors c 0) W _)
  isplitl [HSig HO]
  · isplitr; · iexact HR
    isplitl [HSig]; · iexact HSig
    iexact HO
  iintro %a1 ⟨HSig, HO, %ha1⟩
  rw [ha1.1, ha1.2]
  iapply (part2 m K c (Oag c 0 + Ors c 0) W _ _ _ _ _)
  isplitl [HSig HO]
  · isplitr; · iexact HR
    isplitl [HSig]; · iexact HSig
    iexact HO
  iintro %a2 ⟨HSig, HO⟩
  iapply (part3 m K c (Oag c 0 + Ors c 0) W _ _ _ _ _)
  isplitl [HSig HO]
  · isplitr; · iexact HR
    isplitl [HSig]; · iexact HSig
    iexact HO
  iintro %a3 ⟨HSig, HO⟩
  iapply (part4 m K c (Oag c 0 + Ors c 0) W _ _ _ _ _)
  isplitl [HSig HO]
  · isplitr; · iexact HR
    isplitl [HSig]; · iexact HSig
    iexact HO
  iintro %a4 ⟨HSig, HO⟩
  iapply (part5 m K c (Oag c 0 + Ors c 0) W _ _ _ _ _)
  isplitl [HSig HO]
  · isplitr; · iexact HR
    isplitl [HSig]; · iexact HSig
    iexact HO
  iintro %a5 ⟨HSig, HO⟩
  iapply (part6 m K c (Oag c 0 + Ors c 0) W _ _ _ _ _)
  isplitl [HSig HO]
  · isplitr; · iexact HR
    isplitl [HSig]; · iexact HSig
    iexact HO
  iintro %a6 ⟨HSig, HO⟩
  ihave HT1 := (Entails.of_eq (bigSep_sep' Finset.univ (fun k : Fin 15 => (dutyTok ER (rsRecvCell (fwd c k) c) 0 c : sProp 𝕄)) (fun k : Fin 15 => dutyTok ER (rsSendCell c (fwd c k)) 0 (fwd c k))).symm) $$ [HTrr HTrs]
  · isplitl [HTrr] <;> iassumption
  iapply (part7 m K c W _ _ _ _ (xstg m c) rfl fb _)
  isplitl [HSig HO HcB HpB Hx Hb HT1]
  · isplitr; · iexact HR
    isplitr; · iexact Hlev
    isplitl [HSig]; · iexact HSig
    isplitl [HO]; · iexact HO
    isplitl [HcB]; · iexact HcB
    isplitl [HpB]; · iexact HpB
    isplitl [Hx]; · iexact Hx
    isplitl [Hb]; · iexact Hb
    iexact HT1
  iintro %a7 ⟨HS1, HD1, HO, HpB, -, HpsO, Hx, HbOwn⟩
  iapply (part8 m K c (Oag c 0) _ _ _ _ _ _)
  isplitl [HS1 HD1 HO]
  · isplitr; · iexact HR
    isplitl [HS1]; · iexact HS1
    isplitl [HD1]; · iexact HD1
    iexact HO
  iintro %a8 ⟨HS1, HD1, HO⟩
  iapply (part9 m K c (Oag c 0) _ _ _)
  isplitl [HS1 HD1 HO]
  · isplitr; · iexact HR
    isplitl [HS1]; · iexact HS1
    isplitl [HD1]; · iexact HD1
    iexact HO
  iintro %a9 ⟨HS1, HD1, HO⟩
  iapply (part10 m K c (Oag c 0) _ _ _ _ _)
  isplitl [HS1 HD1 HO]
  · isplitr; · iexact HR
    isplitl [HS1]; · iexact HS1
    isplitl [HD1]; · iexact HD1
    iexact HO
  iintro %a10 ⟨HS1, HD1, HO⟩
  iapply (part11 m K c (Oag c 0) _ _ _ _ _ _)
  isplitl [HS1 HD1 HO]
  · isplitr; · iexact HR
    isplitl [HS1]; · iexact HS1
    isplitl [HD1]; · iexact HD1
    iexact HO
  iintro %a11 ⟨HS1, HD1, HO⟩
  iapply (part12 m K c (Oag c 0) _ _ _)
  isplitl [HS1 HD1 HO]
  · isplitr; · iexact HR
    isplitl [HS1]; · iexact HS1
    isplitl [HD1]; · iexact HD1
    iexact HO
  iintro %a12 ⟨HS1, HD1, HO⟩
  iapply (part13 m K c (Oag c 0) _ _ _ _)
  isplitl [HS1 HD1 HO]
  · isplitr; · iexact HR
    isplitl [HS1]; · iexact HS1
    isplitl [HD1]; · iexact HD1
    iexact HO
  iintro %a13 ⟨HS1, HD1, HO⟩
  iapply (part14 m K c (Oag c 0) _ _ _ _ _ _ _ _)
  isplitl [HS1 HD1 HO]
  · isplitr; · iexact HR
    isplitl [HS1]; · iexact HS1
    isplitl [HD1]; · iexact HD1
    iexact HO
  iintro %a14 ⟨HS1, HD1, HO⟩
  iapply (part15 m K c (Oag c 0) _ _ _ _ _ _)
  isplitl [HS1 HD1 HO]
  · isplitr; · iexact HR
    isplitl [HS1]; · iexact HS1
    isplitl [HD1]; · iexact HD1
    iexact HO
  iintro %a15 ⟨HS1, HD1, HO⟩
  iapply (part16 m K c _ _)
  isplitl [HS1 HD1 Hx HR1 HO]
  · isplitr; · iexact HR
    isplitr; · iexact Hlev
    isplitl [HS1]; · iexact HS1
    isplitl [HD1]; · iexact HD1
    isplitl [Hx]; · iexact Hx
    isplitl [HR1]; · iexact HR1
    isplitr; · iapply (Recv1D_zero m c); iempintro
    iexists _; iexact HO
  iintro %a16 ⟨HS1, HD1, Hx, HR1, HRD1, ⟨%W16, HO⟩, %h16⟩
  iapply (part17 m K c _ _ _ _ _ _)
  isplitl [HR1 HRD1 HO]
  · isplitr; · iexact HR
    isplitr; · iexact Hlev
    isplitl [HR1]; · iexact HR1
    isplitl [HRD1]; · iexact HRD1
    iexists _; iexact HO
  iintro %a17 ⟨HR1, HRD1, ⟨%W17, HO⟩, %h17⟩
  iapply (part18 m K c _ _ _ _)
  isplitl [HR1 HRD1 HO]
  · isplitr; · iexact HR
    isplitr; · iexact Hlev
    isplitl [HR1]; · iexact HR1
    isplitl [HRD1]; · iexact HRD1
    iexists _; iexact HO
  iintro %a18 ⟨HR1, HRD1, ⟨%W18, HO⟩, %h18⟩
  iapply (part19 m K c _ _ _ _ _ _ _)
  isplitl [HR1 HRD1 HO]
  · isplitr; · iexact HR
    isplitr; · iexact Hlev
    isplitl [HR1]; · iexact HR1
    isplitl [HRD1]; · iexact HRD1
    iexists _; iexact HO
  iintro %a19 ⟨HR1, HRD1, ⟨%W19, HO⟩, %h19⟩
  iapply (part20 m K c _ _ _ _ _)
  isplitl [HR1 HRD1 HO]
  · isplitr; · iexact HR
    isplitr; · iexact Hlev
    isplitl [HR1]; · iexact HR1
    isplitl [HRD1]; · iexact HRD1
    iexists _; iexact HO
  iintro %a20 ⟨HR1, HRD1, ⟨%W20, HO⟩, %h20⟩
  iapply (part21 m K c _ _ _ _ _ _ _)
  isplitl [HR1 HRD1 HO]
  · isplitr; · iexact HR
    isplitr; · iexact Hlev
    isplitl [HR1]; · iexact HR1
    isplitl [HRD1]; · iexact HRD1
    iexists _; iexact HO
  iintro %a21 ⟨HR1, HRD1, ⟨%W21, HO⟩, %h21⟩
  iapply (part22 m K c _ _ _)
  isplitl [HR1 HRD1 HO]
  · isplitr; · iexact HR
    isplitr; · iexact Hlev
    isplitl [HR1]; · iexact HR1
    isplitl [HRD1]; · iexact HRD1
    iexists _; iexact HO
  iintro %a22 ⟨HR1, HRD1, ⟨%W22, HO⟩, %h22⟩
  iapply (part23 m K c _ _ _ _)
  isplitl [HR1 HRD1 HO]
  · isplitr; · iexact HR
    isplitr; · iexact Hlev
    isplitl [HR1]; · iexact HR1
    isplitl [HRD1]; · iexact HRD1
    iexists _; iexact HO
  iintro %a23 ⟨HR1, HRD1, ⟨%W23, HO⟩, %h23⟩
  iapply (part24 m K c _ _ _)
  isplitl [HR1 HRD1 HO]
  · isplitr; · iexact HR
    isplitr; · iexact Hlev
    isplitl [HR1]; · iexact HR1
    isplitl [HRD1]; · iexact HRD1
    iexists _; iexact HO
  iintro %a24 ⟨HR1, HRD1, ⟨%W24, HO⟩, %h24⟩
  iapply (part25 m K c _ _ _ _ _)
  isplitl [HR1 HRD1 HO]
  · isplitr; · iexact HR
    isplitr; · iexact Hlev
    isplitl [HR1]; · iexact HR1
    isplitl [HRD1]; · iexact HRD1
    iexists _; iexact HO
  iintro %a25 ⟨HR1, HRD1, ⟨%W25, HO⟩, %h25⟩
  have hv : k0_pay12 a25 = red m c := by rw [h25, h24, h23, h22, h21, h20, h19, h18, h17, h16]; rfl
  ihave HO := (Entails.of_eq (congrArg (fun O => (owes (c : Thread nD τ) O W25 : sProp 𝕄)) (zero_add (Oag c 0)).symm)) $$ HO
  ihave HT2 := (Entails.of_eq (bigSep_sep' Finset.univ (fun k : Fin 15 => (dutyTok ER (agSendCell c (fwd c k)) 0 (fwd c k) : sProp 𝕄)) (fun k : Fin 15 => peerSlotO (F := F) c k)).symm) $$ [HTas HpsO]
  · isplitl [HTas] <;> iassumption
  ihave HT2 := (Entails.of_eq (bigSep_sep' Finset.univ (fun k : Fin 15 => (dutyTok ER (agRecvCell (fwd c k) c) 0 c : sProp 𝕄)) (fun k : Fin 15 => iprop(dutyTok ER (agSendCell c (fwd c k)) 0 (fwd c k) ∗ peerSlotO (F := F) c k))).symm) $$ [HTar HT2]
  · isplitl [HTar] <;> iassumption
  iapply (part26 m K c 0 _ _ _ hv fr g1 _)
  isplitl [Hr HoOwn HT2 HO]
  · isplitr; · iexact HR
    isplitl [Hr]; · iexact Hr
    isplitl [HoOwn]; · iexact HoOwn
    isplitl [HT2]; · iexact HT2
    iexact HO
  iintro %a26 ⟨HS2, HD2, Hr, HoOwn, HO⟩
  iapply (part27 m K c 0 _ _ _ _ _ _)
  isplitl [HS2 HD2 HO]
  · isplitr; · iexact HR
    isplitl [HS2]; · iexact HS2
    isplitl [HD2]; · iexact HD2
    iexact HO
  iintro %a27 ⟨HS2, HD2, HO⟩
  iapply (part28 m K c 0 _ _ _ _ _ _ _ _)
  isplitl [HS2 HD2 HO]
  · isplitr; · iexact HR
    isplitl [HS2]; · iexact HS2
    isplitl [HD2]; · iexact HD2
    iexact HO
  iintro %a28 ⟨HS2, HD2, HO⟩
  iapply (part29 m K c 0 _ _ _ _ _ _ _)
  isplitl [HS2 HD2 HO]
  · isplitr; · iexact HR
    isplitl [HS2]; · iexact HS2
    isplitl [HD2]; · iexact HD2
    iexact HO
  iintro %a29 ⟨HS2, HD2, HO⟩
  iapply (part30 m K c 0 _ _ _ _ _ _)
  isplitl [HS2 HD2 HO]
  · isplitr; · iexact HR
    isplitl [HS2]; · iexact HS2
    isplitl [HD2]; · iexact HD2
    iexact HO
  iintro %a30 ⟨HS2, HD2, HO⟩
  iapply (part31 m K c 0 _ _ _ _ _)
  isplitl [HS2 HD2 HO]
  · isplitr; · iexact HR
    isplitl [HS2]; · iexact HS2
    isplitl [HD2]; · iexact HD2
    iexact HO
  iintro %a31 ⟨HS2, HD2, HO⟩
  iapply (part32 m K c 0 _ _ _ _ _ _ _)
  isplitl [HS2 HD2 HO]
  · isplitr; · iexact HR
    isplitl [HS2]; · iexact HS2
    isplitl [HD2]; · iexact HD2
    iexact HO
  iintro %a32 ⟨HS2, HD2, HO⟩
  iapply (part33 m K c 0 _ _ _ _ _ _)
  isplitl [HS2 HD2 HO]
  · isplitr; · iexact HR
    isplitl [HS2]; · iexact HS2
    isplitl [HD2]; · iexact HD2
    iexact HO
  iintro %a33 ⟨HS2, HD2, HO⟩
  ihave HO := (Entails.of_eq (congrArg (fun O => (owes (c : Thread nD τ) O W25 : sProp 𝕄)) ((congrArg (fun x => (0 : CellTallies nD τ sig Unit) + x) (Oag_done c)).trans (add_zero _)))) $$ HO
  iapply (part34 m K c _ _ _)
  isplitl [HR2 HO]
  · isplitr; · iexact HR
    isplitl [HR2]; · iexact HR2
    isplitr; · iapply (Recv2D_zero m c); iempintro
    iexists _; iexact HO
  iintro %a34 ⟨HR2, HRD2, ⟨%W34, HO⟩⟩
  iapply (part35 m K c _ _ _ _ _)
  isplitl [HR2 HRD2 HO]
  · isplitr; · iexact HR
    isplitl [HR2]; · iexact HR2
    isplitl [HRD2]; · iexact HRD2
    iexists _; iexact HO
  iintro %a35 ⟨HR2, HRD2, ⟨%W35, HO⟩⟩
  iapply (part36 m K c _ _ _ _ _ _)
  isplitl [HR2 HRD2 HO]
  · isplitr; · iexact HR
    isplitl [HR2]; · iexact HR2
    isplitl [HRD2]; · iexact HRD2
    iexists _; iexact HO
  iintro %a36 ⟨HR2, HRD2, ⟨%W36, HO⟩⟩
  iapply (part37 m K c _ _ _ _)
  isplitl [HR2 HRD2 HO]
  · isplitr; · iexact HR
    isplitl [HR2]; · iexact HR2
    isplitl [HRD2]; · iexact HRD2
    iexists _; iexact HO
  iintro %a37 ⟨HR2, HRD2, ⟨%W37, HO⟩⟩
  iapply (part38 m K c _ _ _ _ _)
  isplitl [HR2 HRD2 HO]
  · isplitr; · iexact HR
    isplitl [HR2]; · iexact HR2
    isplitl [HRD2]; · iexact HRD2
    iexists _; iexact HO
  iintro %a38 ⟨HR2, HRD2, ⟨%W38, HO⟩⟩
  iapply (part39 m K c _ _ _ _ _ _)
  isplitl [HR2 HRD2 HO]
  · isplitr; · iexact HR
    isplitl [HR2]; · iexact HR2
    isplitl [HRD2]; · iexact HRD2
    iexists _; iexact HO
  iintro %a39 ⟨HR2, HRD2, ⟨%W39, HO⟩⟩
  iapply (part40 m K c _ _ _ _ _ _ _)
  isplitl [HR2 HRD2 HO]
  · isplitr; · iexact HR
    isplitl [HR2]; · iexact HR2
    isplitl [HRD2]; · iexact HRD2
    iexists _; iexact HO
  iintro %a40 ⟨HR2, HRD2, ⟨%W40, HO⟩⟩
  ihave HW1R := (Entails.of_eq (Wait1R_zero (F := F) c).symm) $$ [HpS1 HD1]
  · isplitl [HpS1] <;> iassumption
  iapply (part41 m K c _ _ _ _)
  isplitl [HR2 HRD2 HW1R HO]
  · isplitr; · iexact HR
    isplitl [HR2]; · iexact HR2
    isplitl [HRD2]; · iexact HRD2
    isplitl [HW1R]; · iexact HW1R
    isplitr; · iapply (Wait1D_zero m c); iempintro
    iexists _; iexact HO
  iintro %a41 ⟨HR2, HRD2, HW1R, HW1D, ⟨%W41, HO⟩⟩
  iapply (part42 m K c _)
  isplitl [HW1R HW1D HO]
  · isplitr; · iexact HR
    isplitl [HW1R]; · iexact HW1R
    isplitl [HW1D]; · iexact HW1D
    iexists _; iexact HO
  iintro ⟨HW1R, HW1D, ⟨%W42, HO⟩⟩
  ihave HW2R := (Entails.of_eq (Wait2R_zero (F := F) c).symm) $$ [HpS2 HD2]
  · isplitl [HpS2] <;> iassumption
  iapply (part43 m K c _)
  isplitl [HW1R HW1D HW2R HO]
  · isplitr; · iexact HR
    isplitl [HW1R]; · iexact HW1R
    isplitl [HW1D]; · iexact HW1D
    isplitl [HW2R]; · iexact HW2R
    isplitr; · iapply (Wait2D_zero m c); iempintro
    iexists _; iexact HO
  iintro ⟨HW1R, HW1D, HW2R, HW2D, ⟨%W43, HO⟩⟩
  iapply (wait2_step m K c _ 7 (7 : Fin 15) 8 rfl rfl _ (sem_off1_ag c 7) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 8 (8 : Fin 15) 9 rfl rfl _ (sem_off1_ag c 8) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 9 (9 : Fin 15) 10 rfl rfl _ (sem_off1_ag c 9) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  rw [wp_ret]; imodintro
  iapply (wait2_step m K c _ 10 (10 : Fin 15) 11 rfl rfl _ (sem_off1_ag c 10) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 11 (11 : Fin 15) 12 rfl rfl _ (sem_off1_ag c 11) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 12 (12 : Fin 15) 13 rfl rfl _ (sem_off1_ag c 12) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 13 (13 : Fin 15) 14 rfl rfl _ (sem_off1_ag c 13) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 14 (14 : Fin 15) 15 rfl rfl _ (sem_off1_ag c 14) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  ihave Hr := (Entails.of_eq (congrArg (fun S => ((c : Thread nD τ).loc cc0_scratch1 ↦[S]{Transfers.shareDrop fullShare 15} red m c : sProp 𝕄)) (View.set_whole cc0_scratch1))) $$ Hr
  imod (body_finish m ρ K c) $$ [Hdiag HRD1 HRD2 HW1D HW2D HO Hx HsOwn HbOwn Hr HoOwn] with Hpost
  · isplitr; · iexact HR
    isplitl [Hdiag]; · iexact Hdiag
    isplitl [HRD1]; · iexact HRD1
    isplitl [HRD2]; · iexact HRD2
    isplitl [HW1D]; · iexact HW1D
    isplitl [HW2D]; · iexact HW2D
    isplitl [HO]; · iexists _; iexact HO
    isplitl [Hx]
    · iexists _; isplitr; · (ipureintro; rfl)
      iexact Hx
    isplitl [HsOwn]; · iexists fs; iexact HsOwn
    isplitl [HbOwn]; · iexact HbOwn
    isplitl [Hr]; · iexact Hr
    iexact HoOwn
  rw [wp_ret]; imodintro
  iexact Hpost

/-- info: 'Cert.KernelIdeal.AR.body_holds' depends on axioms: [propext, Classical.choice, Quot.sound] -/
#guard_msgs in #print axioms body_holds

end Cert.KernelIdeal.AR

end
-- ==== Proof.KArith.lean ====
import proofs.«900416_g7700000000000417_dist_ar_v7x_i16_i_m512_n512_bf16_1_alg».proof.Proof.Gen.Kernel

/-!
# Ring arithmetic of the sixteen-device all-reduce

Device `c` addresses its peers by the shifts `k + 1`, `k : Fin 15`: forwards `fwd c k = (c + k + 1) mod 16`
(whom it sends to) and backwards `bwd c k = (c - (k + 1)) mod 16` (whom it receives from). This module states the
printed device chains, offset chains and semaphore slices in those terms.
-/

set_option synthInstance.maxSize 4096
set_option Elab.async false

namespace Cert.Kernel.AR

open Cert.Kernel Cert.Kernel.Gen Idealize.ShloMosaic Idealize.SL.Sem

/-- The peer `k + 1` places ahead of `c` on the ring of sixteen. -/
def fwd (c : Dev nD) (k : Fin 15) : Dev nD := ⟨(c.val + 1 + k.val) % 16, Nat.mod_lt _ (by decide)⟩
/-- The peer `k + 1` places behind `c`. -/
def bwd (c : Dev nD) (k : Fin 15) : Dev nD := ⟨(c.val + 15 - k.val) % 16, Nat.mod_lt _ (by decide)⟩
/-- The shift that takes `c` forwards to `j` (meaningful for `j ≠ c`). -/
def kf (c j : Dev nD) : Fin 15 := ⟨((j.val + 16 - c.val) % 16 + 14) % 15, Nat.mod_lt _ (by decide)⟩

/-- The four semaphore arrays' cells by peer index. -/
def rsSendS (j : Dev nD) : DmaSem sig := ⟨2 + j.val, by have h : j.val < 16 := j.isLt; show 2 + j.val < 66; omega⟩
def rsRecvS (j : Dev nD) : DmaSem sig := ⟨18 + j.val, by have h : j.val < 16 := j.isLt; show 18 + j.val < 66; omega⟩
def agSendS (j : Dev nD) : DmaSem sig := ⟨34 + j.val, by have h : j.val < 16 := j.isLt; show 34 + j.val < 66; omega⟩
def agRecvS (j : Dev nD) : DmaSem sig := ⟨50 + j.val, by have h : j.val < 16 := j.isLt; show 50 + j.val < 66; omega⟩

/-! ## The ring: forwards and backwards shifts undo each other

Every statement here is a finite check over the sixteen devices and the fifteen shifts. -/

/-- Going `k + 1` forwards then `k + 1` backwards returns to the start. -/
theorem bwd_fwd (c : Dev nD) (k : Fin 15) : bwd (fwd c k) k = c := by revert c k; decide +kernel
/-- Going `k + 1` backwards then `k + 1` forwards returns to the start. -/
theorem fwd_bwd (c : Dev nD) (k : Fin 15) : fwd (bwd c k) k = c := by revert c k; decide +kernel
/-- A shift of `1 … 15` places on a ring of sixteen never fixes a device. -/
theorem fwd_ne (c : Dev nD) (k : Fin 15) : fwd c k ≠ c := by revert c k; decide +kernel
theorem bwd_ne (c : Dev nD) (k : Fin 15) : bwd c k ≠ c := by revert c k; decide +kernel
/-- `kf c` recovers the shift from the peer it reaches. -/
theorem kf_fwd (c : Dev nD) (k : Fin 15) : kf c (fwd c k) = k := by revert c k; decide +kernel
/-- Every other device is reached by the shift `kf c j`. -/
theorem fwd_kf (c j : Dev nD) (h : j ≠ c) : fwd c (kf c j) = j := by revert c j; decide +kernel
/-- Distinct shifts reach distinct peers. -/
theorem fwd_inj (c : Dev nD) : Function.Injective (fwd c) := fun a b h => by
  rw [← kf_fwd c a, ← kf_fwd c b, h]
/-- `j` is `k + 1` behind `c` exactly when `c` is `k + 1` ahead of `j`. -/
theorem bwd_eq_iff (c j : Dev nD) (k : Fin 15) : bwd c k = j ↔ fwd j k = c :=
  ⟨fun h => by rw [← h, fwd_bwd], fun h => by rw [← h, bwd_fwd]⟩
theorem bwd_inj (c : Dev nD) : Function.Injective (bwd c) := fun a b h => by
  have h1 : fwd (bwd c a) a = c := fwd_bwd c a
  have h2 : fwd (bwd c a) b = c := by rw [h]; exact fwd_bwd c b
  exact fwd_inj _ (h1.trans h2.symm)
/-- Every other device is some shift ahead. -/
theorem fwd_surj (c j : Dev nD) (h : j ≠ c) : ∃ k, fwd c k = j := ⟨kf c j, fwd_kf c j h⟩
/-- Every other device is some shift behind. -/
theorem bwd_surj (c j : Dev nD) (h : j ≠ c) : ∃ k, bwd c k = j :=
  ⟨kf j c, (bwd_eq_iff c j _).2 (fwd_kf j c (Ne.symm h))⟩

/-! ## The semaphore cells: four disjoint runs of sixteen after the two staging semaphores -/

theorem rsSendS_val (j : Dev nD) : (rsSendS j).val = 2 + j.val := rfl
theorem rsRecvS_val (j : Dev nD) : (rsRecvS j).val = 18 + j.val := rfl
theorem agSendS_val (j : Dev nD) : (agSendS j).val = 34 + j.val := rfl
theorem agRecvS_val (j : Dev nD) : (agRecvS j).val = 50 + j.val := rfl
theorem cc0_sem0_0_val : (cc0_sem0_0 : DmaSem sig).val = 0 := rfl
theorem cc0_sem1_0_val : (cc0_sem1_0 : DmaSem sig).val = 1 := rfl

/-! ## The semaphore cells are all distinct

Four runs of sixteen from the bases 2, 18, 34 and 50, after the two staging semaphores 0 and 1: within a run the
cell determines the peer, and no two runs, nor a run and a staging semaphore, share a cell. -/

theorem rsSendS_inj : Function.Injective rsSendS := fun a b h => by
  have h' : 2 + a.val = 2 + b.val := congrArg Fin.val h
  exact Fin.ext (by omega)
theorem rsRecvS_inj : Function.Injective rsRecvS := fun a b h => by
  have h' : 18 + a.val = 18 + b.val := congrArg Fin.val h
  exact Fin.ext (by omega)
theorem agSendS_inj : Function.Injective agSendS := fun a b h => by
  have h' : 34 + a.val = 34 + b.val := congrArg Fin.val h
  exact Fin.ext (by omega)
theorem agRecvS_inj : Function.Injective agRecvS := fun a b h => by
  have h' : 50 + a.val = 50 + b.val := congrArg Fin.val h
  exact Fin.ext (by omega)
theorem rsSendS_ne_rsRecvS (a b : Dev nD) : rsSendS a ≠ rsRecvS b := fun h => by
  have h' : 2 + a.val = 18 + b.val := congrArg Fin.val h
  have ha : a.val < 16 := a.isLt
  have hb : b.val < 16 := b.isLt
  omega
theorem rsSendS_ne_agSendS (a b : Dev nD) : rsSendS a ≠ agSendS b := fun h => by
  have h' : 2 + a.val = 34 + b.val := congrArg Fin.val h
  have ha : a.val < 16 := a.isLt
  have hb : b.val < 16 := b.isLt
  omega
theorem rsSendS_ne_agRecvS (a b : Dev nD) : rsSendS a ≠ agRecvS b := fun h => by
  have h' : 2 + a.val = 50 + b.val := congrArg Fin.val h
  have ha : a.val < 16 := a.isLt
  have hb : b.val < 16 := b.isLt
  omega
theorem rsRecvS_ne_agSendS (a b : Dev nD) : rsRecvS a ≠ agSendS b := fun h => by
  have h' : 18 + a.val = 34 + b.val := congrArg Fin.val h
  have ha : a.val < 16 := a.isLt
  have hb : b.val < 16 := b.isLt
  omega
theorem rsRecvS_ne_agRecvS (a b : Dev nD) : rsRecvS a ≠ agRecvS b := fun h => by
  have h' : 18 + a.val = 50 + b.val := congrArg Fin.val h
  have ha : a.val < 16 := a.isLt
  have hb : b.val < 16 := b.isLt
  omega
theorem agSendS_ne_agRecvS (a b : Dev nD) : agSendS a ≠ agRecvS b := fun h => by
  have h' : 34 + a.val = 50 + b.val := congrArg Fin.val h
  have ha : a.val < 16 := a.isLt
  have hb : b.val < 16 := b.isLt
  omega
theorem rsSendS_ne_sem0 (a : Dev nD) : rsSendS a ≠ cc0_sem0_0 := fun h => by
  have h' : 2 + a.val = 0 := congrArg Fin.val h
  omega
theorem rsSendS_ne_sem1 (a : Dev nD) : rsSendS a ≠ cc0_sem1_0 := fun h => by
  have h' : 2 + a.val = 1 := congrArg Fin.val h
  omega
theorem rsRecvS_ne_sem0 (a : Dev nD) : rsRecvS a ≠ cc0_sem0_0 := fun h => by
  have h' : 18 + a.val = 0 := congrArg Fin.val h
  omega
theorem rsRecvS_ne_sem1 (a : Dev nD) : rsRecvS a ≠ cc0_sem1_0 := fun h => by
  have h' : 18 + a.val = 1 := congrArg Fin.val h
  omega
theorem agSendS_ne_sem0 (a : Dev nD) : agSendS a ≠ cc0_sem0_0 := fun h => by
  have h' : 34 + a.val = 0 := congrArg Fin.val h
  omega
theorem agSendS_ne_sem1 (a : Dev nD) : agSendS a ≠ cc0_sem1_0 := fun h => by
  have h' : 34 + a.val = 1 := congrArg Fin.val h
  omega
theorem agRecvS_ne_sem0 (a : Dev nD) : agRecvS a ≠ cc0_sem0_0 := fun h => by
  have h' : 50 + a.val = 0 := congrArg Fin.val h
  omega
theorem agRecvS_ne_sem1 (a : Dev nD) : agRecvS a ≠ cc0_sem1_0 := fun h => by
  have h' : 50 + a.val = 1 := congrArg Fin.val h
  omega

/-! ## The device chains: each printed peer id is a forward shift

The first fifteen address the barrier's signals, the next fifteen the first round of transfers, the last
fifteen the second round: the `N`-th is `(c + ((N - 1) mod 15) + 1) mod 16`. -/

theorem dev1_eq (c : Dev nD) : (⟨k0_dev1 c, k0_dev1_lt c⟩ : Dev nD) = fwd c 0 := by revert c; decide +kernel
theorem dev2_eq (c : Dev nD) : (⟨k0_dev2 c, k0_dev2_lt c⟩ : Dev nD) = fwd c 1 := by revert c; decide +kernel
theorem dev3_eq (c : Dev nD) : (⟨k0_dev3 c, k0_dev3_lt c⟩ : Dev nD) = fwd c 2 := by revert c; decide +kernel
theorem dev4_eq (c : Dev nD) : (⟨k0_dev4 c, k0_dev4_lt c⟩ : Dev nD) = fwd c 3 := by revert c; decide +kernel
theorem dev5_eq (c : Dev nD) : (⟨k0_dev5 c, k0_dev5_lt c⟩ : Dev nD) = fwd c 4 := by revert c; decide +kernel
theorem dev6_eq (c : Dev nD) : (⟨k0_dev6 c, k0_dev6_lt c⟩ : Dev nD) = fwd c 5 := by revert c; decide +kernel
theorem dev7_eq (c : Dev nD) : (⟨k0_dev7 c, k0_dev7_lt c⟩ : Dev nD) = fwd c 6 := by revert c; decide +kernel
theorem dev8_eq (c : Dev nD) : (⟨k0_dev8 c, k0_dev8_lt c⟩ : Dev nD) = fwd c 7 := by revert c; decide +kernel
theorem dev9_eq (c : Dev nD) : (⟨k0_dev9 c, k0_dev9_lt c⟩ : Dev nD) = fwd c 8 := by revert c; decide +kernel
theorem dev10_eq (c : Dev nD) : (⟨k0_dev10 c, k0_dev10_lt c⟩ : Dev nD) = fwd c 9 := by revert c; decide +kernel
theorem dev11_eq (c : Dev nD) : (⟨k0_dev11 c, k0_dev11_lt c⟩ : Dev nD) = fwd c 10 := by revert c; decide +kernel
theorem dev12_eq (c : Dev nD) : (⟨k0_dev12 c, k0_dev12_lt c⟩ : Dev nD) = fwd c 11 := by revert c; decide +kernel
theorem dev13_eq (c : Dev nD) : (⟨k0_dev13 c, k0_dev13_lt c⟩ : Dev nD) = fwd c 12 := by revert c; decide +kernel
theorem dev14_eq (c : Dev nD) : (⟨k0_dev14 c, k0_dev14_lt c⟩ : Dev nD) = fwd c 13 := by revert c; decide +kernel
theorem dev15_eq (c : Dev nD) : (⟨k0_dev15 c, k0_dev15_lt c⟩ : Dev nD) = fwd c 14 := by revert c; decide +kernel
theorem dev16_eq (c : Dev nD) : (⟨k0_dev16 c, k0_dev16_lt c⟩ : Dev nD) = fwd c 0 := by revert c; decide +kernel
theorem dev17_eq (c : Dev nD) : (⟨k0_dev17 c, k0_dev17_lt c⟩ : Dev nD) = fwd c 1 := by revert c; decide +kernel
theorem dev18_eq (c : Dev nD) : (⟨k0_dev18 c, k0_dev18_lt c⟩ : Dev nD) = fwd c 2 := by revert c; decide +kernel
theorem dev19_eq (c : Dev nD) : (⟨k0_dev19 c, k0_dev19_lt c⟩ : Dev nD) = fwd c 3 := by revert c; decide +kernel
theorem dev20_eq (c : Dev nD) : (⟨k0_dev20 c, k0_dev20_lt c⟩ : Dev nD) = fwd c 4 := by revert c; decide +kernel
theorem dev21_eq (c : Dev nD) : (⟨k0_dev21 c, k0_dev21_lt c⟩ : Dev nD) = fwd c 5 := by revert c; decide +kernel
theorem dev22_eq (c : Dev nD) : (⟨k0_dev22 c, k0_dev22_lt c⟩ : Dev nD) = fwd c 6 := by revert c; decide +kernel
theorem dev23_eq (c : Dev nD) : (⟨k0_dev23 c, k0_dev23_lt c⟩ : Dev nD) = fwd c 7 := by revert c; decide +kernel
theorem dev24_eq (c : Dev nD) : (⟨k0_dev24 c, k0_dev24_lt c⟩ : Dev nD) = fwd c 8 := by revert c; decide +kernel
theorem dev25_eq (c : Dev nD) : (⟨k0_dev25 c, k0_dev25_lt c⟩ : Dev nD) = fwd c 9 := by revert c; decide +kernel
theorem dev26_eq (c : Dev nD) : (⟨k0_dev26 c, k0_dev26_lt c⟩ : Dev nD) = fwd c 10 := by revert c; decide +kernel
theorem dev27_eq (c : Dev nD) : (⟨k0_dev27 c, k0_dev27_lt c⟩ : Dev nD) = fwd c 11 := by revert c; decide +kernel
theorem dev28_eq (c : Dev nD) : (⟨k0_dev28 c, k0_dev28_lt c⟩ : Dev nD) = fwd c 12 := by revert c; decide +kernel
theorem dev29_eq (c : Dev nD) : (⟨k0_dev29 c, k0_dev29_lt c⟩ : Dev nD) = fwd c 13 := by revert c; decide +kernel
theorem dev30_eq (c : Dev nD) : (⟨k0_dev30 c, k0_dev30_lt c⟩ : Dev nD) = fwd c 14 := by revert c; decide +kernel
theorem dev31_eq (c : Dev nD) : (⟨k0_dev31 c, k0_dev31_lt c⟩ : Dev nD) = fwd c 0 := by revert c; decide +kernel
theorem dev32_eq (c : Dev nD) : (⟨k0_dev32 c, k0_dev32_lt c⟩ : Dev nD) = fwd c 1 := by revert c; decide +kernel
theorem dev33_eq (c : Dev nD) : (⟨k0_dev33 c, k0_dev33_lt c⟩ : Dev nD) = fwd c 2 := by revert c; decide +kernel
theorem dev34_eq (c : Dev nD) : (⟨k0_dev34 c, k0_dev34_lt c⟩ : Dev nD) = fwd c 3 := by revert c; decide +kernel
theorem dev35_eq (c : Dev nD) : (⟨k0_dev35 c, k0_dev35_lt c⟩ : Dev nD) = fwd c 4 := by revert c; decide +kernel
theorem dev36_eq (c : Dev nD) : (⟨k0_dev36 c, k0_dev36_lt c⟩ : Dev nD) = fwd c 5 := by revert c; decide +kernel
theorem dev37_eq (c : Dev nD) : (⟨k0_dev37 c, k0_dev37_lt c⟩ : Dev nD) = fwd c 6 := by revert c; decide +kernel
theorem dev38_eq (c : Dev nD) : (⟨k0_dev38 c, k0_dev38_lt c⟩ : Dev nD) = fwd c 7 := by revert c; decide +kernel
theorem dev39_eq (c : Dev nD) : (⟨k0_dev39 c, k0_dev39_lt c⟩ : Dev nD) = fwd c 8 := by revert c; decide +kernel
theorem dev40_eq (c : Dev nD) : (⟨k0_dev40 c, k0_dev40_lt c⟩ : Dev nD) = fwd c 9 := by revert c; decide +kernel
theorem dev41_eq (c : Dev nD) : (⟨k0_dev41 c, k0_dev41_lt c⟩ : Dev nD) = fwd c 10 := by revert c; decide +kernel
theorem dev42_eq (c : Dev nD) : (⟨k0_dev42 c, k0_dev42_lt c⟩ : Dev nD) = fwd c 11 := by revert c; decide +kernel
theorem dev43_eq (c : Dev nD) : (⟨k0_dev43 c, k0_dev43_lt c⟩ : Dev nD) = fwd c 12 := by revert c; decide +kernel
theorem dev44_eq (c : Dev nD) : (⟨k0_dev44 c, k0_dev44_lt c⟩ : Dev nD) = fwd c 13 := by revert c; decide +kernel
theorem dev45_eq (c : Dev nD) : (⟨k0_dev45 c, k0_dev45_lt c⟩ : Dev nD) = fwd c 14 := by revert c; decide +kernel

/-! ## The offset chains: the printed row and cell offsets are those of the shifted peer -/

/-- The cell of the peer `r + 1` ahead. -/
theorem off1_eq : ∀ d0 : Dev nD, ∀ r : Fin 15, k0_off1 d0 (BitVec.ofNat 32 (1 + r.val)) = ![(fwd d0 r).val] := by decide +kernel
/-- The thirty-two rows of the peer `r + 1` ahead. -/
theorem off4_eq : ∀ d0 : Dev nD, ∀ r : Fin 15, k0_off4 d0 (BitVec.ofNat 32 (1 + r.val)) = ![32 * (fwd d0 r).val, 0] := by decide +kernel
/-- The cell of the peer `r + 1` behind. -/
theorem off6_eq : ∀ d0 : Dev nD, ∀ r : Fin 15, k0_off6 d0 (BitVec.ofNat 32 (1 + r.val)) = ![(bwd d0 r).val] := by decide +kernel
/-- The thirty-two rows of the peer `r + 1` behind. -/
theorem off7_eq : ∀ d0 : Dev nD, ∀ r : Fin 15, k0_off7 d0 (BitVec.ofNat 32 (1 + r.val)) = ![32 * (bwd d0 r).val, 0] := by decide +kernel
theorem off8_eq : ∀ d0 : Dev nD, ∀ r : Fin 15, k0_off8 d0 (BitVec.ofNat 32 (1 + r.val)) = ![32 * (bwd d0 r).val, 0] := by decide +kernel

/-! ## The semaphore slices: the cell a printed slice names is the peer's cell of its run

A slice of one cell of a run of sixteen, squeezed to rank zero, names the cell at the run's base plus the
offset; the offset is the shifted peer's index (or the device's own). -/

/-- First round, sending side: the cell of the peer `r + 1` ahead. -/
theorem sem_off1_rs : ∀ d0 : Dev nD, ∀ r : Fin 15,
    ((cc0_scratch3.slice (Rect.unit (s := S16) (k0_off1 d0 (BitVec.ofNat 32 (1 + r.val))) S1.size (k0_off1_inb d0 r))).squeeze S_ squeezes_S1_S_).sem = rsSendS (fwd d0 r) := by
  decide +kernel
/-- Second round, sending side: the cell of the peer `r + 1` ahead. -/
theorem sem_off1_ag : ∀ d0 : Dev nD, ∀ r : Fin 15,
    ((cc0_scratch5.slice (Rect.unit (s := S16) (k0_off1 d0 (BitVec.ofNat 32 (1 + r.val))) S1.size (k0_off1_inb d0 r))).squeeze S_ squeezes_S1_S_).sem = agSendS (fwd d0 r) := by
  decide +kernel
/-- First round, receiving side: the device's own cell. -/
theorem sem_off2_rs : ∀ d0 : Dev nD,
    ((cc0_scratch4.slice (Rect.unit (s := S16) (k0_off2 d0) S1.size (k0_off2_inb d0))).squeeze S_ squeezes_S1_S_).sem = rsRecvS d0 := by
  decide +kernel
/-- Second round, receiving side: the device's own cell. -/
theorem sem_off2_ag : ∀ d0 : Dev nD,
    ((cc0_scratch6.slice (Rect.unit (s := S16) (k0_off2 d0) S1.size (k0_off2_inb d0))).squeeze S_ squeezes_S1_S_).sem = agRecvS d0 := by
  decide +kernel
/-- First round, receiving side: the cell of the peer `r + 1` behind. -/
theorem sem_off6_rs : ∀ d0 : Dev nD, ∀ r : Fin 15,
    ((cc0_scratch4.slice (Rect.unit (s := S16) (k0_off6 d0 (BitVec.ofNat 32 (1 + r.val))) S1.size (k0_off6_inb d0 r))).squeeze S_ squeezes_S1_S_).sem = rsRecvS (bwd d0 r) := by
  decide +kernel
/-- Second round, receiving side: the cell of the peer `r + 1` behind. -/
theorem sem_off6_ag : ∀ d0 : Dev nD, ∀ r : Fin 15,
    ((cc0_scratch6.slice (Rect.unit (s := S16) (k0_off6 d0 (BitVec.ofNat 32 (1 + r.val))) S1.size (k0_off6_inb d0 r))).squeeze S_ squeezes_S1_S_).sem = agRecvS (bwd d0 r) := by
  decide +kernel

/-- info: 'Cert.Kernel.AR.bwd_surj' depends on axioms: [propext, Quot.sound] -/
#guard_msgs in #print axioms bwd_surj
/-- info: 'Cert.Kernel.AR.dev45_eq' depends on axioms: [propext, Quot.sound] -/
#guard_msgs in #print axioms dev45_eq
/-- info: 'Cert.Kernel.AR.off8_eq' depends on axioms: [propext, Classical.choice, Quot.sound] -/
#guard_msgs in #print axioms off8_eq
/-- info: 'Cert.Kernel.AR.sem_off6_ag' depends on axioms: [propext, Classical.choice, Quot.sound] -/
#guard_msgs in #print axioms sem_off6_ag

end Cert.Kernel.AR
-- ==== Proof.KProto.lean ====
import proofs.«900416_g7700000000000417_dist_ar_v7x_i16_i_m512_n512_bf16_1_alg».proof.Proof.KArith
import proofs.«900416_g7700000000000417_dist_ar_v7x_i16_i_m512_n512_bf16_1_alg».proof.Proof.Gen.Kernel.Skeleton
import proofs.«900416_g7700000000000417_dist_ar_v7x_i16_i_m512_n512_bf16_1_alg».proof.Proof.Gen.Kernel.Launch
import proofs.«900416_g7700000000000417_dist_ar_v7x_i16_i_m512_n512_bf16_1_alg».proof.Proof.Gen.Kernel.Points
import Idealize.ShloMosaic.Lib.Pipeline.Launch
import Idealize.ShloMosaic.Lib.Pipeline.Kit
import Idealize.ShloMosaic.Lib.Transfers
import Idealize.ShloMosaic.Lib.Tactic

/-!
# The all-reduce's protocol: cells, contents and the schedule of duties

Sixteen devices. Device `c` holds a block `x c` of 512 rows. It rounds the block to the narrow format (`xb c`), sends
rows `32 j … 32 j + 31` of it to device `j` (into rows `32 c …` of `j`'s receive buffer), adds the fifteen row blocks it
receives to its own rows `32 c …` of `x c`, rounds the sum (`red c`), and sends that to every device's result rows
`32 c …`. Every device ends with the result whose rows `32 j …` are `red j`.

A device's barrier cell has one duty per other device (its signal, which hands over the two row slots that device keeps
for the signaller); each of the four arrays of transfer semaphores has one cell per peer with one duty: the transfer
whose completion it counts.
-/

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy beside the protocol's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Buffers, row blocks, cells -/

/-- The staged input block, the staged result, the rounded copy, the reduced rows, the receive buffer. -/
abbrev xM : Memref sig .tc .vmem S512x512 .f32 := Memref.whole cc0_stg0_0
abbrev oM : Memref sig .tc .vmem S512x512 .bf16 := Memref.whole cc0_stg1_0
abbrev bM : Memref sig .tc .vmem S512x512 .bf16 := Memref.whole cc0_scratch0
abbrev rM : Memref sig .tc .vmem S32x512 .bf16 := Memref.whole cc0_scratch1
abbrev sM : Memref sig .tc .vmem S512x512 .bf16 := Memref.whole cc0_scratch2

/-- Rows `32 j … 32 j + 31` of a 512-row buffer. -/
abbrev rows (j : Dev nD) : Rect S512x512 := Rect.unit (s := S512x512) (k0_off3 j) S32x512.size (k0_off3_inb j)

abbrev sRow (j : Dev nD) : Memref sig .tc .vmem S32x512 .bf16 := sM.slice (rows j) (fun _ => rfl)
abbrev oRow (j : Dev nD) : Memref sig .tc .vmem S32x512 .bf16 := oM.slice (rows j) (fun _ => rfl)
abbrev bRow (j : Dev nD) : Memref sig .tc .vmem S32x512 .bf16 := bM.slice (rows j) (fun _ => rfl)

abbrev barS : Sem sig := (SemArray.scalar (sig.barrier 0 rfl) : Sems sig S_).sem

abbrev barCell (c : Dev nD) : GSem nD τ sig := ((c : Thread nD τ), .reg barS)
abbrev rsSendCell (c j : Dev nD) : GSem nD τ sig := ((c : Thread nD τ), .dma (rsSendS j))
abbrev rsRecvCell (c j : Dev nD) : GSem nD τ sig := ((c : Thread nD τ), .dma (rsRecvS j))
abbrev agSendCell (c j : Dev nD) : GSem nD τ sig := ((c : Thread nD τ), .dma (agSendS j))
abbrev agRecvCell (c j : Dev nD) : GSem nD τ sig := ((c : Thread nD τ), .dma (agRecvS j))

/-- The units one transfer of a 32 × 512 narrow block puts on a semaphore. -/
abbrev NC : ℕ := (rM : Memref sig .tc .vmem S32x512 .bf16).view.dmaCredit
theorem NC_pos : 0 < NC := View.dmaCredit_pos _ (by decide)

/-! ## Contents -/

/-- Device `c`'s block as staged. -/
def xstg (c : Dev nD) : (cc0_stg0_0 : Ref sig .tc).ty.Contents (Elt F) :=
  (win0_0.blk (0 : Fin 1)).view.read (Elt F) (m ((c : Thread nD τ).loc main_arg0))

/-- The block rounded to the narrow format: what the rounded copy holds after the first store. -/
def xb (c : Dev nD) : (cc0_scratch0 : Ref sig .tc).ty.Contents (Elt F) := k0_pay1 (xstg m c)

/-- The device whose row block a row of a 512-row buffer belongs to. -/
def blkOf (i : S512x512.Idx) : Dev nD := ⟨(i 0).val / 32, by have h : (i 0).val < 512 := (i 0).isLt; show (i 0).val / 32 < 16; omega⟩

/-- Row `r` of device `c`'s block `c`-rows: index `(32 c + i₀ mod 32, i₁)`. -/
def rowIn (c : Dev nD) (i : S512x512.Idx) : S512x512.Idx := fun a => match a with
  | ⟨0, _⟩ => ⟨32 * c.val + (i 0).val % 32, by have hc : c.val < 16 := c.isLt; show 32 * c.val + (i 0).val % 32 < 512; omega⟩
  | ⟨1, _⟩ => ⟨(i 1).val, (i 1).isLt⟩

/-- What device `c`'s receive buffer holds once every peer's transfer has landed: rows `32 j …` are rows `32 c …` of `xb j`
    (rows `32 c …`, which nothing writes, are stated the same way and never owned at this value). -/
def RS (c : Dev nD) : (cc0_scratch2 : Ref sig .tc).ty.Contents (Elt F) := fun i => xb m (blkOf i) (rowIn c i)

/-- Device `c`'s own rows of its block, as the body loads them. -/
def xrow (c : Dev nD) : Vec F S32x512 .f32 :=
  (xM : Memref sig .tc .vmem S512x512 .f32).view.readAt (Elt F) (Rect.unit (s := S512x512) (k0_off5 c) S32x512.size (k0_off5_inb c)).toLoadRect (xstg m c)

/-- The rows received from the peer `r + 1` places behind, as the body loads them. -/
def rsVec (c : Dev nD) (r : Fin 15) : Vec F S32x512 .bf16 :=
  (sM : Memref sig .tc .vmem S512x512 .bf16).view.readAt (Elt F)
    (Rect.unit (s := S512x512) (k0_off8 c (BitVec.ofNat 32 (1 + r.val))) S32x512.size (k0_off8_inb c r)).toLoadRect (RS m c)

/-- The reduced rows of device `c`: its own rows plus the fifteen received, in the order the body adds them, rounded. -/
def red (c : Dev nD) : (cc0_scratch1 : Ref sig .tc).ty.Contents (Elt F) :=
  k0_pay12 (k0_pay11 (k0_pay10 (k0_pay9 (k0_pay8 (k0_pay7 (k0_pay6 (k0_pay5 (k0_pay4 (k0_pay3 (k0_pay2 (xrow m c) (rsVec m c 0))
    (rsVec m c 1)) (rsVec m c 2) (rsVec m c 3)) (rsVec m c 4)) (rsVec m c 5) (rsVec m c 6)) (rsVec m c 7)) (rsVec m c 8) (rsVec m c 9))
    (rsVec m c 10) (rsVec m c 11)) (rsVec m c 12)) (rsVec m c 13) (rsVec m c 14))

/-- The result every device ends with: rows `32 j …` are `red j`. -/
def OUT : (cc0_stg1_0 : Ref sig .tc).ty.Contents (Elt F) := fun i =>
  red m (blkOf i) (fun a => match a with
    | ⟨0, _⟩ => ⟨(i 0).val % 32, by show (i 0).val % 32 < 32; omega⟩
    | ⟨1, _⟩ => ⟨(i 1).val, (i 1).isLt⟩)

/-! ## What the duties hand over -/

/-- Device `d`'s signal hands device `c` the two row slots `d` keeps for `c`: rows `32 c …` of its receive buffer and of its
    staged result, at whatever they hold. -/
def barPay (c d : Dev nD) : sProp 𝕄 :=
  iprop((∃ f, (sRow c).view.loc (d : Thread nD τ) ↦[(sRow c).view.set]{fullShare} f)
    ∗ (∃ f, (oRow c).view.loc (d : Thread nD τ) ↦[(oRow c).view.set]{fullShare} f))

/-- The first transfer to `j`, read out: rows `32 j …` of the rounded copy come back. -/
def rsSendPay (c j : Dev nD) : sProp 𝕄 := (bRow j).view.loc (c : Thread nD τ) ↦[(bRow j).view.set]{fullShare} xb m c
/-- The first transfer from `j`, landed: rows `32 j …` of the receive buffer hold `j`'s rows `32 c …`. -/
def rsRecvPay (c j : Dev nD) : sProp 𝕄 := (sRow j).view.loc (c : Thread nD τ) ↦[(sRow j).view.set]{fullShare} RS m c
/-- The second transfer to `j`, read out: its read share of the reduced rows comes back. -/
def agSendPay (c j : Dev nD) : sProp 𝕄 :=
  (rM : Memref sig .tc .vmem S32x512 .bf16).view.loc (c : Thread nD τ) ↦[(rM : Memref sig .tc .vmem S32x512 .bf16).view.set]{Transfers.shareTok fullShare 15 (kf c j)} red m c
/-- The second transfer from `j`, landed: rows `32 j …` of the staged result hold `red j`. -/
def agRecvPay (c j : Dev nD) : sProp 𝕄 := (oRow j).view.loc (c : Thread nD τ) ↦[(oRow j).view.set]{fullShare} OUT m

/-! ## The schedule: one round -/

/-- Which of the four arrays a transfer semaphore of the kernel's own lies in, and its peer index. -/
def semArr (q : DmaSem sig) : ℕ := (q.val - 2) / 16
def semPeer (q : DmaSem sig) : Dev nD := ⟨(q.val - 2) % 16, Nat.mod_lt _ (by decide)⟩

def ringRd : Rounds.Schedule (GSem nD τ sig) (Dev nD) 𝕄 where
  duties g r := if r = 0 ∧ g.1.2 = .tc then
      (match g.2 with
        | .reg _ => Finset.univ.erase g.1.1
        | .dma q => if 2 ≤ q.val ∧ semPeer q ≠ g.1.1 then {semPeer q} else ∅)
    else ∅
  unitless _ := False
  amount g _ _ := match g.2 with
    | .reg _ => 1
    | .dma _ => NC
  payload g _ d := match g.2 with
    | .reg _ => barPay g.1.1 d
    | .dma q => if semArr q = 0 then rsSendPay m g.1.1 (semPeer q) else if semArr q = 1 then rsRecvPay m g.1.1 (semPeer q)
        else if semArr q = 2 then agSendPay m g.1.1 (semPeer q) else agRecvPay m g.1.1 (semPeer q)
  amount_pos g _ _ _ := by
    cases g.2 with
    | reg _ => exact Nat.one_pos
    | dma _ => exact NC_pos

instance ringRd_payload_storable (g : GSem nD τ sig) (r : ℕ) (d : Dev nD) :
    BI.Storable (upEmb : UEmb _ 𝕄) ((ringRd (F := F) m).payload g r d) := by
  obtain ⟨t, sm⟩ := g
  cases sm with
  | reg s => show BI.Storable upEmb (barPay t.1 d); unfold barPay; infer_instance
  | dma q =>
    show BI.Storable upEmb (if semArr q = 0 then rsSendPay m t.1 (semPeer q) else if semArr q = 1 then rsRecvPay m t.1 (semPeer q)
        else if semArr q = 2 then agSendPay m t.1 (semPeer q) else agRecvPay m t.1 (semPeer q))
    unfold rsSendPay rsRecvPay agSendPay agRecvPay
    (repeat' split) <;> infer_instance

/-! ### The tables -/

theorem semArr_rsSend (j : Dev nD) : semArr (rsSendS j) = 0 := by revert j; decide
theorem semArr_rsRecv (j : Dev nD) : semArr (rsRecvS j) = 1 := by revert j; decide
theorem semArr_agSend (j : Dev nD) : semArr (agSendS j) = 2 := by revert j; decide
theorem semArr_agRecv (j : Dev nD) : semArr (agRecvS j) = 3 := by revert j; decide
theorem semPeer_rsSend (j : Dev nD) : semPeer (rsSendS j) = j := by revert j; decide
theorem semPeer_rsRecv (j : Dev nD) : semPeer (rsRecvS j) = j := by revert j; decide
theorem semPeer_agSend (j : Dev nD) : semPeer (agSendS j) = j := by revert j; decide
theorem semPeer_agRecv (j : Dev nD) : semPeer (agRecvS j) = j := by revert j; decide
theorem two_le_rsSend (j : Dev nD) : 2 ≤ (rsSendS j).val := by revert j; decide
theorem two_le_rsRecv (j : Dev nD) : 2 ≤ (rsRecvS j).val := by revert j; decide
theorem two_le_agSend (j : Dev nD) : 2 ≤ (agSendS j).val := by revert j; decide
theorem two_le_agRecv (j : Dev nD) : 2 ≤ (agRecvS j).val := by revert j; decide

section Tables
variable (c j : Dev nD)

theorem duties_bar : (ringRd (F := F) m).duties (barCell c) 0 = Finset.univ.erase c := by
  dsimp only [ringRd]; exact if_pos ⟨rfl, rfl⟩
theorem duties_rsSend (h : j ≠ c) : (ringRd (F := F) m).duties (rsSendCell c j) 0 = {j} := by
  dsimp only [ringRd]; rw [if_pos ⟨rfl, rfl⟩, semPeer_rsSend, if_pos ⟨two_le_rsSend j, h⟩]
theorem duties_rsRecv (h : j ≠ c) : (ringRd (F := F) m).duties (rsRecvCell c j) 0 = {j} := by
  dsimp only [ringRd]; rw [if_pos ⟨rfl, rfl⟩, semPeer_rsRecv, if_pos ⟨two_le_rsRecv j, h⟩]
theorem duties_agSend (h : j ≠ c) : (ringRd (F := F) m).duties (agSendCell c j) 0 = {j} := by
  dsimp only [ringRd]; rw [if_pos ⟨rfl, rfl⟩, semPeer_agSend, if_pos ⟨two_le_agSend j, h⟩]
theorem duties_agRecv (h : j ≠ c) : (ringRd (F := F) m).duties (agRecvCell c j) 0 = {j} := by
  dsimp only [ringRd]; rw [if_pos ⟨rfl, rfl⟩, semPeer_agRecv, if_pos ⟨two_le_agRecv j, h⟩]
theorem duties_later (g : GSem nD τ sig) : ∀ r, 1 ≤ r → (ringRd (F := F) m).duties g r = ∅ :=
  fun r hr => by dsimp only [ringRd]; rw [if_neg fun h => by omega]

theorem amount_bar (d : Dev nD) : (ringRd (F := F) m).amount (barCell c) 0 d = 1 := rfl
theorem amount_dma (q : DmaSem sig) (d : Dev nD) : (ringRd (F := F) m).amount ((c : Thread nD τ), .dma q) 0 d = NC := rfl

theorem expect_bar : (ringRd (F := F) m).expect (barCell c) 0 = 15 := by
  unfold Schedule.expect Schedule.amountOf
  rw [duties_bar, Finset.sum_congr rfl fun d _ => amount_bar m c d, Finset.sum_const, Finset.card_erase_of_mem (Finset.mem_univ _), Finset.card_univ, Fintype.card_fin, smul_eq_mul]
  decide
theorem expect_rsSend (h : j ≠ c) : (ringRd (F := F) m).expect (rsSendCell c j) 0 = NC := by
  unfold Schedule.expect Schedule.amountOf; rw [duties_rsSend m c j h, Finset.sum_singleton, amount_dma]
theorem expect_rsRecv (h : j ≠ c) : (ringRd (F := F) m).expect (rsRecvCell c j) 0 = NC := by
  unfold Schedule.expect Schedule.amountOf; rw [duties_rsRecv m c j h, Finset.sum_singleton, amount_dma]
theorem expect_agSend (h : j ≠ c) : (ringRd (F := F) m).expect (agSendCell c j) 0 = NC := by
  unfold Schedule.expect Schedule.amountOf; rw [duties_agSend m c j h, Finset.sum_singleton, amount_dma]
theorem expect_agRecv (h : j ≠ c) : (ringRd (F := F) m).expect (agRecvCell c j) 0 = NC := by
  unfold Schedule.expect Schedule.amountOf; rw [duties_agRecv m c j h, Finset.sum_singleton, amount_dma]

theorem payload_bar (d : Dev nD) : (ringRd (F := F) m).payload (barCell c) 0 d = barPay c d := rfl
theorem payload_rsSend (d : Dev nD) : (ringRd (F := F) m).payload (rsSendCell c j) 0 d = rsSendPay m c j := by
  dsimp only [ringRd]; rw [if_pos (semArr_rsSend j), semPeer_rsSend]
theorem payload_rsRecv (d : Dev nD) : (ringRd (F := F) m).payload (rsRecvCell c j) 0 d = rsRecvPay m c j := by
  dsimp only [ringRd]; rw [if_neg (by rw [semArr_rsRecv]; decide), if_pos (semArr_rsRecv j), semPeer_rsRecv]
theorem payload_agSend (d : Dev nD) : (ringRd (F := F) m).payload (agSendCell c j) 0 d = agSendPay m c j := by
  dsimp only [ringRd]; rw [if_neg (by rw [semArr_agSend]; decide), if_neg (by rw [semArr_agSend]; decide), if_pos (semArr_agSend j), semPeer_agSend]
theorem payload_agRecv (d : Dev nD) : (ringRd (F := F) m).payload (agRecvCell c j) 0 d = agRecvPay m c j := by
  dsimp only [ringRd]
  rw [if_neg (by rw [semArr_agRecv]; decide), if_neg (by rw [semArr_agRecv]; decide), if_neg (by rw [semArr_agRecv]; decide), semPeer_agRecv]

/-- The barrier cell's round, no duty taken: every other device's two slots for `c`. -/
theorem rest_bar : bigSep ((ringRd (F := F) m).duties (barCell c) 0 \ ∅) (fun d => (ringRd (F := F) m).payload (barCell c) 0 d)
    = bigSep (Finset.univ.erase c) (fun d => barPay (F := F) c d) := by
  rw [Finset.sdiff_empty, duties_bar]; rfl
theorem rest_rsSend (h : j ≠ c) : bigSep ((ringRd (F := F) m).duties (rsSendCell c j) 0 \ ∅) (fun d => (ringRd (F := F) m).payload (rsSendCell c j) 0 d) = rsSendPay m c j := by
  rw [Finset.sdiff_empty, duties_rsSend m c j h, bigSep_singleton, payload_rsSend]
theorem rest_rsRecv (h : j ≠ c) : bigSep ((ringRd (F := F) m).duties (rsRecvCell c j) 0 \ ∅) (fun d => (ringRd (F := F) m).payload (rsRecvCell c j) 0 d) = rsRecvPay m c j := by
  rw [Finset.sdiff_empty, duties_rsRecv m c j h, bigSep_singleton, payload_rsRecv]
theorem rest_agSend (h : j ≠ c) : bigSep ((ringRd (F := F) m).duties (agSendCell c j) 0 \ ∅) (fun d => (ringRd (F := F) m).payload (agSendCell c j) 0 d) = agSendPay m c j := by
  rw [Finset.sdiff_empty, duties_agSend m c j h, bigSep_singleton, payload_agSend]
theorem rest_agRecv (h : j ≠ c) : bigSep ((ringRd (F := F) m).duties (agRecvCell c j) 0 \ ∅) (fun d => (ringRd (F := F) m).payload (agRecvCell c j) 0 d) = agRecvPay m c j := by
  rw [Finset.sdiff_empty, duties_agRecv m c j h, bigSep_singleton, payload_agRecv]

end Tables

end Cert.Kernel.AR

end
-- ==== Proof.KState.lean ====
/-
# What a device starts from, what it owes, and what its body must establish

The interface between the launch (which deals every device its share of the protocol's ghost state) and the body (which
spends it): the cells of a device by index, the tokens of the duties it pays, the credit it is dealt, what it owes and in
which order it pays, the waiting levels, and the pipeline's proof data with the body's pre- and postcondition.
-/
import proofs.«900416_g7700000000000417_dist_ar_v7x_i16_i_m512_n512_bf16_1_alg».proof.Proof.KProto

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: arbitrary contents, every counter zero, arbitrary generator registers. -/
def s₀ : MemSt nD τ sig (Elt F) := ⟨m, fun _ => 0, ρ⟩

/-! ## A device's cells by index: the barrier cell, then array `a` (first-round send, first-round receive, second-round
send, second-round receive) at peer index `j` -/

abbrev CK : Type := Option (Fin 4 × Dev nD)

def csem : CK → SemLoc sig
  | none => .reg barS
  | some (⟨0, _⟩, j) => .dma (rsSendS j)
  | some (⟨1, _⟩, j) => .dma (rsRecvS j)
  | some (⟨2, _⟩, j) => .dma (agSendS j)
  | some (⟨3, _⟩, j) => .dma (agRecvS j)
  | some (⟨_ + 4, h⟩, _) => absurd h (by omega)

abbrev kcell (ck : Dev nD × CK) : GSem nD τ sig := ((ck.1 : Thread nD τ), csem ck.2)

/-! ## The ghost state a device starts from -/

/-- Every cell's invariant, under the names the launch allocated them at, and that round 0 of every cell is reached. -/
def records (K : Dev nD × CK → ℕ) : sProp 𝕄 :=
  iprop((bigSep Finset.univ fun ck : Dev nD × CK => cellInv ER (ringRd m) (K ck) (kcell ck))
    ∗ bigSep Finset.univ fun ck : Dev nD × CK => reached ER (kcell ck) 0)

instance records_persistent (K : Dev nD × CK → ℕ) : BI.Persistent (records m K) := by unfold records; infer_instance

/-- The tokens of the duties device `c` pays, per shift `k` (peer `p = fwd c k`): its signal to `p`'s barrier; its first
    transfer to `p` landing (on `p`'s first-round receive cell `c`) and read out (on its own first-round send cell `p`); its second
    transfer to `p`, likewise. -/
def payToks (c : Dev nD) : sProp 𝕄 := bigSep Finset.univ fun k : Fin 15 =>
  iprop(dutyTok ER (barCell (fwd c k)) 0 c ∗ dutyTok ER (rsRecvCell (fwd c k) c) 0 c ∗ dutyTok ER (rsSendCell c (fwd c k)) 0 (fwd c k)
    ∗ dutyTok ER (agRecvCell (fwd c k) c) 0 c ∗ dutyTok ER (agSendCell c (fwd c k)) 0 (fwd c k))

/-- Device `c`'s positions: round 0 of every cell of its own, nothing taken. -/
def positions (c : Dev nD) : sProp 𝕄 := bigSep Finset.univ fun k : CK => atPos ER (kcell (c, k)) 0 ∅ 0

def ghost (K : Dev nD × CK → ℕ) (c : Dev nD) : sProp 𝕄 := iprop(records m K ∗ positions (F := F) c ∗ payToks (F := F) c)

/-- The credit a device is dealt: its barrier's fifteen units, and one transfer's units on each receive cell. -/
def creds (c : Dev nD) : sProp 𝕄 :=
  iprop(cred (tallyAt (barCell c) () 15)
    ∗ bigSep Finset.univ fun k : Fin 15 => iprop(cred (tallyAt (rsRecvCell c (bwd c k)) () NC) ∗ cred (tallyAt (agRecvCell c (bwd c k)) () NC)))

/-! ## What a device owes, in the order it pays: the signals, the first transfers' landings, the second transfers' landings;
`n` of a family paid leaves the shifts `k ≥ n` -/

def Osig (c : Dev nD) (n : ℕ) : CellTallies nD τ sig Unit :=
  ∑ k ∈ Finset.univ.filter (fun k : Fin 15 => n ≤ k.val), tallyAt (barCell (fwd c k)) () 1
def Ors (c : Dev nD) (n : ℕ) : CellTallies nD τ sig Unit :=
  ∑ k ∈ Finset.univ.filter (fun k : Fin 15 => n ≤ k.val), tallyAt (rsRecvCell (fwd c k) c) () NC
def Oag (c : Dev nD) (n : ℕ) : CellTallies nD τ sig Unit :=
  ∑ k ∈ Finset.univ.filter (fun k : Fin 15 => n ≤ k.val), tallyAt (agRecvCell (fwd c k) c) () NC

def O₀ (c : Dev nD) : CellTallies nD τ sig Unit := Oag c 0 + Ors c 0 + Osig c 0

/-! ## Levels: barrier cells below first-round receive cells below second-round receive cells; the rest (staging, sends)
at the bottom -/

def L (g : GSem nD τ sig) : Finset Unit := if g.1.2 = .tc then {()} else ∅
def lv (g : GSem nD τ sig) (_ : Unit) : ℕ := match g.2 with
  | .reg _ => 1
  | .dma q => if 2 ≤ q.val ∧ semArr q = 1 then 2 else if 2 ≤ q.val ∧ semArr q = 3 then 3 else 0

/-! ## The pipeline's proof data -/

/-- What device `c`'s body starts from besides the staged windows. -/
def start (c : Dev nD) : sProp 𝕄 := iprop((∃ K, ghost m K c) ∗ creds (F := F) c ∗ levAts L lv)

/-- The three scratch buffers, whole, at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scr (F := F) c)
/-- After the point: the scratch buffers whole again, the sixty-four transfer semaphores at zero, their cells closed. -/
def Φ₁ (c : Dev nD) : sProp 𝕄 :=
  iprop(scr (F := F) c ∗ bigSep Finset.univ fun k : Fin 4 × Dev nD => semVal (kcell (c, some k)) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => OUT m
  Φ t := match t with
    | ⟨0, _⟩ => Φ₀ m c
    | ⟨_ + 1, _⟩ => Φ₁ (F := F) c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- The body's precondition: the invariant at the point's start, what the device owes, the two staged windows. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- Its postcondition: the invariant after the point, nothing owed, the input window as it was, the result window at `OUT`. -/
def bodyPost (c : Dev nD) : sProp 𝕄 :=
  iprop(Φ₁ (F := F) c ∗ (dats m ρ 0 c).owesAt () t0_0.succ ∗ stg c cc0_stg0_0 (xstg m c) ∗ stg c cc0_stg1_0 (OUT m))

/-- THE BODY'S OBLIGATION, as the launch takes it: one device's body, from `bodyPre` to `bodyPost`. -/
def BodyHolds : Prop := ∀ c : Dev nD,
  bodyPre m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m ρ c)

end Cert.Kernel.AR

end
-- ==== Proof.KLaunch.lean ====
/-
# The launch: from every device's body to the run of the whole mesh

Every device's sixty-five cells and the tokens of the duties it pays are minted in one element; the cells' invariants are
allocated for all devices under one update (a barrier cell is paid by every other device, so no device can allocate its
own alone); the credit a device is dealt at launch is what the other devices owe its cells, summed over the payers (the
payers of `c`'s cells are the devices `bwd c k`); everything a device owes sits at a level above the staging cells.
Given the body's obligation on every device, every fair execution of the program terminates, with each device's
argument array as it was and its result array at `OUT`.
-/
import proofs.«900416_g7700000000000417_dist_ar_v7x_i16_i_m512_n512_bf16_1_alg».proof.Proof.KState
import proofs.«900416_g7700000000000417_dist_ar_v7x_i16_i_m512_n512_bf16_1_alg».proof.Proof.Gen.Kernel.Frame
import Idealize.ShloMosaic.Lib.Pipeline.Launch
import Idealize.ShloMosaic.Lib.Pipeline.Kit

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the body's obligation in the form the launch takes it -/

/-- The sixty-four transfer semaphores, scoped to the kernel. -/
abbrev osem : Fin 4 × Dev nD → SemLoc sig := fun k => csem (some k)

theorem csem_injective : Function.Injective csem := by decide +kernel

theorem ownSemFacts : Pipeline.OwnSemFacts cfg0.spec osem := by decide +kernel

theorem share_eq (c : Dev nD) (w : Fin cfg0.W) : (dats m ρ 0 c).share w = fullShare := by unfold Dat.share; split <;> rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- One device's body, from the invariant at the point's start and the staged windows to the invariant after it. -/
theorem body_obligation (hb : BodyHolds m ρ) (c : Dev nD) : BodyObligation (dats (F := F) m ρ 0 c) (defs₀ (F := F)) 𝒱₀ () Set.univ := fun t => by
  rw [fin_N0 t]
  rw [bigSep_W0, bigSep_W0]
  simp only [owns_whole_eq]
  exact hb c

/-! ## The protocol's launch element: every device's sixty-five cells, and the duties' tokens grouped by the paying device -/

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The five duties device `x.1` pays towards the peer `x.2.1 + 1` places ahead, as (cell, round, duty). -/
def tokOf (x : Dev nD × Fin 15 × Fin 5) : GSem nD τ sig × ℕ × Dev nD :=
  match x.2.2 with
  | 0 => (barCell (fwd x.1 x.2.1), 0, x.1)
  | 1 => (rsRecvCell (fwd x.1 x.2.1) x.1, 0, x.1)
  | 2 => (rsSendCell x.1 (fwd x.1 x.2.1), 0, fwd x.1 x.2.1)
  | 3 => (agRecvCell (fwd x.1 x.2.1) x.1, 0, x.1)
  | 4 => (agSendCell x.1 (fwd x.1 x.2.1), 0, fwd x.1 x.2.1)

/-- The payer, the shift and the kind of duty read back off a token. -/
def tokInv (y : GSem nD τ sig × ℕ × Dev nD) : Dev nD × Fin 15 × Fin 5 :=
  match y.1.2 with
  | .reg _ => (y.2.2, kf y.2.2 y.1.1.1, 0)
  | .dma q =>
    if semArr q = 0 then (y.1.1.1, kf y.1.1.1 (semPeer q), 2)
    else if semArr q = 1 then (semPeer q, kf (semPeer q) y.1.1.1, 1)
    else if semArr q = 2 then (y.1.1.1, kf y.1.1.1 (semPeer q), 4)
    else (semPeer q, kf (semPeer q) y.1.1.1, 3)

theorem tokInv_tokOf : ∀ x : Dev nD × Fin 15 × Fin 5, tokInv (tokOf x) = x := by decide +kernel

theorem tokOf_injective : Function.Injective tokOf := fun a b h => by
  rw [← tokInv_tokOf a, ← tokInv_tokOf b, h]
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- What the launch element deals device `c`: the round state of its cells, its positions and reached-marks, and the
    tokens of the duties it pays. -/
def G (c : Dev nD) : sProp 𝕄 :=
  iprop((bigSep Finset.univ fun k : CK => roundState ER (ringRd m) (kcell (c, k)) 0)
    ∗ (bigSep Finset.univ fun k : CK => iprop(atPos ER (kcell (c, k)) 0 ∅ 0 ∗ reached ER (kcell (c, k)) 0)) ∗ payToks (F := F) c)

/-- What the global step makes of it. -/
def G' (c : Dev nD) : sProp 𝕄 := iprop(∃ K, ghost m K c)

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

theorem fund_ring : BI.own (ER (initOf ringCells ringToks)) ⊢ (|==> bigSep Finset.univ (G (F := F) m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => payToks (F := F) c := by
    unfold ringToks; rw [bigSep_map, bigSep_univ_prod]
    refine bigSep_congr fun c _ => ?_
    unfold payToks; rw [bigSep_univ_prod]
    exact bigSep_congr fun k _ => by rw [bigSep_fin5]; rfl
  iintro HX
  imod (Rounds.fund ER (ringRd (F := F) m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The global step: every cell's invariant allocated, the records shared, each device its ghost state -/

/-- A device's cells one by one: the barrier cell, then the sixty-four transfer cells. -/
theorem bigSep_CK (Φ : CK → sProp 𝕄) :
    bigSep Finset.univ Φ = iprop(Φ none ∗ bigSep Finset.univ fun k : Fin 4 × Dev nD => Φ (some k)) := by
  have h : (Finset.univ.erase (none : CK)) = Finset.univ.map Function.Embedding.some := by
    ext k; cases k <;> simp
  rw [bigSep_univ_at Φ none, h, bigSep_map]; rfl

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ payToks (F := F) c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m) (kcell (c, k)) 0)
      ⊢ (|={Set.univ}=> bigSep Finset.univ fun k : CK => iprop(∃ κ : ℕ, cellInv ER (ringRd m) κ (kcell (c, k))) : sProp 𝕄) from by
        rw [← bigSep_sep']
        exact (bigSep_mono fun k _ => (Rounds.body_intro ER (ringRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions (F := F) c ∗ payToks (F := F) c) ⊢ G' m c := by
  unfold G' ghost
  iintro H
  iexists K
  iexact H

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (ringRd m) κ (kcell (c, k))))
          ∗ (bigSep Finset.univ fun k : CK => iprop(atPos ER (kcell (c, k)) 0 ∅ 0 ∗ reached ER (kcell (c, k)) 0)) ∗ payToks (F := F) c) : sProp 𝕄)
      ⊢ bigSep Finset.univ (G' m) := by
  rw [bigSep_sep', bigSep_sep', ← bigSep_univ_prod (fun ck : Dev nD × CK => iprop(∃ κ : ℕ, cellInv ER (ringRd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => positions (F := F) c) (fun c : Dev nD => payToks (F := F) c)).symm)
    isplitl [Hat]; · iexact Hat
    iexact Htok

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit: what the devices owe a device's cells, summed over the payers, is what its own waits are credited -/

/-- The shift by `k + 1` places as a permutation of the devices. -/
def shiftEquiv (k : Fin 15) : Dev nD ≃ Dev nD := ⟨fun d => fwd d k, fun c => bwd c k, fun d => bwd_fwd d k, fun c => fwd_bwd c k⟩

/-- A device's own credit: its barrier's fifteen units, and one transfer's units on each receive cell. -/
def T₀ (c : Dev nD) : CellTallies nD τ sig Unit :=
  tallyAt (barCell c) () 15 + ∑ k : Fin 15, (tallyAt (rsRecvCell c (bwd c k)) () NC + tallyAt (agRecvCell c (bwd c k)) () NC)

theorem filter_zero_le : (Finset.univ.filter fun k : Fin 15 => 0 ≤ k.val) = Finset.univ :=
  Finset.filter_true_of_mem fun _ _ => Nat.zero_le _

/-- Summed over the payers `d` and the shifts, a due on a cell of `fwd d k` is a due on a cell of `c` from `bwd c k`. -/
theorem sum_shift (f : Dev nD → Dev nD → CellTallies nD τ sig Unit) :
    ∑ d : Dev nD, ∑ k : Fin 15, f (fwd d k) d = ∑ c : Dev nD, ∑ k : Fin 15, f c (bwd c k) := by
  have h (k : Fin 15) : ∑ d : Dev nD, f (fwd d k) d = ∑ c : Dev nD, f c (bwd c k) := by
    rw [← Equiv.sum_comp (shiftEquiv k) (fun c => f c (bwd c k))]
    exact Finset.sum_congr rfl fun d _ => by
      show f (fwd d k) d = f (fwd d k) (bwd (fwd d k) k)
      rw [bwd_fwd]
  rw [Finset.sum_comm, Finset.sum_congr rfl fun k _ => h k, Finset.sum_comm]

theorem nsmul_tallyAt (g : GSem nD τ sig) (n a : ℕ) : n • (tallyAt g () a : CellTallies nD τ sig Unit) = tallyAt g () (n * a) := by
  induction n with
  | zero => rw [zero_smul, Nat.zero_mul, tallyAt_zero]
  | succ n ih => rw [succ_nsmul, ih, tallyAt_add, Nat.succ_mul]

theorem owed_sum : (∑ d : Dev nD, O₀ d) = ∑ d : Dev nD, T₀ d := by
  have hb (c : Dev nD) : ∑ k : Fin 15, (tallyAt (barCell c) () 1 : CellTallies nD τ sig Unit) = tallyAt (barCell c) () 15 := by
    rw [Finset.sum_const, Finset.card_univ, Fintype.card_fin, nsmul_tallyAt]
  unfold O₀ Oag Ors Osig T₀
  simp only [filter_zero_le, Finset.sum_add_distrib]
  rw [sum_shift (fun c d => tallyAt (agRecvCell c d) () NC), sum_shift (fun c d => tallyAt (rsRecvCell c d) () NC),
    sum_shift (fun c _ => tallyAt (barCell c) () 1), Finset.sum_congr rfl fun c _ => hb c, add_comm]
  exact congrArg _ (add_comm _ _)

theorem T₀_own (d : Dev nD) (g : GSem nD τ sig) (h : T₀ d g ≠ 0) : g.1 = (d : Thread nD τ) := by
  by_contra hne
  apply h
  unfold T₀
  rw [Pi.add_apply, Finset.sum_apply, tallyAt_ne_cell (fun e => hne (by rw [e])), zero_add]
  refine Finset.sum_eq_zero fun k _ => ?_
  rw [Pi.add_apply, tallyAt_ne_cell (fun e => hne (by rw [e])), tallyAt_ne_cell (fun e => hne (by rw [e])), add_zero]

theorem creds_intro (c : Dev nD) : (Pipeline.launchCred O₀ c : sProp 𝕄) ⊢ creds (F := F) c := by
  rw [Pipeline.launchCred_of_sum O₀ T₀ owed_sum T₀_own c]
  unfold T₀ creds
  refine (cred_add _ _).1.trans (sep_mono_right ?_)
  rw [Pipeline.cred_finsetSum]
  exact bigSep_mono fun k _ => (cred_add _ _).1

/-! ## The levels: everything a device owes sits above the staging cells -/

theorem L_of_ne (g : GSem nD τ sig) (h : g.1.2 ≠ .tc) : L g = ∅ := if_neg h
theorem L_dev (c : Dev nD) (sm : SemLoc sig) : L ((c : Thread nD τ), sm) = {()} := if_pos rfl

theorem lvl_bar (d : Dev nD) (u : Unit) : lv (barCell d) u = 1 := rfl
theorem lvl_rsRecv (d j : Dev nD) (u : Unit) : lv (rsRecvCell d j) u = 2 := by
  show (if 2 ≤ (rsRecvS j).val ∧ semArr (rsRecvS j) = 1 then 2 else if 2 ≤ (rsRecvS j).val ∧ semArr (rsRecvS j) = 3 then 3 else 0) = 2
  rw [if_pos ⟨two_le_rsRecv j, semArr_rsRecv j⟩]
theorem lvl_agRecv (d j : Dev nD) (u : Unit) : lv (agRecvCell d j) u = 3 := by
  show (if 2 ≤ (agRecvS j).val ∧ semArr (agRecvS j) = 1 then 2 else if 2 ≤ (agRecvS j).val ∧ semArr (agRecvS j) = 3 then 3 else 0) = 3
  rw [if_neg (fun h => by have h2 := h.2; rw [semArr_agRecv] at h2; exact absurd h2 (by decide)), if_pos ⟨two_le_agRecv j, semArr_agRecv j⟩]

/-- Whatever a device owes at launch is owed to a TensorCore's cell at a positive level. -/
theorem lv_pos_of_owed {c : Dev nD} {g : GSem nD τ sig} {u : Unit} (h : 0 < O₀ c g u) : u ∈ L g ∧ 0 < lv g u := by
  unfold O₀ at h
  rcases Pipeline.add_pos_cases h with h | h
  · rcases Pipeline.add_pos_cases h with h | h
    · unfold Oag at h
      obtain ⟨k, -, hk⟩ := Pipeline.sum_pos_exists h
      obtain ⟨rfl, -⟩ := Pipeline.tallyAt_pos hk
      exact ⟨by rw [L_dev]; exact Finset.mem_singleton_self _, by rw [lvl_agRecv]; decide⟩
    · unfold Ors at h
      obtain ⟨k, -, hk⟩ := Pipeline.sum_pos_exists h
      obtain ⟨rfl, -⟩ := Pipeline.tallyAt_pos hk
      exact ⟨by rw [L_dev]; exact Finset.mem_singleton_self _, by rw [lvl_rsRecv]; decide⟩
  · unfold Osig at h
    obtain ⟨k, -, hk⟩ := Pipeline.sum_pos_exists h
    obtain ⟨rfl, -⟩ := Pipeline.tallyAt_pos hk
    exact ⟨by rw [L_dev]; exact Finset.mem_singleton_self _, by rw [lvl_bar]; decide⟩

/-- A staging cell sits at level 0: a device may wait on it whatever it still owes. -/
theorem mayWait_stage (c : Dev nD) (q : DmaSem sig) (hq : ¬ 2 ≤ q.val) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_dev]; exact Finset.mem_singleton_self _) fun g i hg => ?_
    obtain ⟨h1, h2⟩ := lv_pos_of_owed hg
    refine ⟨h1, ?_⟩
    have h0 : lv ((c : Thread nD τ), .dma q) () = 0 := by
      show (if 2 ≤ q.val ∧ semArr q = 1 then 2 else if 2 ≤ q.val ∧ semArr q = 3 then 3 else 0) = 0
      rw [if_neg (fun h => hq h.1), if_neg (fun h => hq h.1)]
    rw [h0]; exact h2
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## What a device holds when its body starts, and what it hands back when its body ends -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ scr
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁ scr Pipeline.ownSems0
  iintro ⟨Hr, Hz⟩
  isplitr; · iempintro
  isplitl [Hz]; · iexact Hz
  iexact Hr

/-! ## The run -/

/-- A windowed array's final contents on device `c`. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, given the body's
    obligation on every device: every weakly fair execution of the program terminates, and every final state has each
    device's argument array as it was and its result array at the all-reduced contents. -/
theorem run_main (hb : BodyHolds m ρ) : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ hb) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = m ((c : Thread nD τ).loc main_arg0) :=
  (dats (F := F) m ρ 0 c).arrAt_in (0 : Fin 2) rfl _

/-- The result array after the run: the one write-back, of the whole block, leaves what the body left staged. -/
theorem finalA_out (c : Dev nD) : finalA m ρ c (1 : Fin 2) = OUT m := by
  have hw : ((cfg0.win (1 : Fin 2)).blk t0_0).view.read (Elt F) (finalA m ρ c (1 : Fin 2)) = (dats m ρ 0 c).flushed (1 : Fin 2) t0_0 := by
    unfold finalA
    rw [show cfg0.N = t0_0.val + 1 from rfl, (dats m ρ 0 c).arrAt_succ (1 : Fin 2) t0_0, flush0_1, if_pos rfl]
    exact View.read_write_univ _ _
  have hr : (win0_1.blk t0_0).view.read (Elt F) (finalA m ρ c (1 : Fin 2)) = finalA m ρ c (1 : Fin 2) :=
    Memref.read_access_unit_zero (Elt F) main_v1
      (show (fun a => (win0_1.index t0_0) a * main_v1.ty.shape.size a) = fun _ => 0 from funext fun a => by fin_cases a <;> decide)
      (fun a => by fin_cases a <;> decide) _
  have hf : (dats m ρ 0 c).flushed (1 : Fin 2) t0_0 = OUT m := rfl
  exact (hr.symm.trans hw).trans hf

/-- info: 'Cert.Kernel.AR.run_main' depends on axioms: [propext, Classical.choice, Quot.sound] -/
#guard_msgs in #print axioms run_main
/-- info: 'Cert.Kernel.AR.finalA_x' depends on axioms: [propext, Classical.choice, Quot.sound] -/
#guard_msgs in #print axioms finalA_x
/-- info: 'Cert.Kernel.AR.finalA_out' depends on axioms: [propext, Classical.choice, Quot.sound] -/
#guard_msgs in #print axioms finalA_out

end Cert.Kernel.AR

end
-- ==== Proof.KRes.lean ====
/-
# The body's resources, by family and progress counter

Each loop of the body (fifteen signals, fifteen first transfers, fifteen receives, …) consumes one family of resources
shift by shift. A family at counter `n` holds the shifts `k ≥ n` still to do (`ge n`) or the results of the shifts
`k < n` done (`lt n`); one step moves one shift across.
-/
import proofs.«900416_g7700000000000417_dist_ar_v7x_i16_i_m512_n512_bf16_1_alg».proof.Proof.KState

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Shifts still to do, shifts done -/

def ge (n : ℕ) : Finset (Fin 15) := Finset.univ.filter fun k => n ≤ k.val
def lt (n : ℕ) : Finset (Fin 15) := Finset.univ.filter fun k => k.val < n

theorem ge_peel (k : Fin 15) : ge k.val = insert k (ge (k.val + 1)) := by
  ext j; simp only [ge, Finset.mem_filter, Finset.mem_univ, true_and, Finset.mem_insert, Fin.ext_iff]; omega
theorem not_mem_ge_succ (k : Fin 15) : k ∉ ge (k.val + 1) := by
  simp only [ge, Finset.mem_filter, Finset.mem_univ, true_and]; omega
theorem lt_push (k : Fin 15) : lt (k.val + 1) = insert k (lt k.val) := by
  ext j; simp only [lt, Finset.mem_filter, Finset.mem_univ, true_and, Finset.mem_insert, Fin.ext_iff]; omega
theorem not_mem_lt (k : Fin 15) : k ∉ lt k.val := by
  simp only [lt, Finset.mem_filter, Finset.mem_univ, true_and]; omega
theorem ge_zero : ge 0 = Finset.univ := by ext j; simp [ge]
theorem ge_fifteen : ge 15 = ∅ := by ext j; simp only [ge, Finset.mem_filter, Finset.mem_univ, true_and, Finset.notMem_empty, iff_false]; omega
theorem lt_zero : lt 0 = ∅ := by ext j; simp [lt]
theorem lt_fifteen : lt 15 = Finset.univ := by ext j; simp only [lt, Finset.mem_filter, Finset.mem_univ, true_and, iff_true]; omega

/-- One shift taken off a family still to do. -/
theorem bigSep_ge_peel (Φ : Fin 15 → sProp 𝕄) (n : ℕ) (k : Fin 15) (n' : ℕ) (hn : n = k.val) (h : n' = k.val + 1) :
    bigSep (ge n) Φ = iprop(Φ k ∗ bigSep (ge n') Φ) := by
  subst hn; subst h; rw [ge_peel, bigSep_insert (not_mem_ge_succ k)]; rfl
/-- One shift added to a family done. -/
theorem bigSep_lt_push (Φ : Fin 15 → sProp 𝕄) (n : ℕ) (k : Fin 15) (n' : ℕ) (hn : n = k.val) (h : n' = k.val + 1) :
    bigSep (lt n') Φ = iprop(Φ k ∗ bigSep (lt n) Φ) := by
  subst hn; subst h; rw [lt_push, bigSep_insert (not_mem_lt k)]; rfl
theorem bigSep_ge_fifteen (Φ : Fin 15 → sProp 𝕄) : bigSep (ge 15) Φ = iprop(emp) := by rw [ge_fifteen, bigSep_empty]; rfl
theorem bigSep_lt_zero (Φ : Fin 15 → sProp 𝕄) : bigSep (lt 0) Φ = iprop(emp) := by rw [lt_zero, bigSep_empty]; rfl

/-! ## What a device owes, peeled in the order it pays -/

theorem Osig_peel (c : Dev nD) (n : ℕ) (k : Fin 15) (n' : ℕ) (hn : n = k.val) (h : n' = k.val + 1) :
    Osig c n = Osig c n' + tallyAt (barCell (fwd c k)) () 1 := by
  subst hn; subst h; unfold Osig; rw [show (Finset.univ.filter fun j : Fin 15 => k.val ≤ j.val) = ge k.val from rfl, ge_peel,
    Finset.sum_insert (not_mem_ge_succ k)]; exact add_comm _ _
theorem Ors_peel (c : Dev nD) (n : ℕ) (k : Fin 15) (n' : ℕ) (hn : n = k.val) (h : n' = k.val + 1) :
    Ors c n = Ors c n' + tallyAt (rsRecvCell (fwd c k) c) () NC := by
  subst hn; subst h; unfold Ors; rw [show (Finset.univ.filter fun j : Fin 15 => k.val ≤ j.val) = ge k.val from rfl, ge_peel,
    Finset.sum_insert (not_mem_ge_succ k)]; exact add_comm _ _
theorem Oag_peel (c : Dev nD) (n : ℕ) (k : Fin 15) (n' : ℕ) (hn : n = k.val) (h : n' = k.val + 1) :
    Oag c n = Oag c n' + tallyAt (agRecvCell (fwd c k) c) () NC := by
  subst hn; subst h; unfold Oag; rw [show (Finset.univ.filter fun j : Fin 15 => k.val ≤ j.val) = ge k.val from rfl, ge_peel,
    Finset.sum_insert (not_mem_ge_succ k)]; exact add_comm _ _
theorem Osig_done (c : Dev nD) : Osig c 15 = 0 := by
  unfold Osig; rw [show (Finset.univ.filter fun j : Fin 15 => 15 ≤ j.val) = ge 15 from rfl, ge_fifteen, Finset.sum_empty]
theorem Ors_done (c : Dev nD) : Ors c 15 = 0 := by
  unfold Ors; rw [show (Finset.univ.filter fun j : Fin 15 => 15 ≤ j.val) = ge 15 from rfl, ge_fifteen, Finset.sum_empty]
theorem Oag_done (c : Dev nD) : Oag c 15 = 0 := by
  unfold Oag; rw [show (Finset.univ.filter fun j : Fin 15 => 15 ≤ j.val) = ge 15 from rfl, ge_fifteen, Finset.sum_empty]

/-! ## Row slots -/

/-- Rows `32 p …` (`p = fwd c k`) of device `c`'s own receive buffer / staged result: what `c`'s signal hands `p`. -/
def ownSlotS (c : Dev nD) (k : Fin 15) : sProp 𝕄 :=
  iprop(∃ f, (sRow (fwd c k)).view.loc (c : Thread nD τ) ↦[(sRow (fwd c k)).view.set]{fullShare} f)
def ownSlotO (c : Dev nD) (k : Fin 15) : sProp 𝕄 :=
  iprop(∃ f, (oRow (fwd c k)).view.loc (c : Thread nD τ) ↦[(oRow (fwd c k)).view.set]{fullShare} f)
/-- Rows `32 c …` of the peer `p = fwd c k`'s receive buffer / staged result: what `p`'s signal hands `c`. -/
def peerSlotS (c : Dev nD) (k : Fin 15) : sProp 𝕄 :=
  iprop(∃ f, (sRow c).view.loc (fwd c k : Thread nD τ) ↦[(sRow c).view.set]{fullShare} f)
def peerSlotO (c : Dev nD) (k : Fin 15) : sProp 𝕄 :=
  iprop(∃ f, (oRow c).view.loc (fwd c k : Thread nD τ) ↦[(oRow c).view.set]{fullShare} f)

theorem barPay_own (c : Dev nD) (k : Fin 15) : barPay (F := F) (fwd c k) c = iprop(ownSlotS c k ∗ ownSlotO c k) := rfl
theorem barPay_peer (c : Dev nD) (k : Fin 15) : barPay (F := F) c (fwd c k) = iprop(peerSlotS c k ∗ peerSlotO c k) := rfl

/-! ## The families -/

/-- Signals still to send: the duty's token and the two slots it hands over. -/
def SigR (c : Dev nD) (n : ℕ) : sProp 𝕄 := bigSep (ge n) fun k =>
  iprop(dutyTok ER (barCell (fwd c k)) 0 c ∗ ownSlotS (F := F) c k ∗ ownSlotO (F := F) c k)

/-- First transfers still to start: the two duties' tokens, the peer's slot, the rows to send. -/
def Send1R (c : Dev nD) (n : ℕ) : sProp 𝕄 := bigSep (ge n) fun k =>
  iprop(dutyTok ER (rsRecvCell (fwd c k) c) 0 c ∗ dutyTok ER (rsSendCell c (fwd c k)) 0 (fwd c k) ∗ peerSlotS (F := F) c k
    ∗ ((bRow (fwd c k)).view.loc (c : Thread nD τ) ↦[(bRow (fwd c k)).view.set]{fullShare} xb m c))
/-- First transfers started: the credit on the send cell each returned. -/
def Send1D (c : Dev nD) (n : ℕ) : sProp 𝕄 := bigSep (lt n) fun k => cred (tallyAt (rsSendCell c (fwd c k)) () NC)

/-- First-round receives still to wait for: the position and the credit dealt at launch. -/
def Recv1R (c : Dev nD) (n : ℕ) : sProp 𝕄 := bigSep (ge n) fun k =>
  iprop(atPos ER (rsRecvCell c (bwd c k)) 0 ∅ 0 ∗ cred (tallyAt (rsRecvCell c (bwd c k)) () NC))
/-- First-round receives done: the position past the round and the landed rows. -/
def Recv1D (c : Dev nD) (n : ℕ) : sProp 𝕄 := bigSep (lt n) fun k =>
  iprop(atPos ER (rsRecvCell c (bwd c k)) 1 ∅ 0 ∗ rsRecvPay m c (bwd c k))

/-- Second transfers still to start: the two duties' tokens, the peer's slot, the read share of the reduced rows. -/
def Send2R (c : Dev nD) (n : ℕ) : sProp 𝕄 := bigSep (ge n) fun k =>
  iprop(dutyTok ER (agRecvCell (fwd c k) c) 0 c ∗ dutyTok ER (agSendCell c (fwd c k)) 0 (fwd c k) ∗ peerSlotO (F := F) c k
    ∗ ((rM : Memref sig .tc .vmem S32x512 .bf16).view.loc (c : Thread nD τ) ↦[(rM : Memref sig .tc .vmem S32x512 .bf16).view.set]{Transfers.shareTok fullShare 15 k} red m c))
def Send2D (c : Dev nD) (n : ℕ) : sProp 𝕄 := bigSep (lt n) fun k => cred (tallyAt (agSendCell c (fwd c k)) () NC)

def Recv2R (c : Dev nD) (n : ℕ) : sProp 𝕄 := bigSep (ge n) fun k =>
  iprop(atPos ER (agRecvCell c (bwd c k)) 0 ∅ 0 ∗ cred (tallyAt (agRecvCell c (bwd c k)) () NC))
def Recv2D (c : Dev nD) (n : ℕ) : sProp 𝕄 := bigSep (lt n) fun k =>
  iprop(atPos ER (agRecvCell c (bwd c k)) 1 ∅ 0 ∗ agRecvPay m c (bwd c k))

/-- Send cells still to wait for: the position and the credit the transfer returned. -/
def Wait1R (c : Dev nD) (n : ℕ) : sProp 𝕄 := bigSep (ge n) fun k =>
  iprop(atPos ER (rsSendCell c (fwd c k)) 0 ∅ 0 ∗ cred (tallyAt (rsSendCell c (fwd c k)) () NC))
def Wait1D (c : Dev nD) (n : ℕ) : sProp 𝕄 := bigSep (lt n) fun k =>
  iprop(atPos ER (rsSendCell c (fwd c k)) 1 ∅ 0 ∗ rsSendPay m c (fwd c k))
def Wait2R (c : Dev nD) (n : ℕ) : sProp 𝕄 := bigSep (ge n) fun k =>
  iprop(atPos ER (agSendCell c (fwd c k)) 0 ∅ 0 ∗ cred (tallyAt (agSendCell c (fwd c k)) () NC))
def Wait2D (c : Dev nD) (n : ℕ) : sProp 𝕄 := bigSep (lt n) fun k =>
  iprop(atPos ER (agSendCell c (fwd c k)) 1 ∅ 0 ∗ agSendPay m c (fwd c k))

/-! ## One invariant, one reached-mark out of the records -/

theorem inv_at (K : Dev nD × CK → ℕ) (ck : Dev nD × CK) : records m K ⊢ cellInv ER (ringRd m) (K ck) (kcell ck) := by
  unfold records; iintro ⟨HI, -⟩
  iapply (show (bigSep Finset.univ fun ck : Dev nD × CK => (cellInv ER (ringRd m) (K ck) (kcell ck) : sProp 𝕄)) ⊢ cellInv ER (ringRd m) (K ck) (kcell ck) from bigSep_elim (Finset.mem_univ ck))
  iexact HI
theorem reached_at (K : Dev nD × CK → ℕ) (ck : Dev nD × CK) : records m K ⊢ reached ER (kcell ck) 0 := by
  unfold records; iintro ⟨-, HR⟩
  iapply (show (bigSep Finset.univ fun ck : Dev nD × CK => (reached ER (kcell ck) 0 : sProp 𝕄)) ⊢ reached ER (kcell ck) 0 from bigSep_elim (Finset.mem_univ ck))
  iexact HR

end Cert.Kernel.AR

end
-- ==== Proof.KRegroup.lean ====
/-
# Regrouping what the launch deals a device into the body's families
-/
import proofs.«900416_g7700000000000417_dist_ar_v7x_i16_i_m512_n512_bf16_1_alg».proof.Proof.KRes

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The five kinds of tokens a device pays with, each over the fifteen shifts. -/
def TSig (c : Dev nD) : sProp 𝕄 := bigSep Finset.univ fun k : Fin 15 => dutyTok ER (barCell (fwd c k)) 0 c
def TRr (c : Dev nD) : sProp 𝕄 := bigSep Finset.univ fun k : Fin 15 => dutyTok ER (rsRecvCell (fwd c k) c) 0 c
def TRs (c : Dev nD) : sProp 𝕄 := bigSep Finset.univ fun k : Fin 15 => dutyTok ER (rsSendCell c (fwd c k)) 0 (fwd c k)
def TAr (c : Dev nD) : sProp 𝕄 := bigSep Finset.univ fun k : Fin 15 => dutyTok ER (agRecvCell (fwd c k) c) 0 c
def TAs (c : Dev nD) : sProp 𝕄 := bigSep Finset.univ fun k : Fin 15 => dutyTok ER (agSendCell c (fwd c k)) 0 (fwd c k)

theorem payToks_split (c : Dev nD) : payToks (F := F) c = iprop(TSig c ∗ TRr c ∗ TRs c ∗ TAr c ∗ TAs c) := by
  unfold payToks TSig TRr TRs TAr TAs
  rw [bigSep_sep', bigSep_sep', bigSep_sep', bigSep_sep']

/-- The signals' family at the start: the tokens with the device's own fifteen slot pairs. -/
theorem SigR_zero (c : Dev nD) :
    SigR (F := F) c 0 = iprop(TSig c ∗ (bigSep Finset.univ fun k : Fin 15 => ownSlotS (F := F) c k) ∗ bigSep Finset.univ fun k : Fin 15 => ownSlotO (F := F) c k) := by
  unfold SigR TSig; rw [ge_zero, bigSep_sep', bigSep_sep']

theorem Send1R_zero (c : Dev nD) :
    Send1R m c 0 = iprop(TRr (F := F) c ∗ TRs (F := F) c ∗ (bigSep Finset.univ fun k : Fin 15 => peerSlotS (F := F) c k)
      ∗ bigSep Finset.univ fun k : Fin 15 => ((bRow (fwd c k)).view.loc (c : Thread nD τ) ↦[(bRow (fwd c k)).view.set]{fullShare} xb m c)) := by
  unfold Send1R TRr TRs; rw [ge_zero, bigSep_sep', bigSep_sep', bigSep_sep']

theorem Send2R_zero (c : Dev nD) :
    Send2R m c 0 = iprop(TAr (F := F) c ∗ TAs (F := F) c ∗ (bigSep Finset.univ fun k : Fin 15 => peerSlotO (F := F) c k)
      ∗ bigSep Finset.univ fun k : Fin 15 => ((rM : Memref sig .tc .vmem S32x512 .bf16).view.loc (c : Thread nD τ) ↦[(rM : Memref sig .tc .vmem S32x512 .bf16).view.set]{Transfers.shareTok fullShare 15 k} red m c)) := by
  unfold Send2R TAr TAs; rw [ge_zero, bigSep_sep', bigSep_sep', bigSep_sep']

theorem creds_split (c : Dev nD) :
    creds (F := F) c = iprop(cred (tallyAt (barCell c) () 15) ∗ (bigSep Finset.univ fun k : Fin 15 => cred (tallyAt (rsRecvCell c (bwd c k)) () NC))
      ∗ bigSep Finset.univ fun k : Fin 15 => cred (tallyAt (agRecvCell c (bwd c k)) () NC)) := by
  unfold creds; rw [bigSep_sep']

theorem Recv1R_zero (c : Dev nD) :
    Recv1R (F := F) c 0 = iprop((bigSep Finset.univ fun k : Fin 15 => atPos ER (rsRecvCell c (bwd c k)) 0 ∅ 0)
      ∗ bigSep Finset.univ fun k : Fin 15 => cred (tallyAt (rsRecvCell c (bwd c k)) () NC)) := by
  unfold Recv1R; rw [ge_zero, bigSep_sep']
theorem Recv2R_zero (c : Dev nD) :
    Recv2R (F := F) c 0 = iprop((bigSep Finset.univ fun k : Fin 15 => atPos ER (agRecvCell c (bwd c k)) 0 ∅ 0)
      ∗ bigSep Finset.univ fun k : Fin 15 => cred (tallyAt (agRecvCell c (bwd c k)) () NC)) := by
  unfold Recv2R; rw [ge_zero, bigSep_sep']
/-- The send cells' waits at their start: the positions with the credit the fifteen transfers returned. -/
theorem Wait1R_zero (c : Dev nD) :
    Wait1R (F := F) c 0 = iprop((bigSep Finset.univ fun k : Fin 15 => atPos ER (rsSendCell c (fwd c k)) 0 ∅ 0) ∗ Send1D (F := F) c 15) := by
  unfold Wait1R Send1D; rw [ge_zero, lt_fifteen, bigSep_sep']
theorem Wait2R_zero (c : Dev nD) :
    Wait2R (F := F) c 0 = iprop((bigSep Finset.univ fun k : Fin 15 => atPos ER (agSendCell c (fwd c k)) 0 ∅ 0) ∗ Send2D (F := F) c 15) := by
  unfold Wait2R Send2D; rw [ge_zero, lt_fifteen, bigSep_sep']

/-- The finished families, split back. -/
theorem Recv1D_done (c : Dev nD) :
    Recv1D m c 15 = iprop((bigSep Finset.univ fun k : Fin 15 => atPos ER (rsRecvCell c (bwd c k)) 1 ∅ 0) ∗ bigSep Finset.univ fun k : Fin 15 => rsRecvPay m c (bwd c k)) := by
  unfold Recv1D; rw [lt_fifteen, bigSep_sep']
theorem Recv2D_done (c : Dev nD) :
    Recv2D m c 15 = iprop((bigSep Finset.univ fun k : Fin 15 => atPos ER (agRecvCell c (bwd c k)) 1 ∅ 0) ∗ bigSep Finset.univ fun k : Fin 15 => agRecvPay m c (bwd c k)) := by
  unfold Recv2D; rw [lt_fifteen, bigSep_sep']
theorem Wait1D_done (c : Dev nD) :
    Wait1D m c 15 = iprop((bigSep Finset.univ fun k : Fin 15 => atPos ER (rsSendCell c (fwd c k)) 1 ∅ 0) ∗ bigSep Finset.univ fun k : Fin 15 => rsSendPay m c (fwd c k)) := by
  unfold Wait1D; rw [lt_fifteen, bigSep_sep']
theorem Wait2D_done (c : Dev nD) :
    Wait2D m c 15 = iprop((bigSep Finset.univ fun k : Fin 15 => atPos ER (agSendCell c (fwd c k)) 1 ∅ 0) ∗ bigSep Finset.univ fun k : Fin 15 => agSendPay m c (fwd c k)) := by
  unfold Wait2D; rw [lt_fifteen, bigSep_sep']

end Cert.Kernel.AR

end
-- ==== Proof.KRows.lean ====
/-
# Row blocks and shares

A 512-row buffer held whole is the sixteen row blocks of thirty-two rows; the sixteen devices are one device and the
fifteen shifts from it; the reduced rows held whole are fifteen read shares and a remainder.
-/
import proofs.«900416_g7700000000000417_dist_ar_v7x_i16_i_m512_n512_bf16_1_alg».proof.Proof.KRes

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The sixteen row blocks partition the 512 rows -/

/-- Distinct devices' row blocks share no row. -/
theorem rows_disjoint (j j' : Dev nD) (h : j ≠ j') : Disjoint (rows j).set (rows j').set := by
  refine Rect.unit_disjoint (0 : Fin 2) ?_
  rw [k0_off3_eq j, k0_off3_eq j']
  have hne : j.val ≠ j'.val := fun e => h (Fin.ext e)
  show 32 * j.val + 32 ≤ 32 * j'.val ∨ 32 * j'.val + 32 ≤ 32 * j.val
  omega

/-- Every row lies in the block of the device `⌊row / 32⌋`. -/
theorem rows_cover : (Finset.univ : Finset (Dev nD)).biUnion (fun j => (rows j).set) = Finset.univ := by
  ext i
  simp only [Finset.mem_biUnion, Finset.mem_univ, true_and, iff_true]
  refine ⟨blkOf i, Rect.mem_set_unit.mpr ?_⟩
  rw [k0_off3_eq]
  have h0 : (i 0).val < 512 := (i 0).isLt
  have h1 : (i 1).val < 512 := (i 1).isLt
  refine Fin.forall_fin_two.mpr ⟨?_, ?_⟩
  · show 32 * ((i 0).val / 32) ≤ (i 0).val ∧ (i 0).val < 32 * ((i 0).val / 32) + 32; omega
  · show 0 ≤ (i 1).val ∧ (i 1).val < 0 + 512; omega

/-- A buffer held whole is the pieces of any family of sixteen pairwise disjoint element sets that cover it. -/
theorem pointsTo_sixteen {ℓ : Loc nD τ sig} (K : Dev nD → Finset (Idx ℓ)) (hd : ∀ j j', j ≠ j' → Disjoint (K j) (K j'))
    (hc : (Finset.univ : Finset (Dev nD)).biUnion K = Finset.univ) (f : Buf (Elt F) ℓ) :
    ((ℓ ↦{fullShare} f : sProp 𝕄)) = bigSep (Finset.univ : Finset (Dev nD)) fun j => ℓ ↦[K j]{fullShare} f := by
  rw [← hc]; exact pointsTo_biUnion _ K (fun j _ j' _ h => hd j j' h)

/-! ## A 512-row buffer held whole is its sixteen row blocks -/

theorem bRow_set (j : Dev nD) : (bRow j).view.set = (rows j).set := View.set_slice_whole _ _
/-- The rounded copy, whole, is its sixteen row blocks. -/
theorem bM_rows (c : Dev nD) (f : Buf (Elt F) ((c : Thread nD τ).loc cc0_scratch0)) :
    ((((c : Thread nD τ).loc cc0_scratch0) ↦{fullShare} f : sProp 𝕄))
      = bigSep (Finset.univ : Finset (Dev nD)) fun j => (bRow j).view.loc (c : Thread nD τ) ↦[(bRow j).view.set]{fullShare} f := by
  have hset : ∀ j : Dev nD, ((bRow j).view.set : Finset (Idealize.ShloMosaic.Idx ((c : Thread nD τ).loc cc0_scratch0))) = (rows j).set :=
    fun j => View.set_slice_whole _ _
  have hd : ∀ j j' : Dev nD, j ≠ j' →
      Disjoint ((bRow j).view.set : Finset (Idealize.ShloMosaic.Idx ((c : Thread nD τ).loc cc0_scratch0))) ((bRow j').view.set) :=
    fun j j' h => by rw [hset, hset]; exact rows_disjoint j j' h
  have hc : (Finset.univ : Finset (Dev nD)).biUnion (β := Idealize.ShloMosaic.Idx ((c : Thread nD τ).loc cc0_scratch0)) (fun j => (bRow j).view.set)
      = Finset.univ := by
    simp only [hset]; exact rows_cover
  exact (pointsTo_sixteen (ℓ := (c : Thread nD τ).loc cc0_scratch0) _ hd hc f).trans (bigSep_congr fun j _ => rfl)

theorem sRow_set (j : Dev nD) : (sRow j).view.set = (rows j).set := View.set_slice_whole _ _
/-- The receive buffer, whole, is its sixteen row blocks. -/
theorem sM_rows (c : Dev nD) (f : Buf (Elt F) ((c : Thread nD τ).loc cc0_scratch2)) :
    ((((c : Thread nD τ).loc cc0_scratch2) ↦{fullShare} f : sProp 𝕄))
      = bigSep (Finset.univ : Finset (Dev nD)) fun j => (sRow j).view.loc (c : Thread nD τ) ↦[(sRow j).view.set]{fullShare} f := by
  have hset : ∀ j : Dev nD, ((sRow j).view.set : Finset (Idealize.ShloMosaic.Idx ((c : Thread nD τ).loc cc0_scratch2))) = (rows j).set :=
    fun j => View.set_slice_whole _ _
  have hd : ∀ j j' : Dev nD, j ≠ j' →
      Disjoint ((sRow j).view.set : Finset (Idealize.ShloMosaic.Idx ((c : Thread nD τ).loc cc0_scratch2))) ((sRow j').view.set) :=
    fun j j' h => by rw [hset, hset]; exact rows_disjoint j j' h
  have hc : (Finset.univ : Finset (Dev nD)).biUnion (β := Idealize.ShloMosaic.Idx ((c : Thread nD τ).loc cc0_scratch2)) (fun j => (sRow j).view.set)
      = Finset.univ := by
    simp only [hset]; exact rows_cover
  exact (pointsTo_sixteen (ℓ := (c : Thread nD τ).loc cc0_scratch2) _ hd hc f).trans (bigSep_congr fun j _ => rfl)

theorem oRow_set (j : Dev nD) : (oRow j).view.set = (rows j).set := View.set_slice_whole _ _
/-- The staged result, whole, is its sixteen row blocks. -/
theorem oM_rows (c : Dev nD) (f : Buf (Elt F) ((c : Thread nD τ).loc cc0_stg1_0)) :
    ((((c : Thread nD τ).loc cc0_stg1_0) ↦{fullShare} f : sProp 𝕄))
      = bigSep (Finset.univ : Finset (Dev nD)) fun j => (oRow j).view.loc (c : Thread nD τ) ↦[(oRow j).view.set]{fullShare} f := by
  have hset : ∀ j : Dev nD, ((oRow j).view.set : Finset (Idealize.ShloMosaic.Idx ((c : Thread nD τ).loc cc0_stg1_0))) = (rows j).set :=
    fun j => View.set_slice_whole _ _
  have hd : ∀ j j' : Dev nD, j ≠ j' →
      Disjoint ((oRow j).view.set : Finset (Idealize.ShloMosaic.Idx ((c : Thread nD τ).loc cc0_stg1_0))) ((oRow j').view.set) :=
    fun j j' h => by rw [hset, hset]; exact rows_disjoint j j' h
  have hc : (Finset.univ : Finset (Dev nD)).biUnion (β := Idealize.ShloMosaic.Idx ((c : Thread nD τ).loc cc0_stg1_0)) (fun j => (oRow j).view.set)
      = Finset.univ := by
    simp only [hset]; exact rows_cover
  exact (pointsTo_sixteen (ℓ := (c : Thread nD τ).loc cc0_stg1_0) _ hd hc f).trans (bigSep_congr fun j _ => rfl)

/-! ## The sixteen devices are a device and the fifteen shifts from it -/

theorem erase_eq_map_fwd (c : Dev nD) : (Finset.univ.erase c : Finset (Dev nD)) = Finset.univ.map ⟨fwd c, fwd_inj c⟩ := by
  ext j
  simp only [Finset.mem_erase, Finset.mem_univ, and_true, Finset.mem_map, true_and, Function.Embedding.coeFn_mk]
  exact ⟨fun h => fwd_surj c j h, fun ⟨k, hk⟩ => hk ▸ fwd_ne c k⟩
theorem erase_eq_map_bwd (c : Dev nD) : (Finset.univ.erase c : Finset (Dev nD)) = Finset.univ.map ⟨bwd c, bwd_inj c⟩ := by
  ext j
  simp only [Finset.mem_erase, Finset.mem_univ, and_true, Finset.mem_map, true_and, Function.Embedding.coeFn_mk]
  exact ⟨fun h => bwd_surj c j h, fun ⟨k, hk⟩ => hk ▸ bwd_ne c k⟩

/-- Over the other devices, by the shift forwards that reaches each. -/
theorem erase_eq_fwd (c : Dev nD) (Φ : Dev nD → sProp 𝕄) :
    bigSep (Finset.univ.erase c) Φ = bigSep (Finset.univ : Finset (Fin 15)) fun k => Φ (fwd c k) := by
  rw [erase_eq_map_fwd, bigSep_map]; rfl
theorem erase_eq_bwd (c : Dev nD) (Φ : Dev nD → sProp 𝕄) :
    bigSep (Finset.univ.erase c) Φ = bigSep (Finset.univ : Finset (Fin 15)) fun k => Φ (bwd c k) := by
  rw [erase_eq_map_bwd, bigSep_map]; rfl
/-- Over all devices: the device itself and the fifteen ahead of it. -/
theorem univ_eq_own_fwd (c : Dev nD) (Φ : Dev nD → sProp 𝕄) :
    bigSep (Finset.univ : Finset (Dev nD)) Φ = iprop(Φ c ∗ bigSep (Finset.univ : Finset (Fin 15)) fun k => Φ (fwd c k)) := by
  rw [bigSep_erase (Finset.mem_univ c), erase_eq_fwd]; rfl
/-- Over all devices: the device itself and the fifteen behind it. -/
theorem univ_eq_own_bwd (c : Dev nD) (Φ : Dev nD → sProp 𝕄) :
    bigSep (Finset.univ : Finset (Dev nD)) Φ = iprop(Φ c ∗ bigSep (Finset.univ : Finset (Fin 15)) fun k => Φ (bwd c k)) := by
  rw [bigSep_erase (Finset.mem_univ c), erase_eq_bwd]; rfl

/-! ## The reduced rows' read shares: one per second transfer, and the remainder -/

theorem rM_shares (c : Dev nD) (f : Buf (Elt F) ((c : Thread nD τ).loc cc0_scratch1)) :
    ((((c : Thread nD τ).loc cc0_scratch1) ↦{fullShare} f : sProp 𝕄))
      ⊣⊢ iprop((((c : Thread nD τ).loc cc0_scratch1) ↦{Transfers.shareDrop fullShare 15} f)
        ∗ bigSep Finset.univ fun k : Fin 15 => (rM : Memref sig .tc .vmem S32x512 .bf16).view.loc (c : Thread nD τ)
            ↦[(rM : Memref sig .tc .vmem S32x512 .bf16).view.set]{Transfers.shareTok fullShare 15 k} f) := by
  simp only [Memref.view_whole, View.set_whole]
  exact Transfers.pointsTo_toks fullShare 15

/-- info: 'Cert.Kernel.AR.bM_rows' depends on axioms: [propext, Classical.choice, Quot.sound] -/
#guard_msgs in #print axioms bM_rows
/-- info: 'Cert.Kernel.AR.univ_eq_own_bwd' depends on axioms: [propext, Classical.choice, Quot.sound] -/
#guard_msgs in #print axioms univ_eq_own_bwd
/-- info: 'Cert.Kernel.AR.rM_shares' depends on axioms: [propext, Classical.choice, Quot.sound] -/
#guard_msgs in #print axioms rM_shares

end Cert.Kernel.AR

end
-- ==== Proof.KClose.lean ====
/-
# Closing a device's transfer cells

A device's sixty-five cells are its barrier cell and four arrays of sixteen transfer cells. Of each array the cell indexed
by the device itself has no duty and is never used; the fifteen others have one round of one duty. After the last wait the
positions stand past that round (or, on the diagonal, still at round 0), no later round has a duty, and every transfer
cell closes: its counter, at zero, is the device's to hand back.
-/
import proofs.«900416_g7700000000000417_dist_ar_v7x_i16_i_m512_n512_bf16_1_alg».proof.Proof.KRes

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## A device's transfer cells: the diagonal four and the fifteen shifts of each array -/

/-- The other devices are the fifteen shifts forwards, -/
theorem others_fwd (c : Dev nD) : (Finset.univ.erase c : Finset (Dev nD)) = Finset.univ.map ⟨fwd c, fwd_inj c⟩ := by
  ext j
  simp only [Finset.mem_erase, Finset.mem_univ, and_true, Finset.mem_map, true_and, Function.Embedding.coeFn_mk]
  exact ⟨fun h => fwd_surj c j h, fun ⟨k, hk⟩ => hk ▸ fwd_ne c k⟩
/-- and the fifteen shifts backwards. -/
theorem others_bwd (c : Dev nD) : (Finset.univ.erase c : Finset (Dev nD)) = Finset.univ.map ⟨bwd c, bwd_inj c⟩ := by
  ext j
  simp only [Finset.mem_erase, Finset.mem_univ, and_true, Finset.mem_map, true_and, Function.Embedding.coeFn_mk]
  exact ⟨fun h => bwd_surj c j h, fun ⟨k, hk⟩ => hk ▸ bwd_ne c k⟩

theorem devs_fwd (c : Dev nD) (Ψ : Dev nD → sProp 𝕄) :
    bigSep (Finset.univ : Finset (Dev nD)) Ψ = iprop(Ψ c ∗ bigSep (Finset.univ : Finset (Fin 15)) fun k => Ψ (fwd c k)) := by
  rw [bigSep_univ_at Ψ c, others_fwd, bigSep_map]; rfl
theorem devs_bwd (c : Dev nD) (Ψ : Dev nD → sProp 𝕄) :
    bigSep (Finset.univ : Finset (Dev nD)) Ψ = iprop(Ψ c ∗ bigSep (Finset.univ : Finset (Fin 15)) fun k => Ψ (bwd c k)) := by
  rw [bigSep_univ_at Ψ c, others_bwd, bigSep_map]; rfl

theorem bigSep_arrays (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Over a device's sixty-four transfer cells: the four of its own index, then each array over the fifteen peers — the
    sending arrays by the peer ahead, the receiving arrays by the peer behind. -/
theorem cells_iff (c : Dev nD) (Φ : Fin 4 × Dev nD → sProp 𝕄) :
    bigSep Finset.univ Φ ⊣⊢ iprop((Φ (0, c) ∗ Φ (1, c) ∗ Φ (2, c) ∗ Φ (3, c))
      ∗ (bigSep Finset.univ fun k : Fin 15 => Φ (0, fwd c k)) ∗ (bigSep Finset.univ fun k : Fin 15 => Φ (1, bwd c k))
      ∗ (bigSep Finset.univ fun k : Fin 15 => Φ (2, fwd c k)) ∗ (bigSep Finset.univ fun k : Fin 15 => Φ (3, bwd c k))) := by
  rw [bigSep_univ_prod, bigSep_arrays, devs_fwd c (fun j => Φ (0, j)), devs_bwd c (fun j => Φ (1, j)), devs_fwd c (fun j => Φ (2, j)),
    devs_bwd c (fun j => Φ (3, j))]
  refine ⟨?_, ?_⟩
  · iintro ⟨⟨H0, S0⟩, ⟨H1, S1⟩, ⟨H2, S2⟩, ⟨H3, S3⟩⟩
    isplitl [H0 H1 H2 H3]
    · isplitl [H0]; · iexact H0
      isplitl [H1]; · iexact H1
      isplitl [H2]; · iexact H2
      iexact H3
    isplitl [S0]; · iexact S0
    isplitl [S1]; · iexact S1
    isplitl [S2]; · iexact S2
    iexact S3
  · iintro ⟨⟨H0, H1, H2, H3⟩, S0, S1, S2, S3⟩
    isplitl [H0 S0]; · isplitl [H0] <;> iassumption
    isplitl [H1 S1]; · isplitl [H1] <;> iassumption
    isplitl [H2 S2]; · isplitl [H2] <;> iassumption
    isplitl [H3] <;> iassumption

/-- The barrier cell, then the sixty-four transfer cells. -/
theorem bigSep_cells (Φ : CK → sProp 𝕄) :
    bigSep Finset.univ Φ = iprop(Φ none ∗ bigSep Finset.univ fun k : Fin 4 × Dev nD => Φ (some k)) := by
  have h : (Finset.univ.erase (none : CK)) = Finset.univ.map Function.Embedding.some := by
    ext k; cases k <;> simp
  rw [bigSep_univ_at Φ none, h, bigSep_map]; rfl

/-! ## The positions a device is dealt, by family -/

/-- The positions of the four cells indexed by the device itself: no transfer uses them, they stay at round 0. -/
def diagPos (c : Dev nD) : sProp 𝕄 :=
  iprop(atPos ER (rsSendCell c c) 0 ∅ 0 ∗ atPos ER (rsRecvCell c c) 0 ∅ 0 ∗ atPos ER (agSendCell c c) 0 ∅ 0 ∗ atPos ER (agRecvCell c c) 0 ∅ 0)

theorem positions_split (c : Dev nD) :
    positions (F := F) c ⊢ iprop(atPos ER (barCell c) 0 ∅ 0 ∗ diagPos (F := F) c
      ∗ (bigSep Finset.univ fun k : Fin 15 => atPos ER (rsSendCell c (fwd c k)) 0 ∅ 0)
      ∗ (bigSep Finset.univ fun k : Fin 15 => atPos ER (rsRecvCell c (bwd c k)) 0 ∅ 0)
      ∗ (bigSep Finset.univ fun k : Fin 15 => atPos ER (agSendCell c (fwd c k)) 0 ∅ 0)
      ∗ (bigSep Finset.univ fun k : Fin 15 => atPos ER (agRecvCell c (bwd c k)) 0 ∅ 0)) := by
  unfold positions diagPos
  rw [bigSep_cells]
  refine sep_mono_right ?_
  exact (cells_iff c fun k : Fin 4 × Dev nD => (atPos ER (kcell (c, some k)) 0 ∅ 0 : sProp 𝕄)).1

/-! ## Closing the transfer cells -/

/-- The cells indexed by the device itself have no duty at all. -/
theorem duties_diag (c : Dev nD) (a : Fin 4) (r : ℕ) : (ringRd (F := F) m).duties (kcell (c, some (a, c))) r = ∅ := by
  rcases Nat.eq_zero_or_pos r with rfl | hr
  · dsimp only [ringRd]
    rw [if_pos ⟨rfl, rfl⟩]
    fin_cases a
    · exact if_neg fun h => h.2 (semPeer_rsSend c)
    · exact if_neg fun h => h.2 (semPeer_rsRecv c)
    · exact if_neg fun h => h.2 (semPeer_agSend c)
    · exact if_neg fun h => h.2 (semPeer_agRecv c)
  · exact duties_later m _ r hr

/-- The round a transfer cell's position stands at after the last wait: past its one round, or, on the diagonal, still at 0. -/
def endRound (c : Dev nD) (k : Fin 4 × Dev nD) : ℕ := if k.2 = c then 0 else 1

theorem close_one (K : Dev nD × CK → ℕ) (c : Dev nD) (k : Fin 4 × Dev nD) :
    iprop(records m K ∗ atPos ER (kcell (c, some k)) (endRound c k) ∅ 0) ⊢ |={Set.univ}=> (semVal (kcell (c, some k)) 0 : sProp 𝕄) := by
  have hR : ∀ r, endRound c k ≤ r → (ringRd (F := F) m).duties (kcell (c, some k)) r = ∅ := fun r hr => by
    obtain ⟨a, j⟩ := k
    by_cases hj : j = c
    · subst hj; exact duties_diag m j a r
    · unfold endRound at hr; rw [if_neg hj] at hr; exact duties_later m _ r hr
  iintro ⟨#HR, Hat⟩
  iapply (Rounds.cell_close ER (ringRd m) (Set.mem_univ (K (c, some k))) (fun h => h) hR)
  isplitr
  · iapply (inv_at m K (c, some k)); iexact HR
  · iexact Hat

/-- After the last wait every transfer cell closes: its counter at zero is the device's again. -/
theorem close_all (K : Dev nD × CK → ℕ) (c : Dev nD) :
    iprop(records m K ∗ diagPos (F := F) c
      ∗ (bigSep Finset.univ fun k : Fin 15 => atPos ER (rsRecvCell c (bwd c k)) 1 ∅ 0)
      ∗ (bigSep Finset.univ fun k : Fin 15 => atPos ER (agRecvCell c (bwd c k)) 1 ∅ 0)
      ∗ (bigSep Finset.univ fun k : Fin 15 => atPos ER (rsSendCell c (fwd c k)) 1 ∅ 0)
      ∗ (bigSep Finset.univ fun k : Fin 15 => atPos ER (agSendCell c (fwd c k)) 1 ∅ 0))
      ⊢ |={Set.univ}=> (bigSep Finset.univ fun k : Fin 4 × Dev nD => semVal (kcell (c, some k)) 0 : sProp 𝕄) := by
  have hd (a : Fin 4) : endRound c (a, c) = 0 := if_pos rfl
  have hf (a : Fin 4) (k : Fin 15) : endRound c (a, fwd c k) = 1 := if_neg (fwd_ne c k)
  have hb (a : Fin 4) (k : Fin 15) : endRound c (a, bwd c k) = 1 := if_neg (bwd_ne c k)
  have hjoin := (cells_iff c fun k : Fin 4 × Dev nD => (atPos ER (kcell (c, some k)) (endRound c k) ∅ 0 : sProp 𝕄)).2
  simp only [hd, hf, hb] at hjoin
  iintro ⟨#HR, Hd, R1, R3, S0, S2⟩
  ihave Hall := hjoin $$ [Hd R1 R3 S0 S2]
  · unfold diagPos
    isplitl [Hd]; · iexact Hd
    isplitl [S0]; · iexact S0
    isplitl [R1]; · iexact R1
    isplitl [S2]; · iexact S2
    iexact R3
  iapply (bigSep_fupd Finset.univ fun k : Fin 4 × Dev nD => (semVal (kcell (c, some k)) 0 : sProp 𝕄))
  iapply (show iprop(records m K ∗ bigSep Finset.univ fun k : Fin 4 × Dev nD => (atPos ER (kcell (c, some k)) (endRound c k) ∅ 0 : sProp 𝕄))
      ⊢ bigSep Finset.univ fun k : Fin 4 × Dev nD => iprop(|={Set.univ}=> (semVal (kcell (c, some k)) 0 : sProp 𝕄)) from
    (sep_mono_left (BI.bigSep_of_persistent Finset.univ (records m K))).trans (by rw [← bigSep_sep']; exact bigSep_mono fun k _ => close_one m K c k))
  isplitr
  · iexact HR
  · iexact Hall

/-- info: 'Cert.Kernel.AR.positions_split' depends on axioms: [propext, Classical.choice, Quot.sound] -/
#guard_msgs in #print axioms positions_split
/-- info: 'Cert.Kernel.AR.close_all' depends on axioms: [propext, Classical.choice, Quot.sound] -/
#guard_msgs in #print axioms close_all

end Cert.Kernel.AR

end
-- ==== Proof.KFinish.lean ====
/-
# The end of the body

After the last wait a device holds its buffers in pieces — its own rows and the fifteen row blocks the transfers handed
back, the reduced rows' remainder share and the fifteen read shares — and its transfer cells' positions past their one
round. The pieces rejoin into whole buffers, the cells close, nothing is owed: the body's postcondition.
-/
import proofs.«900416_g7700000000000417_dist_ar_v7x_i16_i_m512_n512_bf16_1_alg».proof.Proof.KRegroup
import proofs.«900416_g7700000000000417_dist_ar_v7x_i16_i_m512_n512_bf16_1_alg».proof.Proof.KRows
import proofs.«900416_g7700000000000417_dist_ar_v7x_i16_i_m512_n512_bf16_1_alg».proof.Proof.KClose

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The buffers, rejoined -/

/-- The rounded copy whole again: its own rows and the fifteen row blocks the first transfers read out. -/
theorem bM_join (c : Dev nD) :
    iprop(((bRow c).view.loc (c : Thread nD τ) ↦[(bRow c).view.set]{fullShare} xb m c) ∗ bigSep Finset.univ fun k : Fin 15 => rsSendPay m c (fwd c k))
      ⊢ (((c : Thread nD τ).loc cc0_scratch0) ↦{fullShare} xb m c : sProp 𝕄) := by
  rw [bM_rows c (xb m c), univ_eq_own_fwd c]
  exact BI.Entails.refl _

/-- The staged result whole at the all-reduced contents: its own rows and the fifteen landed row blocks. -/
theorem oM_join (c : Dev nD) :
    iprop(((oRow c).view.loc (c : Thread nD τ) ↦[(oRow c).view.set]{fullShare} OUT m) ∗ bigSep Finset.univ fun k : Fin 15 => agRecvPay m c (bwd c k))
      ⊢ (((c : Thread nD τ).loc cc0_stg1_0) ↦{fullShare} OUT m : sProp 𝕄) := by
  rw [oM_rows c (OUT m), univ_eq_own_bwd c]
  exact BI.Entails.refl _

/-- The reduced rows whole again: the remainder share and the fifteen read shares the second transfers returned. -/
theorem rM_join (c : Dev nD) :
    iprop((((c : Thread nD τ).loc cc0_scratch1) ↦{Transfers.shareDrop fullShare 15} red m c) ∗ bigSep Finset.univ fun k : Fin 15 => agSendPay m c (fwd c k))
      ⊢ (((c : Thread nD τ).loc cc0_scratch1) ↦{fullShare} red m c : sProp 𝕄) := by
  rw [bigSep_congr (s := Finset.univ) fun (k : Fin 15) _ => show agSendPay m c (fwd c k)
      = ((rM : Memref sig .tc .vmem S32x512 .bf16).view.loc (c : Thread nD τ) ↦[(rM : Memref sig .tc .vmem S32x512 .bf16).view.set]{Transfers.shareTok fullShare 15 k} red m c : sProp 𝕄) from by
    unfold agSendPay; rw [kf_fwd]]
  exact (rM_shares c (red m c)).2

/-- The receive buffer whole at some contents: its own rows as they were and the fifteen landed row blocks. -/
theorem sM_join (c : Dev nD) (f : Buf (Elt F) ((c : Thread nD τ).loc cc0_scratch2)) :
    iprop(((sRow c).view.loc (c : Thread nD τ) ↦[(sRow c).view.set]{fullShare} f) ∗ bigSep Finset.univ fun k : Fin 15 => rsRecvPay m c (bwd c k))
      ⊢ (iprop(∃ g : Buf (Elt F) ((c : Thread nD τ).loc cc0_scratch2), ((c : Thread nD τ).loc cc0_scratch2) ↦{fullShare} g) : sProp 𝕄) := by
  have h0 : ((sRow c).view.loc (c : Thread nD τ) ↦[(sRow c).view.set]{fullShare} f : sProp 𝕄)
      = ((sRow c).view.loc (c : Thread nD τ) ↦[(sRow c).view.set]{fullShare} ((sRow c).view.set).piecewise f (RS m c)) :=
    pointsTo_congr fun i hi => (Finset.piecewise_eq_of_mem _ _ _ hi).symm
  have hk (k : Fin 15) : rsRecvPay m c (bwd c k)
      = ((sRow (bwd c k)).view.loc (c : Thread nD τ) ↦[(sRow (bwd c k)).view.set]{fullShare} ((sRow c).view.set).piecewise f (RS m c) : sProp 𝕄) := by
    unfold rsRecvPay
    refine pointsTo_congr fun i hi => (Finset.piecewise_eq_of_notMem _ _ _ fun hc => ?_).symm
    rw [sRow_set] at hi hc
    exact Finset.disjoint_left.mp (rows_disjoint (bwd c k) c (bwd_ne c k)) hi hc
  rw [h0, bigSep_congr (s := Finset.univ) fun k _ => hk k]
  iintro H
  iexists ((sRow c).view.set).piecewise f (RS m c)
  rw [sM_rows c, univ_eq_own_bwd c]
  iexact H

/-! ## The end of the body -/

/-- After the last wait: the sixty-four transfer cells close, the four buffers are whole again, nothing is owed — the
    body's postcondition. -/
theorem body_finish (K : Dev nD × CK → ℕ) (c : Dev nD) :
    iprop(records m K ∗ diagPos (F := F) c ∗ Recv1D m c 15 ∗ Recv2D m c 15 ∗ Wait1D m c 15 ∗ Wait2D m c 15
      ∗ (∃ W, owes (c : Thread nD τ) (0 : CellTallies nD τ sig Unit) W) ∗ stg c cc0_stg0_0 (xstg m c)
      ∗ (∃ f : Buf (Elt F) ((c : Thread nD τ).loc cc0_scratch2), (sRow c).view.loc (c : Thread nD τ) ↦[(sRow c).view.set]{fullShare} f)
      ∗ ((bRow c).view.loc (c : Thread nD τ) ↦[(bRow c).view.set]{fullShare} xb m c)
      ∗ (((c : Thread nD τ).loc cc0_scratch1) ↦{Transfers.shareDrop fullShare 15} red m c)
      ∗ ((oRow c).view.loc (c : Thread nD τ) ↦[(oRow c).view.set]{fullShare} OUT m))
      ⊢ |={Set.univ}=> bodyPost m ρ c := by
  rw [Recv1D_done, Recv2D_done, Wait1D_done, Wait2D_done]
  iintro ⟨#HR, Hd, ⟨Hp1, Hl1⟩, ⟨Hp2, Hl2⟩, ⟨Hp3, Hl3⟩, ⟨Hp4, Hl4⟩, ⟨%W, HO⟩, Hx, ⟨%f, Hs0⟩, Hb0, Hr0, Ho0⟩
  imod (close_all m K c) $$ [Hd Hp1 Hp2 Hp3 Hp4] with Hz
  · isplitr; · iexact HR
    isplitl [Hd]; · iexact Hd
    isplitl [Hp1]; · iexact Hp1
    isplitl [Hp2]; · iexact Hp2
    isplitl [Hp3]; · iexact Hp3
    iexact Hp4
  imodintro
  ihave Hb := (bM_join m c) $$ [Hb0 Hl3]
  · isplitl [Hb0] <;> iassumption
  ihave Ho := (oM_join m c) $$ [Ho0 Hl2]
  · isplitl [Ho0] <;> iassumption
  ihave Hr := (rM_join m c) $$ [Hr0 Hl4]
  · isplitl [Hr0] <;> iassumption
  ihave Hs := (sM_join m c f) $$ [Hs0 Hl1]
  · isplitl [Hs0] <;> iassumption
  unfold bodyPost Φ₁ scr Dat.owesAt Pipeline.owesWithin
  rw [show (dats m ρ 0 c).owed t0_0.succ = 0 from rfl]
  isplitl [Hb Hr Hs Hz]
  · isplitl [Hb Hr Hs]
    · isplitl [Hb]; · iexists _; iexact Hb
      isplitl [Hr]; · iexists _; iexact Hr
      iexact Hs
    iexact Hz
  isplitl [HO]
  · iexists W
    isplitr; · ipureintro; exact fun _ _ => Or.inl trivial
    iexact HO
  isplitl [Hx]; · iexact Hx
  iexists _; isplitr; · (ipureintro; rfl)
  iexact Ho

/-- info: 'Cert.Kernel.AR.body_finish' depends on axioms: [propext, Classical.choice, Quot.sound] -/
#guard_msgs in #print axioms body_finish

end Cert.Kernel.AR

end
-- ==== Proof.KStepSig.lean ====
/-
# The signal phase and the barrier wait, step by step

One signal moves one shift of the signals' family across and pays one unit off what the device owes; the barrier wait
spends the fifteen units dealt at launch and returns every other device's two row slots for this device.
-/
import proofs.«900416_g7700000000000417_dist_ar_v7x_i16_i_m512_n512_bf16_1_alg».proof.Proof.KRows

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels: the barrier cell lies below every receive cell a device still owes on -/

theorem L_tc (c : Dev nD) (sm : SemLoc sig) : L ((c : Thread nD τ), sm) = {()} := if_pos rfl

theorem lv_rsRecv (c j : Dev nD) : lv (rsRecvCell c j) () = 2 := by
  dsimp only [lv]; rw [if_pos ⟨two_le_rsRecv j, semArr_rsRecv j⟩]
theorem lv_agRecv (c j : Dev nD) : lv (agRecvCell c j) () = 3 := by
  dsimp only [lv]
  rw [if_neg (fun h => by rw [semArr_agRecv] at h; exact absurd h.2 (by decide)), if_pos ⟨two_le_agRecv j, semArr_agRecv j⟩]

/-- At its barrier wait a device owes only transfers' landings: receive cells, above its barrier cell. -/
theorem mayWait_bar (c : Dev nD) :
    (levAts L lv : sProp 𝕄) ⊢ MayWait (c : Thread nD τ) (.reg barS) () (Oag c 0 + Ors c 0) :=
  Pipeline.mayWait_of_levAts (by rw [L_tc]; exact Finset.mem_singleton_self _) (fun g u hg => by
    cases u
    rcases Pipeline.add_pos_cases hg with h | h
    · unfold Oag at h
      obtain ⟨k, -, hk⟩ := Pipeline.sum_pos_exists h
      rw [tallyAt_apply] at hk
      by_cases e : g = agRecvCell (fwd c k) c ∧ () = ()
      · rw [e.1, L_tc, lv_agRecv]; exact ⟨Finset.mem_singleton_self _, by show (1 : ℕ) < 3; decide⟩
      · rw [if_neg e] at hk; exact absurd hk (Nat.lt_irrefl 0)
    · unfold Ors at h
      obtain ⟨k, -, hk⟩ := Pipeline.sum_pos_exists h
      rw [tallyAt_apply] at hk
      by_cases e : g = rsRecvCell (fwd c k) c ∧ () = ()
      · rw [e.1, L_tc, lv_rsRecv]; exact ⟨Finset.mem_singleton_self _, by show (1 : ℕ) < 2; decide⟩
      · rw [if_neg e] at hk; exact absurd hk (Nat.lt_irrefl 0))

/-! ## One signal: the shift `k`'s duty on the peer's barrier cell, handing over the two row slots kept for it -/

theorem sig_step (K : Dev nD × CK → ℕ) (c : Dev nD) (k : Fin 15) (n n' : ℕ) (hn : n = k.val) (hn' : n' = k.val + 1)
    (X : CellTallies nD τ sig Unit) (W : Waits sig Unit) (dv : Dev nD) (hdv : dv = fwd c k) (sm : Sem sig) (hsm : sm = barS)
    {α : Type} {Q : α → sProp 𝕄} {kont : PUnit → Prog (TpuEff nD τ sig (Elt F) Λ₀ .tc) α} :
    iprop(records m K ∗ SigR (F := F) c n ∗ owes (c : Thread nD τ) (X + Osig c n) W)
      ⊢ iprop(((SigR (F := F) c n' ∗ owes (c : Thread nD τ) (X + Osig c n') W)
            -∗ wp frame (wpE (defs₀ (F := F)) 𝒱₀ c none) Set.univ (kont ⟨⟩) Q)
          -∗ wp frame (wpE (defs₀ (F := F)) 𝒱₀ c none) Set.univ (.op (.semSignal (dv : Thread nD τ) sm (1#32 : BitVec 32).toNat) kont) Q) := by
  subst hdv; subst hsm
  unfold SigR
  rw [bigSep_ge_peel _ n k n' hn hn']
  iintro ⟨#HR, ⟨⟨Ht, Hs, Ho⟩, HS⟩, HO⟩ Hk
  iapply (Rounds.wp_signal 𝒱₀ ER (ringRd m) (c : Thread nD τ) none (dst := (fwd c k : Thread nD τ)) (κ := K (fwd c k, none))
      (d := c) (O₀ := X + Osig c n) (by rw [duties_bar]; exact Finset.mem_erase.mpr ⟨(fwd_ne c k).symm, Finset.mem_univ _⟩)
      ((amount_bar m (fwd c k) c).trans (by decide)) () (X + Osig c n')
      (by rw [Osig_peel c n k n' hn hn', ← add_assoc]; rfl)) $$ [HO Ht Hs Ho]
  · isplitr; · iapply (inv_at m K (fwd c k, none)); iexact HR
    isplitl [HO]; · iexact HO
    isplitl [Ht]; · iexact Ht
    isplitl [Hs Ho]; · rw [payload_bar, barPay_own]; isplitl [Hs] <;> iassumption
    iapply (reached_at m K (fwd c k, none)); iexact HR
  iintro HO
  iapply Hk
  isplitl [HS] <;> iassumption

/-! ## The barrier wait: fifteen units, every other device's two slots for this one -/

theorem bar_wait_step (K : Dev nD × CK → ℕ) (c : Dev nD) (W : Waits sig Unit) (sm : Sem sig) (hsm : sm = barS)
    {α : Type} {Q : α → sProp 𝕄} {kont : PUnit → Prog (TpuEff nD τ sig (Elt F) Λ₀ .tc) α} :
    iprop(records m K ∗ levAts L lv ∗ cred (tallyAt (barCell c) () 15) ∗ atPos ER (barCell c) 0 ∅ 0
        ∗ owes (c : Thread nD τ) (Oag c 0 + Ors c 0) W)
      ⊢ iprop(((owes (c : Thread nD τ) (Oag c 0 + Ors c 0) (insert (SemLoc.reg barS, ()) W)
              ∗ atPos ER (barCell c) 1 ∅ 0 ∗ reached ER (barCell c) 1
              ∗ bigSep (Finset.univ : Finset (Fin 15)) (fun k => iprop(peerSlotS (F := F) c k ∗ peerSlotO (F := F) c k)))
            -∗ wp frame (wpE (defs₀ (F := F)) 𝒱₀ c none) Set.univ (kont ⟨⟩) Q)
          -∗ wp frame (wpE (defs₀ (F := F)) 𝒱₀ c none) Set.univ (.op (.semWait sm (15#32 : BitVec 32).toNat) kont) Q) := by
  subst hsm
  have hrule := Rounds.wp_wait_rest_token (defs := defs₀ (F := F)) (Q := Q) (k := kont) 𝒱₀ ER (ringRd m) (c : Thread nD τ) none (κ := K (c, none))
      (w := .semWait barS (15#32 : BitVec 32).toNat) (sm := .reg barS) (k' := 15)
      (wpE_semWait_eq (defs := defs₀ (F := F)) 𝒱₀ (c : Thread nD τ) none Set.univ) (Set.mem_univ _) () (O := Oag c 0 + Ors c 0) (W := W) (R := 0) (m := 0) (T := ∅)
      (by rw [Nat.zero_add]; exact (expect_bar m c).symm)
  rw [rest_bar, erase_eq_fwd] at hrule
  simp only [barPay_peer] at hrule
  iintro ⟨#HR, #Hlev, Hc, Hat, HO⟩ Hk
  iapply hrule $$ [Hc HO Hat]
  · isplitr; · iapply (inv_at m K (c, none)); iexact HR
    isplitl [Hc]; · iexact Hc
    isplitl [HO]; · iexact HO
    isplitr; · iapply (mayWait_bar c); iexact Hlev
    iexact Hat
  iexact Hk

/-- info: 'Cert.Kernel.AR.sig_step' depends on axioms: [propext, Classical.choice, Quot.sound] -/
#guard_msgs in #print axioms sig_step
/-- info: 'Cert.Kernel.AR.bar_wait_step' depends on axioms: [propext, Classical.choice, Quot.sound] -/
#guard_msgs in #print axioms bar_wait_step

end Cert.Kernel.AR

end
-- ==== Proof.KStepSend.lean ====
/-
# The two transfer steps of the body

A transfer to the peer `k + 1` places ahead reads thirty-two rows on the sending device and writes them into rows
`32 c …` of a buffer of the peer's. Its completion is counted twice: on a cell of the sender's (the source has been read
out: the source rows come back with it) and on a cell of the peer's (the rows have landed: the peer learns what they
hold). `landed1` and `landed2` are the two value steps: what the written rows hold, stated as the peer's payload.
`send1_step` and `send2_step` move one shift across the families of the first and of the second round of transfers.
-/
import proofs.«900416_g7700000000000417_dist_ar_v7x_i16_i_m512_n512_bf16_1_alg».proof.Proof.KRes
import Idealize.ShloMosaic.Lib.Pipeline.Value

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The value steps

Index `y` of a thirty-two-row slice at rows `32 j …` is the element `(32 j + y₀, y₁)` of its buffer. -/

/-- First round: rows `32 c …` of the peer's receive buffer, written with rows `32 p …` (`p = fwd c k`) of `c`'s rounded
    block, hold what the peer's schedule says they hold: element `i` of those rows belongs to block `c` and is
    `xb c` at `(32 p + i₀ mod 32, i₁)`. -/
theorem landed1 (c : Dev nD) (k : Fin 15) (fd : Buf (Elt F) ((sRow c).view.loc (fwd c k : Thread nD τ))) :
    ((sRow c).view.loc (fwd c k : Thread nD τ) ↦[(sRow c).view.set]{fullShare}
        ((sRow c).view.write (Elt F) fd ((bRow (fwd c k)).view.read (Elt F) (xb m c)) Finset.univ) : sProp 𝕄)
      = rsRecvPay m (fwd c k) c := by
  unfold rsRecvPay
  apply pointsTo_congr
  intro i hi
  obtain ⟨y, rfl⟩ := View.exists_emb_of_mem_set _ hi
  rw [View.write_emb_of_mem _ _ (Finset.mem_univ y), View.read_apply]
  unfold RS
  have h0 : (((sRow c).view.emb y) 0).val = 32 * c.val + (y 0).val := by
    show (k0_off3 c) 0 + 1 * (y 0).val = _
    rw [k0_off3_eq]; simp
  have hy : (y 0).val < 32 := (y 0).isLt
  have h1 : blkOf ((sRow c).view.emb y) = c := by
    apply Fin.ext
    show (((sRow c).view.emb y) 0).val / 32 = c.val
    rw [h0]; omega
  have h2 : rowIn (fwd c k) ((sRow c).view.emb y) = (bRow (fwd c k)).view.emb y := by
    funext a
    fin_cases a
    · apply Fin.ext
      show 32 * (fwd c k).val + (((sRow c).view.emb y) 0).val % 32 = (k0_off3 (fwd c k)) 0 + 1 * (y 0).val
      rw [h0, k0_off3_eq]; simp; omega
    · apply Fin.ext
      show (((sRow c).view.emb y) 1).val = (k0_off3 (fwd c k)) 1 + 1 * (y 1).val
      show (k0_off3 c) 1 + 1 * (y 1).val = (k0_off3 (fwd c k)) 1 + 1 * (y 1).val
      rw [k0_off3_eq, k0_off3_eq]; simp
  rw [h1, h2]
  rfl

/-- Second round: rows `32 c …` of the peer's staged result, written with `c`'s reduced rows, are those rows of the
    common result. -/
theorem landed2 (c : Dev nD) (k : Fin 15) (fd : Buf (Elt F) ((oRow c).view.loc (fwd c k : Thread nD τ))) :
    ((oRow c).view.loc (fwd c k : Thread nD τ) ↦[(oRow c).view.set]{fullShare}
        ((oRow c).view.write (Elt F) fd ((rM : Memref sig .tc .vmem S32x512 .bf16).view.read (Elt F) (red m c)) Finset.univ) : sProp 𝕄)
      = agRecvPay m (fwd c k) c := by
  unfold agRecvPay
  apply pointsTo_congr
  intro i hi
  obtain ⟨y, rfl⟩ := View.exists_emb_of_mem_set _ hi
  rw [View.write_emb_of_mem _ _ (Finset.mem_univ y), View.read_apply]
  unfold OUT
  have h0 : (((oRow c).view.emb y) 0).val = 32 * c.val + (y 0).val := by
    show (k0_off3 c) 0 + 1 * (y 0).val = _
    rw [k0_off3_eq]; simp
  have hy : (y 0).val < 32 := (y 0).isLt
  have h1 : blkOf ((oRow c).view.emb y) = c := by
    apply Fin.ext
    show (((oRow c).view.emb y) 0).val / 32 = c.val
    rw [h0]; omega
  rw [h1]
  show red m c y = red m c _
  congr 1
  funext a
  fin_cases a
  · apply Fin.ext
    show (y 0).val = (((oRow c).view.emb y) 0).val % 32
    rw [h0]; omega
  · apply Fin.ext
    show (y 1).val = (k0_off3 c) 1 + 1 * (y 1).val
    rw [k0_off3_eq]; simp

/-! ## The steps -/

set_option maxHeartbeats 800000 in
/-- The first transfer of shift `k`: the two duties' tokens, the peer's slot and the source rows go in; the credit on
    the send cell comes back, and the landing's amount is paid off what is owed. -/
theorem send1_step (K : Dev nD × CK → ℕ) (c : Dev nD) (k : Fin 15) (n n' : ℕ) (hn : n = k.val) (hn' : n' = k.val + 1)
    (X : CellTallies nD τ sig Unit) (W : Waits sig Unit)
    (dv : Dev nD) (hdv : dv = fwd c k)
    (src : Memref sig .tc .vmem S32x512 .bf16) (hsrc : src = bRow (fwd c k))
    (dst : Memref sig (Dev.tc dv : Thread nD τ).2.kind .vmem S32x512 .bf16) (hdst : dst = sRow c)
    (sS sR : DmaSem sig) (hsS : sS = rsSendS (fwd c k)) (hsR : sR = rsRecvS c)
    {hsc : dst.view.ref.isScScratch = false} {hwsrc : src.view.WordExact} {hwdst : dst.view.WordExact}
    {hsem : DmaTarget.Typed .vmem (.dma sR) (.remote (Dev.tc dv : Thread nD τ) dst (.dma sS) hsc)}
    {α : Type} {Q : α → sProp 𝕄} {kont : PUnit → Prog (TpuEff nD τ sig (Elt F) Λ₀ .tc) α} :
    iprop(records m K ∗ Send1R m c n ∗ Send1D (F := F) c n ∗ owes (c : Thread nD τ) (X + Ors c n) W)
      ⊢ iprop(((Send1R m c n' ∗ Send1D (F := F) c n' ∗ owes (c : Thread nD τ) (X + Ors c n') W)
            -∗ wp frame (wpE (defs₀ (F := F)) 𝒱₀ c none) Set.univ (kont ⟨⟩) Q)
          -∗ wp frame (wpE (defs₀ (F := F)) 𝒱₀ c none) Set.univ
              (.op (.enqueueDma src (.remote (Dev.tc dv : Thread nD τ) dst (.dma sS) hsc) (.dma sR) hwsrc hwdst hsem) kont) Q) := by
  subst hn; subst hn'; subst hdv; subst hsrc; subst hdst; subst hsS; subst hsR
  unfold Send1R Send1D peerSlotS
  rw [bigSep_ge_peel _ k.val k (k.val + 1) rfl rfl, bigSep_lt_push _ k.val k (k.val + 1) rfl rfl]
  iintro ⟨#HR, ⟨⟨HtR, HtS, ⟨%fd, Hslot⟩, Hsrc⟩, HS⟩, HD, HO⟩ Hk
  iapply (Rounds.wp_send_pointsTo 𝒱₀ ER (ringRd m) (c : Thread nD τ) none (c' := (fwd c k : Thread nD τ))
      (src := bRow (fwd c k)) (dst := sRow c) (q := fullShare) (fs := xb m c) (fd := fd)
      (κ₁ := K (c, some (0, fwd c k))) (κ₂ := K (fwd c k, some (1, c))) (r₁ := 0) (r₂ := 0) (d₁ := fwd c k) (d₂ := c) (O₀ := X + Ors c k.val)
      (by rw [duties_rsSend m c (fwd c k) (fwd_ne c k)]; exact Finset.mem_singleton_self _)
      (by rw [duties_rsRecv m (fwd c k) c (fwd_ne c k).symm]; exact Finset.mem_singleton_self _)
      () () NC rfl (amount_dma m c _ _) (amount_dma m (fwd c k) _ _) (X + Ors c (k.val + 1))
      (by rw [Ors_peel c k.val k (k.val + 1) rfl rfl, ← add_assoc]) (W := W)
      (by rw [payload_rsSend]; exact BI.Entails.refl _)
      (by rw [payload_rsRecv]; exact Entails.of_eq (landed1 m c k fd))) $$ [HO HtR HtS Hslot Hsrc]
  · isplitr; · iapply (inv_at m K (c, some (0, fwd c k))); iexact HR
    isplitr; · iapply (inv_at m K (fwd c k, some (1, c))); iexact HR
    isplitl [Hsrc]; · iexact Hsrc
    isplitl [Hslot]; · iexact Hslot
    isplitl [HO]; · iexact HO
    isplitl [HtS]; · iexact HtS
    isplitr; · iapply (reached_at m K (c, some (0, fwd c k))); iexact HR
    isplitl [HtR]; · iexact HtR
    iapply (reached_at m K (fwd c k, some (1, c))); iexact HR
  iintro ⟨Hc, HO⟩
  iapply Hk
  isplitl [HS]; · iexact HS
  isplitl [Hc HD]
  · isplitl [Hc]; · iexact Hc
    iexact HD
  iexact HO

set_option maxHeartbeats 800000 in
/-- The second transfer of shift `k`: the same with the reduced rows (read through the `k`-th read share) as source
    and rows `32 c …` of the peer's staged result as destination. -/
theorem send2_step (K : Dev nD × CK → ℕ) (c : Dev nD) (k : Fin 15) (n n' : ℕ) (hn : n = k.val) (hn' : n' = k.val + 1)
    (X : CellTallies nD τ sig Unit) (W : Waits sig Unit)
    (dv : Dev nD) (hdv : dv = fwd c k)
    (src : Memref sig .tc .vmem S32x512 .bf16) (hsrc : src = rM)
    (dst : Memref sig (Dev.tc dv : Thread nD τ).2.kind .vmem S32x512 .bf16) (hdst : dst = oRow c)
    (sS sR : DmaSem sig) (hsS : sS = agSendS (fwd c k)) (hsR : sR = agRecvS c)
    {hsc : dst.view.ref.isScScratch = false} {hwsrc : src.view.WordExact} {hwdst : dst.view.WordExact}
    {hsem : DmaTarget.Typed .vmem (.dma sR) (.remote (Dev.tc dv : Thread nD τ) dst (.dma sS) hsc)}
    {α : Type} {Q : α → sProp 𝕄} {kont : PUnit → Prog (TpuEff nD τ sig (Elt F) Λ₀ .tc) α} :
    iprop(records m K ∗ Send2R m c n ∗ Send2D (F := F) c n ∗ owes (c : Thread nD τ) (X + Oag c n) W)
      ⊢ iprop(((Send2R m c n' ∗ Send2D (F := F) c n' ∗ owes (c : Thread nD τ) (X + Oag c n') W)
            -∗ wp frame (wpE (defs₀ (F := F)) 𝒱₀ c none) Set.univ (kont ⟨⟩) Q)
          -∗ wp frame (wpE (defs₀ (F := F)) 𝒱₀ c none) Set.univ
              (.op (.enqueueDma src (.remote (Dev.tc dv : Thread nD τ) dst (.dma sS) hsc) (.dma sR) hwsrc hwdst hsem) kont) Q) := by
  subst hn; subst hn'; subst hdv; subst hsrc; subst hdst; subst hsS; subst hsR
  unfold Send2R Send2D peerSlotO
  rw [bigSep_ge_peel _ k.val k (k.val + 1) rfl rfl, bigSep_lt_push _ k.val k (k.val + 1) rfl rfl]
  iintro ⟨#HR, ⟨⟨HtR, HtS, ⟨%fd, Hslot⟩, Hsrc⟩, HS⟩, HD, HO⟩ Hk
  iapply (Rounds.wp_send_pointsTo 𝒱₀ ER (ringRd m) (c : Thread nD τ) none (c' := (fwd c k : Thread nD τ))
      (src := rM) (dst := oRow c) (q := Transfers.shareTok fullShare 15 k) (fs := red m c) (fd := fd)
      (κ₁ := K (c, some (2, fwd c k))) (κ₂ := K (fwd c k, some (3, c))) (r₁ := 0) (r₂ := 0) (d₁ := fwd c k) (d₂ := c) (O₀ := X + Oag c k.val)
      (by rw [duties_agSend m c (fwd c k) (fwd_ne c k)]; exact Finset.mem_singleton_self _)
      (by rw [duties_agRecv m (fwd c k) c (fwd_ne c k).symm]; exact Finset.mem_singleton_self _)
      () () NC rfl (amount_dma m c _ _) (amount_dma m (fwd c k) _ _) (X + Oag c (k.val + 1))
      (by rw [Oag_peel c k.val k (k.val + 1) rfl rfl, ← add_assoc]) (W := W)
      (by rw [payload_agSend]; unfold agSendPay; rw [kf_fwd])
      (by rw [payload_agRecv]; exact Entails.of_eq (landed2 m c k fd))) $$ [HO HtR HtS Hslot Hsrc]
  · isplitr; · iapply (inv_at m K (c, some (2, fwd c k))); iexact HR
    isplitr; · iapply (inv_at m K (fwd c k, some (3, c))); iexact HR
    isplitl [Hsrc]; · iexact Hsrc
    isplitl [Hslot]; · iexact Hslot
    isplitl [HO]; · iexact HO
    isplitl [HtS]; · iexact HtS
    isplitr; · iapply (reached_at m K (c, some (2, fwd c k))); iexact HR
    isplitl [HtR]; · iexact HtR
    iapply (reached_at m K (fwd c k, some (3, c))); iexact HR
  iintro ⟨Hc, HO⟩
  iapply Hk
  isplitl [HS]; · iexact HS
  isplitl [Hc HD]
  · isplitl [Hc]; · iexact Hc
    iexact HD
  iexact HO

/-- info: 'Cert.Kernel.AR.send1_step' depends on axioms: [propext, Classical.choice, Quot.sound] -/
#guard_msgs in #print axioms send1_step
/-- info: 'Cert.Kernel.AR.send2_step' depends on axioms: [propext, Classical.choice, Quot.sound] -/
#guard_msgs in #print axioms send2_step

end Cert.Kernel.AR

end
-- ==== Proof.KPartsB.lean ====
/-
# The first round of transfers, part by part

Printed parts 8 … 15 are the transfers of shifts 1 … 13 of the first round (shift 0 closes part 7, shift 14 opens part
16): each is one application of the step lemma, at the operation as printed.
-/
import proofs.«900416_g7700000000000417_dist_ar_v7x_i16_i_m512_n512_bf16_1_alg».proof.Proof.KStepSend

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- `send1_step` at the operation as printed: the source rows through the printed offset chain, the two cells through
    the printed semaphore slices. -/
theorem send1_printed (K : Dev nD × CK → ℕ) (c : Dev nD) (k : Fin 15) (n n' : ℕ) (hn : n = k.val) (hn' : n' = k.val + 1)
    (X : CellTallies nD τ sig Unit) (W : Waits sig Unit) (dv : Dev nD) (hdv : dv = fwd c k)
    {hsc : (sRow c : Memref sig (Dev.tc dv : Thread nD τ).2.kind .vmem S32x512 .bf16).view.ref.isScScratch = false}
    {hwsrc : ((bM : Memref sig .tc .vmem S512x512 .bf16).slice (Rect.unit (s := S512x512) (k0_off4 c (BitVec.ofNat 32 (1 + k.val))) S32x512.size (k0_off4_inb c k)) (fun _ => rfl)).view.WordExact}
    {hwdst : (sRow c : Memref sig (Dev.tc dv : Thread nD τ).2.kind .vmem S32x512 .bf16).view.WordExact}
    {hsem : DmaTarget.Typed .vmem (.dma ((cc0_scratch4.slice (Rect.unit (s := S16) (k0_off2 c) S1.size (k0_off2_inb c))).squeeze S_ squeezes_S1_S_).sem)
      (.remote (Dev.tc dv : Thread nD τ) (sRow c) (.dma ((cc0_scratch3.slice (Rect.unit (s := S16) (k0_off1 c (BitVec.ofNat 32 (1 + k.val))) S1.size (k0_off1_inb c k))).squeeze S_ squeezes_S1_S_).sem) hsc)}
    {α : Type} {Q : α → sProp 𝕄} {kont : PUnit → Prog (TpuEff nD τ sig (Elt F) Λ₀ .tc) α} :
    iprop(records m K ∗ Send1R m c n ∗ Send1D (F := F) c n ∗ owes (c : Thread nD τ) (X + Ors c n) W)
      ⊢ iprop(((Send1R m c n' ∗ Send1D (F := F) c n' ∗ owes (c : Thread nD τ) (X + Ors c n') W)
            -∗ wp frame (wpE (defs₀ (F := F)) 𝒱₀ c none) Set.univ (kont ⟨⟩) Q)
          -∗ wp frame (wpE (defs₀ (F := F)) 𝒱₀ c none) Set.univ
              (.op (.enqueueDma ((bM : Memref sig .tc .vmem S512x512 .bf16).slice (Rect.unit (s := S512x512) (k0_off4 c (BitVec.ofNat 32 (1 + k.val))) S32x512.size (k0_off4_inb c k)) (fun _ => rfl))
                (.remote (Dev.tc dv : Thread nD τ) (sRow c) (.dma ((cc0_scratch3.slice (Rect.unit (s := S16) (k0_off1 c (BitVec.ofNat 32 (1 + k.val))) S1.size (k0_off1_inb c k))).squeeze S_ squeezes_S1_S_).sem) hsc)
                (.dma ((cc0_scratch4.slice (Rect.unit (s := S16) (k0_off2 c) S1.size (k0_off2_inb c))).squeeze S_ squeezes_S1_S_).sem) hwsrc hwdst hsem) kont) Q) :=
  send1_step m K c k n n' hn hn' X W dv hdv _ (Memref.slice_unit_congr _ ((off4_eq c k).trans (k0_off3_eq _).symm) _ _ _ _) _ rfl _ _
    (sem_off1_rs c k) (sem_off2_rs c)

set_option maxHeartbeats 800000 in
/-- Printed part 8: the first transfer of shift 1. -/
theorem part8 (K : Dev nD × CK → ℕ) (c : Dev nD) (X : CellTallies nD τ sig Unit) (W : Waits sig Unit) (v2 : BitVec 32) (v226 : BitVec 32) (c16_i32_152 : BitVec 32) (c0_i32_153 : BitVec 32)
    (Kt : (PUnit) → sProp 𝕄) :
    iprop((records m K ∗ Send1R m c 1 ∗ Send1D (F := F) c 1 ∗ owes (c : Thread nD τ) (X + Ors c 1) W)
        ∗ (∀ ret, (Send1R m c 2 ∗ Send1D (F := F) c 2 ∗ owes (c : Thread nD τ) (X + Ors c 2) W) -∗ Kt ret))
      ⊢ wp frame (wpE (defs₀ (F := F)) 𝒱₀ c none) Set.univ
          (k0_part8 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v226 c16_i32_152 c0_i32_153) Kt := by
  rw [k0_part8_eq_skeleton]; unfold k0_part8_skel
  simp only [Prog.lift, Prog.bind_op, Prog.bind_ret, Prog.pure_eq_ret]
  iintro ⟨⟨#HR, HS, HD, HO⟩, Hk⟩
  iapply (send1_printed m K c (1 : Fin 15) 1 2 rfl rfl X W _ (dev17_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 9: the first transfers of shifts 2 and 3. -/
theorem part9 (K : Dev nD × CK → ℕ) (c : Dev nD) (X : CellTallies nD τ sig Unit) (W : Waits sig Unit) (v2 : BitVec 32)
    (Kt : (Σ' (v299 : BitVec 32), BitVec 32) → sProp 𝕄) :
    iprop((records m K ∗ Send1R m c 2 ∗ Send1D (F := F) c 2 ∗ owes (c : Thread nD τ) (X + Ors c 2) W)
        ∗ (∀ ret, (Send1R m c 4 ∗ Send1D (F := F) c 4 ∗ owes (c : Thread nD τ) (X + Ors c 4) W) -∗ Kt ret))
      ⊢ wp frame (wpE (defs₀ (F := F)) 𝒱₀ c none) Set.univ
          (k0_part9 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2) Kt := by
  rw [k0_part9_eq_skeleton]; unfold k0_part9_skel
  simp only [Prog.lift, Prog.bind_op, Prog.bind_ret, Prog.pure_eq_ret]
  iintro ⟨⟨#HR, HS, HD, HO⟩, Hk⟩
  iapply (send1_printed m K c (2 : Fin 15) 2 3 rfl rfl X W _ (dev18_eq c)) $$ [HS HD HO]
  · isplitr; · iexact HR
    isplitl [HS]; · iexact HS
    isplitl [HD]; · iexact HD
    iexact HO
  iintro ⟨HS, HD, HO⟩
  iapply (send1_printed m K c (3 : Fin 15) 3 4 rfl rfl X W _ (dev19_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 10: the first transfers of shifts 4 and 5. -/
theorem part10 (K : Dev nD × CK → ℕ) (c : Dev nD) (X : CellTallies nD τ sig Unit) (W : Waits sig Unit) (v2 : BitVec 32) (v299 : BitVec 32) (c32_i32_197 : BitVec 32)
    (Kt : (Σ' (v333 : BitVec 32) (v334 : BitVec 32), BitVec 32) → sProp 𝕄) :
    iprop((records m K ∗ Send1R m c 4 ∗ Send1D (F := F) c 4 ∗ owes (c : Thread nD τ) (X + Ors c 4) W)
        ∗ (∀ ret, (Send1R m c 6 ∗ Send1D (F := F) c 6 ∗ owes (c : Thread nD τ) (X + Ors c 6) W) -∗ Kt ret))
      ⊢ wp frame (wpE (defs₀ (F := F)) 𝒱₀ c none) Set.univ
          (k0_part10 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v299 c32_i32_197) Kt := by
  rw [k0_part10_eq_skeleton]; unfold k0_part10_skel
  simp only [Prog.lift, Prog.bind_op, Prog.bind_ret, Prog.pure_eq_ret]
  iintro ⟨⟨#HR, HS, HD, HO⟩, Hk⟩
  iapply (send1_printed m K c (4 : Fin 15) 4 5 rfl rfl X W _ (dev20_eq c)) $$ [HS HD HO]
  · isplitr; · iexact HR
    isplitl [HS]; · iexact HS
    isplitl [HD]; · iexact HD
    iexact HO
  iintro ⟨HS, HD, HO⟩
  iapply (send1_printed m K c (5 : Fin 15) 5 6 rfl rfl X W _ (dev21_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 11: the first transfer of shift 6. -/
theorem part11 (K : Dev nD × CK → ℕ) (c : Dev nD) (X : CellTallies nD τ sig Unit) (W : Waits sig Unit) (v2 : BitVec 32) (v333 : BitVec 32) (v334 : BitVec 32) (c0_i32_220 : BitVec 32)
    (Kt : (PUnit) → sProp 𝕄) :
    iprop((records m K ∗ Send1R m c 6 ∗ Send1D (F := F) c 6 ∗ owes (c : Thread nD τ) (X + Ors c 6) W)
        ∗ (∀ ret, (Send1R m c 7 ∗ Send1D (F := F) c 7 ∗ owes (c : Thread nD τ) (X + Ors c 7) W) -∗ Kt ret))
      ⊢ wp frame (wpE (defs₀ (F := F)) 𝒱₀ c none) Set.univ
          (k0_part11 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v333 v334 c0_i32_220) Kt := by
  rw [k0_part11_eq_skeleton]; unfold k0_part11_skel
  simp only [Prog.lift, Prog.bind_op, Prog.bind_ret, Prog.pure_eq_ret]
  iintro ⟨⟨#HR, HS, HD, HO⟩, Hk⟩
  iapply (send1_printed m K c (6 : Fin 15) 6 7 rfl rfl X W _ (dev22_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 12: the first transfers of shifts 7 and 8. -/
theorem part12 (K : Dev nD × CK → ℕ) (c : Dev nD) (X : CellTallies nD τ sig Unit) (W : Waits sig Unit) (v2 : BitVec 32)
    (Kt : (BitVec 32) → sProp 𝕄) :
    iprop((records m K ∗ Send1R m c 7 ∗ Send1D (F := F) c 7 ∗ owes (c : Thread nD τ) (X + Ors c 7) W)
        ∗ (∀ ret, (Send1R m c 9 ∗ Send1D (F := F) c 9 ∗ owes (c : Thread nD τ) (X + Ors c 9) W) -∗ Kt ret))
      ⊢ wp frame (wpE (defs₀ (F := F)) 𝒱₀ c none) Set.univ
          (k0_part12 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2) Kt := by
  rw [k0_part12_eq_skeleton]; unfold k0_part12_skel
  simp only [Prog.lift, Prog.bind_op, Prog.bind_ret, Prog.pure_eq_ret]
  iintro ⟨⟨#HR, HS, HD, HO⟩, Hk⟩
  iapply (send1_printed m K c (7 : Fin 15) 7 8 rfl rfl X W _ (dev23_eq c)) $$ [HS HD HO]
  · isplitr; · iexact HR
    isplitl [HS]; · iexact HS
    isplitl [HD]; · iexact HD
    iexact HO
  iintro ⟨HS, HD, HO⟩
  iapply (send1_printed m K c (8 : Fin 15) 8 9 rfl rfl X W _ (dev24_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 13: the first transfers of shifts 9 and 10. -/
theorem part13 (K : Dev nD × CK → ℕ) (c : Dev nD) (X : CellTallies nD τ sig Unit) (W : Waits sig Unit) (v2 : BitVec 32) (v407 : BitVec 32)
    (Kt : (Σ' (v438 : BitVec 32) (v439 : BitVec 32) (v440 : BitVec 1) (v441 : BitVec 1), BitVec 1) → sProp 𝕄) :
    iprop((records m K ∗ Send1R m c 9 ∗ Send1D (F := F) c 9 ∗ owes (c : Thread nD τ) (X + Ors c 9) W)
        ∗ (∀ ret, (Send1R m c 11 ∗ Send1D (F := F) c 11 ∗ owes (c : Thread nD τ) (X + Ors c 11) W) -∗ Kt ret))
      ⊢ wp frame (wpE (defs₀ (F := F)) 𝒱₀ c none) Set.univ
          (k0_part13 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v407) Kt := by
  rw [k0_part13_eq_skeleton]; unfold k0_part13_skel
  simp only [Prog.lift, Prog.bind_op, Prog.bind_ret, Prog.pure_eq_ret]
  iintro ⟨⟨#HR, HS, HD, HO⟩, Hk⟩
  iapply (send1_printed m K c (9 : Fin 15) 9 10 rfl rfl X W _ (dev25_eq c)) $$ [HS HD HO]
  · isplitr; · iexact HR
    isplitl [HS]; · iexact HS
    isplitl [HD]; · iexact HD
    iexact HO
  iintro ⟨HS, HD, HO⟩
  iapply (send1_printed m K c (10 : Fin 15) 10 11 rfl rfl X W _ (dev26_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 14: the first transfers of shifts 11 and 12. -/
theorem part14 (K : Dev nD × CK → ℕ) (c : Dev nD) (X : CellTallies nD τ sig Unit) (W : Waits sig Unit) (v2 : BitVec 32) (v438 : BitVec 32) (v439 : BitVec 32) (v440 : BitVec 1) (v441 : BitVec 1) (v442 : BitVec 1)
    (Kt : (Σ' (v478 : BitVec 32) (c16_i32_308 : BitVec 32), BitVec 32) → sProp 𝕄) :
    iprop((records m K ∗ Send1R m c 11 ∗ Send1D (F := F) c 11 ∗ owes (c : Thread nD τ) (X + Ors c 11) W)
        ∗ (∀ ret, (Send1R m c 13 ∗ Send1D (F := F) c 13 ∗ owes (c : Thread nD τ) (X + Ors c 13) W) -∗ Kt ret))
      ⊢ wp frame (wpE (defs₀ (F := F)) 𝒱₀ c none) Set.univ
          (k0_part14 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v438 v439 v440 v441 v442) Kt := by
  rw [k0_part14_eq_skeleton]; unfold k0_part14_skel
  simp only [Prog.lift, Prog.bind_op, Prog.bind_ret, Prog.pure_eq_ret]
  iintro ⟨⟨#HR, HS, HD, HO⟩, Hk⟩
  iapply (send1_printed m K c (11 : Fin 15) 11 12 rfl rfl X W _ (dev27_eq c)) $$ [HS HD HO]
  · isplitr; · iexact HR
    isplitl [HS]; · iexact HS
    isplitl [HD]; · iexact HD
    iexact HO
  iintro ⟨HS, HD, HO⟩
  iapply (send1_printed m K c (12 : Fin 15) 12 13 rfl rfl X W _ (dev28_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 15: the first transfer of shift 13. -/
theorem part15 (K : Dev nD × CK → ℕ) (c : Dev nD) (X : CellTallies nD τ sig Unit) (W : Waits sig Unit) (v2 : BitVec 32) (v478 : BitVec 32) (c16_i32_308 : BitVec 32) (c0_i32_309 : BitVec 32)
    (Kt : (PUnit) → sProp 𝕄) :
    iprop((records m K ∗ Send1R m c 13 ∗ Send1D (F := F) c 13 ∗ owes (c : Thread nD τ) (X + Ors c 13) W)
        ∗ (∀ ret, (Send1R m c 14 ∗ Send1D (F := F) c 14 ∗ owes (c : Thread nD τ) (X + Ors c 14) W) -∗ Kt ret))
      ⊢ wp frame (wpE (defs₀ (F := F)) 𝒱₀ c none) Set.univ
          (k0_part15 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v478 c16_i32_308 c0_i32_309) Kt := by
  rw [k0_part15_eq_skeleton]; unfold k0_part15_skel
  simp only [Prog.lift, Prog.bind_op, Prog.bind_ret, Prog.pure_eq_ret]
  iintro ⟨⟨#HR, HS, HD, HO⟩, Hk⟩
  iapply (send1_printed m K c (13 : Fin 15) 13 14 rfl rfl X W _ (dev29_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

/-- info: 'Cert.Kernel.AR.part15' depends on axioms: [propext, Classical.choice, Quot.sound] -/
#guard_msgs in #print axioms part15
/-- info: 'Cert.Kernel.AR.part12' depends on axioms: [propext, Classical.choice, Quot.sound] -/
#guard_msgs in #print axioms part12

end Cert.Kernel.AR

end
-- ==== Proof.KPartsA.lean ====
/-
# The printed parts 1 to 7: the signal phase, the barrier wait, the rounded copy

Parts 1 to 6 send fourteen of the fifteen signals; part 7 sends the last, waits for the fifteen it is owed, rounds the
staged block into the rounded copy, and starts the first transfer.
-/
import proofs.«900416_g7700000000000417_dist_ar_v7x_i16_i_m512_n512_bf16_1_alg».proof.Proof.KStepSig
import proofs.«900416_g7700000000000417_dist_ar_v7x_i16_i_m512_n512_bf16_1_alg».proof.Proof.KPartsB

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

set_option maxHeartbeats 800000 in
/-- Printed part 1: the device reads its own index, then the signals of the shifts 0, 1. -/
theorem part1 (K : Dev nD × CK → ℕ) (c : Dev nD) (X : CellTallies nD τ sig Unit) (W : Waits sig Unit)
    (Kt : (Σ' (d0 : Dev nD) (v2 : BitVec 32) (v3 : Sems sig S_) (v30 : BitVec 32) (c16_i32_18 : BitVec 32), BitVec 1) → sProp 𝕄) :
    iprop((records m K ∗ SigR (F := F) c 0 ∗ owes (c : Thread nD τ) (X + Osig c 0) W)
        ∗ (∀ ret, (SigR (F := F) c 2 ∗ owes (c : Thread nD τ) (X + Osig c 2) W
            ∗ ⌜ret.1 = c ∧ ret.2.2.1 = SemArray.scalar (sig.barrier 0 rfl)⌝) -∗ Kt ret))
      ⊢ wp frame (wpE (defs₀ (F := F)) 𝒱₀ c none) Set.univ
          (k0_part1 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  rw [k0_part1_eq_skeleton]; unfold k0_part1_skel
  simp only [semSignalWord, Prog.lift, Prog.bind_op, Prog.bind_ret, Prog.pure_eq_ret, wp_deviceId]
  iintro ⟨⟨#HR, HS, HO⟩, Hk⟩
  iapply (sig_step m K c (0 : Fin 15) 0 1 rfl rfl X W _ (dev1_eq c) _ rfl) $$ [HS HO]
  · isplitr; · iexact HR
    isplitl [HS] <;> iassumption
  iintro ⟨HS, HO⟩
  iapply (sig_step m K c (1 : Fin 15) 1 2 rfl rfl X W _ (dev2_eq c) _ rfl) $$ [HS HO]
  · isplitr; · iexact HR
    isplitl [HS] <;> iassumption
  iintro ⟨HS, HO⟩
  rw [wp_ret]; imodintro
  iapply Hk
  isplitl [HS]; · iexact HS
  isplitl [HO]; · iexact HO
  ipureintro; exact ⟨rfl, rfl⟩

set_option maxHeartbeats 800000 in
/-- Printed part 2: the signals of the shifts 2, 3. -/
theorem part2 (K : Dev nD × CK → ℕ) (c : Dev nD) (X : CellTallies nD τ sig Unit) (W : Waits sig Unit) (v2 : BitVec 32) (v30 : BitVec 32) (c16 : BitVec 32) (v31 : BitVec 1)
    (Kt : (Σ' (v59 : BitVec 32) (v64 : BitVec 1), BitVec 32) → sProp 𝕄) :
    iprop((records m K ∗ SigR (F := F) c 2 ∗ owes (c : Thread nD τ) (X + Osig c 2) W)
        ∗ (∀ ret, (SigR (F := F) c 4 ∗ owes (c : Thread nD τ) (X + Osig c 4) W) -∗ Kt ret))
      ⊢ wp frame (wpE (defs₀ (F := F)) 𝒱₀ c none) Set.univ
          (k0_part2 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v30 c16 v31) Kt := by
  rw [k0_part2_eq_skeleton]; unfold k0_part2_skel
  simp only [semSignalWord, Prog.lift, Prog.bind_op, Prog.bind_ret, Prog.pure_eq_ret]
  iintro ⟨⟨#HR, HS, HO⟩, Hk⟩
  iapply (sig_step m K c (2 : Fin 15) 2 3 rfl rfl X W _ (dev3_eq c) _ rfl) $$ [HS HO]
  · isplitr; · iexact HR
    isplitl [HS] <;> iassumption
  iintro ⟨HS, HO⟩
  iapply (sig_step m K c (3 : Fin 15) 3 4 rfl rfl X W _ (dev4_eq c) _ rfl) $$ [HS HO]
  · isplitr; · iexact HR
    isplitl [HS] <;> iassumption
  iintro ⟨HS, HO⟩
  rw [wp_ret]; imodintro
  iapply Hk
  isplitl [HS] <;> iassumption

set_option maxHeartbeats 800000 in
/-- Printed part 3: the signals of the shifts 4, 5, 6. -/
theorem part3 (K : Dev nD × CK → ℕ) (c : Dev nD) (X : CellTallies nD τ sig Unit) (W : Waits sig Unit) (v2 : BitVec 32) (v59 : BitVec 32) (v64 : BitVec 1) (v65 : BitVec 32)
    (Kt : (Σ' (v95 : BitVec 32) (c16_i32_63 : BitVec 32), BitVec 1) → sProp 𝕄) :
    iprop((records m K ∗ SigR (F := F) c 4 ∗ owes (c : Thread nD τ) (X + Osig c 4) W)
        ∗ (∀ ret, (SigR (F := F) c 7 ∗ owes (c : Thread nD τ) (X + Osig c 7) W) -∗ Kt ret))
      ⊢ wp frame (wpE (defs₀ (F := F)) 𝒱₀ c none) Set.univ
          (k0_part3 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v59 v64 v65) Kt := by
  rw [k0_part3_eq_skeleton]; unfold k0_part3_skel
  simp only [semSignalWord, Prog.lift, Prog.bind_op, Prog.bind_ret, Prog.pure_eq_ret]
  iintro ⟨⟨#HR, HS, HO⟩, Hk⟩
  iapply (sig_step m K c (4 : Fin 15) 4 5 rfl rfl X W _ (dev5_eq c) _ rfl) $$ [HS HO]
  · isplitr; · iexact HR
    isplitl [HS] <;> iassumption
  iintro ⟨HS, HO⟩
  iapply (sig_step m K c (5 : Fin 15) 5 6 rfl rfl X W _ (dev6_eq c) _ rfl) $$ [HS HO]
  · isplitr; · iexact HR
    isplitl [HS] <;> iassumption
  iintro ⟨HS, HO⟩
  iapply (sig_step m K c (6 : Fin 15) 6 7 rfl rfl X W _ (dev7_eq c) _ rfl) $$ [HS HO]
  · isplitr; · iexact HR
    isplitl [HS] <;> iassumption
  iintro ⟨HS, HO⟩
  rw [wp_ret]; imodintro
  iapply Hk
  isplitl [HS] <;> iassumption

set_option maxHeartbeats 800000 in
/-- Printed part 4: the signals of the shifts 7, 8. -/
theorem part4 (K : Dev nD × CK → ℕ) (c : Dev nD) (X : CellTallies nD τ sig Unit) (W : Waits sig Unit) (v2 : BitVec 32) (v95 : BitVec 32) (c16 : BitVec 32) (v96 : BitVec 1)
    (Kt : (Σ' (v124 : BitVec 32) (v129 : BitVec 1), BitVec 32) → sProp 𝕄) :
    iprop((records m K ∗ SigR (F := F) c 7 ∗ owes (c : Thread nD τ) (X + Osig c 7) W)
        ∗ (∀ ret, (SigR (F := F) c 9 ∗ owes (c : Thread nD τ) (X + Osig c 9) W) -∗ Kt ret))
      ⊢ wp frame (wpE (defs₀ (F := F)) 𝒱₀ c none) Set.univ
          (k0_part4 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v95 c16 v96) Kt := by
  rw [k0_part4_eq_skeleton]; unfold k0_part4_skel
  simp only [semSignalWord, Prog.lift, Prog.bind_op, Prog.bind_ret, Prog.pure_eq_ret]
  iintro ⟨⟨#HR, HS, HO⟩, Hk⟩
  iapply (sig_step m K c (7 : Fin 15) 7 8 rfl rfl X W _ (dev8_eq c) _ rfl) $$ [HS HO]
  · isplitr; · iexact HR
    isplitl [HS] <;> iassumption
  iintro ⟨HS, HO⟩
  iapply (sig_step m K c (8 : Fin 15) 8 9 rfl rfl X W _ (dev9_eq c) _ rfl) $$ [HS HO]
  · isplitr; · iexact HR
    isplitl [HS] <;> iassumption
  iintro ⟨HS, HO⟩
  rw [wp_ret]; imodintro
  iapply Hk
  isplitl [HS] <;> iassumption

set_option maxHeartbeats 800000 in
/-- Printed part 5: the signals of the shifts 9, 10, 11. -/
theorem part5 (K : Dev nD × CK → ℕ) (c : Dev nD) (X : CellTallies nD τ sig Unit) (W : Waits sig Unit) (v2 : BitVec 32) (v124 : BitVec 32) (v129 : BitVec 1) (v130 : BitVec 32)
    (Kt : (Σ' (v160 : BitVec 32) (c16_i32_108 : BitVec 32), BitVec 1) → sProp 𝕄) :
    iprop((records m K ∗ SigR (F := F) c 9 ∗ owes (c : Thread nD τ) (X + Osig c 9) W)
        ∗ (∀ ret, (SigR (F := F) c 12 ∗ owes (c : Thread nD τ) (X + Osig c 12) W) -∗ Kt ret))
      ⊢ wp frame (wpE (defs₀ (F := F)) 𝒱₀ c none) Set.univ
          (k0_part5 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v124 v129 v130) Kt := by
  rw [k0_part5_eq_skeleton]; unfold k0_part5_skel
  simp only [semSignalWord, Prog.lift, Prog.bind_op, Prog.bind_ret, Prog.pure_eq_ret]
  iintro ⟨⟨#HR, HS, HO⟩, Hk⟩
  iapply (sig_step m K c (9 : Fin 15) 9 10 rfl rfl X W _ (dev10_eq c) _ rfl) $$ [HS HO]
  · isplitr; · iexact HR
    isplitl [HS] <;> iassumption
  iintro ⟨HS, HO⟩
  iapply (sig_step m K c (10 : Fin 15) 10 11 rfl rfl X W _ (dev11_eq c) _ rfl) $$ [HS HO]
  · isplitr; · iexact HR
    isplitl [HS] <;> iassumption
  iintro ⟨HS, HO⟩
  iapply (sig_step m K c (11 : Fin 15) 11 12 rfl rfl X W _ (dev12_eq c) _ rfl) $$ [HS HO]
  · isplitr; · iexact HR
    isplitl [HS] <;> iassumption
  iintro ⟨HS, HO⟩
  rw [wp_ret]; imodintro
  iapply Hk
  isplitl [HS] <;> iassumption

set_option maxHeartbeats 800000 in
/-- Printed part 6: the signals of the shifts 12, 13. -/
theorem part6 (K : Dev nD × CK → ℕ) (c : Dev nD) (X : CellTallies nD τ sig Unit) (W : Waits sig Unit) (v2 : BitVec 32) (v160 : BitVec 32) (c16 : BitVec 32) (v161 : BitVec 1)
    (Kt : (Σ' (v189 : BitVec 32) (v194 : BitVec 1), BitVec 32) → sProp 𝕄) :
    iprop((records m K ∗ SigR (F := F) c 12 ∗ owes (c : Thread nD τ) (X + Osig c 12) W)
        ∗ (∀ ret, (SigR (F := F) c 14 ∗ owes (c : Thread nD τ) (X + Osig c 14) W) -∗ Kt ret))
      ⊢ wp frame (wpE (defs₀ (F := F)) 𝒱₀ c none) Set.univ
          (k0_part6 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v160 c16 v161) Kt := by
  rw [k0_part6_eq_skeleton]; unfold k0_part6_skel
  simp only [semSignalWord, Prog.lift, Prog.bind_op, Prog.bind_ret, Prog.pure_eq_ret]
  iintro ⟨⟨#HR, HS, HO⟩, Hk⟩
  iapply (sig_step m K c (12 : Fin 15) 12 13 rfl rfl X W _ (dev13_eq c) _ rfl) $$ [HS HO]
  · isplitr; · iexact HR
    isplitl [HS] <;> iassumption
  iintro ⟨HS, HO⟩
  iapply (sig_step m K c (13 : Fin 15) 13 14 rfl rfl X W _ (dev14_eq c) _ rfl) $$ [HS HO]
  · isplitr; · iexact HR
    isplitl [HS] <;> iassumption
  iintro ⟨HS, HO⟩
  rw [wp_ret]; imodintro
  iapply Hk
  isplitl [HS] <;> iassumption

/-! ## Part 7: the last signal, the barrier wait, the rounded copy, the first transfer -/

/-- The whole 512 × 512 rectangle, as the load and the store name it. -/
abbrev p7_r0 : Rect S512x512 := Rect.unit (s := S512x512) ![0, 0] S512x512.size inb_S512x512_S512x512_0_0
theorem p7_hz : (![0, 0] : Fin 2 → Nat) = fun _ => 0 := funext fun a => by fin_cases a <;> rfl

/-- A load through the whole rectangle reads the contents; a store through it leaves what is stored. -/
theorem p7_read (f : (cc0_stg0_0 : Ref sig .tc).ty.Contents (Elt F)) :
    (xM : Memref sig .tc .vmem S512x512 .f32).view.readAt (Elt F) p7_r0.toLoadRect f = f :=
  Memref.readAt_unit_zero (Elt F) cc0_stg0_0 p7_hz _ f
theorem p7_stored (f w : (cc0_scratch0 : Ref sig .tc).ty.Contents (Elt F)) :
    (((bM : Memref sig .tc .vmem S512x512 .bf16).access p7_r0 : View sig .tc _ _ _).write (Elt F) f w Finset.univ) = w :=
  Memref.write_access_unit_zero_univ (Elt F) cc0_scratch0 p7_hz _ f w

/-- The fifteen token pairs, the peers' receive slots and the fifteen row blocks of the rounded copy are the first
    transfers still to start; the peers' result slots stay. -/
theorem p7_send1R (c : Dev nD) :
    iprop((bigSep Finset.univ fun k : Fin 15 => iprop(dutyTok ER (rsRecvCell (fwd c k) c) 0 c ∗ dutyTok ER (rsSendCell c (fwd c k)) 0 (fwd c k)))
        ∗ (bigSep Finset.univ fun k : Fin 15 => iprop(peerSlotS (F := F) c k ∗ peerSlotO (F := F) c k))
        ∗ (bigSep Finset.univ fun k : Fin 15 => (bRow (fwd c k)).view.loc (c : Thread nD τ) ↦[(bRow (fwd c k)).view.set]{fullShare} xb m c))
      ⊢ iprop(Send1R m c 0 ∗ bigSep Finset.univ fun k : Fin 15 => peerSlotO (F := F) c k) := by
  unfold Send1R; rw [ge_zero]
  refine BI.Entails.trans ?_ (Entails.of_eq (bigSep_sep _ _ _))
  refine (Entails.of_eq ((congrArg (fun P => iprop((bigSep Finset.univ fun k : Fin 15 => iprop(dutyTok ER (rsRecvCell (fwd c k) c) 0 c ∗ dutyTok ER (rsSendCell c (fwd c k)) 0 (fwd c k))) ∗ P))
      (bigSep_sep _ _ _).symm).trans (bigSep_sep _ _ _).symm)).trans (bigSep_mono fun k _ => ?_)
  show iprop((dutyTok ER (rsRecvCell (fwd c k) c) 0 c ∗ dutyTok ER (rsSendCell c (fwd c k)) 0 (fwd c k))
      ∗ (peerSlotS (F := F) c k ∗ peerSlotO (F := F) c k)
      ∗ ((bRow (fwd c k)).view.loc (c : Thread nD τ) ↦[(bRow (fwd c k)).view.set]{fullShare} xb m c))
    ⊢ iprop((dutyTok ER (rsRecvCell (fwd c k) c) 0 c ∗ dutyTok ER (rsSendCell c (fwd c k)) 0 (fwd c k) ∗ peerSlotS (F := F) c k
        ∗ ((bRow (fwd c k)).view.loc (c : Thread nD τ) ↦[(bRow (fwd c k)).view.set]{fullShare} xb m c))
      ∗ peerSlotO (F := F) c k)
  iintro ⟨⟨H1, H2⟩, ⟨H3, H5⟩, H4⟩
  isplitr [H5]
  · isplitl [H1]; · iexact H1
    isplitl [H2]; · iexact H2
    isplitl [H3]; · iexact H3
    iexact H4
  · iexact H5

/-- No first transfer started yet: no credit returned. -/
theorem p7_send1D0 (c : Dev nD) : (iprop(emp) : sProp 𝕄) ⊢ Send1D (F := F) c 0 := by
  unfold Send1D; rw [bigSep_lt_zero]

set_option maxHeartbeats 1600000 in
/-- Printed part 7. The last signal; the wait for the fifteen signals owed, which returns every peer's two slots; the
    staged block rounded into the rounded copy, which is cut into its sixteen row blocks; the first transfer of shift 0. -/
theorem part7 (K : Dev nD × CK → ℕ) (c : Dev nD) (W : Waits sig Unit) (v2 v189 : BitVec 32) (v194 : BitVec 1) (v195 : BitVec 32)
    (f0 : Buf (Elt F) ((c : Thread nD τ).loc cc0_stg0_0)) (hf0 : f0 = xstg m c)
    (fb : Buf (Elt F) ((c : Thread nD τ).loc cc0_scratch0))
    (Kt : (Σ' (v226 : BitVec 32) (c16_i32_152 : BitVec 32), BitVec 32) → sProp 𝕄) :
    iprop((records m K ∗ levAts L lv ∗ SigR (F := F) c 14 ∗ owes (c : Thread nD τ) (Oag c 0 + Ors c 0 + Osig c 14) W
          ∗ cred (tallyAt (barCell c) () 15) ∗ atPos ER (barCell c) 0 ∅ 0
          ∗ (((c : Thread nD τ).loc cc0_stg0_0) ↦{fullShare} f0)
          ∗ (((c : Thread nD τ).loc cc0_scratch0) ↦{fullShare} fb)
          ∗ (bigSep Finset.univ fun k : Fin 15 => iprop(dutyTok ER (rsRecvCell (fwd c k) c) 0 c ∗ dutyTok ER (rsSendCell c (fwd c k)) 0 (fwd c k))))
        ∗ (∀ ret, (Send1R m c 1 ∗ Send1D (F := F) c 1 ∗ owes (c : Thread nD τ) (Oag c 0 + Ors c 1) (insert (SemLoc.reg barS, ()) W)
            ∗ atPos ER (barCell c) 1 ∅ 0 ∗ reached ER (barCell c) 1
            ∗ (bigSep Finset.univ fun k : Fin 15 => peerSlotO (F := F) c k)
            ∗ (((c : Thread nD τ).loc cc0_stg0_0) ↦{fullShare} f0)
            ∗ ((bRow c).view.loc (c : Thread nD τ) ↦[(bRow c).view.set]{fullShare} xb m c)) -∗ Kt ret))
      ⊢ wp frame (wpE (defs₀ (F := F)) 𝒱₀ c none) Set.univ
          (k0_part7 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 (SemArray.scalar (sig.barrier 0 rfl)) v189 v194 v195) Kt := by
  rw [k0_part7_eq_skeleton]; unfold k0_part7_skel
  simp only [semSignalWord, semWaitWord, Prog.lift, Prog.bind_op, Prog.bind_ret, Prog.pure_eq_ret]
  have hval : (((bM : Memref sig .tc .vmem S512x512 .bf16).access p7_r0 : View sig .tc _ _ _).write (Elt F) fb
      (k0_pay1 ((xM : Memref sig .tc .vmem S512x512 .f32).view.readAt (Elt F) p7_r0.toLoadRect f0)) Finset.univ) = xb m c := by
    rw [p7_stored, p7_read, hf0]; rfl
  iintro ⟨⟨#HR, #Hlev, HS, HO, Hc, Hat, H0, Hb, Ht⟩, Hk⟩
  iapply (sig_step m K c (14 : Fin 15) 14 15 rfl rfl (Oag c 0 + Ors c 0) W _ (dev15_eq c) _ rfl) $$ [HS HO]
  · isplitr; · iexact HR
    isplitl [HS] <;> iassumption
  iintro ⟨-, HO⟩
  ihave HO := (Entails.of_eq (congrArg (fun o => (owes (c : Thread nD τ) o W : sProp 𝕄))
    (show Oag c 0 + Ors c 0 + Osig c 15 = Oag c 0 + Ors c 0 by rw [Osig_done, add_zero]))) $$ HO
  iapply (bar_wait_step m K c W _ rfl) $$ [Hc Hat HO]
  · isplitr; · iexact HR
    isplitr; · iexact Hlev
    isplitl [Hc]; · iexact Hc
    isplitl [Hat] <;> iassumption
  iintro ⟨HO, Hat, Hre, Hp⟩
  iapply (wp_load 𝒱₀ (c : Thread nD τ) none Set.univ (m := xM) (Finset.subset_univ _)) $$ H0; iintro H0
  iapply (wp_load 𝒱₀ (c : Thread nD τ) none Set.univ (m := bM) (Finset.subset_univ _)) $$ Hb; iintro Hb
  iapply (wp_store 𝒱₀ (c : Thread nD τ) none Set.univ (m := bM) (r := p7_r0) (Mk := Finset.univ) (Finset.subset_univ _)) $$ Hb; iintro Hb
  ihave Hb := (Entails.of_eq (congrArg (fun g => ((((c : Thread nD τ).loc cc0_scratch0) ↦{fullShare} g : sProp 𝕄))) hval)) $$ Hb
  ihave Hb := (Entails.of_eq ((bM_rows (F := F) c (xb m c)).trans (univ_eq_own_fwd c _))) $$ Hb
  icases Hb with ⟨Hown, Hrows⟩
  ihave HS := (p7_send1R m c) $$ [Ht Hp Hrows]
  · isplitl [Ht]; · iexact Ht
    isplitl [Hp] <;> iassumption
  icases HS with ⟨HS, HpO⟩
  iapply (send1_printed m K c (0 : Fin 15) 0 1 rfl rfl (Oag c 0) (insert (SemLoc.reg barS, ()) W) _ (dev16_eq c)) $$ [HS HO]
  · isplitr; · iexact HR
    isplitl [HS]; · iexact HS
    isplitr; · iapply (p7_send1D0 (F := F) c); iempintro
    iexact HO
  iintro ⟨HS, HD, HO⟩
  rw [wp_ret]; imodintro
  iapply Hk
  isplitl [HS]; · iexact HS
  isplitl [HD]; · iexact HD
  isplitl [HO]; · iexact HO
  isplitl [Hat]; · iexact Hat
  isplitl [Hre]; · iexact Hre
  isplitl [HpO]; · iexact HpO
  isplitl [H0]; · iexact H0
  iexact Hown

/-- info: 'Cert.Kernel.AR.part1' depends on axioms: [propext, Classical.choice, Quot.sound] -/
#guard_msgs in #print axioms part1
/-- info: 'Cert.Kernel.AR.part2' depends on axioms: [propext, Classical.choice, Quot.sound] -/
#guard_msgs in #print axioms part2
/-- info: 'Cert.Kernel.AR.part3' depends on axioms: [propext, Classical.choice, Quot.sound] -/
#guard_msgs in #print axioms part3
/-- info: 'Cert.Kernel.AR.part4' depends on axioms: [propext, Classical.choice, Quot.sound] -/
#guard_msgs in #print axioms part4
/-- info: 'Cert.Kernel.AR.part5' depends on axioms: [propext, Classical.choice, Quot.sound] -/
#guard_msgs in #print axioms part5
/-- info: 'Cert.Kernel.AR.part6' depends on axioms: [propext, Classical.choice, Quot.sound] -/
#guard_msgs in #print axioms part6
/-- info: 'Cert.Kernel.AR.part7' depends on axioms: [propext, Classical.choice, Quot.sound] -/
#guard_msgs in #print axioms part7

end Cert.Kernel.AR

end
-- ==== Proof.KStepRecv.lean ====
/-
# The receive steps of the body

One wait on a receive cell of either round, and one load of landed rows, stated over the families of resources by
progress counter: the wait moves one shift from the family still to wait for to the family done, the load borrows one
landed block out of the family done.
-/
import proofs.«900416_g7700000000000417_dist_ar_v7x_i16_i_m512_n512_bf16_1_alg».proof.Proof.KRes

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Levels: a first-round receive cell lies below every second-round receive cell -/

theorem L_own (c : Dev nD) (sm : SemLoc sig) : L ((c : Thread nD τ), sm) = {()} := if_pos rfl

theorem lvr_rsRecv (t : Thread nD τ) (d : Dev nD) : lv (t, SemLoc.dma (rsRecvS d)) () = 2 := by
  dsimp only [lv]; rw [if_pos ⟨two_le_rsRecv d, semArr_rsRecv d⟩]

theorem lvr_agRecv (t : Thread nD τ) (d : Dev nD) : lv (t, SemLoc.dma (agRecvS d)) () = 3 := by
  dsimp only [lv]
  rw [if_neg (fun h => absurd ((semArr_agRecv d).symm.trans h.2) (by decide)), if_pos ⟨two_le_agRecv d, semArr_agRecv d⟩]

/-- What a device still owes of the second round is owed on second-round receive cells. -/
theorem Oag_pos {c : Dev nD} {n : ℕ} {g : GSem nD τ sig} {u : Unit} (h : 0 < Oag c n g u) :
    ∃ k : Fin 15, g = agRecvCell (fwd c k) c := by
  unfold Oag at h
  obtain ⟨k, _, hk⟩ := Pipeline.sum_pos_exists h
  rw [tallyAt_apply] at hk
  by_cases hg : g = agRecvCell (fwd c k) c ∧ u = ()
  · exact ⟨k, hg.1⟩
  · rw [if_neg hg] at hk; exact absurd hk (Nat.lt_irrefl 0)

/-- A device may wait on a first-round receive cell while it owes second-round landings only. -/
theorem mayWait_recv1 (c d : Dev nD) (n : ℕ) :
    (levAts L lv : sProp 𝕄) ⊢ MayWait (c : Thread nD τ) (SemLoc.dma (rsRecvS d)) () (Oag c n) :=
  Pipeline.mayWait_of_levAts (by rw [L_own]; exact Finset.mem_singleton_self _) fun g i hg => by
    obtain ⟨k, rfl⟩ := Oag_pos hg
    refine ⟨by rw [show L (agRecvCell (fwd c k) c) = {()} from if_pos rfl]; exact Finset.mem_singleton_self _, ?_⟩
    rw [lvr_rsRecv, show lv (agRecvCell (fwd c k) c) i = 3 from lvr_agRecv _ c]; decide

/-! ## The first round's receives -/

/-- The wait for the first transfer from the peer `k + 1` places behind: the device hands in the credit it was dealt
    for that cell and its position there, and comes back past the round with the landed rows. The views of the
    printed wait are arbitrary but for the destination's credit count; the cell is the peer's of the receive array. -/
theorem recv1_step (K : Dev nD × CK → ℕ) (c : Dev nD) (k : Fin 15) (n n' : ℕ) (hn : n = k.val) (hn' : n' = k.val + 1)
    (W : Waits sig Unit) (sR : DmaSem sig) (hsR : sR = rsRecvS (bwd c k))
    (srcv dstv : Memref sig .tc .vmem S32x512 .bf16) (hN : dstv.view.dmaCredit = NC)
    {hs : srcv.view.WordExact} {hd : dstv.view.WordExact}
    {α : Type} {Q : α → sProp 𝕄} {kont : PUnit → Prog (TpuEff nD τ sig (Elt F) Λ₀ .tc) α} :
    iprop(records m K ∗ levAts L lv ∗ Recv1R (F := F) c n ∗ Recv1D m c n ∗ owes (c : Thread nD τ) (Oag c 0) W)
      ⊢ iprop(((Recv1R (F := F) c n' ∗ Recv1D m c n'
              ∗ owes (c : Thread nD τ) (Oag c 0) (insert (SemLoc.dma (rsRecvS (bwd c k)), ()) W))
            -∗ wp frame (wpE (defs₀ (F := F)) 𝒱₀ c none) Set.univ (kont ⟨⟩) Q)
          -∗ wp frame (wpE (defs₀ (F := F)) 𝒱₀ c none) Set.univ (.op (.waitDma2 sR srcv dstv hs hd) kont) Q) := by
  subst hsR
  unfold Recv1R Recv1D
  rw [bigSep_ge_peel _ n k n' hn hn', bigSep_lt_push _ n k n' hn hn']
  iintro ⟨#HR, #Hlev, ⟨⟨Hat, Hc⟩, HRr⟩, HRd, HO⟩ Hk
  iapply (Rounds.wp_wait_rest_token 𝒱₀ ER (ringRd m) (c : Thread nD τ) none (κ := K (c, some (1, bwd c k)))
      (sm := SemLoc.dma (rsRecvS (bwd c k))) (k' := NC)
      (fun Kq => (wpE_waitDma2_eq 𝒱₀ (c : Thread nD τ) none Set.univ Kq).trans (by rw [hN])) (Set.mem_univ _) ()
      (O := Oag c 0) (W := W) (R := 0) (m := 0) (T := ∅)
      (by rw [Nat.zero_add]; exact (expect_rsRecv m c (bwd c k) (bwd_ne c k)).symm)) $$ [Hc HO Hat]
  · isplitr; · iapply (inv_at m K (c, some (1, bwd c k))); iexact HR
    isplitl [Hc]; · iexact Hc
    isplitl [HO]; · iexact HO
    isplitr; · iapply (mayWait_recv1 c (bwd c k) 0); iexact Hlev
    iexact Hat
  iintro ⟨HO, Hat, -, Hpay⟩
  ihave Hp := (Entails.of_eq (rest_rsRecv m c (bwd c k) (bwd_ne c k))) $$ Hpay
  iapply Hk
  isplitl [HRr]; · iexact HRr
  isplitl [Hat Hp HRd]
  · isplitl [Hat Hp]
    · isplitl [Hat]; · iexact Hat
      iexact Hp
    iexact HRd
  iexact HO

/-- One shift done, taken out of a family of results (to be put back). -/
theorem bigSep_lt_borrow (Φ : Fin 15 → sProp 𝕄) (n : ℕ) (k : Fin 15) (hk : k.val < n) :
    bigSep (lt n) Φ = iprop(Φ k ∗ bigSep ((lt n).erase k) Φ) := by
  rw [bigSep_erase (show k ∈ lt n by simp only [lt, Finset.mem_filter, Finset.mem_univ, true_and]; exact hk)]; rfl

/-- A load of the rows received from the peer `k + 1` places behind, once they have landed (the shift is among
    those done): the landed rows are borrowed out of the family for the load and put back, and the program goes on
    at the receive buffer's expected contents read through the load's rectangle. -/
theorem recv1_load (c : Dev nD) (k : Fin 15) (n : ℕ) (hk : k.val < n) (w : BitVec 32) (hw : w = BitVec.ofNat 32 (1 + k.val))
    {inb : ∀ a, k0_off8 c w a + S32x512.size a ≤ S512x512.size a}
    {hl : (sM : Memref sig .tc .vmem S512x512 .bf16).view.LoadsAt (Rect.unit (s := S512x512) (k0_off8 c w) S32x512.size inb).toLoadRect}
    {α : Type} {Q : α → sProp 𝕄} {kont : Vec F S32x512 .bf16 → Prog (TpuEff nD τ sig (Elt F) Λ₀ .tc) α} :
    Recv1D m c n
      ⊢ iprop((Recv1D m c n -∗ wp frame (wpE (defs₀ (F := F)) 𝒱₀ c none) Set.univ (kont (rsVec m c k)) Q)
          -∗ wp frame (wpE (defs₀ (F := F)) 𝒱₀ c none) Set.univ
            (.op (.load (sM : Memref sig .tc .vmem S512x512 .bf16) (Rect.unit (s := S512x512) (k0_off8 c w) S32x512.size inb).toLoadRect hl) kont) Q) := by
  subst hw
  have hsub : (sM : Memref sig .tc .vmem S512x512 .bf16).view.setOn
      (Rect.unit (s := S512x512) (k0_off8 c (BitVec.ofNat 32 (1 + k.val))) S32x512.size inb).toLoadRect.set
        ⊆ (sRow (bwd c k)).view.set := by
    have e : Rect.unit (s := S512x512) (k0_off8 c (BitVec.ofNat 32 (1 + k.val))) S32x512.size inb = rows (bwd c k) :=
      Rect.unit_congr ((off8_eq c k).trans (k0_off3_eq (bwd c k)).symm) _ _
    rw [e]
    show (Rect.toLoadRect (rows (bwd c k))).set.map (View.whole cc0_scratch2).emb ⊆ ((View.whole cc0_scratch2).slice (rows (bwd c k))).set
    rw [View.set_slice_whole, View.emb_whole, Finset.map_refl]
  unfold Recv1D rsVec rsRecvPay
  rw [bigSep_lt_borrow _ n k hk]
  iintro ⟨⟨Hat, Hp⟩, Hrest⟩ Hk
  iapply (wp_load 𝒱₀ (c : Thread nD τ) none Set.univ (m := (sM : Memref sig .tc .vmem S512x512 .bf16))
      (r := (Rect.unit (s := S512x512) (k0_off8 c (BitVec.ofNat 32 (1 + k.val))) S32x512.size inb).toLoadRect)
      (S := (sRow (bwd c k)).view.set) (q := fullShare) (f := RS m c) hsub) $$ Hp
  iintro Hp
  iapply Hk
  isplitl [Hat Hp]
  · isplitl [Hat]; · iexact Hat
    iexact Hp
  iexact Hrest

/-! ## The second round's receives -/

/-- The wait for the second transfer from the peer `k + 1` places behind, with nothing owed any more: the device
    comes back past the round with the reduced rows of that peer landed in its staged result. -/
theorem recv2_step (K : Dev nD × CK → ℕ) (c : Dev nD) (k : Fin 15) (n n' : ℕ) (hn : n = k.val) (hn' : n' = k.val + 1)
    (W : Waits sig Unit) (sR : DmaSem sig) (hsR : sR = agRecvS (bwd c k))
    (srcv dstv : Memref sig .tc .vmem S32x512 .bf16) (hN : dstv.view.dmaCredit = NC)
    {hs : srcv.view.WordExact} {hd : dstv.view.WordExact}
    {α : Type} {Q : α → sProp 𝕄} {kont : PUnit → Prog (TpuEff nD τ sig (Elt F) Λ₀ .tc) α} :
    iprop(records m K ∗ Recv2R (F := F) c n ∗ Recv2D m c n ∗ owes (c : Thread nD τ) 0 W)
      ⊢ iprop(((Recv2R (F := F) c n' ∗ Recv2D m c n'
              ∗ owes (c : Thread nD τ) 0 (insert (SemLoc.dma (agRecvS (bwd c k)), ()) W))
            -∗ wp frame (wpE (defs₀ (F := F)) 𝒱₀ c none) Set.univ (kont ⟨⟩) Q)
          -∗ wp frame (wpE (defs₀ (F := F)) 𝒱₀ c none) Set.univ (.op (.waitDma2 sR srcv dstv hs hd) kont) Q) := by
  subst hsR
  unfold Recv2R Recv2D
  rw [bigSep_ge_peel _ n k n' hn hn', bigSep_lt_push _ n k n' hn hn']
  iintro ⟨#HR, ⟨⟨Hat, Hc⟩, HRr⟩, HRd, HO⟩ Hk
  iapply (Rounds.wp_wait_rest_token 𝒱₀ ER (ringRd m) (c : Thread nD τ) none (κ := K (c, some (3, bwd c k)))
      (sm := SemLoc.dma (agRecvS (bwd c k))) (k' := NC)
      (fun Kq => (wpE_waitDma2_eq 𝒱₀ (c : Thread nD τ) none Set.univ Kq).trans (by rw [hN])) (Set.mem_univ _) ()
      (O := 0) (W := W) (R := 0) (m := 0) (T := ∅)
      (by rw [Nat.zero_add]; exact (expect_agRecv m c (bwd c k) (bwd_ne c k)).symm)) $$ [Hc HO Hat]
  · isplitr; · iapply (inv_at m K (c, some (3, bwd c k))); iexact HR
    isplitl [Hc]; · iexact Hc
    isplitl [HO]; · iexact HO
    isplitr; · rw [MayWait_zero]; iempintro
    iexact Hat
  iintro ⟨HO, Hat, -, Hpay⟩
  ihave Hp := (Entails.of_eq (rest_agRecv m c (bwd c k) (bwd_ne c k))) $$ Hpay
  iapply Hk
  isplitl [HRr]; · iexact HRr
  isplitl [Hat Hp HRd]
  · isplitl [Hat Hp]
    · isplitl [Hat]; · iexact Hat
      iexact Hp
    iexact HRd
  iexact HO

end Cert.Kernel.AR

end

/-- info: 'Cert.Kernel.AR.recv1_step' depends on axioms: [propext, Classical.choice, Quot.sound] -/
#guard_msgs in #print axioms Cert.Kernel.AR.recv1_step

/-- info: 'Cert.Kernel.AR.recv1_load' depends on axioms: [propext, Classical.choice, Quot.sound] -/
#guard_msgs in #print axioms Cert.Kernel.AR.recv1_load

/-- info: 'Cert.Kernel.AR.recv2_step' depends on axioms: [propext, Classical.choice, Quot.sound] -/
#guard_msgs in #print axioms Cert.Kernel.AR.recv2_step
-- ==== Proof.KPartsC.lean ====
/-
# The first round's receives, printed parts 16 to 18

Part 16 starts the last first-round transfer, loads the device's own rows of its block, waits for the rows of the
peer one place behind and loads them; parts 17 and 18 wait for and load the rows of the peers two, three and four
places behind. Each returns the sum so far, in the order the body adds.
-/
import proofs.«900416_g7700000000000417_dist_ar_v7x_i16_i_m512_n512_bf16_1_alg».proof.Proof.KStepRecv
import proofs.«900416_g7700000000000417_dist_ar_v7x_i16_i_m512_n512_bf16_1_alg».proof.Proof.KPartsB

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer into thirty-two rows of the receive buffer counts as one narrow row block. -/
theorem credit_rows (off : Fin 2 → Nat) (inb : ∀ a, off a + S32x512.size a ≤ S512x512.size a) :
    ((Memref.whole cc0_scratch2 : Memref sig .tc .vmem S512x512 .bf16).slice (Rect.unit (s := S512x512) off S32x512.size inb) (fun _ => rfl)).view.dmaCredit = NC := rfl

set_option maxHeartbeats 1600000 in
/-- Printed part 16: the last first-round transfer (shift 14), the load of the device's own rows, the wait for and the
    load of the rows from the peer one place behind. -/
theorem part16 (K : Dev nD × CK → ℕ) (c : Dev nD) (v2 : BitVec 32)
    (Kt : (Σ' (v546 : FVec F S32x512 .f32) (v549 : BitVec 32) (v550 : BitVec 32), BitVec 32) → sProp 𝕄) :
    iprop((records m K ∗ levAts L lv ∗ Send1R m c 14 ∗ Send1D (F := F) c 14
          ∗ (((c : Thread nD τ).loc cc0_stg0_0) ↦{fullShare} xstg m c)
          ∗ Recv1R (F := F) c 0 ∗ Recv1D m c 0 ∗ (∃ W, owes (c : Thread nD τ) (Oag c 0 + Ors c 14) W))
        ∗ (∀ ret, (Send1R m c 15 ∗ Send1D (F := F) c 15
            ∗ (((c : Thread nD τ).loc cc0_stg0_0) ↦{fullShare} xstg m c)
            ∗ Recv1R (F := F) c 1 ∗ Recv1D m c 1 ∗ (∃ W, owes (c : Thread nD τ) (Oag c 0) W)
            ∗ ⌜ret.1 = k0_pay2 (xrow m c) (rsVec m c 0)⌝) -∗ Kt ret))
      ⊢ wp frame (wpE (defs₀ (F := F)) 𝒱₀ c none) Set.univ
          (k0_part16 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2) Kt := by
  rw [k0_part16_eq_skeleton]; unfold k0_part16_skel
  simp only [Prog.lift, Prog.bind_op, Prog.bind_ret, Prog.pure_eq_ret]
  iintro ⟨⟨#HR, #Hlev, HS, HD, Hx, HRr, HRd, ⟨%W, HO⟩⟩, Hk⟩
  iapply (send1_printed m K c (14 : Fin 15) 14 15 rfl rfl (Oag c 0) W _ (dev30_eq c)) $$ [HS HD HO]
  · isplitr; · iexact HR
    isplitl [HS]; · iexact HS
    isplitl [HD]; · iexact HD
    iexact HO
  rw [Ors_done, add_zero]
  iintro ⟨HS, HD, HO⟩
  iapply (wp_load 𝒱₀ (c : Thread nD τ) none Set.univ (m := xM) (Finset.subset_univ _)) $$ Hx
  iintro Hx
  iapply (recv1_step m K c (0 : Fin 15) 0 1 rfl rfl W _ (sem_off6_rs c 0) _ _ (credit_rows _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (0 : Fin 15) 1 (by decide) _ rfl) $$ [HRd]
  · iexact HRd
  iintro HRd
  rw [wp_ret]; imodintro
  iapply Hk
  isplitl [HS]; · iexact HS
  isplitl [HD]; · iexact HD
  isplitl [Hx]; · iexact Hx
  isplitl [HRr]; · iexact HRr
  isplitl [HRd]; · iexact HRd
  isplitl [HO]; · iexists _; iexact HO
  ipureintro; rfl

set_option maxHeartbeats 800000 in
/-- Printed part 17: the wait for and the load of the rows from the peer two places behind. -/
theorem part17 (K : Dev nD × CK → ℕ) (c : Dev nD) (v2 v549 v550 c0 : BitVec 32) (acc : FVec F S32x512 .f32)
    (Kt : (Σ' (v569 : FVec F S32x512 .f32), BitVec 32) → sProp 𝕄) :
    iprop((records m K ∗ levAts L lv ∗ Recv1R (F := F) c 1 ∗ Recv1D m c 1 ∗ (∃ W, owes (c : Thread nD τ) (Oag c 0) W))
        ∗ (∀ ret, (Recv1R (F := F) c 2 ∗ Recv1D m c 2 ∗ (∃ W, owes (c : Thread nD τ) (Oag c 0) W)
            ∗ ⌜ret.1 = k0_pay3 acc (rsVec m c 1)⌝) -∗ Kt ret))
      ⊢ wp frame (wpE (defs₀ (F := F)) 𝒱₀ c none) Set.univ
          (k0_part17 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 acc v549 v550 c0) Kt := by
  rw [k0_part17_eq_skeleton]; unfold k0_part17_skel
  simp only [Prog.lift, Prog.bind_op, Prog.bind_ret, Prog.pure_eq_ret]
  iintro ⟨⟨#HR, #Hlev, HRr, HRd, ⟨%W, HO⟩⟩, Hk⟩
  iapply (recv1_step m K c (1 : Fin 15) 1 2 rfl rfl W _ (sem_off6_rs c 1) _ _ (credit_rows _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (1 : Fin 15) 2 (by decide) _ rfl) $$ [HRd]
  · iexact HRd
  iintro HRd
  rw [wp_ret]; imodintro
  iapply Hk
  isplitl [HRr]; · iexact HRr
  isplitl [HRd]; · iexact HRd
  isplitl [HO]; · iexists _; iexact HO
  ipureintro; rfl

set_option maxHeartbeats 1600000 in
/-- Printed part 18: the waits for and the loads of the rows from the peers three and four places behind. -/
theorem part18 (K : Dev nD × CK → ℕ) (c : Dev nD) (v2 v580 : BitVec 32) (acc : FVec F S32x512 .f32)
    (Kt : (Σ' (v615 : FVec F S32x512 .f32) (v618 : BitVec 32) (v619 : BitVec 32) (v620 : BitVec 1), BitVec 1) → sProp 𝕄) :
    iprop((records m K ∗ levAts L lv ∗ Recv1R (F := F) c 2 ∗ Recv1D m c 2 ∗ (∃ W, owes (c : Thread nD τ) (Oag c 0) W))
        ∗ (∀ ret, (Recv1R (F := F) c 4 ∗ Recv1D m c 4 ∗ (∃ W, owes (c : Thread nD τ) (Oag c 0) W)
            ∗ ⌜ret.1 = k0_pay4 acc (rsVec m c 2) (rsVec m c 3)⌝) -∗ Kt ret))
      ⊢ wp frame (wpE (defs₀ (F := F)) 𝒱₀ c none) Set.univ
          (k0_part18 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 acc v580) Kt := by
  rw [k0_part18_eq_skeleton]; unfold k0_part18_skel
  simp only [Prog.lift, Prog.bind_op, Prog.bind_ret, Prog.pure_eq_ret]
  iintro ⟨⟨#HR, #Hlev, HRr, HRd, ⟨%W, HO⟩⟩, Hk⟩
  iapply (recv1_step m K c (2 : Fin 15) 2 3 rfl rfl W _ (sem_off6_rs c 2) _ _ (credit_rows _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (2 : Fin 15) 3 (by decide) _ rfl) $$ [HRd]
  · iexact HRd
  iintro HRd
  iapply (recv1_step m K c (3 : Fin 15) 3 4 rfl rfl _ _ (sem_off6_rs c 3) _ _ (credit_rows _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (3 : Fin 15) 4 (by decide) _ rfl) $$ [HRd]
  · iexact HRd
  iintro HRd
  rw [wp_ret]; imodintro
  iapply Hk
  isplitl [HRr]; · iexact HRr
  isplitl [HRd]; · iexact HRd
  isplitl [HO]; · iexists _; iexact HO
  ipureintro; rfl

end Cert.Kernel.AR

end

/-- info: 'Cert.Kernel.AR.part16' depends on axioms: [propext, Classical.choice, Quot.sound] -/
#guard_msgs in #print axioms Cert.Kernel.AR.part16

/-- info: 'Cert.Kernel.AR.part17' depends on axioms: [propext, Classical.choice, Quot.sound] -/
#guard_msgs in #print axioms Cert.Kernel.AR.part17

/-- info: 'Cert.Kernel.AR.part18' depends on axioms: [propext, Classical.choice, Quot.sound] -/
#guard_msgs in #print axioms Cert.Kernel.AR.part18
-- ==== Proof.KPartsC2.lean ====
/-
# The first round's receives, part by part (the last five)

Printed parts 21 … 25 wait for the first transfers of the shifts 7 … 14 and load the rows each landed, adding them to
the running sum. Each part's lemma takes the receives' families from its first shift to its last, and names the sum it
returns: the incoming sum extended by the loaded rows, which are the expected contents of the receive buffer read
through the load's rectangle.
-/
import proofs.«900416_g7700000000000417_dist_ar_v7x_i16_i_m512_n512_bf16_1_alg».proof.Proof.KStepRecv

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer into thirty-two rows of the receive buffer puts one block's units on its semaphore, whichever the rows. -/
theorem credit_rowsC2 (off : Fin 2 → Nat) (inb : ∀ a, off a + S32x512.size a ≤ S512x512.size a) :
    ((Memref.whole cc0_scratch2 : Memref sig .tc .vmem S512x512 .bf16).slice (Rect.unit (s := S512x512) off S32x512.size inb) (fun _ => rfl)).view.dmaCredit = NC := rfl

/-- The wait step at the operation as printed: the cell through the printed semaphore slice, the views as printed. -/
theorem recv1_printedC2 (K : Dev nD × CK → ℕ) (c : Dev nD) (k : Fin 15) (n n' : ℕ) (hn : n = k.val) (hn' : n' = k.val + 1)
    (W : Waits sig Unit)
    {hs : ((bM : Memref sig .tc .vmem S512x512 .bf16).slice (Rect.unit (s := S512x512) ![0, 0] S32x512.size inb_S512x512_S32x512_0_0) (fun _ => rfl)).view.WordExact}
    {hd : ((sM : Memref sig .tc .vmem S512x512 .bf16).slice (Rect.unit (s := S512x512) (k0_off7 c (BitVec.ofNat 32 (1 + k.val))) S32x512.size (k0_off7_inb c k)) (fun _ => rfl)).view.WordExact}
    {α : Type} {Q : α → sProp 𝕄} {kont : PUnit → Prog (TpuEff nD τ sig (Elt F) Λ₀ .tc) α} :
    iprop(records m K ∗ levAts L lv ∗ Recv1R (F := F) c n ∗ Recv1D m c n ∗ owes (c : Thread nD τ) (Oag c 0) W)
      ⊢ iprop(((Recv1R (F := F) c n' ∗ Recv1D m c n'
              ∗ owes (c : Thread nD τ) (Oag c 0) (insert (SemLoc.dma (rsRecvS (bwd c k)), ()) W))
            -∗ wp frame (wpE (defs₀ (F := F)) 𝒱₀ c none) Set.univ (kont ⟨⟩) Q)
          -∗ wp frame (wpE (defs₀ (F := F)) 𝒱₀ c none) Set.univ
              (.op (.waitDma2 ((cc0_scratch4.slice (Rect.unit (s := S16) (k0_off6 c (BitVec.ofNat 32 (1 + k.val))) S1.size (k0_off6_inb c k))).squeeze S_ squeezes_S1_S_).sem
                ((bM : Memref sig .tc .vmem S512x512 .bf16).slice (Rect.unit (s := S512x512) ![0, 0] S32x512.size inb_S512x512_S32x512_0_0) (fun _ => rfl))
                ((sM : Memref sig .tc .vmem S512x512 .bf16).slice (Rect.unit (s := S512x512) (k0_off7 c (BitVec.ofNat 32 (1 + k.val))) S32x512.size (k0_off7_inb c k)) (fun _ => rfl))
                hs hd) kont) Q) :=
  recv1_step m K c k n n' hn hn' W _ (sem_off6_rs c k) _ _ (credit_rowsC2 _ _)

set_option maxHeartbeats 800000 in
/-- Printed part 21: the wait for shift 7, the load of its rows, the wait for shift 8. -/
theorem part21 (K : Dev nD × CK → ℕ) (c : Dev nD) (v2 : BitVec 32) (v684 : FVec F S32x512 .f32) (v687 : BitVec 32) (v688 : BitVec 32) (v689 : BitVec 1) (v692 : BitVec 1)
    (Kt : (FVec F S32x512 .f32) → sProp 𝕄) :
    iprop((records m K ∗ levAts L lv ∗ Recv1R (F := F) c 7 ∗ Recv1D m c 7 ∗ (∃ W, owes (c : Thread nD τ) (Oag c 0) W))
        ∗ (∀ ret, (Recv1R (F := F) c 9 ∗ Recv1D m c 9 ∗ (∃ W, owes (c : Thread nD τ) (Oag c 0) W) ∗ ⌜ret = k0_pay7 v684 (rsVec m c 7)⌝) -∗ Kt ret))
      ⊢ wp frame (wpE (defs₀ (F := F)) 𝒱₀ c none) Set.univ
          (k0_part21 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v684 v687 v688 v689 v692) Kt := by
  rw [k0_part21_eq_skeleton]; unfold k0_part21_skel
  simp only [Prog.lift, Prog.bind_op, Prog.bind_ret, Prog.pure_eq_ret]
  iintro ⟨⟨#HR, #Hlev, HRr, HRd, ⟨%W, HO⟩⟩, Hk⟩
  iapply (recv1_printedC2 m K c (7 : Fin 15) 7 8 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (7 : Fin 15) 8 (by decide) 8#32 rfl) $$ HRd
  iintro HRd
  iapply (recv1_printedC2 m K c (8 : Fin 15) 8 9 rfl rfl _) $$ [HRr HRd HO]
  · isplitr; · iexact HR
    isplitr; · iexact Hlev
    isplitl [HRr]; · iexact HRr
    isplitl [HRd]; · iexact HRd
    iexact HO
  iintro ⟨HRr, HRd, HO⟩
  rw [wp_ret]; imodintro
  iapply Hk
  isplitl [HRr]; · iexact HRr
  isplitl [HRd]; · iexact HRd
  isplitl [HO]; · iexists _; iexact HO
  ipureintro; rfl

set_option maxHeartbeats 800000 in
/-- Printed part 22: the load of shift 8's rows, the wait for shift 9 and the load of its rows. -/
theorem part22 (K : Dev nD × CK → ℕ) (c : Dev nD) (v2 : BitVec 32) (v707 : FVec F S32x512 .f32)
    (Kt : (Σ' (v753 : FVec F S32x512 .f32), BitVec 32) → sProp 𝕄) :
    iprop((records m K ∗ levAts L lv ∗ Recv1R (F := F) c 9 ∗ Recv1D m c 9 ∗ (∃ W, owes (c : Thread nD τ) (Oag c 0) W))
        ∗ (∀ ret, (Recv1R (F := F) c 10 ∗ Recv1D m c 10 ∗ (∃ W, owes (c : Thread nD τ) (Oag c 0) W) ∗ ⌜ret.1 = k0_pay8 v707 (rsVec m c 8) (rsVec m c 9)⌝) -∗ Kt ret))
      ⊢ wp frame (wpE (defs₀ (F := F)) 𝒱₀ c none) Set.univ
          (k0_part22 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v707) Kt := by
  rw [k0_part22_eq_skeleton]; unfold k0_part22_skel
  simp only [Prog.lift, Prog.bind_op, Prog.bind_ret, Prog.pure_eq_ret]
  iintro ⟨⟨#HR, #Hlev, HRr, HRd, ⟨%W, HO⟩⟩, Hk⟩
  iapply (recv1_load m c (8 : Fin 15) 9 (by decide) 9#32 rfl) $$ HRd
  iintro HRd
  iapply (recv1_printedC2 m K c (9 : Fin 15) 9 10 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (9 : Fin 15) 10 (by decide) 10#32 rfl) $$ HRd
  iintro HRd
  rw [wp_ret]; imodintro
  iapply Hk
  isplitl [HRr]; · iexact HRr
  isplitl [HRd]; · iexact HRd
  isplitl [HO]; · iexists _; iexact HO
  ipureintro; rfl

set_option maxHeartbeats 800000 in
/-- Printed part 23: the waits for shifts 10 and 11, each followed by the load of its rows. -/
theorem part23 (K : Dev nD × CK → ℕ) (c : Dev nD) (v2 : BitVec 32) (v753 : FVec F S32x512 .f32) (v764 : BitVec 32)
    (Kt : (FVec F S32x512 .f32) → sProp 𝕄) :
    iprop((records m K ∗ levAts L lv ∗ Recv1R (F := F) c 10 ∗ Recv1D m c 10 ∗ (∃ W, owes (c : Thread nD τ) (Oag c 0) W))
        ∗ (∀ ret, (Recv1R (F := F) c 12 ∗ Recv1D m c 12 ∗ (∃ W, owes (c : Thread nD τ) (Oag c 0) W) ∗ ⌜ret = k0_pay9 v753 (rsVec m c 10) (rsVec m c 11)⌝) -∗ Kt ret))
      ⊢ wp frame (wpE (defs₀ (F := F)) 𝒱₀ c none) Set.univ
          (k0_part23 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v753 v764) Kt := by
  rw [k0_part23_eq_skeleton]; unfold k0_part23_skel
  simp only [Prog.lift, Prog.bind_op, Prog.bind_ret, Prog.pure_eq_ret]
  iintro ⟨⟨#HR, #Hlev, HRr, HRd, ⟨%W, HO⟩⟩, Hk⟩
  iapply (recv1_printedC2 m K c (10 : Fin 15) 10 11 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (10 : Fin 15) 11 (by decide) 11#32 rfl) $$ HRd
  iintro HRd
  iapply (recv1_printedC2 m K c (11 : Fin 15) 11 12 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (11 : Fin 15) 12 (by decide) 12#32 rfl) $$ HRd
  iintro HRd
  rw [wp_ret]; imodintro
  iapply Hk
  isplitl [HRr]; · iexact HRr
  isplitl [HRd]; · iexact HRd
  isplitl [HO]; · iexists _; iexact HO
  ipureintro; rfl

set_option maxHeartbeats 800000 in
/-- Printed part 24: the wait for shift 12 and the load of its rows. -/
theorem part24 (K : Dev nD × CK → ℕ) (c : Dev nD) (v2 : BitVec 32) (v799 : FVec F S32x512 .f32)
    (Kt : (Σ' (v822 : FVec F S32x512 .f32) (v833 : BitVec 32), BitVec 32) → sProp 𝕄) :
    iprop((records m K ∗ levAts L lv ∗ Recv1R (F := F) c 12 ∗ Recv1D m c 12 ∗ (∃ W, owes (c : Thread nD τ) (Oag c 0) W))
        ∗ (∀ ret, (Recv1R (F := F) c 13 ∗ Recv1D m c 13 ∗ (∃ W, owes (c : Thread nD τ) (Oag c 0) W) ∗ ⌜ret.1 = k0_pay10 v799 (rsVec m c 12)⌝) -∗ Kt ret))
      ⊢ wp frame (wpE (defs₀ (F := F)) 𝒱₀ c none) Set.univ
          (k0_part24 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v799) Kt := by
  rw [k0_part24_eq_skeleton]; unfold k0_part24_skel
  simp only [Prog.lift, Prog.bind_op, Prog.bind_ret, Prog.pure_eq_ret]
  iintro ⟨⟨#HR, #Hlev, HRr, HRd, ⟨%W, HO⟩⟩, Hk⟩
  iapply (recv1_printedC2 m K c (12 : Fin 15) 12 13 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (12 : Fin 15) 13 (by decide) 13#32 rfl) $$ HRd
  iintro HRd
  rw [wp_ret]; imodintro
  iapply Hk
  isplitl [HRr]; · iexact HRr
  isplitl [HRd]; · iexact HRd
  isplitl [HO]; · iexists _; iexact HO
  ipureintro; rfl

set_option maxHeartbeats 800000 in
/-- Printed part 25: the waits for shifts 13 and 14, each followed by the load of its rows: the last of the first round. -/
theorem part25 (K : Dev nD × CK → ℕ) (c : Dev nD) (v2 : BitVec 32) (v822 : FVec F S32x512 .f32) (v833 : BitVec 32) (c1_i32_538 : BitVec 32)
    (Kt : (FVec F S32x512 .bf16) → sProp 𝕄) :
    iprop((records m K ∗ levAts L lv ∗ Recv1R (F := F) c 13 ∗ Recv1D m c 13 ∗ (∃ W, owes (c : Thread nD τ) (Oag c 0) W))
        ∗ (∀ ret, (Recv1R (F := F) c 15 ∗ Recv1D m c 15 ∗ (∃ W, owes (c : Thread nD τ) (Oag c 0) W) ∗ ⌜ret = k0_pay11 v822 (rsVec m c 13) (rsVec m c 14)⌝) -∗ Kt ret))
      ⊢ wp frame (wpE (defs₀ (F := F)) 𝒱₀ c none) Set.univ
          (k0_part25 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v822 v833 c1_i32_538) Kt := by
  rw [k0_part25_eq_skeleton]; unfold k0_part25_skel
  simp only [Prog.lift, Prog.bind_op, Prog.bind_ret, Prog.pure_eq_ret]
  iintro ⟨⟨#HR, #Hlev, HRr, HRd, ⟨%W, HO⟩⟩, Hk⟩
  iapply (recv1_printedC2 m K c (13 : Fin 15) 13 14 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (13 : Fin 15) 14 (by decide) 14#32 rfl) $$ HRd
  iintro HRd
  iapply (recv1_printedC2 m K c (14 : Fin 15) 14 15 rfl rfl _) $$ [HRr HRd HO]
  · isplitr; · iexact HR
    isplitr; · iexact Hlev
    isplitl [HRr]; · iexact HRr
    isplitl [HRd]; · iexact HRd
    iexact HO
  iintro ⟨HRr, HRd, HO⟩
  iapply (recv1_load m c (14 : Fin 15) 15 (by decide) 15#32 rfl) $$ HRd
  iintro HRd
  rw [wp_ret]; imodintro
  iapply Hk
  isplitl [HRr]; · iexact HRr
  isplitl [HRd]; · iexact HRd
  isplitl [HO]; · iexists _; iexact HO
  ipureintro; rfl

/-- info: 'Cert.Kernel.AR.part21' depends on axioms: [propext, Classical.choice, Quot.sound] -/
#guard_msgs in #print axioms part21
/-- info: 'Cert.Kernel.AR.part25' depends on axioms: [propext, Classical.choice, Quot.sound] -/
#guard_msgs in #print axioms part25

end Cert.Kernel.AR

end
-- ==== Proof.KPartsC3.lean ====
import proofs.«900416_g7700000000000417_dist_ar_v7x_i16_i_m512_n512_bf16_1_alg».proof.Proof.KStepRecv

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-!
# The first round's receives, shifts 4 to 6, as printed

Printed parts 19 and 20 of the receive loop: each wait moves one shift of the receive family across, each load reads the
rows a finished shift landed, and the running sum is extended by the loaded rows.
-/

/-- A transfer into thirty-two rows of the receive buffer counts as one narrow row block. -/
theorem credit_rowsC3 (off : Fin 2 → Nat) (inb : ∀ a, off a + S32x512.size a ≤ S512x512.size a) :
    ((Memref.whole cc0_scratch2 : Memref sig .tc .vmem S512x512 .bf16).slice (Rect.unit (s := S512x512) off S32x512.size inb) (fun _ => rfl)).view.dmaCredit = NC := rfl

set_option maxHeartbeats 800000 in
/-- Printed part 19: the wait for shift 4, the load of its rows (added to the running sum), the wait for shift 5. -/
theorem part19 (K : Dev nD × CK → ℕ) (c : Dev nD) (v2 : BitVec 32) (v615 : FVec F S32x512 .f32) (v618 v619 : BitVec 32) (v620 v621 : BitVec 1)
    (Kt : (Σ' (v638 : FVec F S32x512 .f32) (v649 : BitVec 32), BitVec 32) → sProp 𝕄) :
    iprop((records m K ∗ levAts L lv ∗ Recv1R (F := F) c 4 ∗ Recv1D m c 4 ∗ (∃ W, owes (c : Thread nD τ) (Oag c 0) W))
        ∗ (∀ ret, (Recv1R (F := F) c 6 ∗ Recv1D m c 6 ∗ (∃ W, owes (c : Thread nD τ) (Oag c 0) W)
            ∗ ⌜ret.1 = k0_pay5 v615 (rsVec m c 4)⌝) -∗ Kt ret))
      ⊢ wp frame (wpE (defs₀ (F := F)) 𝒱₀ c none) Set.univ
          (k0_part19 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v615 v618 v619 v620 v621) Kt := by
  rw [k0_part19_eq_skeleton]; unfold k0_part19_skel
  simp only [Prog.lift, Prog.bind_op, Prog.bind_ret, Prog.pure_eq_ret]
  iintro ⟨⟨#HR, #Hlev, HRr, HRd, ⟨%W, HO⟩⟩, Hk⟩
  iapply (recv1_step m K c (4 : Fin 15) 4 5 rfl rfl _ _ (sem_off6_rs c 4) _ _ (credit_rowsC3 _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (4 : Fin 15) 5 (by decide) 5#32 rfl) $$ HRd
  iintro HRd
  iapply (recv1_step m K c (5 : Fin 15) 5 6 rfl rfl _ _ (sem_off6_rs c 5) _ _ (credit_rowsC3 _ _)) $$ [HRr HRd HO]
  · isplitr; · iexact HR
    isplitr; · iexact Hlev
    isplitl [HRr]; · iexact HRr
    isplitl [HRd]; · iexact HRd
    iexact HO
  iintro ⟨HRr, HRd, HO⟩
  rw [wp_ret]; imodintro
  iapply Hk
  isplitl [HRr]; · iexact HRr
  isplitl [HRd]; · iexact HRd
  isplitl [HO]; · iexists _; iexact HO
  ipureintro; rfl

set_option maxHeartbeats 800000 in
/-- Printed part 20: the load of shift 5's rows, the wait for shift 6, the load of its rows; both added to the running sum. -/
theorem part20 (K : Dev nD × CK → ℕ) (c : Dev nD) (v2 : BitVec 32) (v638 : FVec F S32x512 .f32) (v649 c32 : BitVec 32)
    (Kt : (Σ' (v684 : FVec F S32x512 .f32) (v687 : BitVec 32) (v688 : BitVec 32) (v689 : BitVec 1), BitVec 1) → sProp 𝕄) :
    iprop((records m K ∗ levAts L lv ∗ Recv1R (F := F) c 6 ∗ Recv1D m c 6 ∗ (∃ W, owes (c : Thread nD τ) (Oag c 0) W))
        ∗ (∀ ret, (Recv1R (F := F) c 7 ∗ Recv1D m c 7 ∗ (∃ W, owes (c : Thread nD τ) (Oag c 0) W)
            ∗ ⌜ret.1 = k0_pay6 v638 (rsVec m c 5) (rsVec m c 6)⌝) -∗ Kt ret))
      ⊢ wp frame (wpE (defs₀ (F := F)) 𝒱₀ c none) Set.univ
          (k0_part20 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v638 v649 c32) Kt := by
  rw [k0_part20_eq_skeleton]; unfold k0_part20_skel
  simp only [Prog.lift, Prog.bind_op, Prog.bind_ret, Prog.pure_eq_ret]
  iintro ⟨⟨#HR, #Hlev, HRr, HRd, ⟨%W, HO⟩⟩, Hk⟩
  iapply (recv1_load m c (5 : Fin 15) 6 (by decide) 6#32 rfl) $$ HRd
  iintro HRd
  iapply (recv1_step m K c (6 : Fin 15) 6 7 rfl rfl _ _ (sem_off6_rs c 6) _ _ (credit_rowsC3 _ _)) $$ [HRr HRd HO]
  · isplitr; · iexact HR
    isplitr; · iexact Hlev
    isplitl [HRr]; · iexact HRr
    isplitl [HRd]; · iexact HRd
    iexact HO
  iintro ⟨HRr, HRd, HO⟩
  iapply (recv1_load m c (6 : Fin 15) 7 (by decide) 7#32 rfl) $$ HRd
  iintro HRd
  rw [wp_ret]; imodintro
  iapply Hk
  isplitl [HRr]; · iexact HRr
  isplitl [HRd]; · iexact HRd
  isplitl [HO]; · iexists _; iexact HO
  ipureintro; rfl

/-- info: 'Cert.Kernel.AR.part19' depends on axioms: [propext, Classical.choice, Quot.sound] -/
#guard_msgs in #print axioms part19
/-- info: 'Cert.Kernel.AR.part20' depends on axioms: [propext, Classical.choice, Quot.sound] -/
#guard_msgs in #print axioms part20

end Cert.Kernel.AR

end
-- ==== Proof.KPartsE.lean ====
/-
# The second round of transfers, part by part

Printed part 26 stores the reduced rows, copies them into the device's own rows of the staged result and starts the
transfer of shift 0; parts 27 … 33 are the transfers of shifts 1 … 14: each is one application of the step lemma, at the
operation as printed.
-/
import proofs.«900416_g7700000000000417_dist_ar_v7x_i16_i_m512_n512_bf16_1_alg».proof.Proof.KStepSend

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- `send2_step` at the operation as printed. -/
theorem send2_printed (K : Dev nD × CK → ℕ) (c : Dev nD) (k : Fin 15) (n n' : ℕ) (hn : n = k.val) (hn' : n' = k.val + 1)
    (X : CellTallies nD τ sig Unit) (W : Waits sig Unit) (dv : Dev nD) (hdv : dv = fwd c k)
    {hsc : (oRow c : Memref sig (Dev.tc dv : Thread nD τ).2.kind .vmem S32x512 .bf16).view.ref.isScScratch = false}
    {hwsrc : (rM : Memref sig .tc .vmem S32x512 .bf16).view.WordExact}
    {hwdst : (oRow c : Memref sig (Dev.tc dv : Thread nD τ).2.kind .vmem S32x512 .bf16).view.WordExact}
    {hsem : DmaTarget.Typed .vmem (.dma ((cc0_scratch6.slice (Rect.unit (s := S16) (k0_off2 c) S1.size (k0_off2_inb c))).squeeze S_ squeezes_S1_S_).sem)
      (.remote (Dev.tc dv : Thread nD τ) (oRow c) (.dma ((cc0_scratch5.slice (Rect.unit (s := S16) (k0_off1 c (BitVec.ofNat 32 (1 + k.val))) S1.size (k0_off1_inb c k))).squeeze S_ squeezes_S1_S_).sem) hsc)}
    {α : Type} {Q : α → sProp 𝕄} {kont : PUnit → Prog (TpuEff nD τ sig (Elt F) Λ₀ .tc) α} :
    iprop(records m K ∗ Send2R m c n ∗ Send2D (F := F) c n ∗ owes (c : Thread nD τ) (X + Oag c n) W)
      ⊢ iprop(((Send2R m c n' ∗ Send2D (F := F) c n' ∗ owes (c : Thread nD τ) (X + Oag c n') W)
            -∗ wp frame (wpE (defs₀ (F := F)) 𝒱₀ c none) Set.univ (kont ⟨⟩) Q)
          -∗ wp frame (wpE (defs₀ (F := F)) 𝒱₀ c none) Set.univ
              (.op (.enqueueDma (rM : Memref sig .tc .vmem S32x512 .bf16)
                (.remote (Dev.tc dv : Thread nD τ) (oRow c) (.dma ((cc0_scratch5.slice (Rect.unit (s := S16) (k0_off1 c (BitVec.ofNat 32 (1 + k.val))) S1.size (k0_off1_inb c k))).squeeze S_ squeezes_S1_S_).sem) hsc)
                (.dma ((cc0_scratch6.slice (Rect.unit (s := S16) (k0_off2 c) S1.size (k0_off2_inb c))).squeeze S_ squeezes_S1_S_).sem) hwsrc hwdst hsem) kont) Q) :=
  send2_step m K c k n n' hn hn' X W dv hdv _ rfl _ rfl _ _ (sem_off1_ag c k) (sem_off2_ag c)

/-! ## Part 26: the reduced rows stored, copied to the device's own result rows, and the first of the second transfers -/

/-- The whole 32 × 512 rectangle of the reduced-rows buffer, and rows `32 c …` of the staged result as the store names
    them. -/
abbrev p26_r0 : Rect S32x512 := Rect.unit (s := S32x512) ![0, 0] S32x512.size inb_S32x512_S32x512_0_0
abbrev p26_r5 (c : Dev nD) : Rect S512x512 := Rect.unit (s := S512x512) (k0_off5 c) S32x512.size (k0_off5_inb c)
theorem p26_hz : (![0, 0] : Fin 2 → Nat) = fun _ => 0 := funext fun a => by fin_cases a <;> rfl

/-- A store through the whole rectangle leaves its payload; a load through it reads the contents. -/
theorem p26_stored (f w : (cc0_scratch1 : Ref sig .tc).ty.Contents (Elt F)) :
    (((rM : Memref sig .tc .vmem S32x512 .bf16).access p26_r0 : View sig .tc _ _ _).write (Elt F) f w Finset.univ) = w :=
  Memref.write_access_unit_zero_univ (Elt F) cc0_scratch1 p26_hz _ f w
theorem p26_read (f : (cc0_scratch1 : Ref sig .tc).ty.Contents (Elt F)) :
    (rM : Memref sig .tc .vmem S32x512 .bf16).view.readAt (Elt F) p26_r0.toLoadRect f = f :=
  Memref.readAt_unit_zero (Elt F) cc0_scratch1 p26_hz _ f

/-- The store's rectangle is the row block `rows c`: the same offsets, computed by another chain. -/
theorem p26_r5_eq (c : Dev nD) : p26_r5 c = rows c := Rect.unit_congr ((k0_off5_eq c).trans (k0_off3_eq c).symm) _ _

/-- Index `y` of the device's own result rows is the same element of the staged result through either offset chain. -/
theorem p26_emb (c : Dev nD) (y : S32x512.Idx) :
    (oRow c).view.emb y = ((oM : Memref sig .tc .vmem S512x512 .bf16).access (p26_r5 c) : View sig .tc _ _ _).emb y := by
  funext a; apply Fin.ext
  show (k0_off3 c) a + 1 * (y a).val = (k0_off5 c) a + 1 * (y a).val
  rw [k0_off3_eq, k0_off5_eq]

/-- Element `y` of rows `32 c …` of the common result is element `y` of `c`'s reduced rows. -/
theorem OUT_rows (c : Dev nD) (y : S32x512.Idx) : OUT m ((oRow c).view.emb y) = red m c y := by
  unfold OUT
  have h0 : (((oRow c).view.emb y) 0).val = 32 * c.val + (y 0).val := by
    show (k0_off3 c) 0 + 1 * (y 0).val = _
    rw [k0_off3_eq]; simp
  have hy : (y 0).val < 32 := (y 0).isLt
  have h1 : blkOf ((oRow c).view.emb y) = c := by
    apply Fin.ext
    show (((oRow c).view.emb y) 0).val / 32 = c.val
    rw [h0]; omega
  rw [h1]
  congr 1
  funext a
  fin_cases a
  · apply Fin.ext
    show (((oRow c).view.emb y) 0).val % 32 = (y 0).val
    rw [h0]; omega
  · apply Fin.ext
    show (k0_off3 c) 1 + 1 * (y 1).val = (y 1).val
    rw [k0_off3_eq]; simp

/-- The device's own result rows, written with its reduced rows, hold those rows of the common result. -/
theorem p26_own (c : Dev nD) (fo : Buf (Elt F) ((oRow c).view.loc (c : Thread nD τ))) :
    ((oRow c).view.loc (c : Thread nD τ) ↦[(oRow c).view.set]{fullShare}
        (((oM : Memref sig .tc .vmem S512x512 .bf16).access (p26_r5 c) : View sig .tc _ _ _).write (Elt F) fo (red m c) Finset.univ) : sProp 𝕄)
      = ((oRow c).view.loc (c : Thread nD τ) ↦[(oRow c).view.set]{fullShare} OUT m) := by
  apply pointsTo_congr
  intro i hi
  obtain ⟨y, rfl⟩ := View.exists_emb_of_mem_set _ hi
  rw [OUT_rows, p26_emb c y, View.write_emb_of_mem _ _ (Finset.mem_univ y)]
  rfl

/-- The reduced-rows buffer seen whole is all its elements. -/
theorem p26_set : (rM : Memref sig .tc .vmem S32x512 .bf16).view.set = Finset.univ := View.set_whole _

/-- The reduced rows held whole are a remainder share and one read share per second transfer. -/
theorem p26_shares (c : Dev nD) (f : Buf (Elt F) ((c : Thread nD τ).loc cc0_scratch1)) :
    ((((c : Thread nD τ).loc cc0_scratch1) ↦{fullShare} f : sProp 𝕄))
      ⊢ iprop((((c : Thread nD τ).loc cc0_scratch1) ↦[(rM : Memref sig .tc .vmem S32x512 .bf16).view.set]{Transfers.shareDrop fullShare 15} f)
        ∗ bigSep Finset.univ fun k : Fin 15 => (rM : Memref sig .tc .vmem S32x512 .bf16).view.loc (c : Thread nD τ)
            ↦[(rM : Memref sig .tc .vmem S32x512 .bf16).view.set]{Transfers.shareTok fullShare 15 k} f) := by
  rw [p26_set]; exact Transfers.pointsTo_toks_split fullShare 15

/-- The fifteen token pairs with the peers' slots, and the fifteen read shares, are the second transfers still to start. -/
theorem p26_send2R (c : Dev nD) :
    iprop((bigSep Finset.univ fun k : Fin 15 => iprop(dutyTok ER (agRecvCell (fwd c k) c) 0 c ∗ dutyTok ER (agSendCell c (fwd c k)) 0 (fwd c k) ∗ peerSlotO (F := F) c k))
        ∗ (bigSep Finset.univ fun k : Fin 15 => (rM : Memref sig .tc .vmem S32x512 .bf16).view.loc (c : Thread nD τ)
            ↦[(rM : Memref sig .tc .vmem S32x512 .bf16).view.set]{Transfers.shareTok fullShare 15 k} red m c))
      ⊢ Send2R m c 0 := by
  unfold Send2R; rw [ge_zero]
  refine (Entails.of_eq (bigSep_sep _ _ _).symm).trans (bigSep_mono fun k _ => ?_)
  show iprop((dutyTok ER (agRecvCell (fwd c k) c) 0 c ∗ dutyTok ER (agSendCell c (fwd c k)) 0 (fwd c k) ∗ peerSlotO (F := F) c k)
      ∗ ((rM : Memref sig .tc .vmem S32x512 .bf16).view.loc (c : Thread nD τ)
            ↦[(rM : Memref sig .tc .vmem S32x512 .bf16).view.set]{Transfers.shareTok fullShare 15 k} red m c))
    ⊢ iprop(dutyTok ER (agRecvCell (fwd c k) c) 0 c ∗ dutyTok ER (agSendCell c (fwd c k)) 0 (fwd c k) ∗ peerSlotO (F := F) c k
      ∗ ((rM : Memref sig .tc .vmem S32x512 .bf16).view.loc (c : Thread nD τ)
            ↦[(rM : Memref sig .tc .vmem S32x512 .bf16).view.set]{Transfers.shareTok fullShare 15 k} red m c))
  iintro ⟨⟨H1, H2, H3⟩, H4⟩
  isplitl [H1]; · iexact H1
  isplitl [H2]; · iexact H2
  isplitl [H3]; · iexact H3
  iexact H4

/-- The rows the load and the store name lie in the device's own row block. -/
theorem p26_hS (c : Dev nD) : (oM : Memref sig .tc .vmem S512x512 .bf16).view.setOn (p26_r5 c).toLoadRect.set ⊆ (oRow c).view.set := by
  rw [p26_r5_eq, View.set_slice]; exact subset_rfl
theorem p26_hS' (c : Dev nD) : ((oM : Memref sig .tc .vmem S512x512 .bf16).access (p26_r5 c) : View sig .tc _ _ _).setOn Finset.univ ⊆ (oRow c).view.set := by
  rw [p26_r5_eq]; exact subset_rfl
/-- No second transfer started yet: no credit returned. -/
theorem p26_send2D0 (c : Dev nD) : (iprop(emp) : sProp 𝕄) ⊢ Send2D (F := F) c 0 := by
  unfold Send2D; rw [bigSep_lt_zero]

set_option maxHeartbeats 1600000 in
/-- Printed part 26. The reduced rows are stored (`hv`: what is stored is `red m c`), read back and copied into the device's own
    rows of the staged result, which then hold those rows of the common result; the reduced rows are cut into the fifteen
    read shares of the second transfers and a remainder, and the transfer of shift 0 starts. -/
theorem part26 (K : Dev nD × CK → ℕ) (c : Dev nD) (X : CellTallies nD τ sig Unit) (W : Waits sig Unit) (v2 : BitVec 32) (v869 : FVec F S32x512 .bf16)
    (hv : k0_pay12 v869 = red m c)
    (f1 : Buf (Elt F) ((c : Thread nD τ).loc cc0_scratch1)) (fo : Buf (Elt F) ((oRow c).view.loc (c : Thread nD τ)))
    (Kt : (Σ' (v898 : BitVec 32) (v899 : BitVec 32), BitVec 1) → sProp 𝕄) :
    iprop((records m K ∗ (((c : Thread nD τ).loc cc0_scratch1) ↦{fullShare} f1)
          ∗ ((oRow c).view.loc (c : Thread nD τ) ↦[(oRow c).view.set]{fullShare} fo)
          ∗ (bigSep Finset.univ fun k : Fin 15 => iprop(dutyTok ER (agRecvCell (fwd c k) c) 0 c ∗ dutyTok ER (agSendCell c (fwd c k)) 0 (fwd c k) ∗ peerSlotO (F := F) c k))
          ∗ owes (c : Thread nD τ) (X + Oag c 0) W)
        ∗ (∀ ret, (Send2R m c 1 ∗ Send2D (F := F) c 1
            ∗ (((c : Thread nD τ).loc cc0_scratch1) ↦[(rM : Memref sig .tc .vmem S32x512 .bf16).view.set]{Transfers.shareDrop fullShare 15} red m c)
            ∗ ((oRow c).view.loc (c : Thread nD τ) ↦[(oRow c).view.set]{fullShare} OUT m)
            ∗ owes (c : Thread nD τ) (X + Oag c 1) W) -∗ Kt ret))
      ⊢ wp frame (wpE (defs₀ (F := F)) 𝒱₀ c none) Set.univ
          (k0_part26 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v869) Kt := by
  rw [k0_part26_eq_skeleton]; unfold k0_part26_skel
  simp only [Prog.lift, Prog.bind_op, Prog.bind_ret, Prog.pure_eq_ret]
  have hval : (rM : Memref sig .tc .vmem S32x512 .bf16).view.readAt (Elt F) p26_r0.toLoadRect
      (((rM : Memref sig .tc .vmem S32x512 .bf16).access p26_r0 : View sig .tc _ _ _).write (Elt F) f1 (k0_pay12 v869) Finset.univ) = red m c := by
    rw [p26_stored, p26_read]; exact hv
  iintro ⟨⟨#HR, Hr, Ho, Ht, HO⟩, Hk⟩
  iapply (wp_load 𝒱₀ (c : Thread nD τ) none Set.univ (m := rM) (Finset.subset_univ _)) $$ Hr; iintro Hr
  iapply (wp_store 𝒱₀ (c : Thread nD τ) none Set.univ (m := rM) (r := p26_r0) (Mk := Finset.univ) (Finset.subset_univ _)) $$ Hr; iintro Hr
  iapply (wp_load 𝒱₀ (c : Thread nD τ) none Set.univ (m := rM) (Finset.subset_univ _)) $$ Hr; iintro Hr
  iapply (wp_load 𝒱₀ (c : Thread nD τ) none Set.univ (m := oM) (p26_hS c)) $$ Ho; iintro Ho
  iapply (wp_store 𝒱₀ (c : Thread nD τ) none Set.univ (m := oM) (r := p26_r5 c) (Mk := Finset.univ) (p26_hS' c)) $$ Ho; iintro Ho
  ihave Hr := (Entails.of_eq (congrArg (fun g => ((((c : Thread nD τ).loc cc0_scratch1) ↦{fullShare} g : sProp 𝕄)))
    ((p26_stored (F := F) f1 (k0_pay12 v869)).trans hv))) $$ Hr
  ihave Ho := (Entails.of_eq ((congrArg (fun w => ((oRow c).view.loc (c : Thread nD τ) ↦[(oRow c).view.set]{fullShare}
      (((oM : Memref sig .tc .vmem S512x512 .bf16).access (p26_r5 c) : View sig .tc _ _ _).write (Elt F) fo w Finset.univ) : sProp 𝕄)) hval).trans
        (p26_own m c fo))) $$ Ho
  ihave Hsh := (p26_shares (F := F) c (red m c)) $$ Hr
  icases Hsh with ⟨Hdrop, Hsh⟩
  ihave HS := (p26_send2R m c) $$ [Ht Hsh]
  · isplitl [Ht]; · iexact Ht
    iexact Hsh
  iapply (send2_printed m K c (0 : Fin 15) 0 1 rfl rfl X W _ (dev31_eq c)) $$ [HS HO]
  · isplitr; · iexact HR
    isplitl [HS]; · iexact HS
    isplitr; · iapply (p26_send2D0 (F := F) c); iempintro
    iexact HO
  iintro ⟨HS, HD, HO⟩
  rw [wp_ret]; imodintro
  iapply Hk
  isplitl [HS]; · iexact HS
  isplitl [HD]; · iexact HD
  isplitl [Hdrop]; · iexact Hdrop
  isplitl [Ho]; · iexact Ho
  iexact HO

set_option maxHeartbeats 800000 in
/-- Printed part 27: the second transfers of shifts 1 and 2. -/
theorem part27 (K : Dev nD × CK → ℕ) (c : Dev nD) (X : CellTallies nD τ sig Unit) (W : Waits sig Unit) (v2 : BitVec 32) (v898 : BitVec 32) (v899 : BitVec 32) (v904 : BitVec 1)
    (Kt : (Σ' (v936 : BitVec 32) (v937 : BitVec 32) (v938 : BitVec 1) (v939 : BitVec 1), BitVec 1) → sProp 𝕄) :
    iprop((records m K ∗ Send2R m c 1 ∗ Send2D (F := F) c 1 ∗ owes (c : Thread nD τ) (X + Oag c 1) W)
        ∗ (∀ ret, (Send2R m c 3 ∗ Send2D (F := F) c 3 ∗ owes (c : Thread nD τ) (X + Oag c 3) W) -∗ Kt ret))
      ⊢ wp frame (wpE (defs₀ (F := F)) 𝒱₀ c none) Set.univ
          (k0_part27 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v898 v899 v904) Kt := by
  rw [k0_part27_eq_skeleton]; unfold k0_part27_skel
  simp only [Prog.lift, Prog.bind_op, Prog.bind_ret, Prog.pure_eq_ret]
  iintro ⟨⟨#HR, HS, HD, HO⟩, Hk⟩
  iapply (send2_printed m K c (1 : Fin 15) 1 2 rfl rfl X W _ (dev32_eq c)) $$ [HS HD HO]
  · isplitr; · iexact HR
    isplitl [HS]; · iexact HS
    isplitl [HD]; · iexact HD
    iexact HO
  iintro ⟨HS, HD, HO⟩
  iapply (send2_printed m K c (2 : Fin 15) 2 3 rfl rfl X W _ (dev33_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 28: the second transfers of shifts 3 and 4. -/
theorem part28 (K : Dev nD × CK → ℕ) (c : Dev nD) (X : CellTallies nD τ sig Unit) (W : Waits sig Unit) (v2 : BitVec 32) (v936 : BitVec 32) (v937 : BitVec 32) (v938 : BitVec 1) (v939 : BitVec 1) (v940 : BitVec 1)
    (Kt : (Σ' (v974 : BitVec 32) (v975 : BitVec 32) (v976 : BitVec 1), BitVec 1) → sProp 𝕄) :
    iprop((records m K ∗ Send2R m c 3 ∗ Send2D (F := F) c 3 ∗ owes (c : Thread nD τ) (X + Oag c 3) W)
        ∗ (∀ ret, (Send2R m c 5 ∗ Send2D (F := F) c 5 ∗ owes (c : Thread nD τ) (X + Oag c 5) W) -∗ Kt ret))
      ⊢ wp frame (wpE (defs₀ (F := F)) 𝒱₀ c none) Set.univ
          (k0_part28 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v936 v937 v938 v939 v940) Kt := by
  rw [k0_part28_eq_skeleton]; unfold k0_part28_skel
  simp only [Prog.lift, Prog.bind_op, Prog.bind_ret, Prog.pure_eq_ret]
  iintro ⟨⟨#HR, HS, HD, HO⟩, Hk⟩
  iapply (send2_printed m K c (3 : Fin 15) 3 4 rfl rfl X W _ (dev34_eq c)) $$ [HS HD HO]
  · isplitr; · iexact HR
    isplitl [HS]; · iexact HS
    isplitl [HD]; · iexact HD
    iexact HO
  iintro ⟨HS, HD, HO⟩
  iapply (send2_printed m K c (4 : Fin 15) 4 5 rfl rfl X W _ (dev35_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 29: the second transfers of shifts 5 and 6. -/
theorem part29 (K : Dev nD × CK → ℕ) (c : Dev nD) (X : CellTallies nD τ sig Unit) (W : Waits sig Unit) (v2 : BitVec 32) (v974 : BitVec 32) (v975 : BitVec 32) (v976 : BitVec 1) (v977 : BitVec 1)
    (Kt : (Σ' (v1012 : BitVec 32) (v1013 : BitVec 32), BitVec 1) → sProp 𝕄) :
    iprop((records m K ∗ Send2R m c 5 ∗ Send2D (F := F) c 5 ∗ owes (c : Thread nD τ) (X + Oag c 5) W)
        ∗ (∀ ret, (Send2R m c 7 ∗ Send2D (F := F) c 7 ∗ owes (c : Thread nD τ) (X + Oag c 7) W) -∗ Kt ret))
      ⊢ wp frame (wpE (defs₀ (F := F)) 𝒱₀ c none) Set.univ
          (k0_part29 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v974 v975 v976 v977) Kt := by
  rw [k0_part29_eq_skeleton]; unfold k0_part29_skel
  simp only [Prog.lift, Prog.bind_op, Prog.bind_ret, Prog.pure_eq_ret]
  iintro ⟨⟨#HR, HS, HD, HO⟩, Hk⟩
  iapply (send2_printed m K c (5 : Fin 15) 5 6 rfl rfl X W _ (dev36_eq c)) $$ [HS HD HO]
  · isplitr; · iexact HR
    isplitl [HS]; · iexact HS
    isplitl [HD]; · iexact HD
    iexact HO
  iintro ⟨HS, HD, HO⟩
  iapply (send2_printed m K c (6 : Fin 15) 6 7 rfl rfl X W _ (dev37_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 30: the second transfers of shifts 7 and 8. -/
theorem part30 (K : Dev nD × CK → ℕ) (c : Dev nD) (X : CellTallies nD τ sig Unit) (W : Waits sig Unit) (v2 : BitVec 32) (v1012 : BitVec 32) (v1013 : BitVec 32) (v1014 : BitVec 1)
    (Kt : (Σ' (v1050 : BitVec 32), BitVec 32) → sProp 𝕄) :
    iprop((records m K ∗ Send2R m c 7 ∗ Send2D (F := F) c 7 ∗ owes (c : Thread nD τ) (X + Oag c 7) W)
        ∗ (∀ ret, (Send2R m c 9 ∗ Send2D (F := F) c 9 ∗ owes (c : Thread nD τ) (X + Oag c 9) W) -∗ Kt ret))
      ⊢ wp frame (wpE (defs₀ (F := F)) 𝒱₀ c none) Set.univ
          (k0_part30 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1012 v1013 v1014) Kt := by
  rw [k0_part30_eq_skeleton]; unfold k0_part30_skel
  simp only [Prog.lift, Prog.bind_op, Prog.bind_ret, Prog.pure_eq_ret]
  iintro ⟨⟨#HR, HS, HD, HO⟩, Hk⟩
  iapply (send2_printed m K c (7 : Fin 15) 7 8 rfl rfl X W _ (dev38_eq c)) $$ [HS HD HO]
  · isplitr; · iexact HR
    isplitl [HS]; · iexact HS
    isplitl [HD]; · iexact HD
    iexact HO
  iintro ⟨HS, HD, HO⟩
  iapply (send2_printed m K c (8 : Fin 15) 8 9 rfl rfl X W _ (dev39_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 31: the second transfers of shifts 9 and 10. -/
theorem part31 (K : Dev nD × CK → ℕ) (c : Dev nD) (X : CellTallies nD τ sig Unit) (W : Waits sig Unit) (v2 : BitVec 32) (v1050 : BitVec 32) (v1051 : BitVec 32)
    (Kt : (Σ' (v1086 : BitVec 32) (c16_i32_688 : BitVec 32) (v1087 : BitVec 1), BitVec 32) → sProp 𝕄) :
    iprop((records m K ∗ Send2R m c 9 ∗ Send2D (F := F) c 9 ∗ owes (c : Thread nD τ) (X + Oag c 9) W)
        ∗ (∀ ret, (Send2R m c 11 ∗ Send2D (F := F) c 11 ∗ owes (c : Thread nD τ) (X + Oag c 11) W) -∗ Kt ret))
      ⊢ wp frame (wpE (defs₀ (F := F)) 𝒱₀ c none) Set.univ
          (k0_part31 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1050 v1051) Kt := by
  rw [k0_part31_eq_skeleton]; unfold k0_part31_skel
  simp only [Prog.lift, Prog.bind_op, Prog.bind_ret, Prog.pure_eq_ret]
  iintro ⟨⟨#HR, HS, HD, HO⟩, Hk⟩
  iapply (send2_printed m K c (9 : Fin 15) 9 10 rfl rfl X W _ (dev40_eq c)) $$ [HS HD HO]
  · isplitr; · iexact HR
    isplitl [HS]; · iexact HS
    isplitl [HD]; · iexact HD
    iexact HO
  iintro ⟨HS, HD, HO⟩
  iapply (send2_printed m K c (10 : Fin 15) 10 11 rfl rfl X W _ (dev41_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 32: the second transfers of shifts 11 and 12. -/
theorem part32 (K : Dev nD × CK → ℕ) (c : Dev nD) (X : CellTallies nD τ sig Unit) (W : Waits sig Unit) (v2 : BitVec 32) (v1086 : BitVec 32) (c16_i32_688 : BitVec 32) (v1087 : BitVec 1) (c1_i32_690 : BitVec 32)
    (Kt : (Σ' (v1124 : BitVec 32) (c16_i32_710 : BitVec 32), BitVec 32) → sProp 𝕄) :
    iprop((records m K ∗ Send2R m c 11 ∗ Send2D (F := F) c 11 ∗ owes (c : Thread nD τ) (X + Oag c 11) W)
        ∗ (∀ ret, (Send2R m c 13 ∗ Send2D (F := F) c 13 ∗ owes (c : Thread nD τ) (X + Oag c 13) W) -∗ Kt ret))
      ⊢ wp frame (wpE (defs₀ (F := F)) 𝒱₀ c none) Set.univ
          (k0_part32 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1086 c16_i32_688 v1087 c1_i32_690) Kt := by
  rw [k0_part32_eq_skeleton]; unfold k0_part32_skel
  simp only [Prog.lift, Prog.bind_op, Prog.bind_ret, Prog.pure_eq_ret]
  iintro ⟨⟨#HR, HS, HD, HO⟩, Hk⟩
  iapply (send2_printed m K c (11 : Fin 15) 11 12 rfl rfl X W _ (dev42_eq c)) $$ [HS HD HO]
  · isplitr; · iexact HR
    isplitl [HS]; · iexact HS
    isplitl [HD]; · iexact HD
    iexact HO
  iintro ⟨HS, HD, HO⟩
  iapply (send2_printed m K c (12 : Fin 15) 12 13 rfl rfl X W _ (dev43_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

set_option maxHeartbeats 800000 in
/-- Printed part 33: the second transfers of shifts 13 and 14. -/
theorem part33 (K : Dev nD × CK → ℕ) (c : Dev nD) (X : CellTallies nD τ sig Unit) (W : Waits sig Unit) (v2 : BitVec 32) (v1124 : BitVec 32) (c16_i32_710 : BitVec 32) (c0_i32_711 : BitVec 32)
    (Kt : (BitVec 32) → sProp 𝕄) :
    iprop((records m K ∗ Send2R m c 13 ∗ Send2D (F := F) c 13 ∗ owes (c : Thread nD τ) (X + Oag c 13) W)
        ∗ (∀ ret, (Send2R m c 15 ∗ Send2D (F := F) c 15 ∗ owes (c : Thread nD τ) (X + Oag c 15) W) -∗ Kt ret))
      ⊢ wp frame (wpE (defs₀ (F := F)) 𝒱₀ c none) Set.univ
          (k0_part33 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1124 c16_i32_710 c0_i32_711) Kt := by
  rw [k0_part33_eq_skeleton]; unfold k0_part33_skel
  simp only [Prog.lift, Prog.bind_op, Prog.bind_ret, Prog.pure_eq_ret]
  iintro ⟨⟨#HR, HS, HD, HO⟩, Hk⟩
  iapply (send2_printed m K c (13 : Fin 15) 13 14 rfl rfl X W _ (dev44_eq c)) $$ [HS HD HO]
  · isplitr; · iexact HR
    isplitl [HS]; · iexact HS
    isplitl [HD]; · iexact HD
    iexact HO
  iintro ⟨HS, HD, HO⟩
  iapply (send2_printed m K c (14 : Fin 15) 14 15 rfl rfl X W _ (dev45_eq c)) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexact HO

/-- info: 'Cert.Kernel.AR.part26' depends on axioms: [propext, Classical.choice, Quot.sound] -/
#guard_msgs in #print axioms part26
/-- info: 'Cert.Kernel.AR.part33' depends on axioms: [propext, Classical.choice, Quot.sound] -/
#guard_msgs in #print axioms part33

end Cert.Kernel.AR

end
-- ==== Proof.KStepWait.lean ====
import proofs.«900416_g7700000000000417_dist_ar_v7x_i16_i_m512_n512_bf16_1_alg».proof.Proof.KRes

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-!
# The waits on the send cells

A device waits, at the end of its body, for each of its thirty transfers to have been read out of its source: the
send cell of shift `k` receives the one duty of its round, the transfer to the peer `k + 1` places ahead, whose
payload is the source rows (first round) or the read share of the reduced rows (second round).
-/

set_option maxHeartbeats 800000 in
/-- One send cell of the first round of transfers waited for: the cell moves to round 1 and the transfer's source comes back
    (the payload of the round's only duty). Nothing is owed any more, so the wait is allowed at any level. -/
theorem wait1_step (K : Dev nD × CK → ℕ) (c : Dev nD) (W : Waits sig Unit) (n : ℕ) (k : Fin 15) (n' : ℕ) (hn : n = k.val) (hn' : n' = k.val + 1)
    (sS : DmaSem sig) (hsS : sS = rsSendS (fwd c k))
    (v1 v2 : Memref sig .tc .vmem S32x512 .bf16) {h1 : v1.view.WordExact} {h2 : v2.view.WordExact}
    (hN : v2.view.dmaCredit = NC)
    {α : Type} {kont : PUnit → Prog (TpuEff nD τ sig (Elt F) Λ₀ .tc) α} {Q : α → sProp 𝕄} :
    iprop(records m K ∗ Wait1R (F := F) c n ∗ Wait1D m c n ∗ owes (c : Thread nD τ) 0 W)
      ⊢ iprop(((Wait1R (F := F) c n' ∗ Wait1D m c n' ∗ owes (c : Thread nD τ) 0 (insert (SemLoc.dma (rsSendS (fwd c k)), ()) W))
            -∗ wp frame (wpE (defs₀ (F := F)) 𝒱₀ c none) Set.univ (kont ⟨⟩) Q)
          -∗ wp frame (wpE (defs₀ (F := F)) 𝒱₀ c none) Set.univ (.op (.waitDma2 sS v1 v2 h1 h2) kont) Q) := by
  subst hsS
  unfold Wait1R Wait1D
  rw [bigSep_ge_peel _ n k n' hn hn', bigSep_lt_push _ n k n' hn hn']
  iintro ⟨#HR, ⟨⟨Hat, Hc⟩, HWR⟩, HWD, HO⟩ Hk
  iapply (Rounds.wp_wait_rest_token 𝒱₀ ER (ringRd m) (c : Thread nD τ) none (κ := K (c, some (0, fwd c k)))
      (fun Kk => (wpE_waitDma2_eq 𝒱₀ (c : Thread nD τ) none Set.univ Kk).trans (by rw [hN])) (Set.mem_univ _) () (O := 0) (W := W) (R := 0) (m := 0) (T := ∅)
      (by rw [Nat.zero_add]; exact (expect_rsSend m c (fwd c k) (fwd_ne c k)).symm)) $$ [Hc HO Hat]
  · isplitr; · iapply (inv_at m K (c, some (0, fwd c k))); iexact HR
    isplitl [Hc]; · iexact Hc
    isplitl [HO]; · iexact HO
    isplitr; · rw [MayWait_zero]; iempintro
    iexact Hat
  iintro ⟨HO, Hat, -, Hpay⟩
  ihave Hp := (Entails.of_eq (rest_rsSend m c (fwd c k) (fwd_ne c k))) $$ Hpay
  iapply Hk
  isplitl [HWR]; · iexact HWR
  isplitr [HO]; · isplitr [HWD]; · isplitl [Hat]; · iexact Hat
                                   iexact Hp
                  iexact HWD
  iexact HO

set_option maxHeartbeats 800000 in
/-- One send cell of the second round of transfers waited for: the cell moves to round 1 and the transfer's source comes back
    (the payload of the round's only duty). Nothing is owed any more, so the wait is allowed at any level. -/
theorem wait2_step (K : Dev nD × CK → ℕ) (c : Dev nD) (W : Waits sig Unit) (n : ℕ) (k : Fin 15) (n' : ℕ) (hn : n = k.val) (hn' : n' = k.val + 1)
    (sS : DmaSem sig) (hsS : sS = agSendS (fwd c k))
    (v1 v2 : Memref sig .tc .vmem S32x512 .bf16) {h1 : v1.view.WordExact} {h2 : v2.view.WordExact}
    (hN : v2.view.dmaCredit = NC)
    {α : Type} {kont : PUnit → Prog (TpuEff nD τ sig (Elt F) Λ₀ .tc) α} {Q : α → sProp 𝕄} :
    iprop(records m K ∗ Wait2R (F := F) c n ∗ Wait2D m c n ∗ owes (c : Thread nD τ) 0 W)
      ⊢ iprop(((Wait2R (F := F) c n' ∗ Wait2D m c n' ∗ owes (c : Thread nD τ) 0 (insert (SemLoc.dma (agSendS (fwd c k)), ()) W))
            -∗ wp frame (wpE (defs₀ (F := F)) 𝒱₀ c none) Set.univ (kont ⟨⟩) Q)
          -∗ wp frame (wpE (defs₀ (F := F)) 𝒱₀ c none) Set.univ (.op (.waitDma2 sS v1 v2 h1 h2) kont) Q) := by
  subst hsS
  unfold Wait2R Wait2D
  rw [bigSep_ge_peel _ n k n' hn hn', bigSep_lt_push _ n k n' hn hn']
  iintro ⟨#HR, ⟨⟨Hat, Hc⟩, HWR⟩, HWD, HO⟩ Hk
  iapply (Rounds.wp_wait_rest_token 𝒱₀ ER (ringRd m) (c : Thread nD τ) none (κ := K (c, some (2, fwd c k)))
      (fun Kk => (wpE_waitDma2_eq 𝒱₀ (c : Thread nD τ) none Set.univ Kk).trans (by rw [hN])) (Set.mem_univ _) () (O := 0) (W := W) (R := 0) (m := 0) (T := ∅)
      (by rw [Nat.zero_add]; exact (expect_agSend m c (fwd c k) (fwd_ne c k)).symm)) $$ [Hc HO Hat]
  · isplitr; · iapply (inv_at m K (c, some (2, fwd c k))); iexact HR
    isplitl [Hc]; · iexact Hc
    isplitl [HO]; · iexact HO
    isplitr; · rw [MayWait_zero]; iempintro
    iexact Hat
  iintro ⟨HO, Hat, -, Hpay⟩
  ihave Hp := (Entails.of_eq (rest_agSend m c (fwd c k) (fwd_ne c k))) $$ Hpay
  iapply Hk
  isplitl [HWR]; · iexact HWR
  isplitr [HO]; · isplitr [HWD]; · isplitl [Hat]; · iexact Hat
                                   iexact Hp
                  iexact HWD
  iexact HO

/-- info: 'Cert.Kernel.AR.wait1_step' depends on axioms: [propext, Classical.choice, Quot.sound] -/
#guard_msgs in #print axioms wait1_step
/-- info: 'Cert.Kernel.AR.wait2_step' depends on axioms: [propext, Classical.choice, Quot.sound] -/
#guard_msgs in #print axioms wait2_step

end Cert.Kernel.AR

end
-- ==== Proof.KPartsF.lean ====
/-
# The second round's receive waits, part by part

Printed parts 34 … 40 wait, two shifts a part, for the second transfers from the peers behind; part 41 waits for the last
of them and then for the first five send cells of the first round. Each wait is one application of its step lemma, at the
wait as printed. Every wait adds its cell to the set of cells waited on, so what is owed (nothing) is carried with
some such set.
-/
import proofs.«900416_g7700000000000417_dist_ar_v7x_i16_i_m512_n512_bf16_1_alg».proof.Proof.KStepRecv
import proofs.«900416_g7700000000000417_dist_ar_v7x_i16_i_m512_n512_bf16_1_alg».proof.Proof.KStepWait

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A transfer of a 32 × 512 narrow block credits the same count whatever buffer it lands in. -/
theorem credit_oSlice (c : Dev nD) (k : Fin 15) : ((oM : Memref sig .tc .vmem S512x512 .bf16).slice (Rect.unit (s := S512x512) (k0_off7 c (BitVec.ofNat 32 (1 + k.val))) S32x512.size (k0_off7_inb c k)) (fun _ => rfl)).view.dmaCredit = NC := rfl
theorem credit_bSlice (c : Dev nD) (k : Fin 15) : ((bM : Memref sig .tc .vmem S512x512 .bf16).slice (Rect.unit (s := S512x512) (k0_off4 c (BitVec.ofNat 32 (1 + k.val))) S32x512.size (k0_off4_inb c k)) (fun _ => rfl)).view.dmaCredit = NC := rfl

/-- `recv2_step` at the wait as printed: the cell through the printed semaphore slice, the views as printed (only the
    destination's credit count matters). -/
theorem recv2_printed (K : Dev nD × CK → ℕ) (c : Dev nD) (k : Fin 15) (n n' : ℕ) (hn : n = k.val) (hn' : n' = k.val + 1)
    (W : Waits sig Unit)
    {hs : (rM : Memref sig .tc .vmem S32x512 .bf16).view.WordExact}
    {hd : ((oM : Memref sig .tc .vmem S512x512 .bf16).slice (Rect.unit (s := S512x512) (k0_off7 c (BitVec.ofNat 32 (1 + k.val))) S32x512.size (k0_off7_inb c k)) (fun _ => rfl)).view.WordExact}
    {α : Type} {Q : α → sProp 𝕄} {kont : PUnit → Prog (TpuEff nD τ sig (Elt F) Λ₀ .tc) α} :
    iprop(records m K ∗ Recv2R (F := F) c n ∗ Recv2D m c n ∗ owes (c : Thread nD τ) 0 W)
      ⊢ iprop(((Recv2R (F := F) c n' ∗ Recv2D m c n'
              ∗ owes (c : Thread nD τ) 0 (insert (SemLoc.dma (agRecvS (bwd c k)), ()) W))
            -∗ wp frame (wpE (defs₀ (F := F)) 𝒱₀ c none) Set.univ (kont ⟨⟩) Q)
          -∗ wp frame (wpE (defs₀ (F := F)) 𝒱₀ c none) Set.univ
              (.op (.waitDma2 ((cc0_scratch6.slice (Rect.unit (s := S16) (k0_off6 c (BitVec.ofNat 32 (1 + k.val))) S1.size (k0_off6_inb c k))).squeeze S_ squeezes_S1_S_).sem (rM : Memref sig .tc .vmem S32x512 .bf16)
                ((oM : Memref sig .tc .vmem S512x512 .bf16).slice (Rect.unit (s := S512x512) (k0_off7 c (BitVec.ofNat 32 (1 + k.val))) S32x512.size (k0_off7_inb c k)) (fun _ => rfl))
                hs hd) kont) Q) :=
  recv2_step m K c k n n' hn hn' W _ (sem_off6_ag c k) (rM : Memref sig .tc .vmem S32x512 .bf16) ((oM : Memref sig .tc .vmem S512x512 .bf16).slice (Rect.unit (s := S512x512) (k0_off7 c (BitVec.ofNat 32 (1 + k.val))) S32x512.size (k0_off7_inb c k)) (fun _ => rfl)) (credit_oSlice c k)

/-- `wait1_step` at the wait as printed. -/
theorem wait1_printed (K : Dev nD × CK → ℕ) (c : Dev nD) (W : Waits sig Unit) (n : ℕ) (k : Fin 15) (n' : ℕ) (hn : n = k.val) (hn' : n' = k.val + 1)
    {h1 : (sRow c).view.WordExact}
    {h2 : ((bM : Memref sig .tc .vmem S512x512 .bf16).slice (Rect.unit (s := S512x512) (k0_off4 c (BitVec.ofNat 32 (1 + k.val))) S32x512.size (k0_off4_inb c k)) (fun _ => rfl)).view.WordExact}
    {α : Type} {kont : PUnit → Prog (TpuEff nD τ sig (Elt F) Λ₀ .tc) α} {Q : α → sProp 𝕄} :
    iprop(records m K ∗ Wait1R (F := F) c n ∗ Wait1D m c n ∗ owes (c : Thread nD τ) 0 W)
      ⊢ iprop(((Wait1R (F := F) c n' ∗ Wait1D m c n' ∗ owes (c : Thread nD τ) 0 (insert (SemLoc.dma (rsSendS (fwd c k)), ()) W))
            -∗ wp frame (wpE (defs₀ (F := F)) 𝒱₀ c none) Set.univ (kont ⟨⟩) Q)
          -∗ wp frame (wpE (defs₀ (F := F)) 𝒱₀ c none) Set.univ
              (.op (.waitDma2 ((cc0_scratch3.slice (Rect.unit (s := S16) (k0_off1 c (BitVec.ofNat 32 (1 + k.val))) S1.size (k0_off1_inb c k))).squeeze S_ squeezes_S1_S_).sem (sRow c)
                ((bM : Memref sig .tc .vmem S512x512 .bf16).slice (Rect.unit (s := S512x512) (k0_off4 c (BitVec.ofNat 32 (1 + k.val))) S32x512.size (k0_off4_inb c k)) (fun _ => rfl))
                h1 h2) kont) Q) :=
  wait1_step m K c W n k n' hn hn' _ (sem_off1_rs c k) (sRow c) ((bM : Memref sig .tc .vmem S512x512 .bf16).slice (Rect.unit (s := S512x512) (k0_off4 c (BitVec.ofNat 32 (1 + k.val))) S32x512.size (k0_off4_inb c k)) (fun _ => rfl)) (credit_bSlice c k)

set_option maxHeartbeats 800000 in
/-- Printed part 34: the waits for the second transfers from the peers of shifts 0 and 1 behind. -/
theorem part34 (K : Dev nD × CK → ℕ) (c : Dev nD) (v2 : BitVec 32) (v1162 : BitVec 32)
    (Kt : (Σ' (v1196 : BitVec 32) (c16_i32_754 : BitVec 32), BitVec 32) → sProp 𝕄) :
    iprop((records m K ∗ Recv2R (F := F) c 0 ∗ Recv2D m c 0 ∗ (∃ W, owes (c : Thread nD τ) 0 W))
        ∗ (∀ ret, (Recv2R (F := F) c 2 ∗ Recv2D m c 2 ∗ (∃ W, owes (c : Thread nD τ) 0 W)) -∗ Kt ret))
      ⊢ wp frame (wpE (defs₀ (F := F)) 𝒱₀ c none) Set.univ
          (k0_part34 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1162) Kt := by
  rw [k0_part34_eq_skeleton]; unfold k0_part34_skel
  simp only [Prog.lift, Prog.bind_op, Prog.bind_ret, Prog.pure_eq_ret]
  iintro ⟨⟨#HR, HS, HD, ⟨%W, HO⟩⟩, Hk⟩
  iapply (recv2_printed m K c (0 : Fin 15) 0 1 rfl rfl _) $$ [HS HD HO]
  · isplitr; · iexact HR
    isplitl [HS]; · iexact HS
    isplitl [HD]; · iexact HD
    iexact HO
  iintro ⟨HS, HD, HO⟩
  iapply (recv2_printed m K c (1 : Fin 15) 1 2 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 35: the waits for the second transfers from the peers of shifts 2 and 3 behind. -/
theorem part35 (K : Dev nD × CK → ℕ) (c : Dev nD) (v2 : BitVec 32) (v1196 : BitVec 32) (c16_i32_754 : BitVec 32) (c0_i32_755 : BitVec 32)
    (Kt : (Σ' (v1230 : BitVec 32) (c16_i32_776 : BitVec 32) (v1231 : BitVec 1), BitVec 32) → sProp 𝕄) :
    iprop((records m K ∗ Recv2R (F := F) c 2 ∗ Recv2D m c 2 ∗ (∃ W, owes (c : Thread nD τ) 0 W))
        ∗ (∀ ret, (Recv2R (F := F) c 4 ∗ Recv2D m c 4 ∗ (∃ W, owes (c : Thread nD τ) 0 W)) -∗ Kt ret))
      ⊢ wp frame (wpE (defs₀ (F := F)) 𝒱₀ c none) Set.univ
          (k0_part35 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1196 c16_i32_754 c0_i32_755) Kt := by
  rw [k0_part35_eq_skeleton]; unfold k0_part35_skel
  simp only [Prog.lift, Prog.bind_op, Prog.bind_ret, Prog.pure_eq_ret]
  iintro ⟨⟨#HR, HS, HD, ⟨%W, HO⟩⟩, Hk⟩
  iapply (recv2_printed m K c (2 : Fin 15) 2 3 rfl rfl _) $$ [HS HD HO]
  · isplitr; · iexact HR
    isplitl [HS]; · iexact HS
    isplitl [HD]; · iexact HD
    iexact HO
  iintro ⟨HS, HD, HO⟩
  iapply (recv2_printed m K c (3 : Fin 15) 3 4 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 36: the waits for the second transfers from the peers of shifts 4 and 5 behind. -/
theorem part36 (K : Dev nD × CK → ℕ) (c : Dev nD) (v2 : BitVec 32) (v1230 : BitVec 32) (c16_i32_776 : BitVec 32) (v1231 : BitVec 1) (c1_i32_778 : BitVec 32)
    (Kt : (Σ' (v1266 : BitVec 32), BitVec 32) → sProp 𝕄) :
    iprop((records m K ∗ Recv2R (F := F) c 4 ∗ Recv2D m c 4 ∗ (∃ W, owes (c : Thread nD τ) 0 W))
        ∗ (∀ ret, (Recv2R (F := F) c 6 ∗ Recv2D m c 6 ∗ (∃ W, owes (c : Thread nD τ) 0 W)) -∗ Kt ret))
      ⊢ wp frame (wpE (defs₀ (F := F)) 𝒱₀ c none) Set.univ
          (k0_part36 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1230 c16_i32_776 v1231 c1_i32_778) Kt := by
  rw [k0_part36_eq_skeleton]; unfold k0_part36_skel
  simp only [Prog.lift, Prog.bind_op, Prog.bind_ret, Prog.pure_eq_ret]
  iintro ⟨⟨#HR, HS, HD, ⟨%W, HO⟩⟩, Hk⟩
  iapply (recv2_printed m K c (4 : Fin 15) 4 5 rfl rfl _) $$ [HS HD HO]
  · isplitr; · iexact HR
    isplitl [HS]; · iexact HS
    isplitl [HD]; · iexact HD
    iexact HO
  iintro ⟨HS, HD, HO⟩
  iapply (recv2_printed m K c (5 : Fin 15) 5 6 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 37: the waits for the second transfers from the peers of shifts 6 and 7 behind. -/
theorem part37 (K : Dev nD × CK → ℕ) (c : Dev nD) (v2 : BitVec 32) (v1266 : BitVec 32) (v1267 : BitVec 32)
    (Kt : (Σ' (v1300 : BitVec 32) (v1301 : BitVec 32), BitVec 1) → sProp 𝕄) :
    iprop((records m K ∗ Recv2R (F := F) c 6 ∗ Recv2D m c 6 ∗ (∃ W, owes (c : Thread nD τ) 0 W))
        ∗ (∀ ret, (Recv2R (F := F) c 8 ∗ Recv2D m c 8 ∗ (∃ W, owes (c : Thread nD τ) 0 W)) -∗ Kt ret))
      ⊢ wp frame (wpE (defs₀ (F := F)) 𝒱₀ c none) Set.univ
          (k0_part37 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1266 v1267) Kt := by
  rw [k0_part37_eq_skeleton]; unfold k0_part37_skel
  simp only [Prog.lift, Prog.bind_op, Prog.bind_ret, Prog.pure_eq_ret]
  iintro ⟨⟨#HR, HS, HD, ⟨%W, HO⟩⟩, Hk⟩
  iapply (recv2_printed m K c (6 : Fin 15) 6 7 rfl rfl _) $$ [HS HD HO]
  · isplitr; · iexact HR
    isplitl [HS]; · iexact HS
    isplitl [HD]; · iexact HD
    iexact HO
  iintro ⟨HS, HD, HO⟩
  iapply (recv2_printed m K c (7 : Fin 15) 7 8 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 38: the waits for the second transfers from the peers of shifts 8 and 9 behind. -/
theorem part38 (K : Dev nD × CK → ℕ) (c : Dev nD) (v2 : BitVec 32) (v1300 : BitVec 32) (v1301 : BitVec 32) (v1302 : BitVec 1)
    (Kt : (Σ' (v1334 : BitVec 32) (v1335 : BitVec 32) (v1336 : BitVec 1), BitVec 1) → sProp 𝕄) :
    iprop((records m K ∗ Recv2R (F := F) c 8 ∗ Recv2D m c 8 ∗ (∃ W, owes (c : Thread nD τ) 0 W))
        ∗ (∀ ret, (Recv2R (F := F) c 10 ∗ Recv2D m c 10 ∗ (∃ W, owes (c : Thread nD τ) 0 W)) -∗ Kt ret))
      ⊢ wp frame (wpE (defs₀ (F := F)) 𝒱₀ c none) Set.univ
          (k0_part38 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1300 v1301 v1302) Kt := by
  rw [k0_part38_eq_skeleton]; unfold k0_part38_skel
  simp only [Prog.lift, Prog.bind_op, Prog.bind_ret, Prog.pure_eq_ret]
  iintro ⟨⟨#HR, HS, HD, ⟨%W, HO⟩⟩, Hk⟩
  iapply (recv2_printed m K c (8 : Fin 15) 8 9 rfl rfl _) $$ [HS HD HO]
  · isplitr; · iexact HR
    isplitl [HS]; · iexact HS
    isplitl [HD]; · iexact HD
    iexact HO
  iintro ⟨HS, HD, HO⟩
  iapply (recv2_printed m K c (9 : Fin 15) 9 10 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 39: the waits for the second transfers from the peers of shifts 10 and 11 behind. -/
theorem part39 (K : Dev nD × CK → ℕ) (c : Dev nD) (v2 : BitVec 32) (v1334 : BitVec 32) (v1335 : BitVec 32) (v1336 : BitVec 1) (v1337 : BitVec 1)
    (Kt : (Σ' (v1368 : BitVec 32) (v1369 : BitVec 32) (v1370 : BitVec 1) (v1371 : BitVec 1), BitVec 1) → sProp 𝕄) :
    iprop((records m K ∗ Recv2R (F := F) c 10 ∗ Recv2D m c 10 ∗ (∃ W, owes (c : Thread nD τ) 0 W))
        ∗ (∀ ret, (Recv2R (F := F) c 12 ∗ Recv2D m c 12 ∗ (∃ W, owes (c : Thread nD τ) 0 W)) -∗ Kt ret))
      ⊢ wp frame (wpE (defs₀ (F := F)) 𝒱₀ c none) Set.univ
          (k0_part39 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1334 v1335 v1336 v1337) Kt := by
  rw [k0_part39_eq_skeleton]; unfold k0_part39_skel
  simp only [Prog.lift, Prog.bind_op, Prog.bind_ret, Prog.pure_eq_ret]
  iintro ⟨⟨#HR, HS, HD, ⟨%W, HO⟩⟩, Hk⟩
  iapply (recv2_printed m K c (10 : Fin 15) 10 11 rfl rfl _) $$ [HS HD HO]
  · isplitr; · iexact HR
    isplitl [HS]; · iexact HS
    isplitl [HD]; · iexact HD
    iexact HO
  iintro ⟨HS, HD, HO⟩
  iapply (recv2_printed m K c (11 : Fin 15) 11 12 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 800000 in
/-- Printed part 40: the waits for the second transfers from the peers of shifts 12 and 13 behind. -/
theorem part40 (K : Dev nD × CK → ℕ) (c : Dev nD) (v2 : BitVec 32) (v1368 : BitVec 32) (v1369 : BitVec 32) (v1370 : BitVec 1) (v1371 : BitVec 1) (v1372 : BitVec 1)
    (Kt : (Σ' (v1402 : BitVec 32) (v1403 : BitVec 32), BitVec 1) → sProp 𝕄) :
    iprop((records m K ∗ Recv2R (F := F) c 12 ∗ Recv2D m c 12 ∗ (∃ W, owes (c : Thread nD τ) 0 W))
        ∗ (∀ ret, (Recv2R (F := F) c 14 ∗ Recv2D m c 14 ∗ (∃ W, owes (c : Thread nD τ) 0 W)) -∗ Kt ret))
      ⊢ wp frame (wpE (defs₀ (F := F)) 𝒱₀ c none) Set.univ
          (k0_part40 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v2 v1368 v1369 v1370 v1371 v1372) Kt := by
  rw [k0_part40_eq_skeleton]; unfold k0_part40_skel
  simp only [Prog.lift, Prog.bind_op, Prog.bind_ret, Prog.pure_eq_ret]
  iintro ⟨⟨#HR, HS, HD, ⟨%W, HO⟩⟩, Hk⟩
  iapply (recv2_printed m K c (12 : Fin 15) 12 13 rfl rfl _) $$ [HS HD HO]
  · isplitr; · iexact HR
    isplitl [HS]; · iexact HS
    isplitl [HD]; · iexact HD
    iexact HO
  iintro ⟨HS, HD, HO⟩
  iapply (recv2_printed m K c (13 : Fin 15) 13 14 rfl rfl _) $$ [HS HD HO]
  · isplitr; · iexact HR
    isplitl [HS]; · iexact HS
    isplitl [HD]; · iexact HD
    iexact HO
  iintro ⟨HS, HD, HO⟩
  rw [wp_ret]; imodintro
  iapply Hk
  isplitl [HS]; · iexact HS
  isplitl [HD]; · iexact HD
  iexists _; iexact HO

set_option maxHeartbeats 1600000 in
/-- Printed part 41: the wait for the second transfer from the peer of shift 14 behind, then the waits on the first
    round's send cells of shifts 0 … 4. -/
theorem part41 (K : Dev nD × CK → ℕ) (c : Dev nD) (v1402 : BitVec 32) (v1403 : BitVec 32) (v1408 : BitVec 1)
    (Kt : (PUnit) → sProp 𝕄) :
    iprop((records m K ∗ Recv2R (F := F) c 14 ∗ Recv2D m c 14 ∗ Wait1R (F := F) c 0 ∗ Wait1D m c 0 ∗ (∃ W, owes (c : Thread nD τ) 0 W))
        ∗ (∀ ret, (Recv2R (F := F) c 15 ∗ Recv2D m c 15 ∗ Wait1R (F := F) c 5 ∗ Wait1D m c 5 ∗ (∃ W, owes (c : Thread nD τ) 0 W)) -∗ Kt ret))
      ⊢ wp frame (wpE (defs₀ (F := F)) 𝒱₀ c none) Set.univ
          (k0_part41 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
            c v1402 v1403 v1408) Kt := by
  rw [k0_part41_eq_skeleton]; unfold k0_part41_skel
  simp only [Prog.lift, Prog.bind_op, Prog.bind_ret, Prog.pure_eq_ret]
  iintro ⟨⟨#HR, HS, HD, HWR, HWD, ⟨%W, HO⟩⟩, Hk⟩
  iapply (recv2_printed m K c (14 : Fin 15) 14 15 rfl rfl _) $$ [HS HD HO]
  · isplitr; · iexact HR
    isplitl [HS]; · iexact HS
    isplitl [HD]; · iexact HD
    iexact HO
  iintro ⟨HS, HD, HO⟩
  iapply (wait1_printed m K c _ 0 (0 : Fin 15) 1 rfl rfl) $$ [HWR HWD HO]
  · isplitr; · iexact HR
    isplitl [HWR]; · iexact HWR
    isplitl [HWD]; · iexact HWD
    iexact HO
  iintro ⟨HWR, HWD, HO⟩
  iapply (wait1_printed m K c _ 1 (1 : Fin 15) 2 rfl rfl) $$ [HWR HWD HO]
  · isplitr; · iexact HR
    isplitl [HWR]; · iexact HWR
    isplitl [HWD]; · iexact HWD
    iexact HO
  iintro ⟨HWR, HWD, HO⟩
  iapply (wait1_printed m K c _ 2 (2 : Fin 15) 3 rfl rfl) $$ [HWR HWD HO]
  · isplitr; · iexact HR
    isplitl [HWR]; · iexact HWR
    isplitl [HWD]; · iexact HWD
    iexact HO
  iintro ⟨HWR, HWD, HO⟩
  iapply (wait1_printed m K c _ 3 (3 : Fin 15) 4 rfl rfl) $$ [HWR HWD HO]
  · isplitr; · iexact HR
    isplitl [HWR]; · iexact HWR
    isplitl [HWD]; · iexact HWD
    iexact HO
  iintro ⟨HWR, HWD, HO⟩
  iapply (wait1_printed m K c _ 4 (4 : Fin 15) 5 rfl rfl) $$ [HWR HWD HO]
  · isplitr; · iexact HR
    isplitl [HWR]; · iexact HWR
    isplitl [HWD]; · iexact HWD
    iexact HO
  iintro ⟨HWR, HWD, HO⟩
  rw [wp_ret]; imodintro
  iapply Hk
  isplitl [HS]; · iexact HS
  isplitl [HD]; · iexact HD
  isplitl [HWR]; · iexact HWR
  isplitl [HWD]; · iexact HWD
  iexists _; iexact HO

/-- info: 'Cert.Kernel.AR.part40' depends on axioms: [propext, Classical.choice, Quot.sound] -/
#guard_msgs in #print axioms part40
/-- info: 'Cert.Kernel.AR.part41' depends on axioms: [propext, Classical.choice, Quot.sound] -/
#guard_msgs in #print axioms part41

end Cert.Kernel.AR

end
-- ==== Proof.KPartsG.lean ====
import proofs.«900416_g7700000000000417_dist_ar_v7x_i16_i_m512_n512_bf16_1_alg».proof.Proof.KStepWait

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-!
# The printed waits on the send cells, in program order

After its last receive a device waits for its thirty transfers to have been read out: the fifteen of the first round
(shift `0` to `14`), then the fifteen of the second. The printed body cuts this run of waits into the end of part 41,
parts 42 and 43, the end of part 44 and the end of the body; each piece is a row of applications of the two step lemmas.
This module holds parts 42 and 43 and the two ends.
-/

/-- The units a wait on a first-round send cell consumes: its destination view, thirty-two rows of the rounded copy,
    counts as every 32 × 512 narrow view does. -/
theorem NC_off4 (c : Dev nD) (r : Fin 15) :
    ((bM : Memref sig .tc .vmem S512x512 .bf16).slice (Rect.unit (s := S512x512) (k0_off4 c (BitVec.ofNat 32 (1 + r.val))) S32x512.size (k0_off4_inb c r)) (fun _ => rfl)).view.dmaCredit = NC := rfl

/-! ## Part 42: the first round's shifts 5 to 12 -/

set_option maxHeartbeats 1600000 in
/-- Part 42: the first round's send cells of shifts 5 to 12 waited for. -/
theorem part42 (K : Dev nD × CK → ℕ) (c : Dev nD) (Kt : PUnit → sProp 𝕄) :
    iprop((records m K ∗ Wait1R (F := F) c 5 ∗ Wait1D m c 5 ∗ (∃ W, owes (c : Thread nD τ) 0 W))
        ∗ ((Wait1R (F := F) c 13 ∗ Wait1D m c 13 ∗ (∃ W, owes (c : Thread nD τ) 0 W)) -∗ Kt ⟨⟩))
      ⊢ wp frame (wpE (defs₀ (F := F)) 𝒱₀ c none) Set.univ
          (k0_part42 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c) Kt := by
  rw [k0_part42_eq_skeleton]; unfold k0_part42_skel
  simp only [Prog.lift, Prog.bind_op, Prog.bind_ret, Prog.pure_eq_ret]
  iintro ⟨⟨#HR, H1R, H1D, ⟨%W, HO⟩⟩, Hk⟩
  iapply (wait1_step m K c _ 5 (5 : Fin 15) 6 rfl rfl _ (sem_off1_rs c 5) _ _ (NC_off4 c 5)) $$ [H1R H1D HO]
  · isplitr; · iexact HR
    isplitl [H1R]; · iexact H1R
    isplitl [H1D]; · iexact H1D
    iexact HO
  iintro ⟨H1R, H1D, HO⟩
  iapply (wait1_step m K c _ 6 (6 : Fin 15) 7 rfl rfl _ (sem_off1_rs c 6) _ _ (NC_off4 c 6)) $$ [H1R H1D HO]
  · isplitr; · iexact HR
    isplitl [H1R]; · iexact H1R
    isplitl [H1D]; · iexact H1D
    iexact HO
  iintro ⟨H1R, H1D, HO⟩
  iapply (wait1_step m K c _ 7 (7 : Fin 15) 8 rfl rfl _ (sem_off1_rs c 7) _ _ (NC_off4 c 7)) $$ [H1R H1D HO]
  · isplitr; · iexact HR
    isplitl [H1R]; · iexact H1R
    isplitl [H1D]; · iexact H1D
    iexact HO
  iintro ⟨H1R, H1D, HO⟩
  iapply (wait1_step m K c _ 8 (8 : Fin 15) 9 rfl rfl _ (sem_off1_rs c 8) _ _ (NC_off4 c 8)) $$ [H1R H1D HO]
  · isplitr; · iexact HR
    isplitl [H1R]; · iexact H1R
    isplitl [H1D]; · iexact H1D
    iexact HO
  iintro ⟨H1R, H1D, HO⟩
  iapply (wait1_step m K c _ 9 (9 : Fin 15) 10 rfl rfl _ (sem_off1_rs c 9) _ _ (NC_off4 c 9)) $$ [H1R H1D HO]
  · isplitr; · iexact HR
    isplitl [H1R]; · iexact H1R
    isplitl [H1D]; · iexact H1D
    iexact HO
  iintro ⟨H1R, H1D, HO⟩
  iapply (wait1_step m K c _ 10 (10 : Fin 15) 11 rfl rfl _ (sem_off1_rs c 10) _ _ (NC_off4 c 10)) $$ [H1R H1D HO]
  · isplitr; · iexact HR
    isplitl [H1R]; · iexact H1R
    isplitl [H1D]; · iexact H1D
    iexact HO
  iintro ⟨H1R, H1D, HO⟩
  iapply (wait1_step m K c _ 11 (11 : Fin 15) 12 rfl rfl _ (sem_off1_rs c 11) _ _ (NC_off4 c 11)) $$ [H1R H1D HO]
  · isplitr; · iexact HR
    isplitl [H1R]; · iexact H1R
    isplitl [H1D]; · iexact H1D
    iexact HO
  iintro ⟨H1R, H1D, HO⟩
  iapply (wait1_step m K c _ 12 (12 : Fin 15) 13 rfl rfl _ (sem_off1_rs c 12) _ _ (NC_off4 c 12)) $$ [H1R H1D HO]
  · isplitr; · iexact HR
    isplitl [H1R]; · iexact H1R
    isplitl [H1D]; · iexact H1D
    iexact HO
  iintro ⟨H1R, H1D, HO⟩
  rw [wp_ret]; imodintro
  iapply Hk
  isplitl [H1R]; · iexact H1R
  isplitl [H1D]; · iexact H1D
  iexists _; iexact HO

/-! ## Part 43: the first round's shifts 13 and 14, the second round's shifts 0 to 6 -/

set_option maxHeartbeats 1600000 in
/-- Part 43: the first round's last two send cells, then the second round's of shifts 0 to 6. -/
theorem part43 (K : Dev nD × CK → ℕ) (c : Dev nD) (Kt : PUnit → sProp 𝕄) :
    iprop((records m K ∗ Wait1R (F := F) c 13 ∗ Wait1D m c 13 ∗ Wait2R (F := F) c 0 ∗ Wait2D m c 0 ∗ (∃ W, owes (c : Thread nD τ) 0 W))
        ∗ ((Wait1R (F := F) c 15 ∗ Wait1D m c 15 ∗ Wait2R (F := F) c 7 ∗ Wait2D m c 7 ∗ (∃ W, owes (c : Thread nD τ) 0 W)) -∗ Kt ⟨⟩))
      ⊢ wp frame (wpE (defs₀ (F := F)) 𝒱₀ c none) Set.univ
          (k0_part43 (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6 c) Kt := by
  rw [k0_part43_eq_skeleton]; unfold k0_part43_skel
  simp only [Prog.lift, Prog.bind_op, Prog.bind_ret, Prog.pure_eq_ret]
  iintro ⟨⟨#HR, H1R, H1D, H2R, H2D, ⟨%W, HO⟩⟩, Hk⟩
  iapply (wait1_step m K c _ 13 (13 : Fin 15) 14 rfl rfl _ (sem_off1_rs c 13) _ _ (NC_off4 c 13)) $$ [H1R H1D HO]
  · isplitr; · iexact HR
    isplitl [H1R]; · iexact H1R
    isplitl [H1D]; · iexact H1D
    iexact HO
  iintro ⟨H1R, H1D, HO⟩
  iapply (wait1_step m K c _ 14 (14 : Fin 15) 15 rfl rfl _ (sem_off1_rs c 14) _ _ (NC_off4 c 14)) $$ [H1R H1D HO]
  · isplitr; · iexact HR
    isplitl [H1R]; · iexact H1R
    isplitl [H1D]; · iexact H1D
    iexact HO
  iintro ⟨H1R, H1D, HO⟩
  iapply (wait2_step m K c _ 0 (0 : Fin 15) 1 rfl rfl _ (sem_off1_ag c 0) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 1 (1 : Fin 15) 2 rfl rfl _ (sem_off1_ag c 1) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 2 (2 : Fin 15) 3 rfl rfl _ (sem_off1_ag c 2) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 3 (3 : Fin 15) 4 rfl rfl _ (sem_off1_ag c 3) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 4 (4 : Fin 15) 5 rfl rfl _ (sem_off1_ag c 4) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 5 (5 : Fin 15) 6 rfl rfl _ (sem_off1_ag c 5) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 6 (6 : Fin 15) 7 rfl rfl _ (sem_off1_ag c 6) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  rw [wp_ret]; imodintro
  iapply Hk
  isplitl [H1R]; · iexact H1R
  isplitl [H1D]; · iexact H1D
  isplitl [H2R]; · iexact H2R
  isplitl [H2D]; · iexact H2D
  iexists _; iexact HO

/-! ## The end of part 44: the second round's shifts 7 to 9 -/

/-- Printed part 44 after its call of part 43, at the device the first part read: three waits, and the device is returned. -/
def part44Tail (c : Dev nD) : Prog (TpuEff nD τ sig (Elt F) Λ₀ .tc) (Dev nD) :=
    Prog.op (.waitDma2 ((cc0_scratch5.slice (Rect.unit (s := S16) (k0_off1 c 8#32) S1.size (k0_off1_inb c 7))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 9#32) S1.size (k0_off1_inb c 8))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 10#32) S1.size (k0_off1_inb c 9))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.ret c

set_option maxHeartbeats 1600000 in
/-- The end of part 44: the second round's send cells of shifts 7 to 9 waited for. -/
theorem part44tail (K : Dev nD × CK → ℕ) (c : Dev nD) (Kt : (Dev nD) → sProp 𝕄) :
    iprop((records m K ∗ Wait2R (F := F) c 7 ∗ Wait2D m c 7 ∗ (∃ W, owes (c : Thread nD τ) 0 W))
        ∗ ((Wait2R (F := F) c 10 ∗ Wait2D m c 10 ∗ (∃ W, owes (c : Thread nD τ) 0 W)) -∗ Kt c))
      ⊢ wp frame (wpE (defs₀ (F := F)) 𝒱₀ c none) Set.univ (part44Tail (F := F) c) Kt := by
  unfold part44Tail
  iintro ⟨⟨#HR, H2R, H2D, ⟨%W, HO⟩⟩, Hk⟩
  iapply (wait2_step m K c _ 7 (7 : Fin 15) 8 rfl rfl _ (sem_off1_ag c 7) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 8 (8 : Fin 15) 9 rfl rfl _ (sem_off1_ag c 8) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 9 (9 : Fin 15) 10 rfl rfl _ (sem_off1_ag c 9) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  rw [wp_ret]; imodintro
  iapply Hk
  isplitl [H2R]; · iexact H2R
  isplitl [H2D]; · iexact H2D
  iexists _; iexact HO

/-! ## The end of the body: the second round's shifts 10 to 14 -/

/-- The printed body after its call of part 44, at the device that part returns: the last five waits. -/
def bodyTail (c : Dev nD) : Prog (TpuEff nD τ sig (Elt F) Λ₀ .tc) PUnit :=
    Prog.op (.waitDma2 ((cc0_scratch5.slice (Rect.unit (s := S16) (k0_off1 c 11#32) S1.size (k0_off1_inb c 10))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 12#32) S1.size (k0_off1_inb c 11))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 13#32) S1.size (k0_off1_inb c 12))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 14#32) S1.size (k0_off1_inb c 13))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.op (.waitDma2 ((cc0_scratch5.slice (Rect.unit (s := S16) (k0_off1 c 15#32) S1.size (k0_off1_inb c 14))).squeeze S_ squeezes_S1_S_).sem
      ((oM : Memref sig .tc .vmem S512x512 .bf16).slice (Rect.unit (s := S512x512) (k0_off3 c) S32x512.size (k0_off3_inb c)) (fun _ => rfl))
      (rM : Memref sig .tc .vmem S32x512 .bf16)
      ((Memref.isWhole_whole cc0_stg1_0).wordExact_slice rfl _ (k0_off3_wordsbf16 c)) (Memref.isWhole_whole cc0_scratch1).wordExact) fun _ =>
    Prog.ret PUnit.unit

set_option maxHeartbeats 1600000 in
/-- The end of the body: the second round's send cells of shifts 10 to 14 waited for. -/
theorem bodytail (K : Dev nD × CK → ℕ) (c : Dev nD) (Kt : PUnit → sProp 𝕄) :
    iprop((records m K ∗ Wait2R (F := F) c 10 ∗ Wait2D m c 10 ∗ (∃ W, owes (c : Thread nD τ) 0 W))
        ∗ ((Wait2R (F := F) c 15 ∗ Wait2D m c 15 ∗ (∃ W, owes (c : Thread nD τ) 0 W)) -∗ Kt PUnit.unit))
      ⊢ wp frame (wpE (defs₀ (F := F)) 𝒱₀ c none) Set.univ (bodyTail (F := F) c) Kt := by
  unfold bodyTail
  iintro ⟨⟨#HR, H2R, H2D, ⟨%W, HO⟩⟩, Hk⟩
  iapply (wait2_step m K c _ 10 (10 : Fin 15) 11 rfl rfl _ (sem_off1_ag c 10) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 11 (11 : Fin 15) 12 rfl rfl _ (sem_off1_ag c 11) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 12 (12 : Fin 15) 13 rfl rfl _ (sem_off1_ag c 12) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 13 (13 : Fin 15) 14 rfl rfl _ (sem_off1_ag c 13) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  iapply (wait2_step m K c _ 14 (14 : Fin 15) 15 rfl rfl _ (sem_off1_ag c 14) _ (rM : Memref sig .tc .vmem S32x512 .bf16) rfl) $$ [H2R H2D HO]
  · isplitr; · iexact HR
    isplitl [H2R]; · iexact H2R
    isplitl [H2D]; · iexact H2D
    iexact HO
  iintro ⟨H2R, H2D, HO⟩
  rw [wp_ret]; imodintro
  iapply Hk
  isplitl [H2R]; · iexact H2R
  isplitl [H2D]; · iexact H2D
  iexists _; iexact HO

set_option maxRecDepth 65536 in
/-- The printed body is part 44 and then, at the device it returns, the last five waits. -/
theorem cc0_body_eq :
    cc0_body (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
      = (do
          let d0 ← k0_part44 (F := F) (Memref.whole cc0_stg0_0) (Memref.isWhole_whole _) (Memref.whole cc0_stg1_0) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6
          bodyTail (F := F) d0) := by
  rw [cc0_body_eq_skeleton]; rfl

/-- info: 'Cert.Kernel.AR.part42' depends on axioms: [propext, Classical.choice, Quot.sound] -/
#guard_msgs in #print axioms part42
/-- info: 'Cert.Kernel.AR.part43' depends on axioms: [propext, Classical.choice, Quot.sound] -/
#guard_msgs in #print axioms part43
/-- info: 'Cert.Kernel.AR.part44tail' depends on axioms: [propext, Classical.choice, Quot.sound] -/
#guard_msgs in #print axioms part44tail
/-- info: 'Cert.Kernel.AR.bodytail' depends on axioms: [propext, Classical.choice, Quot.sound] -/
#guard_msgs in #print axioms bodytail
/-- info: 'Cert.Kernel.AR.cc0_body_eq' depends on axioms: [propext, Classical.choice, Quot.sound] -/
#guard_msgs in #print axioms cc0_body_eq

end Cert.Kernel.AR

end
-- ==== Proof.KBody.lean ====
/-
# One device's body, from what the launch deals it to what the pipeline takes back

The printed parts in program order: each part's lemma spends and produces the families of Res.lean; this module regroups the
launch's share into the families, threads them through the forty-four parts, and hands the leftovers to the closing lemma.
-/
import proofs.«900416_g7700000000000417_dist_ar_v7x_i16_i_m512_n512_bf16_1_alg».proof.Proof.KRegroup
import proofs.«900416_g7700000000000417_dist_ar_v7x_i16_i_m512_n512_bf16_1_alg».proof.Proof.KRows
import proofs.«900416_g7700000000000417_dist_ar_v7x_i16_i_m512_n512_bf16_1_alg».proof.Proof.KClose
import proofs.«900416_g7700000000000417_dist_ar_v7x_i16_i_m512_n512_bf16_1_alg».proof.Proof.KFinish
import proofs.«900416_g7700000000000417_dist_ar_v7x_i16_i_m512_n512_bf16_1_alg».proof.Proof.KPartsA
import proofs.«900416_g7700000000000417_dist_ar_v7x_i16_i_m512_n512_bf16_1_alg».proof.Proof.KPartsB
import proofs.«900416_g7700000000000417_dist_ar_v7x_i16_i_m512_n512_bf16_1_alg».proof.Proof.KPartsC
import proofs.«900416_g7700000000000417_dist_ar_v7x_i16_i_m512_n512_bf16_1_alg».proof.Proof.KPartsC2
import proofs.«900416_g7700000000000417_dist_ar_v7x_i16_i_m512_n512_bf16_1_alg».proof.Proof.KPartsC3
import proofs.«900416_g7700000000000417_dist_ar_v7x_i16_i_m512_n512_bf16_1_alg».proof.Proof.KPartsE
import proofs.«900416_g7700000000000417_dist_ar_v7x_i16_i_m512_n512_bf16_1_alg».proof.Proof.KPartsF
import proofs.«900416_g7700000000000417_dist_ar_v7x_i16_i_m512_n512_bf16_1_alg».proof.Proof.KPartsG

set_option maxRecDepth 16384

noncomputable section

namespace Cert.Kernel.AR

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The device's own row blocks for its peers, at whatever they hold, are the slots its signals hand over. -/
theorem slot_intro_S (c : Dev nD) (k : Fin 15) (f : Buf (Elt F) ((c : Thread nD τ).loc cc0_scratch2)) :
    ((sRow (fwd c k)).view.loc (c : Thread nD τ) ↦[(sRow (fwd c k)).view.set]{fullShare} f : sProp 𝕄) ⊢ ownSlotS (F := F) c k := by
  unfold ownSlotS; iintro H; iexists f; iexact H
theorem slot_intro_O (c : Dev nD) (k : Fin 15) (f : Buf (Elt F) ((c : Thread nD τ).loc cc0_stg1_0)) :
    ((oRow (fwd c k)).view.loc (c : Thread nD τ) ↦[(oRow (fwd c k)).view.set]{fullShare} f : sProp 𝕄) ⊢ ownSlotO (F := F) c k := by
  unfold ownSlotO; iintro H; iexists f; iexact H
theorem own_slots_S (c : Dev nD) (f : Buf (Elt F) ((c : Thread nD τ).loc cc0_scratch2)) :
    (bigSep Finset.univ fun k : Fin 15 => ((sRow (fwd c k)).view.loc (c : Thread nD τ) ↦[(sRow (fwd c k)).view.set]{fullShare} f : sProp 𝕄))
      ⊢ bigSep Finset.univ fun k : Fin 15 => ownSlotS (F := F) c k :=
  bigSep_mono fun k _ => slot_intro_S c k f
theorem own_slots_O (c : Dev nD) (f : Buf (Elt F) ((c : Thread nD τ).loc cc0_stg1_0)) :
    (bigSep Finset.univ fun k : Fin 15 => ((oRow (fwd c k)).view.loc (c : Thread nD τ) ↦[(oRow (fwd c k)).view.set]{fullShare} f : sProp 𝕄))
      ⊢ bigSep Finset.univ fun k : Fin 15 => ownSlotO (F := F) c k :=
  bigSep_mono fun k _ => slot_intro_O c k f

theorem Recv1D_zero (c : Dev nD) : (iprop(emp) : sProp 𝕄) ⊢ Recv1D m c 0 := Entails.of_eq (by unfold Recv1D; rw [bigSep_lt_zero])
theorem Recv2D_zero (c : Dev nD) : (iprop(emp) : sProp 𝕄) ⊢ Recv2D m c 0 := Entails.of_eq (by unfold Recv2D; rw [bigSep_lt_zero])
theorem Wait1D_zero (c : Dev nD) : (iprop(emp) : sProp 𝕄) ⊢ Wait1D m c 0 := Entails.of_eq (by unfold Wait1D; rw [bigSep_lt_zero])
theorem Wait2D_zero (c : Dev nD) : (iprop(emp) : sProp 𝕄) ⊢ Wait2D m c 0 := Entails.of_eq (by unfold Wait2D; rw [bigSep_lt_zero])

set_option maxHeartbeats 6400000 in
theorem body_holds : BodyHolds m ρ := fun c => by
  unfold bodyPre
  rw [cc0_body_eq_skeleton]; unfold cc0_body_skel
  rw [k0_part44_eq_skeleton]; unfold k0_part44_skel
  simp only [Prog.lift, Prog.bind_op, Prog.bind_ret, Prog.pure_eq_ret, wp_bind]
  unfold Φ₀ start ghost scr
  rw [payToks_split, creds_split]
  unfold TRr TRs TAr TAs
  unfold Dat.owesAt Pipeline.owesWithin
  iintro ⟨⟨⟨⟨%K, #HR, Hpos, HTsig, HTrr, HTrs, HTar, HTas⟩, ⟨HcB, HcRs, HcAg⟩, #Hlev⟩, ⟨%fb, Hb⟩, ⟨%fr, Hr⟩, ⟨%fs, Hs⟩⟩, ⟨%W, %hW, HO⟩, ⟨%d0, %g0, %hg0, Hx⟩, ⟨%d1, %g1, %hg1, Hout⟩⟩
  have hx : g0 = xstg m c := by rw [hg0]; unfold Dat.before; rw [if_pos (fetch0_0 t0_0)]; rfl
  subst hx
  ihave Hp := (positions_split (F := F) c) $$ Hpos
  icases Hp with ⟨HpB, Hdiag, HpS1, HpR1, HpS2, HpR2⟩
  ihave Hs := (Entails.of_eq ((sM_rows c fs).trans (univ_eq_own_fwd c _))) $$ Hs
  icases Hs with ⟨HsOwn, HsSl⟩
  ihave HsSl := (own_slots_S c fs) $$ HsSl
  ihave Hout := (Entails.of_eq ((oM_rows c g1).trans (univ_eq_own_fwd c _))) $$ Hout
  icases Hout with ⟨HoOwn, HoSl⟩
  ihave HoSl := (own_slots_O c g1) $$ HoSl
  ihave HSig := (Entails.of_eq (SigR_zero (F := F) c).symm) $$ [HTsig HsSl HoSl]
  · isplitl [HTsig]; · iexact HTsig
    isplitl [HsSl] <;> iassumption
  ihave HR1 := (Entails.of_eq (Recv1R_zero (F := F) c).symm) $$ [HpR1 HcRs]
  · isplitl [HpR1] <;> iassumption
  ihave HR2 := (Entails.of_eq (Recv2R_zero (F := F) c).symm) $$ [HpR2 HcAg]
  · isplitl [HpR2] <;> iassumption
  rw [show (dats m ρ 0 c).owed t0_0.castSucc = O₀ c from rfl]
  unfold O₀
  iapply (part1 m K c (Oag c 0 + Ors c 0) W _)
  isplitl [HSig HO]
  · isplitr; · iexact HR
    isplitl [HSig]; · iexact HSig
    iexact HO
  iintro %a1 ⟨HSig, HO, %ha1⟩
  rw [ha1.1, ha1.2]
  iapply (part2 m K c (Oag c 0 + Ors c 0) W _ _ _ _ _)
  isplitl [HSig HO]
  · isplitr; · iexact HR
    isplitl [HSig]; · iexact HSig
    iexact HO
  iintro %a2 ⟨HSig, HO⟩
  iapply (part3 m K c (Oag c 0 + Ors c 0) W _ _ _ _ _)
  isplitl [HSig HO]
  · isplitr; · iexact HR
    isplitl [HSig]; · iexact HSig
    iexact HO
  iintro %a3 ⟨HSig, HO⟩
  iapply (part4 m K c (Oag c 0 + Ors c 0) W _ _ _ _ _)
  isplitl [HSig HO]
  · isplitr; · iexact HR
    isplitl [HSig]; · iexact HSig
    iexact HO
  iintro %a4 ⟨HSig, HO⟩
  iapply (part5 m K c (Oag c 0 + Ors c 0) W _ _ _ _ _)
  isplitl [HSig HO]
  · isplitr; · iexact HR
    isplitl [HSig]; · iexact HSig
    iexact HO
  iintro %a5 ⟨HSig, HO⟩
  iapply (part6 m K c (Oag c 0 + Ors c 0) W _ _ _ _ _)
  isplitl [HSig HO]
  · isplitr; · iexact HR
    isplitl [HSig]; · iexact HSig
    iexact HO
  iintro %a6 ⟨HSig, HO⟩
  ihave HT1 := (Entails.of_eq (bigSep_sep' Finset.univ (fun k : Fin 15 => (dutyTok ER (rsRecvCell (fwd c k) c) 0 c : sProp 𝕄)) (fun k : Fin 15 => dutyTok ER (rsSendCell c (fwd c k)) 0 (fwd c k))).symm) $$ [HTrr HTrs]
  · isplitl [HTrr] <;> iassumption
  iapply (part7 m K c W _ _ _ _ (xstg m c) rfl fb _)
  isplitl [HSig HO HcB HpB Hx Hb HT1]
  · isplitr; · iexact HR
    isplitr; · iexact Hlev
    isplitl [HSig]; · iexact HSig
    isplitl [HO]; · iexact HO
    isplitl [HcB]; · iexact HcB
    isplitl [HpB]; · iexact HpB
    isplitl [Hx]; · iexact Hx
    isplitl [Hb]; · iexact Hb
    iexact HT1
  iintro %a7 ⟨HS1, HD1, HO, HpB, -, HpsO, Hx, HbOwn⟩
  iapply (part8 m K c (Oag c 0) _ _ _ _ _ _)
  isplitl [HS1 HD1 HO]
  · isplitr; · iexact HR
    isplitl [HS1]; · iexact HS1
    isplitl [HD1]; · iexact HD1
    iexact HO
  iintro %a8 ⟨HS1, HD1, HO⟩
  iapply (part9 m K c (Oag c 0) _ _ _)
  isplitl [HS1 HD1 HO]
  · isplitr; · iexact HR
    isplitl [HS1]; · iexact HS1
    isplitl [HD1]; · iexact HD1
    iexact HO
  iintro %a9 ⟨HS1, HD1, HO⟩
  iapply (part10 m K c (Oag c 0) _ _ _ _ _)
  isplitl [HS1 HD1 HO]
  · isplitr; · iexact HR
    isplitl [HS1]; · iexact HS1
    isplitl [HD1]; · iexact HD1
    iexact HO
  iintro %a10 ⟨HS1, HD1, HO⟩
  iapply (part11 m K c (Oag c 0) _ _ _ _ _ _)
  isplitl [HS1 HD1 HO]
  · isplitr; · iexact HR
    isplitl [HS1]; · iexact HS1
    isplitl [HD1]; · iexact HD1
    iexact HO
  iintro %a11 ⟨HS1, HD1, HO⟩
  iapply (part12 m K c (Oag c 0) _ _ _)
  isplitl [HS1 HD1 HO]
  · isplitr; · iexact HR
    isplitl [HS1]; · iexact HS1
    isplitl [HD1]; · iexact HD1
    iexact HO
  iintro %a12 ⟨HS1, HD1, HO⟩
  iapply (part13 m K c (Oag c 0) _ _ _ _)
  isplitl [HS1 HD1 HO]
  · isplitr; · iexact HR
    isplitl [HS1]; · iexact HS1
    isplitl [HD1]; · iexact HD1
    iexact HO
  iintro %a13 ⟨HS1, HD1, HO⟩
  iapply (part14 m K c (Oag c 0) _ _ _ _ _ _ _ _)
  isplitl [HS1 HD1 HO]
  · isplitr; · iexact HR
    isplitl [HS1]; · iexact HS1
    isplitl [HD1]; · iexact HD1
    iexact HO
  iintro %a14 ⟨HS1, HD1, HO⟩
  iapply (part15 m K c (Oag c 0) _ _ _ _ _ _)
  isplitl [HS1 HD1 HO]
  · isplitr; · iexact HR
    isplitl [HS1]; · iexact HS1
    isplitl [HD1]; · iexact HD1
    iexact HO
  iintro %a15 ⟨HS1, HD1, HO⟩
  iapply (part16 m K c _ _)
  isplitl [HS1 HD1 Hx HR1 HO]
  · isplitr; · iexact HR
    isplitr; · iexact Hlev
    isplitl [HS1]; · iexact HS1
    isplitl [HD1]; · iexact HD1
    isplitl [Hx]; · iexact Hx
    isplitl [HR1]; · iexact HR1
    isplitr; · iapply (Recv1D_zero m c); iempintro
    iexists _; iexact HO
  iintro %a16 ⟨HS1, HD1, Hx, HR1, HRD1, ⟨%W16, HO⟩, %h16⟩
  iapply (part17 m K c _ _ _ _ _ _)
  isplitl [HR1 HRD1 HO]
  · isplitr; · iexact HR
    isplitr; · iexact Hlev
    isplitl [HR1]; · iexact HR1
    isplitl [HRD1]; · iexact HRD1
    iexists _; iexact HO
  iintro %a17 ⟨HR1, HRD1, ⟨%W17, HO⟩, %h17⟩
  iapply (part18 m K c _ _ _ _)
  isplitl [HR1 HRD1 HO]
  · isplitr; · iexact HR
    isplitr; · iexact Hlev
    isplitl [HR1]; · iexact HR1
    isplitl [HRD1]; · iexact HRD1
    iexists _; iexact HO
  iintro %a18 ⟨HR1, HRD1, ⟨%W18, HO⟩, %h18⟩
  iapply (part19 m K c _ _ _ _ _ _ _)
  isplitl [HR1 HRD1 HO]
  · isplitr; · iexact HR
    isplitr; · iexact Hlev
    isplitl [HR1]; · iexact HR1
    isplitl [HRD1]; · iexact HRD1
    iexists _; iexact HO
  iintro %a19 ⟨HR1, HRD1, ⟨%W19, HO⟩, %h19⟩
  iapply (part20 m K c _ _ _ _ _)
  isplitl [HR1 HRD1 HO]
  · isplitr; · iexact HR
    isplitr; · iexact Hlev
    isplitl [HR1]; · iexact HR1
    isplitl [HRD1]; · iexact HRD1
    iexists _; iexact HO
  iintro %a20 ⟨HR1, HRD1, ⟨%W20, HO⟩, %h20⟩
  iapply (part21 m K c _ _ _ _ _ _ _)
  isplitl [HR1 HRD1 HO]
  · isplitr; · iexact HR
    isplitr; · iexact Hlev
    isplitl [HR1]; · iexact HR1
    isplitl [HRD1]; · iexact HRD1
    iexists _; iexact HO
  iintro %a21 ⟨HR1, HRD1, ⟨%W21, HO⟩, %h21⟩
  iapply (part22 m K c _ _ _)
  isplitl [HR1 HRD1 HO]
  · isplitr; · iexact HR
    isplitr; · iexact Hlev
    isplitl [HR1]; · iexact HR1
    isplitl [HRD1]; · iexact HRD1
    iexists _; iexact HO
  iintro %a22 ⟨HR1, HRD1, ⟨%W22, HO⟩, %h22⟩
  iapply (part23 m K c _ _ _ _)
  isplitl [HR1 HRD1 HO]
  · isplitr; · iexact HR
    isplitr; · iexact Hlev
    isplitl [HR1]; · iexact HR1
    isplitl [HRD1]; · iexact HRD1
    iexists _; iexact HO
  iintro %a23 ⟨HR1, HRD1, ⟨%W23, HO⟩, %h23⟩
  iapply (part24 m K c _ _ _)
  isplitl [HR1 HRD1 HO]
  · isplitr; · iexact HR
    isplitr; · iexact Hlev
    isplitl [HR1]; · iexact HR1
    isplitl [HRD1]; · iexact HRD1
    iexists _; iexact HO
  iintro %a24 ⟨HR1, HRD1, ⟨%W24, HO⟩, %h24⟩
  iapply (part25 m K c _ _ _ _ _)
  isplitl [HR1 HRD1 HO]
  · isplitr; · iexact HR
    isplitr; · iexact Hlev
    isplitl [HR1]; · iexact HR1
    isplitl [HRD1]; · iexact HRD1
    iexists _; iexact HO
  iintro %a25 ⟨HR1, HRD1, ⟨%W25, HO⟩, %h25⟩
  have hv : k0_pay12 a25 = red m c := by rw [h25, h24, h23, h22, h21, h20, h19, h18, h17, h16]; rfl
  ihave HO := (Entails.of_eq (congrArg (fun O => (owes (c : Thread nD τ) O W25 : sProp 𝕄)) (zero_add (Oag c 0)).symm)) $$ HO
  ihave HT2 := (Entails.of_eq (bigSep_sep' Finset.univ (fun k : Fin 15 => (dutyTok ER (agSendCell c (fwd c k)) 0 (fwd c k) : sProp 𝕄)) (fun k : Fin 15 => peerSlotO (F := F) c k)).symm) $$ [HTas HpsO]
  · isplitl [HTas] <;> iassumption
  ihave HT2 := (Entails.of_eq (bigSep_sep' Finset.univ (fun k : Fin 15 => (dutyTok ER (agRecvCell (fwd c k) c) 0 c : sProp 𝕄)) (fun k : Fin 15 => iprop(dutyTok ER (agSendCell c (fwd c k)) 0 (fwd c k) ∗ peerSlotO (F := F) c k))).symm) $$ [HTar HT2]
  · isplitl [HTar] <;> iassumption
  iapply (part26 m K c 0 _ _ _ hv fr g1 _)
  isplitl [Hr HoOwn HT2 HO]
  · isplitr; · iexact HR
    isplitl [Hr]; · iexact Hr
    isplitl [HoOwn]; · iexact HoOwn
    isplitl [HT2]; · iexact HT2
    iexact HO
  iintro %a26 ⟨HS2, HD2, Hr, HoOwn, HO⟩
  iapply (part27 m K c 0 _ _ _ _ _ _)
  isplitl [HS2 HD2 HO]
  · isplitr; · iexact HR
    isplitl [HS2]; · iexact HS2
    isplitl [HD2]; · iexact HD2
    iexact HO
  iintro %a27 ⟨HS2, HD2, HO⟩
  iapply (part28 m K c 0 _ _ _ _ _ _ _ _)
  isplitl [HS2 HD2 HO]
  · isplitr; · iexact HR
    isplitl [HS2]; · iexact HS2
    isplitl [HD2]; · iexact HD2
    iexact HO
  iintro %a28 ⟨HS2, HD2, HO⟩
  iapply (part29 m K c 0 _ _ _ _ _ _ _)
  isplitl [HS2 HD2 HO]
  · isplitr; · iexact HR
    isplitl [HS2]; · iexact HS2
    isplitl [HD2]; · iexact HD2
    iexact HO
  iintro %a29 ⟨HS2, HD2, HO⟩
  iapply (part30 m K c 0 _ _ _ _ _ _)
  isplitl [HS2 HD2 HO]
  · isplitr; · iexact HR
    isplitl [HS2]; · iexact HS2
    isplitl [HD2]; · iexact HD2
    iexact HO
  iintro %a30 ⟨HS2, HD2, HO⟩
  iapply (part31 m K c 0 _ _ _ _ _)
  isplitl [HS2 HD2 HO]
  · isplitr; · iexact HR
    isplitl [HS2]; · iexact HS2
    isplitl [HD2]; · iexact HD2
    iexact HO
  iintro %a31 ⟨HS2, HD2, HO⟩
  iapply (part32 m K c 0 _ _ _ _ _ _ _)
  isplitl [HS2 HD2 HO]
  · isplitr; · iexact HR
    isplitl [HS2]; · iexact HS2
    isplitl [HD2]; · iexact HD2
    iexact HO
  iintro %a32 ⟨HS2, HD2, HO⟩
  iapply (part33 m K c 0 _ _ _ _ _ _)
  isplitl [HS2 HD2 HO]
  · isplitr; · iexact HR
    isplitl [HS2]; · iexact HS2
    isplitl [HD2]; · iexact HD2
    iexact HO
  iintro %a33 ⟨HS2, HD2, HO⟩
  ihave HO := (Entails.of_eq (congrArg (fun O => (owes (c : Thread nD τ) O W25 : sProp 𝕄)) ((congrArg (fun x => (0 : CellTallies nD τ sig Unit) + x) (Oag_done c)).trans (add_zero _)))) $$ HO
  iapply (part34 m K c _ _ _)
  isplitl [HR2 HO]
  · isplitr; · iexact HR
    isplitl [HR2]; · iexact HR2
    isplitr; · iapply (Recv2D_zero m c); iempintro
    iexists _; iexact HO
  iintro %a34 ⟨HR2, HRD2, ⟨%W34, HO⟩⟩
  iapply (part35 m K c _ _ _ _ _)
  isplitl [HR2 HRD2 HO]
  · isplitr; · iexact HR
    isplitl [HR2]; · iexact HR2
    isplitl [HRD2]; · iexact HRD2
    iexists _; iexact HO
  iintro %a35 ⟨HR2, HRD2, ⟨%W35, HO⟩⟩
  iapply (part36 m K c _ _ _ _ _ _)
  isplitl [HR2 HRD2 HO]
  · isplitr; · iexact HR
    isplitl [HR2]; · iexact HR2
    isplitl [HRD2]; · iexact HRD2
    iexists _; iexact HO
  iintro %a36 ⟨HR2, HRD2, ⟨%W36, HO⟩⟩
  iapply (part37 m K c _ _ _ _)
  isplitl [HR2 HRD2 HO]
  · isplitr; · iexact HR
    isplitl [HR2]; · iexact HR2
    isplitl [HRD2]; · iexact HRD2
    iexists _; iexact HO
  iintro %a37 ⟨HR2, HRD2, ⟨%W37, HO⟩⟩
  iapply (part38 m K c _ _ _ _ _)
  isplitl [HR2 HRD2 HO]
  · isplitr; · iexact HR
    isplitl [HR2]; · iexact HR2
    isplitl [HRD2]; · iexact HRD2
    iexists _; iexact HO
  iintro %a38 ⟨HR2, HRD2, ⟨%W38, HO⟩⟩
  iapply (part39 m K c _ _ _ _ _ _)
  isplitl [HR2 HRD2 HO]
  · isplitr; · iexact HR
    isplitl [HR2]; · iexact HR2
    isplitl [HRD2]; · iexact HRD2
    iexists _; iexact HO
  iintro %a39 ⟨HR2, HRD2, ⟨%W39, HO⟩⟩
  iapply (part40 m K c _ _ _ _ _ _ _)
  isplitl [HR2 HRD2 HO]
  · isplitr; · iexact HR
    isplitl [HR2]; · iexact HR2
    isplitl [HRD2]; · iexact HRD2
    iexists _; iexact HO
  iintro %a40 ⟨HR2, HRD2, ⟨%W40, HO⟩⟩
  ihave HW1R := (Entails.of_eq (Wait1R_zero (F := F) c).symm) $$ [HpS1 HD1]
  · isplitl [HpS1] <;> iassumption
  iapply (part41 m K c _ _ _ _)
  isplitl [HR2 HRD2 HW1R HO]
  · isplitr; · iexact HR
    isplitl [HR2]; · iexact HR2
    isplitl [HRD2]; · iexact HRD2
    isplitl [HW1R]; · iexact HW1R
    isplitr; · iapply (Wait1D_zero m c); iempintro
    iexists _; iexact HO
  iintro %a41 ⟨HR2, HRD2, HW1R, HW1D, ⟨%W41, HO⟩⟩
  iapply (part42 m K c _)
  isplitl [HW1R HW1D HO]
  · isplitr; · iexact HR
    isplitl [HW1R]; · iexact HW1R
    isplitl [HW1D]; · iexact HW1D
    iexists _; iexact HO
  iintro ⟨HW1R, HW1D, ⟨%W42, HO⟩⟩
  ihave HW2R := (Entails.of_eq (Wait2R_zero (F := F) c).symm) $$ [HpS2 HD2]
  · isplitl [HpS2] <;> iassumption
  iapply (part43 m K c _)
  isplitl [HW1R HW1D HW2R HO]
  · isplitr; · iexact HR
    isplitl [HW1R]; · iexact HW1R
    isplitl [HW1D]; · iexact HW1D
    isplitl [HW2R]; · iexact HW2R
    isplitr; · iapply (Wait2D_zero m c); iempintro
    iexists _; iexact HO
  iintro ⟨HW1R, HW1D, HW2R, HW2D, ⟨%W43, HO⟩⟩
  iapply (wait2_step m K c _ 7 (7 : Fin 15) 8 rfl rfl _ (sem_off1_ag c 7) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 8 (8 : Fin 15) 9 rfl rfl _ (sem_off1_ag c 8) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 9 (9 : Fin 15) 10 rfl rfl _ (sem_off1_ag c 9) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  rw [wp_ret]; imodintro
  iapply (wait2_step m K c _ 10 (10 : Fin 15) 11 rfl rfl _ (sem_off1_ag c 10) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 11 (11 : Fin 15) 12 rfl rfl _ (sem_off1_ag c 11) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 12 (12 : Fin 15) 13 rfl rfl _ (sem_off1_ag c 12) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 13 (13 : Fin 15) 14 rfl rfl _ (sem_off1_ag c 13) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  iapply (wait2_step m K c _ 14 (14 : Fin 15) 15 rfl rfl _ (sem_off1_ag c 14) _ (rM : Memref sig .tc .vmem S32x512 .bf16) rfl) $$ [HW2R HW2D HO]
  · isplitr; · iexact HR
    isplitl [HW2R]; · iexact HW2R
    isplitl [HW2D]; · iexact HW2D
    iexact HO
  iintro ⟨HW2R, HW2D, HO⟩
  ihave Hr := (Entails.of_eq (congrArg (fun S => ((c : Thread nD τ).loc cc0_scratch1 ↦[S]{Transfers.shareDrop fullShare 15} red m c : sProp 𝕄)) (View.set_whole cc0_scratch1))) $$ Hr
  imod (body_finish m ρ K c) $$ [Hdiag HRD1 HRD2 HW1D HW2D HO Hx HsOwn HbOwn Hr HoOwn] with Hpost
  · isplitr; · iexact HR
    isplitl [Hdiag]; · iexact Hdiag
    isplitl [HRD1]; · iexact HRD1
    isplitl [HRD2]; · iexact HRD2
    isplitl [HW1D]; · iexact HW1D
    isplitl [HW2D]; · iexact HW2D
    isplitl [HO]; · iexists _; iexact HO
    isplitl [Hx]
    · iexists _; isplitr; · (ipureintro; rfl)
      iexact Hx
    isplitl [HsOwn]; · iexists fs; iexact HsOwn
    isplitl [HbOwn]; · iexact HbOwn
    isplitl [Hr]; · iexact Hr
    iexact HoOwn
  rw [wp_ret]; imodintro
  iexact Hpost

/-- info: 'Cert.Kernel.AR.body_holds' depends on axioms: [propext, Classical.choice, Quot.sound] -/
#guard_msgs in #print axioms body_holds

end Cert.Kernel.AR

end
-- ==== Proof.Spec.lean ====
/-
  The specification of the all-reduce: the whole array is 16 blocks of 512 rows (block `d` is rows
  `512 * d` to `512 * d + 511`), and the result is the sum of the blocks, entry by entry, on the extended reals.
  It mentions no program: it is the one function both sides are proved equal to.
-/
import Idealize.ShloMosaic.PureOps.Ideal
import Idealize.ShloMosaic.PureOps.Ideal.Laws
import Idealize.ShloMosaic.Lib.ValueIdx

noncomputable section

open scoped BigOperators

namespace Cert.AllReduceSpec

open Idealize.ShloMosaic Idealize.ShloMosaic.ValueIdx

/-- The whole array's shape: 16 blocks of 512 rows, 512 columns. -/
abbrev SW : Shape := ⟨2, ![8192, 512]⟩
/-- The shape of one block, and of the result. -/
abbrev SB : Shape := ⟨2, ![512, 512]⟩

/-- Entry `i` of block `d`, as an index of the whole array: row `512 * d + i 0`, column `i 1`. -/
def gidx (d : Fin 16) (i : SB.Idx) : SW.Idx :=
  ix2 (n0 := 8192) (n1 := 512)
    ⟨512 * d.val + (i 0).val, by have hd := d.isLt; have h0 : (i 0).val < 512 := (i 0).isLt; omega⟩
    ⟨(i 1).val, (i 1).isLt⟩

/-- The row of `gidx d i`. -/
theorem gidx_row (d : Fin 16) (i : SB.Idx) : (gidx d i 0).val = 512 * d.val + (i 0).val := rfl
/-- The column of `gidx d i`. -/
theorem gidx_col (d : Fin 16) (i : SB.Idx) : (gidx d i 1).val = (i 1).val := rfl

/-- Two blocks' entries are the same entry of the whole array only if they are the same block and entry. -/
theorem gidx_injective {d d' : Fin 16} {i i' : SB.Idx} (h : gidx d i = gidx d' i') : d = d' ∧ i = i' := by
  have hr : 512 * d.val + (i 0).val = 512 * d'.val + (i' 0).val := by
    rw [← gidx_row, ← gidx_row, h]
  have hc : (i 1).val = (i' 1).val := by rw [← gidx_col d i, ← gidx_col d' i', h]
  have h0 : (i 0).val < 512 := (i 0).isLt
  have h0' : (i' 0).val < 512 := (i' 0).isLt
  refine ⟨Fin.ext (by omega), funext fun a => ?_⟩
  match a with
  | ⟨0, _⟩ => exact Fin.ext (show (i 0).val = (i' 0).val by omega)
  | ⟨1, _⟩ => exact Fin.ext hc

/-- The all-reduce's result as ONE function of the whole array: entry `i` is the sum over the 16 blocks of
    their entry `i`. (At the ideal values an element of either float format is an extended real.) -/
def G (X : (⟨SW, .f32⟩ : BufTy).Contents (Elt Ideal)) : (⟨SB, .bf16⟩ : BufTy).Contents (Elt Ideal) :=
  fun i => show EReal from ∑ d : Fin 16, (show EReal from X (gidx d i))

/-- `G` at an index: it reads the whole array only at the 16 blocks' entry `i`. -/
theorem G_apply (X : (⟨SW, .f32⟩ : BufTy).Contents (Elt Ideal)) (i : SB.Idx) :
    (G X i : EReal) = ∑ d : Fin 16, (X (gidx d i) : EReal) := rfl

/-- `G` of two arrays that agree on every block's entries is the same. -/
theorem G_congr {X Y : (⟨SW, .f32⟩ : BufTy).Contents (Elt Ideal)} (h : ∀ d i, X (gidx d i) = Y (gidx d i)) :
    G X = G Y := by
  funext i
  rw [G_apply, G_apply]
  exact Finset.sum_congr rfl fun d _ => h d i

end Cert.AllReduceSpec

end

/-- info: 'Cert.AllReduceSpec.G_apply' depends on axioms: [propext, Classical.choice, Quot.sound] -/
#guard_msgs in #print axioms Cert.AllReduceSpec.G_apply
-- ==== Proof.SpecLayout.lean ====
/-
  The specification read through the tiling of the whole array into its 16 blocks of rows: block `d`'s entry `i`
  is the whole array's entry `gidx d i`, so the specification's result is the entrywise sum of the 16 blocks.
-/
import proofs.«900416_g7700000000000417_dist_ar_v7x_i16_i_m512_n512_bf16_1_alg».proof.Proof.Spec
import Idealize.ShloMosaic.Lib.Layout

noncomputable section

open scoped BigOperators

namespace Cert.AllReduceSpec

open Idealize.ShloMosaic Idealize.ShloMosaic.ValueIdx

/-- Where block `d`'s entry `i` lies in the whole array, by the tiling along the rows, is `gidx d i`:
    `d` blocks of 512 rows further down, the same column. -/
theorem tiles_idx_eq_gidx (h : Layout.Tiles SB SW 0 16) (d : Fin 16) (i : SB.Idx) : h.idx d i = gidx d i := by
  funext a
  match a with
  | ⟨0, _⟩ => exact Fin.ext (show d.val * 512 + (i 0).val = 512 * d.val + (i 0).val by omega)
  | ⟨1, _⟩ => exact Fin.ext rfl

/-- Block `d` of the whole array at entry `i` is the whole array at `gidx d i`. -/
theorem block_apply_gidx {α : Type} (X : SW.Idx → α) (d : Fin 16) (i : SB.Idx) (h : Layout.Tiles SB SW 0 16) :
    Layout.block SB SW 0 16 d X h i = X (gidx d i) := by
  rw [Layout.block_apply, tiles_idx_eq_gidx]

/-- The specification's result is the entrywise sum of the 16 blocks of the whole array (any proof of the tiling). -/
theorem G_eq_sum_blocks (X : (⟨SW, .f32⟩ : BufTy).Contents (Elt Ideal)) (i : SB.Idx) (h : Layout.Tiles SB SW 0 16) :
    (G X i : EReal) = ∑ d : Fin 16, (Layout.block SB SW 0 16 d X h i : EReal) := by
  rw [G_apply]
  exact Finset.sum_congr rfl fun d _ => (block_apply_gidx X d i h).symm

/-- The same with the blocks spelled over the literal shapes, the tiling decided where the block is named. -/
theorem G_of_blocks (X : (⟨SW, .f32⟩ : BufTy).Contents (Elt Ideal)) (i : SB.Idx) :
    (G X i : EReal) = ∑ d : Fin 16, ((Layout.block ⟨2, ![512, 512]⟩ ⟨2, ![8192, 512]⟩ 0 16 d X) i : EReal) :=
  G_eq_sum_blocks X i _

/-- If every block `xs d` is block `d` of the whole array, the specification's result is the sum of the `xs d`. -/
theorem G_of_blocks_eq (X : (⟨SW, .f32⟩ : BufTy).Contents (Elt Ideal)) (xs : Fin 16 → SB.Idx → EReal)
    (hxs : ∀ d, xs d = Layout.block ⟨2, ![512, 512]⟩ ⟨2, ![8192, 512]⟩ 0 16 d X) (i : SB.Idx) :
    (G X i : EReal) = ∑ d : Fin 16, xs d i := by
  rw [G_of_blocks]
  exact Finset.sum_congr rfl fun d _ => by rw [hxs d]

end Cert.AllReduceSpec

end

/-- info: 'Cert.AllReduceSpec.G_of_blocks' depends on axioms: [propext, Classical.choice, Quot.sound] -/
#guard_msgs in #print axioms Cert.AllReduceSpec.G_of_blocks

/-- info: 'Cert.AllReduceSpec.G_of_blocks_eq' depends on axioms: [propext, Classical.choice, Quot.sound] -/
#guard_msgs in #print axioms Cert.AllReduceSpec.G_of_blocks_eq
-- ==== Proof.KValue.lean ====
/-
  The value the sixteen-device all-reduce ends with, on the extended reals: every device's result is the sum of the
  sixteen blocks, entry by entry. The body's loads are read at an index, the chain of additions is written as one
  sum over the fifteen peers behind, and the peers together with the device itself are all sixteen devices.
-/
import proofs.«900416_g7700000000000417_dist_ar_v7x_i16_i_m512_n512_bf16_1_alg».proof.Proof.Proto
import proofs.«900416_g7700000000000417_dist_ar_v7x_i16_i_m512_n512_bf16_1_alg».proof.Proof.SpecLayout
import Idealize.ShloMosaic.Lib.ValueIdx
import Idealize.ShloMosaic.Lib.Pipeline.Value
import Idealize.ShloMosaic.PureOps.Ideal.Laws

set_option maxRecDepth 16384

noncomputable section

namespace Cert.KernelIdeal.AR

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

section Loads
variable {F : FTy → Type} [FloatOps F]
variable (m : (ℓ : Loc nD τ sig) → Buf (Elt F) ℓ)

/-- The staged block is the device's argument block, entry by entry (the one window is the whole array). -/
theorem xstg_apply (c : Dev nD) (x : S512x512.Idx) :
    xstg m c x = m ((c : Thread nD τ).loc main_arg0) x := by
  unfold xstg
  rw [View.read_apply]
  have e : (win0_0.blk (0 : Fin 1)).view.emb x = x := by
    funext a
    match a with
    | ⟨0, _⟩ => exact Fin.ext (show 0 * 512 + 1 * (x 0).val = (x 0).val by omega)
    | ⟨1, _⟩ => exact Fin.ext (show 0 * 512 + 1 * (x 1).val = (x 1).val by omega)
  rw [e]; rfl

/-- Row `32 c + r`, column `q` of a 512-row buffer. -/
abbrev rowOf (c : Dev nD) (y : S32x512.Idx) : S512x512.Idx :=
  ix2 (n0 := 512) (n1 := 512)
    ⟨32 * c.val + (y 0).val, by have hc : c.val < 16 := c.isLt; have h0 : (y 0).val < 32 := (y 0).isLt; omega⟩
    ⟨(y 1).val, (y 1).isLt⟩

/-- The device's own rows, as loaded: row `32 c + y 0` of the staged block. -/
theorem xrow_apply (c : Dev nD) (y : S32x512.Idx) :
    xrow m c y = xstg m c (rowOf c y) := by
  unfold xrow
  rw [View.readAt_apply]
  simp only [Memref.view_whole, View.read_whole]
  refine congrArg (xstg m c) (funext fun a => ?_)
  have h5 := k0_off5_eq c
  match a with
  | ⟨0, _⟩ => exact Fin.ext (show k0_off5 c 0 + 1 * (y 0).val = 32 * c.val + (y 0).val by rw [h5]; show 32 * c.val + 1 * (y 0).val = _; omega)
  | ⟨1, _⟩ => exact Fin.ext (show k0_off5 c 1 + 1 * (y 1).val = (y 1).val by rw [h5]; show 0 + 1 * (y 1).val = _; omega)

/-- The rows received from the peer `r + 1` places behind, as loaded: rows `32 (bwd c r) …` of the receive buffer. -/
theorem rsVec_apply (c : Dev nD) (r : Fin 15) (y : S32x512.Idx) :
    rsVec m c r y = RS m c (rowOf (bwd c r) y) := by
  unfold rsVec
  rw [View.readAt_apply]
  simp only [Memref.view_whole, View.read_whole]
  refine congrArg (RS m c) (funext fun a => ?_)
  have h8 := off8_eq c r
  match a with
  | ⟨0, _⟩ => exact Fin.ext (show k0_off8 c (BitVec.ofNat 32 (1 + r.val)) 0 + 1 * (y 0).val = 32 * (bwd c r).val + (y 0).val by rw [h8]; show 32 * (bwd c r).val + 1 * (y 0).val = _; omega)
  | ⟨1, _⟩ => exact Fin.ext (show k0_off8 c (BitVec.ofNat 32 (1 + r.val)) 1 + 1 * (y 1).val = (y 1).val by rw [h8]; show 0 + 1 * (y 1).val = _; omega)

/-- The block a row `32 d + r` belongs to is `d`, and its place in device `c`'s rows is row `32 c + r`. -/
theorem blkOf_rowOf (d : Dev nD) (y : S32x512.Idx) : blkOf (rowOf d y) = d := by
  have h0 : (y 0).val < 32 := (y 0).isLt
  exact Fin.ext (show (32 * d.val + (y 0).val) / 32 = d.val by omega)

theorem rowIn_rowOf (c d : Dev nD) (y : S32x512.Idx) : rowIn c (rowOf d y) = rowOf c y := by
  have h0 : (y 0).val < 32 := (y 0).isLt
  funext a
  match a with
  | ⟨0, _⟩ => exact Fin.ext (show 32 * c.val + (32 * d.val + (y 0).val) % 32 = 32 * c.val + (y 0).val by omega)
  | ⟨1, _⟩ => rfl

/-- So the received rows are the sender's rounded rows `32 c …`. -/
theorem rsVec_eq_xb (c : Dev nD) (r : Fin 15) (y : S32x512.Idx) :
    rsVec m c r y = xb m (bwd c r) (rowOf c y) := by
  rw [rsVec_apply]
  unfold RS
  rw [blkOf_rowOf, rowIn_rowOf]

end Loads

section Chain

/-- Fifteen terms, written out. -/
theorem sum_fin15 (f : Fin 15 → EReal) :
    ∑ r : Fin 15, f r = f 0 + (f 1 + (f 2 + (f 3 + (f 4 + (f 5 + (f 6 + (f 7 + (f 8 + (f 9 + (f 10 + (f 11 + (f 12 + (f 13 + f 14))))))))))))) := by
  simp only [Fin.sum_univ_succ, Fin.sum_univ_zero, add_zero]
  rfl

/-- The rounded copy is the block itself on the extended reals. -/
theorem pay1_apply (v : Vec Ideal S512x512 .f32) (x : S512x512.Idx) :
    (k0_pay1 (F := Ideal) v x : EReal) = v x := by
  unfold k0_pay1
  simp only [shapeCast_self]
  rfl

/-- The body's chain of fifteen additions, on the extended reals: the device's own rows plus the sum of the fifteen
    received rows. -/
theorem chain_apply (x : Vec Ideal S32x512 .f32) (v : Fin 15 → Vec Ideal S32x512 .bf16) (y : S32x512.Idx) :
    (k0_pay12 (F := Ideal) (k0_pay11 (k0_pay10 (k0_pay9 (k0_pay8 (k0_pay7 (k0_pay6 (k0_pay5 (k0_pay4 (k0_pay3 (k0_pay2 x (v 0))
      (v 1)) (v 2) (v 3)) (v 4)) (v 5) (v 6)) (v 7)) (v 8) (v 9))
      (v 10) (v 11)) (v 12)) (v 13) (v 14)) y : EReal) = (x y : EReal) + ∑ r : Fin 15, (v r y : EReal) := by
  unfold k0_pay12 k0_pay11 k0_pay10 k0_pay9 k0_pay8 k0_pay7 k0_pay6 k0_pay5 k0_pay4 k0_pay3 k0_pay2
  simp only [shapeCast_self]
  rw [sum_fin15]
  show (x y : EReal) + v 0 y + v 1 y + v 2 y + v 3 y + v 4 y + v 5 y + v 6 y + v 7 y + v 8 y + v 9 y + v 10 y + v 11 y + v 12 y + v 13 y + v 14 y = _
  simp only [add_assoc]

end Chain

section Ring

/-- The fifteen peers behind a device are exactly the other fifteen devices. -/
theorem image_bwd (c : Dev nD) : Finset.univ.image (bwd c) = Finset.univ.erase c := by
  ext d
  simp only [Finset.mem_image, Finset.mem_univ, true_and, Finset.mem_erase, and_true]
  exact ⟨fun ⟨r, hr⟩ => hr ▸ bwd_ne c r, fun h => bwd_surj c d h⟩

/-- A device's own term plus the terms of its fifteen peers behind is the sum over all sixteen devices. -/
theorem sum_ring (c : Dev nD) (g : Dev nD → EReal) : g c + ∑ r : Fin 15, g (bwd c r) = ∑ d : Fin 16, g d := by
  rw [← Finset.add_sum_erase Finset.univ g (Finset.mem_univ c), ← image_bwd,
    Finset.sum_image (fun a _ b _ h => bwd_inj c h)]

end Ring

section Value

variable (m : (ℓ : Loc nD τ sig) → Buf (Elt Ideal) ℓ)

/-- Device `d`'s argument block at entry `x`, as an extended real. -/
def argAt (d : Dev nD) (x : S512x512.Idx) : EReal := m ((d.tc : Thread nD τ).loc main_arg0) x

theorem argAt_def (d : Dev nD) (x : S512x512.Idx) : argAt m d x = m ((d.tc : Thread nD τ).loc main_arg0) x := rfl

/-- The reduced rows of device `c`: entry `y` is the sum over all sixteen devices of their blocks' entry at row
    `32 c + y 0`, column `y 1` — the device's own block and, through the receive buffer, the rounded copies of the
    fifteen peers behind, which on the extended reals are the peers' blocks. -/
theorem red_apply (c : Dev nD) (y : S32x512.Idx) :
    (show EReal from red (F := Ideal) m c y) = ∑ d : Fin 16, argAt m d (rowOf c y) := by
  unfold red
  refine (chain_apply (xrow m c) (rsVec m c) y).trans ?_
  rw [xrow_apply, xstg_apply]
  have hs : ∀ r : Fin 15, (show EReal from rsVec m c r y) = argAt m (bwd c r) (rowOf c y) := fun r => by
    rw [rsVec_eq_xb]; unfold xb; rw [pay1_apply, xstg_apply]; rfl
  rw [Finset.sum_congr rfl fun r _ => hs r]
  exact sum_ring c (fun d => argAt m d (rowOf c y))

/-- The result every device ends with: entry `i` is the sum over all sixteen devices of their blocks' entry `i`
    (row `i 0` is row `i 0 mod 32` of the row block `i 0 / 32`). -/
theorem OUT_apply (i : S512x512.Idx) :
    (show EReal from OUT (F := Ideal) m i) = ∑ d : Fin 16, argAt m d i := by
  unfold OUT
  refine (red_apply m (blkOf i) _).trans ?_
  refine Finset.sum_congr rfl fun d _ => congrArg (argAt m d) ?_
  have h0 : (i 0).val < 512 := (i 0).isLt
  funext a
  match a with
  | ⟨0, _⟩ => exact Fin.ext (show 32 * ((i 0).val / 32) + (i 0).val % 32 = (i 0).val by omega)
  | ⟨1, _⟩ => rfl

/-- When every device's argument is its block of the whole array `X`, every device ends with the specification's
    sum of the sixteen blocks of `X`. -/
theorem OUT_eq_G (X : (⟨Cert.AllReduceSpec.SW, .f32⟩ : BufTy).Contents (Elt Ideal))
    (hblk : ∀ c : Dev nD, m ((c.tc : Thread nD τ).loc main_arg0) = Layout.block ⟨2, ![512, 512]⟩ ⟨2, ![8192, 512]⟩ 0 16 c X) :
    OUT (F := Ideal) m = Cert.AllReduceSpec.G X := by
  funext i
  exact (OUT_apply m i).trans
    (Cert.AllReduceSpec.G_of_blocks_eq X (fun d : Dev nD => m ((d.tc : Thread nD τ).loc main_arg0)) hblk i).symm

end Value

end Cert.KernelIdeal.AR

end

/-- info: 'Cert.KernelIdeal.AR.OUT_eq_G' depends on axioms: [propext, Classical.choice, Quot.sound] -/
#guard_msgs in #print axioms Cert.KernelIdeal.AR.OUT_eq_G
-- ==== Proof.RefSide.lean ====
/-
  The reference side of the all-reduce: the reference program reshapes the whole array to 16 blocks, sums them
  from the constant zero and narrows the format; on the extended reals that is the specification's sum of the blocks,
  index by index. Its run ends with that sum, the argument unchanged; its frame is the run with the result dropped.
-/
import proofs.«900416_g7700000000000417_dist_ar_v7x_i16_i_m512_n512_bf16_1_alg».proof.Defs
import proofs.«900416_g7700000000000417_dist_ar_v7x_i16_i_m512_n512_bf16_1_alg».proof.Proof.Gen.ReferenceIdeal
import proofs.«900416_g7700000000000417_dist_ar_v7x_i16_i_m512_n512_bf16_1_alg».proof.Proof.Gen.Pre_finite_inputs_ReferenceIdeal
import proofs.«900416_g7700000000000417_dist_ar_v7x_i16_i_m512_n512_bf16_1_alg».proof.Proof.Gen.ReferenceIdeal.Run
import proofs.«900416_g7700000000000417_dist_ar_v7x_i16_i_m512_n512_bf16_1_alg».proof.Proof.Gen.ReferenceIdeal.Read
import proofs.«900416_g7700000000000417_dist_ar_v7x_i16_i_m512_n512_bf16_1_alg».proof.Proof.Spec
import Idealize.ShloMosaic.Lib.ValueIdx
import Idealize.ShloMosaic.Lib.Pipeline.Value
import Idealize.ShloMosaic.PureOps.Ideal.Laws
import Idealize.ShloMosaic.Lib.StableHlo.Run

noncomputable section

namespace Cert.ReferenceIdeal.RefSide

open Cert.ReferenceIdeal Cert.ReferenceIdeal.Gen Idealize.ShloMosaic Idealize.ShloMosaic.TcCoe Idealize.SL.Sem
open Cert.AllReduceSpec

/-- The reshape to 16 blocks followed by the choice of block `k`'s entry `i` reads the whole array at row
    `512 * k + i 0`, column `i 1`: `((k * 512 + r) * 512 + c) / 512 = 512 * k + r` and the remainder is `c`. -/
theorem idx_eq (i : S512x512.Idx) (k : Fin 16) : Read.idx_main_v0 (Read.idx_main_v1 i k) = gidx k i := by
  have hk : k.val < 16 := k.isLt
  have h0 : (i 0).val < 512 := (i 0).isLt
  have h1 : (i 1).val < 512 := (i 1).isLt
  funext a
  match a with
  | ⟨0, _⟩ =>
    exact Fin.ext (show ((k.val * 512 + (i 0).val) * 512 + (i 1).val) / 512 = 512 * k.val + (i 0).val by omega)
  | ⟨1, _⟩ =>
    exact Fin.ext (show ((k.val * 512 + (i 0).val) * 512 + (i 1).val) % 512 = (i 1).val by omega)

/-- The reference's result is the sum of the 16 blocks: the conversion to the narrower format is the identity on
    the extended reals, the initial value of the sum is the real `0`, and the reshaped array's entry `(k, r, c)` is
    the whole array's entry `(512 * k + r, c)`. -/
theorem ref_eq_G (X : (⟨S8192x512, .f32⟩ : BufTy).Contents (Elt Ideal)) :
    Read.val_main_v2 (F := Ideal) X = G X := by
  funext i
  rw [Read.val_main_v2_apply, Read.val_main_v1_apply, Read.val_main_cst_apply, G_apply]
  simp only [Read.val_main_v0_apply, idx_eq, Ideal.truncf_def, Ideal.ofBits_def, Ideal.ofBits_zero_f32, zero_add]

/-- The reference's run ends with its result at the sum of the blocks of its argument, the argument unchanged. -/
theorem run_G (m' : (ℓ : Loc nD τ sig) → Buf (Elt Ideal) ℓ) (ρ' : Dev nD → PrngReg) :
    θ_run (Cert.ReferenceIdeal.defs (F := Ideal)) (onTc (τ := Cert.ReferenceIdeal.τ) (Cert.ReferenceIdeal.main (F := Ideal))) ⟨m', fun _ => 0, ρ'⟩ (fun r =>
      r.2.mem (((0 : Dev Cert.ReferenceIdeal.nD).tc : Thread Cert.ReferenceIdeal.nD Cert.ReferenceIdeal.τ).loc Cert.ReferenceIdeal.main_v2)
          = G (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0)
          = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (by rw [Read.val_main_v2_eq, ref_eq_G]), (h 0).2⟩)
    (Cert.ReferenceIdeal.Value.run (F := Ideal) m' ρ')

/-- The reference runs and leaves its argument unchanged: its run with the result dropped. -/
theorem frame : Cert.frame_ReferenceIdeal := fun m ρ _ =>
  (θ_run Cert.ReferenceIdeal.defs _ _).mono (fun _ h c => (h c).2) (Cert.ReferenceIdeal.Value.run (F := Ideal) m ρ)

end Cert.ReferenceIdeal.RefSide

end

/-- info: 'Cert.ReferenceIdeal.RefSide.ref_eq_G' depends on axioms: [propext, Classical.choice, Quot.sound] -/
#guard_msgs in #print axioms Cert.ReferenceIdeal.RefSide.ref_eq_G

/-- info: 'Cert.ReferenceIdeal.RefSide.run_G' depends on axioms: [propext, Classical.choice, Quot.sound] -/
#guard_msgs in #print axioms Cert.ReferenceIdeal.RefSide.run_G

/-- info: 'Cert.ReferenceIdeal.RefSide.frame' depends on axioms: [propext, Classical.choice, Quot.sound] -/
#guard_msgs in #print axioms Cert.ReferenceIdeal.RefSide.frame
-- ==== Proof.lean ====
import proofs.«900416_g7700000000000417_dist_ar_v7x_i16_i_m512_n512_bf16_1_alg».proof.Defs
import proofs.«900416_g7700000000000417_dist_ar_v7x_i16_i_m512_n512_bf16_1_alg».proof.Proof.Launch
import proofs.«900416_g7700000000000417_dist_ar_v7x_i16_i_m512_n512_bf16_1_alg».proof.Proof.Body
import proofs.«900416_g7700000000000417_dist_ar_v7x_i16_i_m512_n512_bf16_1_alg».proof.Proof.KLaunch
import proofs.«900416_g7700000000000417_dist_ar_v7x_i16_i_m512_n512_bf16_1_alg».proof.Proof.KBody
import proofs.«900416_g7700000000000417_dist_ar_v7x_i16_i_m512_n512_bf16_1_alg».proof.Proof.KValue
import proofs.«900416_g7700000000000417_dist_ar_v7x_i16_i_m512_n512_bf16_1_alg».proof.Proof.RefSide
import proofs.«900416_g7700000000000417_dist_ar_v7x_i16_i_m512_n512_bf16_1_alg».proof.Proof.Gen.Pre_finite_inputs_Kernel
import proofs.«900416_g7700000000000417_dist_ar_v7x_i16_i_m512_n512_bf16_1_alg».proof.Proof.Gen.Pre_finite_inputs_ReferenceIdeal

/-!
# The five claims

Each kernel frame is the kernel's run (every device's result array named, the argument arrays unchanged) with the result
dropped; the reference's frame is its run likewise; nothing was rewritten by the ideal pass; and at the ideal instance
every device's result is the sum over the sixteen blocks, which is what the reference computes of the whole array.
-/

noncomputable section

namespace Cert.Proof.Claims

open Idealize.ShloMosaic Idealize.ShloMosaic.TcCoe Idealize.SL.Sem

theorem frame_k : Cert.frame_Kernel := fun m ρ _ =>
  (θ_run Cert.Kernel.defs _ _).mono (fun _ h c => (h c (0 : Fin 2)).trans (Cert.Kernel.AR.finalA_x m ρ c))
    (Cert.Kernel.AR.run_main (F := Bits) m ρ (Cert.Kernel.AR.body_holds m ρ))

theorem frame_ki : Cert.frame_KernelIdeal := fun m ρ _ =>
  (θ_run Cert.KernelIdeal.defs _ _).mono (fun _ h c => (h c (0 : Fin 2)).trans (Cert.KernelIdeal.AR.finalA_x m ρ c))
    (Cert.KernelIdeal.AR.run_main (F := Ideal) m ρ (Cert.KernelIdeal.AR.body_holds m ρ))

theorem preserves : Cert.preserves_Kernel_KernelIdeal := trivial

theorem algebraic : Cert.algebraic_KernelIdeal_ReferenceIdeal := fun m ρ m' ρ' _ hagree =>
  ⟨Cert.AllReduceSpec.G (m' (((0 : Dev Cert.ReferenceIdeal.nD).tc : Thread Cert.ReferenceIdeal.nD Cert.ReferenceIdeal.τ).loc Cert.ReferenceIdeal.main_arg0)),
    (θ_run Cert.KernelIdeal.defs _ _).mono (fun _ h c =>
        ⟨((h c (1 : Fin 2)).trans (Cert.KernelIdeal.AR.finalA_out m ρ c)).trans (Cert.KernelIdeal.AR.OUT_eq_G m _ hagree),
          (h c (0 : Fin 2)).trans (Cert.KernelIdeal.AR.finalA_x m ρ c)⟩)
      (Cert.KernelIdeal.AR.run_main (F := Ideal) m ρ (Cert.KernelIdeal.AR.body_holds m ρ)),
    Cert.ReferenceIdeal.RefSide.run_G m' ρ'⟩

end Cert.Proof.Claims

namespace Cert.Proof

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, Claims.frame_k, Claims.frame_ki, Cert.ReferenceIdeal.RefSide.frame,
    Claims.preserves, Claims.algebraic⟩

end Cert.Proof

end
